-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S4x128 .f32) (main_arg7 : FVec F S4x128x128 .f32) (main_arg8 : FVec F S4x128 .f32) (main_arg9 : FVec F S128x2 .f32) (main_arg10 : FVec F S2 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S4x128x128 .f32) (main_arg4 : FVec F S4x128 .f32) (main_arg5 : FVec F S4x128 .f32) (main_arg6 : FVec F S4x128 .f32) (main_arg7 : FVec F S4x128x128 .f32) (main_arg8 : FVec F S4x128 .f32) (main_arg9 : FVec F S128x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S100000x1 : Shape := ⟨2, ![100000, 1]⟩
abbrev S512x1 : Shape := ⟨2, ![512, 1]⟩
abbrev S512x2 : Shape := ⟨2, ![512, 2]⟩
abbrev S1x2 : Shape := ⟨2, ![1, 2]⟩

abbrev nBuf : Space → Nat
  | .hbm => 198
  | .vmem => 80
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S128x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S100000x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S1x128x128, .f32⟩
  | 51 => ⟨S128x128, .f32⟩
  | 52 => ⟨S1x128, .f32⟩
  | 53 => ⟨S128, .f32⟩
  | 54 => ⟨S1x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S100000x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S100000x128, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S100000x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S128, .f32⟩
  | 41 => ⟨S1x128, .f32⟩
  | 42 => ⟨S1x128, .f32⟩
  | 43 => ⟨S128, .f32⟩
  | 44 => ⟨S1x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S100000x128, .f32⟩
  | 51 => ⟨S_, .f32⟩
  | 52 => ⟨S512x128, .f32⟩
  | 53 => ⟨S100000x1, .i32⟩
  | 54 => ⟨S512x128, .f32⟩
  | 55 => ⟨S_, .f32⟩
  | 56 => ⟨S100000x1, .f32⟩
  | 57 => ⟨S_, .f32⟩
  | 58 => ⟨S512x1, .f32⟩
  | 59 => ⟨S100000x1, .i32⟩
  | 60 => ⟨S512x1, .f32⟩
  | 61 => ⟨S_, .f32⟩
  | 62 => ⟨S512x1, .f32⟩
  | 63 => ⟨S512x1, .f32⟩
  | 64 => ⟨S512x128, .f32⟩
  | 65 => ⟨S512x128, .f32⟩
  | 66 => ⟨S512x2, .f32⟩
  | 67 => ⟨S1x2, .f32⟩
  | 68 => ⟨S512x2, .f32⟩
  | 69 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_3 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53_0 : Ref sig .tc := ⟨.hbm, 74, rfl⟩
abbrev main_v53_1 : Ref sig .tc := ⟨.hbm, 75, rfl⟩
abbrev main_v53_2 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_8 : Ref sig .tc := ⟨.hbm, 97, rfl⟩
abbrev main_v72 : Ref sig .tc := ⟨.hbm, 98, rfl⟩
abbrev main_v73 : Ref sig .tc := ⟨.hbm, 99, rfl⟩
abbrev main_c_9 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_10 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87_0 : Ref sig .tc := ⟨.hbm, 115, rfl⟩
abbrev main_v87_1 : Ref sig .tc := ⟨.hbm, 116, rfl⟩
abbrev main_v87_2 : Ref sig .tc := ⟨.hbm, 117, rfl⟩
abbrev main_cst_11 : Ref sig .tc := ⟨.hbm, 118, rfl⟩
abbrev main_v88 : Ref sig .tc := ⟨.hbm, 119, rfl⟩
abbrev main_v89 : Ref sig .tc := ⟨.hbm, 120, rfl⟩
abbrev main_cst_12 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_c_13 : Ref sig .tc := ⟨.hbm, 138, rfl⟩
abbrev main_v106 : Ref sig .tc := ⟨.hbm, 139, rfl⟩
abbrev main_v107 : Ref sig .tc := ⟨.hbm, 140, rfl⟩
abbrev main_c_14 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_15 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121_0 : Ref sig .tc := ⟨.hbm, 156, rfl⟩
abbrev main_v121_1 : Ref sig .tc := ⟨.hbm, 157, rfl⟩
abbrev main_v121_2 : Ref sig .tc := ⟨.hbm, 158, rfl⟩
abbrev main_cst_16 : Ref sig .tc := ⟨.hbm, 159, rfl⟩
abbrev main_v122 : Ref sig .tc := ⟨.hbm, 160, rfl⟩
abbrev main_v123 : Ref sig .tc := ⟨.hbm, 161, rfl⟩
abbrev main_cst_17 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_18 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_19 : Ref sig .tc := ⟨.hbm, 183, rfl⟩
abbrev main_v143 : Ref sig .tc := ⟨.hbm, 184, rfl⟩
abbrev main_cst_20 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_21 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc7_stg7_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem6_0 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem7_1 : DmaSem sig := 79

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S100000x128.size a
  hwx7_7 : ∀ i : grid7.Coords, EltTy.bits .f32 = 32 ∨ (Rect.block (s := S100000x128) S5000x128.size (cc7_transform_7 i) (hinb7_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v53_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v71) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v87_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v87_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v87_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v105) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v105) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v117) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v120) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v121_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v121_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v121_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v121_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v123) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v127) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v130) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v133) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v135) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v138) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v139) S5000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩
abbrev S512x1 : Shape := ⟨2, ![512, 1]⟩
abbrev S512x2 : Shape := ⟨2, ![512, 2]⟩
abbrev S1x2 : Shape := ⟨2, ![1, 2]⟩

abbrev nBuf : Space → Nat
  | .hbm => 410
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S128x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .i1⟩
  | 74 => ⟨S_, .f32⟩
  | 75 => ⟨S100000x128, .f32⟩
  | 76 => ⟨S100000x128, .i1⟩
  | 77 => ⟨S_, .f32⟩
  | 78 => ⟨S_, .f32⟩
  | 79 => ⟨S100000x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .i1⟩
  | 97 => ⟨S_, .f32⟩
  | 98 => ⟨S100000x128, .f32⟩
  | 99 => ⟨S100000x128, .i1⟩
  | 100 => ⟨S_, .f32⟩
  | 101 => ⟨S_, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .i1⟩
  | 40 => ⟨S_, .f32⟩
  | 41 => ⟨S100000x128, .f32⟩
  | 42 => ⟨S100000x128, .i1⟩
  | 43 => ⟨S_, .f32⟩
  | 44 => ⟨S_, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S1x128x128, .f32⟩
  | 53 => ⟨S128x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .i1⟩
  | 63 => ⟨S_, .f32⟩
  | 64 => ⟨S100000x128, .f32⟩
  | 65 => ⟨S100000x128, .i1⟩
  | 66 => ⟨S_, .f32⟩
  | 67 => ⟨S_, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x128, .f32⟩
  | 89 => ⟨S1x128x128, .f32⟩
  | 90 => ⟨S128x128, .f32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .i1⟩
  | 6 => ⟨S_, .f32⟩
  | 7 => ⟨S100000x128, .f32⟩
  | 8 => ⟨S100000x128, .i1⟩
  | 9 => ⟨S_, .f32⟩
  | 10 => ⟨S_, .f32⟩
  | 11 => ⟨S100000x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S1x128x128, .f32⟩
  | 19 => ⟨S128x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .i1⟩
  | 29 => ⟨S_, .f32⟩
  | 30 => ⟨S100000x128, .f32⟩
  | 31 => ⟨S100000x128, .i1⟩
  | 32 => ⟨S_, .f32⟩
  | 33 => ⟨S_, .f32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x128, .f32⟩
  | 55 => ⟨S1x128x128, .f32⟩
  | 56 => ⟨S128x128, .f32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .i1⟩
  | 100 => ⟨S_, .f32⟩
  | 101 => ⟨S100000x128, .f32⟩
  | 102 => ⟨S100000x128, .i1⟩
  | 103 => ⟨S_, .f32⟩
  | 104 => ⟨S_, .f32⟩
  | 105 => ⟨S100000x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S1x128x128, .f32⟩
  | 113 => ⟨S128x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .i1⟩
  | 123 => ⟨S_, .f32⟩
  | 124 => ⟨S100000x128, .f32⟩
  | 125 => ⟨S100000x128, .i1⟩
  | 126 => ⟨S_, .f32⟩
  | 127 => ⟨S_, .f32⟩
  | _ => ⟨S100000x128, .f32⟩

abbrev hbmTy0_3 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S_, .f32⟩
  | 8 => ⟨S512x128, .f32⟩
  | 9 => ⟨S100000x1, .i32⟩
  | 10 => ⟨S512x128, .f32⟩
  | 11 => ⟨S_, .f32⟩
  | 12 => ⟨S100000x1, .f32⟩
  | 13 => ⟨S_, .f32⟩
  | 14 => ⟨S512x1, .f32⟩
  | 15 => ⟨S100000x1, .i32⟩
  | 16 => ⟨S512x1, .f32⟩
  | 17 => ⟨S_, .f32⟩
  | 18 => ⟨S512x1, .f32⟩
  | 19 => ⟨S512x1, .f32⟩
  | 20 => ⟨S512x128, .f32⟩
  | 21 => ⟨S512x128, .f32⟩
  | 22 => ⟨S512x2, .f32⟩
  | 23 => ⟨S1x2, .f32⟩
  | 24 => ⟨S512x2, .f32⟩
  | 25 => ⟨S512x2, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_cst_1 : Ref sig .tc := ⟨.hbm, 77, rfl⟩
abbrev main_call0_call0_v0 : Ref sig .tc := ⟨.hbm, 78, rfl⟩
abbrev main_call0_call0_v1 : Ref sig .tc := ⟨.hbm, 79, rfl⟩
abbrev main_call0_v4 : Ref sig .tc := ⟨.hbm, 80, rfl⟩
abbrev main_call0_v5 : Ref sig .tc := ⟨.hbm, 81, rfl⟩
abbrev main_call0_cst_2 : Ref sig .tc := ⟨.hbm, 82, rfl⟩
abbrev main_call0_v6 : Ref sig .tc := ⟨.hbm, 83, rfl⟩
abbrev main_call0_v7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_cst_1 : Ref sig .tc := ⟨.hbm, 100, rfl⟩
abbrev main_call1_call0_v0 : Ref sig .tc := ⟨.hbm, 101, rfl⟩
abbrev main_call1_call0_v1 : Ref sig .tc := ⟨.hbm, 102, rfl⟩
abbrev main_call1_v4 : Ref sig .tc := ⟨.hbm, 103, rfl⟩
abbrev main_call1_v5 : Ref sig .tc := ⟨.hbm, 104, rfl⟩
abbrev main_call1_cst_2 : Ref sig .tc := ⟨.hbm, 105, rfl⟩
abbrev main_call1_v6 : Ref sig .tc := ⟨.hbm, 106, rfl⟩
abbrev main_call1_v7 : Ref sig .tc := ⟨.hbm, 107, rfl⟩
abbrev main_v61 : Ref sig .tc := ⟨.hbm, 108, rfl⟩
abbrev main_c_6 : Ref sig .tc := ⟨.hbm, 109, rfl⟩
abbrev main_v62 : Ref sig .tc := ⟨.hbm, 110, rfl⟩
abbrev main_v63 : Ref sig .tc := ⟨.hbm, 111, rfl⟩
abbrev main_c_7 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_8 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_9 : Ref sig .tc := ⟨.hbm, 131, rfl⟩
abbrev main_v81 : Ref sig .tc := ⟨.hbm, 132, rfl⟩
abbrev main_cst_10 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_11 : Ref sig .tc := ⟨.hbm, 140, rfl⟩
abbrev main_v88 : Ref sig .tc := ⟨.hbm, 141, rfl⟩
abbrev main_cst_12 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_13 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_call2_cst : Ref sig .tc := ⟨.hbm, 165, rfl⟩
abbrev main_call2_v0 : Ref sig .tc := ⟨.hbm, 166, rfl⟩
abbrev main_call2_v1 : Ref sig .tc := ⟨.hbm, 167, rfl⟩
abbrev main_call2_cst_0 : Ref sig .tc := ⟨.hbm, 168, rfl⟩
abbrev main_call2_v2 : Ref sig .tc := ⟨.hbm, 169, rfl⟩
abbrev main_call2_v3 : Ref sig .tc := ⟨.hbm, 170, rfl⟩
abbrev main_call2_cst_1 : Ref sig .tc := ⟨.hbm, 171, rfl⟩
abbrev main_call2_call0_v0 : Ref sig .tc := ⟨.hbm, 172, rfl⟩
abbrev main_call2_call0_v1 : Ref sig .tc := ⟨.hbm, 173, rfl⟩
abbrev main_call2_v4 : Ref sig .tc := ⟨.hbm, 174, rfl⟩
abbrev main_call2_v5 : Ref sig .tc := ⟨.hbm, 175, rfl⟩
abbrev main_call2_cst_2 : Ref sig .tc := ⟨.hbm, 176, rfl⟩
abbrev main_call2_v6 : Ref sig .tc := ⟨.hbm, 177, rfl⟩
abbrev main_call2_v7 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_call3_cst : Ref sig .tc := ⟨.hbm, 188, rfl⟩
abbrev main_call3_v0 : Ref sig .tc := ⟨.hbm, 189, rfl⟩
abbrev main_call3_v1 : Ref sig .tc := ⟨.hbm, 190, rfl⟩
abbrev main_call3_cst_0 : Ref sig .tc := ⟨.hbm, 191, rfl⟩
abbrev main_call3_v2 : Ref sig .tc := ⟨.hbm, 192, rfl⟩
abbrev main_call3_v3 : Ref sig .tc := ⟨.hbm, 193, rfl⟩
abbrev main_call3_cst_1 : Ref sig .tc := ⟨.hbm, 194, rfl⟩
abbrev main_call3_call0_v0 : Ref sig .tc := ⟨.hbm, 195, rfl⟩
abbrev main_call3_call0_v1 : Ref sig .tc := ⟨.hbm, 196, rfl⟩
abbrev main_call3_v4 : Ref sig .tc := ⟨.hbm, 197, rfl⟩
abbrev main_call3_v5 : Ref sig .tc := ⟨.hbm, 198, rfl⟩
abbrev main_call3_cst_2 : Ref sig .tc := ⟨.hbm, 199, rfl⟩
abbrev main_call3_v6 : Ref sig .tc := ⟨.hbm, 200, rfl⟩
abbrev main_call3_v7 : Ref sig .tc := ⟨.hbm, 201, rfl⟩
abbrev main_v119 : Ref sig .tc := ⟨.hbm, 202, rfl⟩
abbrev main_c_14 : Ref sig .tc := ⟨.hbm, 203, rfl⟩
abbrev main_v120 : Ref sig .tc := ⟨.hbm, 204, rfl⟩
abbrev main_v121 : Ref sig .tc := ⟨.hbm, 205, rfl⟩
abbrev main_c_15 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_cst_16 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_cst_17 : Ref sig .tc := ⟨.hbm, 225, rfl⟩
abbrev main_v139 : Ref sig .tc := ⟨.hbm, 226, rfl⟩
abbrev main_cst_18 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_cst_19 : Ref sig .tc := ⟨.hbm, 234, rfl⟩
abbrev main_v146 : Ref sig .tc := ⟨.hbm, 235, rfl⟩
abbrev main_cst_20 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_cst_21 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_call4_cst : Ref sig .tc := ⟨.hbm, 259, rfl⟩
abbrev main_call4_v0 : Ref sig .tc := ⟨.hbm, 260, rfl⟩
abbrev main_call4_v1 : Ref sig .tc := ⟨.hbm, 261, rfl⟩
abbrev main_call4_cst_0 : Ref sig .tc := ⟨.hbm, 262, rfl⟩
abbrev main_call4_v2 : Ref sig .tc := ⟨.hbm, 263, rfl⟩
abbrev main_call4_v3 : Ref sig .tc := ⟨.hbm, 264, rfl⟩
abbrev main_call4_cst_1 : Ref sig .tc := ⟨.hbm, 265, rfl⟩
abbrev main_call4_call0_v0 : Ref sig .tc := ⟨.hbm, 266, rfl⟩
abbrev main_call4_call0_v1 : Ref sig .tc := ⟨.hbm, 267, rfl⟩
abbrev main_call4_v4 : Ref sig .tc := ⟨.hbm, 268, rfl⟩
abbrev main_call4_v5 : Ref sig .tc := ⟨.hbm, 269, rfl⟩
abbrev main_call4_cst_2 : Ref sig .tc := ⟨.hbm, 270, rfl⟩
abbrev main_call4_v6 : Ref sig .tc := ⟨.hbm, 271, rfl⟩
abbrev main_call4_v7 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_call5_cst : Ref sig .tc := ⟨.hbm, 282, rfl⟩
abbrev main_call5_v0 : Ref sig .tc := ⟨.hbm, 283, rfl⟩
abbrev main_call5_v1 : Ref sig .tc := ⟨.hbm, 284, rfl⟩
abbrev main_call5_cst_0 : Ref sig .tc := ⟨.hbm, 285, rfl⟩
abbrev main_call5_v2 : Ref sig .tc := ⟨.hbm, 286, rfl⟩
abbrev main_call5_v3 : Ref sig .tc := ⟨.hbm, 287, rfl⟩
abbrev main_call5_cst_1 : Ref sig .tc := ⟨.hbm, 288, rfl⟩
abbrev main_call5_call0_v0 : Ref sig .tc := ⟨.hbm, 289, rfl⟩
abbrev main_call5_call0_v1 : Ref sig .tc := ⟨.hbm, 290, rfl⟩
abbrev main_call5_v4 : Ref sig .tc := ⟨.hbm, 291, rfl⟩
abbrev main_call5_v5 : Ref sig .tc := ⟨.hbm, 292, rfl⟩
abbrev main_call5_cst_2 : Ref sig .tc := ⟨.hbm, 293, rfl⟩
abbrev main_call5_v6 : Ref sig .tc := ⟨.hbm, 294, rfl⟩
abbrev main_call5_v7 : Ref sig .tc := ⟨.hbm, 295, rfl⟩
abbrev main_v177 : Ref sig .tc := ⟨.hbm, 296, rfl⟩
abbrev main_c_22 : Ref sig .tc := ⟨.hbm, 297, rfl⟩
abbrev main_v178 : Ref sig .tc := ⟨.hbm, 298, rfl⟩
abbrev main_v179 : Ref sig .tc := ⟨.hbm, 299, rfl⟩
abbrev main_c_23 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_cst_24 : Ref sig .tc := ⟨.hbm, 306, rfl⟩
abbrev main_v185 : Ref sig .tc := ⟨.hbm, 307, rfl⟩
abbrev main_v186 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_v192 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_25 : Ref sig .tc := ⟨.hbm, 319, rfl⟩
abbrev main_v197 : Ref sig .tc := ⟨.hbm, 320, rfl⟩
abbrev main_cst_26 : Ref sig .tc := ⟨.hbm, 321, rfl⟩
abbrev main_v198 : Ref sig .tc := ⟨.hbm, 322, rfl⟩
abbrev main_v199 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_v203 : Ref sig .tc := ⟨.hbm, 327, rfl⟩
abbrev main_cst_27 : Ref sig .tc := ⟨.hbm, 328, rfl⟩
abbrev main_v204 : Ref sig .tc := ⟨.hbm, 329, rfl⟩
abbrev main_cst_28 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_cst_29 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_call6_cst : Ref sig .tc := ⟨.hbm, 353, rfl⟩
abbrev main_call6_v0 : Ref sig .tc := ⟨.hbm, 354, rfl⟩
abbrev main_call6_v1 : Ref sig .tc := ⟨.hbm, 355, rfl⟩
abbrev main_call6_cst_0 : Ref sig .tc := ⟨.hbm, 356, rfl⟩
abbrev main_call6_v2 : Ref sig .tc := ⟨.hbm, 357, rfl⟩
abbrev main_call6_v3 : Ref sig .tc := ⟨.hbm, 358, rfl⟩
abbrev main_call6_cst_1 : Ref sig .tc := ⟨.hbm, 359, rfl⟩
abbrev main_call6_call0_v0 : Ref sig .tc := ⟨.hbm, 360, rfl⟩
abbrev main_call6_call0_v1 : Ref sig .tc := ⟨.hbm, 361, rfl⟩
abbrev main_call6_v4 : Ref sig .tc := ⟨.hbm, 362, rfl⟩
abbrev main_call6_v5 : Ref sig .tc := ⟨.hbm, 363, rfl⟩
abbrev main_call6_cst_2 : Ref sig .tc := ⟨.hbm, 364, rfl⟩
abbrev main_call6_v6 : Ref sig .tc := ⟨.hbm, 365, rfl⟩
abbrev main_call6_v7 : Ref sig .tc := ⟨.hbm, 366, rfl⟩
abbrev main_v226 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_call7_cst : Ref sig .tc := ⟨.hbm, 376, rfl⟩
abbrev main_call7_v0 : Ref sig .tc := ⟨.hbm, 377, rfl⟩
abbrev main_call7_v1 : Ref sig .tc := ⟨.hbm, 378, rfl⟩
abbrev main_call7_cst_0 : Ref sig .tc := ⟨.hbm, 379, rfl⟩
abbrev main_call7_v2 : Ref sig .tc := ⟨.hbm, 380, rfl⟩
abbrev main_call7_v3 : Ref sig .tc := ⟨.hbm, 381, rfl⟩
abbrev main_call7_cst_1 : Ref sig .tc := ⟨.hbm, 382, rfl⟩
abbrev main_call7_call0_v0 : Ref sig .tc := ⟨.hbm, 383, rfl⟩
abbrev main_call7_call0_v1 : Ref sig .tc := ⟨.hbm, 384, rfl⟩
abbrev main_call7_v4 : Ref sig .tc := ⟨.hbm, 385, rfl⟩
abbrev main_call7_v5 : Ref sig .tc := ⟨.hbm, 386, rfl⟩
abbrev main_call7_cst_2 : Ref sig .tc := ⟨.hbm, 387, rfl⟩
abbrev main_call7_v6 : Ref sig .tc := ⟨.hbm, 388, rfl⟩
abbrev main_call7_v7 : Ref sig .tc := ⟨.hbm, 389, rfl⟩
abbrev main_v235 : Ref sig .tc := ⟨.hbm, 390, rfl⟩
abbrev main_cst_30 : Ref sig .tc := ⟨.hbm, 391, rfl⟩
abbrev main_v236 : Ref sig .tc := ⟨.hbm, 392, rfl⟩
abbrev main_v237 : Ref sig .tc := ⟨.hbm, 393, rfl⟩
abbrev main_v238 : Ref sig .tc := ⟨.hbm, 394, rfl⟩
abbrev main_cst_31 : Ref sig .tc := ⟨.hbm, 395, rfl⟩
abbrev main_v239 : Ref sig .tc := ⟨.hbm, 396, rfl⟩
abbrev main_cst_32 : Ref sig .tc := ⟨.hbm, 397, rfl⟩
abbrev main_v240 : Ref sig .tc := ⟨.hbm, 398, rfl⟩
abbrev main_v241 : Ref sig .tc := ⟨.hbm, 399, rfl⟩
abbrev main_v242 : Ref sig .tc := ⟨.hbm, 400, rfl⟩
abbrev main_cst_33 : Ref sig .tc := ⟨.hbm, 401, rfl⟩
abbrev main_v243 : Ref sig .tc := ⟨.hbm, 402, rfl⟩
abbrev main_v244 : Ref sig .tc := ⟨.hbm, 403, rfl⟩
abbrev main_v245 : Ref sig .tc := ⟨.hbm, 404, rfl⟩
abbrev main_v246 : Ref sig .tc := ⟨.hbm, 405, rfl⟩
abbrev main_v247 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x2_S512x2_1_0_0_1_n_n_wf : DotDims.WF S512x128 S128x2 S512x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KRun.lean ====
/-
  The idealized kernel's run with its result named.

  The program is eight tiled regions among stretches of host operations. Its frame proof follows the buffer contents
  from the launch memory through every stretch and region (the valuations `W0` … `W17`) and reads the argument arrays
  back at the end. Here the same run is stated with one more buffer read back: the result `main_v154` ends at
  `W17 … main_v154`, the last valuation at that buffer. What that valuation is, as a function of the arguments, is the
  subject of the other modules.
-/
import proofs.«163505_j89335319757549_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; the result buffer ends at the
    last valuation's contents and the eleven argument arrays end as launched. -/
theorem run : θ_run defs (onTc (τ := τ) (main (F := F))) ⟨m, fun _ => 0, ρ⟩ (fun r => ∀ c : Dev nD,
      r.2.mem ((c.tc : Thread nD τ).loc main_v154) = W17 m ρ c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v154 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c)⟩)

end Cert.KernelIdeal.KRun

end
-- ==== Proof.KCarry.lean ====
/-
  Buffers carried through the program's boundaries.

  The program alternates stretches of host operations with tiled regions; W0 is the launch memory, W1 what the first
  stretch leaves, W2 what region 0 leaves, and so on up to W16, what region 7 leaves. A host operation changes the one
  buffer it writes and no other; a region changes its own arrays and no other buffer, and of its own arrays only the
  ones it writes. So a buffer that a step does not write reads the same after the step as before it. Here, for each
  stretch, the list of buffers its operations write; then, boundary by boundary, that the eleven arguments still
  hold the launch contents, that the two rows of the edge list computed by the first stretch are still what that
  stretch left, and that each layer's result and each first-pass z array survive the stretch that follows them.
-/
import proofs.«163505_j89335319757549_1_alg».proof.Proof.Gen.KernelIdeal.Frame
import Idealize.ShloMosaic.Lib.StableHlo.Run

noncomputable section

namespace Cert.KernelIdeal.KCarry

open Cert.KernelIdeal Cert.KernelIdeal.Gen
open Idealize.ShloMosaic Idealize.ShloMosaic.TcCoe Idealize.SL.Sem Idealize.ShloMosaic.StableHlo

variable {F : FTy → Type} [FloatOps F]

/-- An operation that writes exactly the buffer y, where y is entry i of the list W, writes inside W. -/
theorem writes_sub {Val : EltTy → Type} {W : List (Ref sig .tc)} (y : Ref sig .tc) {i : Nat} {op : HloOp τ sig Val}
    (hw : op.writes = {Proc.devRef .tc y}) (hy : W[i]? = some y) :
    op.writes ⊆ (W.map (Proc.devRef (τ := τ) .tc)).toFinset := by
  rw [hw, Finset.singleton_subset_iff, List.mem_toFinset]
  exact List.mem_map.mpr ⟨y, List.mem_of_getElem? hy, rfl⟩

/-! ## What each host stretch writes -/

/-- The buffers stretch 0 writes, one per operation, in order. -/
abbrev w0 : List (Ref sig .tc) :=
  [ main_v0, main_v1, main_v2, main_v3, main_c, main_v4, main_v5, main_c_0, main_v6, main_v7, main_v8, main_v9, main_v10, main_cst, main_v11, main_v12, main_v13, main_v14, main_v15, main_v16, main_v17, main_v18 ]

theorem hostOps0_writes : (hostOps0 : List (HloOp τ sig (Elt F))).Forall fun op => op.writes ⊆ (w0.map (Proc.devRef (τ := τ) .tc)).toFinset :=
  ⟨writes_sub main_v0 (i := 0) rfl rfl,
    writes_sub main_v1 (i := 1) rfl rfl,
    writes_sub main_v2 (i := 2) rfl rfl,
    writes_sub main_v3 (i := 3) rfl rfl,
    writes_sub main_c (i := 4) rfl rfl,
    writes_sub main_v4 (i := 5) rfl rfl,
    writes_sub main_v5 (i := 6) rfl rfl,
    writes_sub main_c_0 (i := 7) rfl rfl,
    writes_sub main_v6 (i := 8) rfl rfl,
    writes_sub main_v7 (i := 9) rfl rfl,
    writes_sub main_v8 (i := 10) rfl rfl,
    writes_sub main_v9 (i := 11) rfl rfl,
    writes_sub main_v10 (i := 12) rfl rfl,
    writes_sub main_cst (i := 13) rfl rfl,
    writes_sub main_v11 (i := 14) rfl rfl,
    writes_sub main_v12 (i := 15) rfl rfl,
    writes_sub main_v13 (i := 16) rfl rfl,
    writes_sub main_v14 (i := 17) rfl rfl,
    writes_sub main_v15 (i := 18) rfl rfl,
    writes_sub main_v16 (i := 19) rfl rfl,
    writes_sub main_v17 (i := 20) rfl rfl,
    writes_sub main_v18 (i := 21) rfl rfl⟩

/-- The buffers stretch 1 writes, one per operation, in order. -/
abbrev w1 : List (Ref sig .tc) :=
  [ main_cst_1, main_v20, main_v21, main_cst_2, main_v22, main_v23, main_v24, main_v25, main_v26, main_v27, main_v28, main_v29, main_v30, main_v31, main_v32, main_v33, main_v34, main_v35, main_v36 ]

theorem hostOps1_writes : (hostOps1 : List (HloOp τ sig (Elt F))).Forall fun op => op.writes ⊆ (w1.map (Proc.devRef (τ := τ) .tc)).toFinset :=
  ⟨writes_sub main_cst_1 (i := 0) rfl rfl,
    writes_sub main_v20 (i := 1) rfl rfl,
    writes_sub main_v21 (i := 2) rfl rfl,
    writes_sub main_cst_2 (i := 3) rfl rfl,
    writes_sub main_v22 (i := 4) rfl rfl,
    writes_sub main_v23 (i := 5) rfl rfl,
    writes_sub main_v24 (i := 6) rfl rfl,
    writes_sub main_v25 (i := 7) rfl rfl,
    writes_sub main_v26 (i := 8) rfl rfl,
    writes_sub main_v27 (i := 9) rfl rfl,
    writes_sub main_v28 (i := 10) rfl rfl,
    writes_sub main_v29 (i := 11) rfl rfl,
    writes_sub main_v30 (i := 12) rfl rfl,
    writes_sub main_v31 (i := 13) rfl rfl,
    writes_sub main_v32 (i := 14) rfl rfl,
    writes_sub main_v33 (i := 15) rfl rfl,
    writes_sub main_v34 (i := 16) rfl rfl,
    writes_sub main_v35 (i := 17) rfl rfl,
    writes_sub main_v36 (i := 18) rfl rfl⟩

/-- The buffers stretch 2 writes, one per operation, in order. -/
abbrev w2 : List (Ref sig .tc) :=
  [ main_c_3, main_v38, main_v39, main_c_4, main_v40, main_v41, main_v42, main_v43, main_v44, main_cst_5, main_v45, main_v46, main_v47, main_v48, main_v49, main_v50, main_v51, main_v52 ]

theorem hostOps2_writes : (hostOps2 : List (HloOp τ sig (Elt F))).Forall fun op => op.writes ⊆ (w2.map (Proc.devRef (τ := τ) .tc)).toFinset :=
  ⟨writes_sub main_c_3 (i := 0) rfl rfl,
    writes_sub main_v38 (i := 1) rfl rfl,
    writes_sub main_v39 (i := 2) rfl rfl,
    writes_sub main_c_4 (i := 3) rfl rfl,
    writes_sub main_v40 (i := 4) rfl rfl,
    writes_sub main_v41 (i := 5) rfl rfl,
    writes_sub main_v42 (i := 6) rfl rfl,
    writes_sub main_v43 (i := 7) rfl rfl,
    writes_sub main_v44 (i := 8) rfl rfl,
    writes_sub main_cst_5 (i := 9) rfl rfl,
    writes_sub main_v45 (i := 10) rfl rfl,
    writes_sub main_v46 (i := 11) rfl rfl,
    writes_sub main_v47 (i := 12) rfl rfl,
    writes_sub main_v48 (i := 13) rfl rfl,
    writes_sub main_v49 (i := 14) rfl rfl,
    writes_sub main_v50 (i := 15) rfl rfl,
    writes_sub main_v51 (i := 16) rfl rfl,
    writes_sub main_v52 (i := 17) rfl rfl⟩

/-- The buffers stretch 3 writes, one per operation, in order. -/
abbrev w3 : List (Ref sig .tc) :=
  [ main_cst_6, main_v54, main_v55, main_cst_7, main_v56, main_v57, main_v58, main_v59, main_v60, main_v61, main_v62, main_v63, main_v64, main_v65, main_v66, main_v67, main_v68, main_v69, main_v70 ]

theorem hostOps3_writes : (hostOps3 : List (HloOp τ sig (Elt F))).Forall fun op => op.writes ⊆ (w3.map (Proc.devRef (τ := τ) .tc)).toFinset :=
  ⟨writes_sub main_cst_6 (i := 0) rfl rfl,
    writes_sub main_v54 (i := 1) rfl rfl,
    writes_sub main_v55 (i := 2) rfl rfl,
    writes_sub main_cst_7 (i := 3) rfl rfl,
    writes_sub main_v56 (i := 4) rfl rfl,
    writes_sub main_v57 (i := 5) rfl rfl,
    writes_sub main_v58 (i := 6) rfl rfl,
    writes_sub main_v59 (i := 7) rfl rfl,
    writes_sub main_v60 (i := 8) rfl rfl,
    writes_sub main_v61 (i := 9) rfl rfl,
    writes_sub main_v62 (i := 10) rfl rfl,
    writes_sub main_v63 (i := 11) rfl rfl,
    writes_sub main_v64 (i := 12) rfl rfl,
    writes_sub main_v65 (i := 13) rfl rfl,
    writes_sub main_v66 (i := 14) rfl rfl,
    writes_sub main_v67 (i := 15) rfl rfl,
    writes_sub main_v68 (i := 16) rfl rfl,
    writes_sub main_v69 (i := 17) rfl rfl,
    writes_sub main_v70 (i := 18) rfl rfl⟩

/-- The buffers stretch 4 writes, one per operation, in order. -/
abbrev w4 : List (Ref sig .tc) :=
  [ main_c_8, main_v72, main_v73, main_c_9, main_v74, main_v75, main_v76, main_v77, main_v78, main_cst_10, main_v79, main_v80, main_v81, main_v82, main_v83, main_v84, main_v85, main_v86 ]

theorem hostOps4_writes : (hostOps4 : List (HloOp τ sig (Elt F))).Forall fun op => op.writes ⊆ (w4.map (Proc.devRef (τ := τ) .tc)).toFinset :=
  ⟨writes_sub main_c_8 (i := 0) rfl rfl,
    writes_sub main_v72 (i := 1) rfl rfl,
    writes_sub main_v73 (i := 2) rfl rfl,
    writes_sub main_c_9 (i := 3) rfl rfl,
    writes_sub main_v74 (i := 4) rfl rfl,
    writes_sub main_v75 (i := 5) rfl rfl,
    writes_sub main_v76 (i := 6) rfl rfl,
    writes_sub main_v77 (i := 7) rfl rfl,
    writes_sub main_v78 (i := 8) rfl rfl,
    writes_sub main_cst_10 (i := 9) rfl rfl,
    writes_sub main_v79 (i := 10) rfl rfl,
    writes_sub main_v80 (i := 11) rfl rfl,
    writes_sub main_v81 (i := 12) rfl rfl,
    writes_sub main_v82 (i := 13) rfl rfl,
    writes_sub main_v83 (i := 14) rfl rfl,
    writes_sub main_v84 (i := 15) rfl rfl,
    writes_sub main_v85 (i := 16) rfl rfl,
    writes_sub main_v86 (i := 17) rfl rfl⟩

/-- The buffers stretch 5 writes, one per operation, in order. -/
abbrev w5 : List (Ref sig .tc) :=
  [ main_cst_11, main_v88, main_v89, main_cst_12, main_v90, main_v91, main_v92, main_v93, main_v94, main_v95, main_v96, main_v97, main_v98, main_v99, main_v100, main_v101, main_v102, main_v103, main_v104 ]

theorem hostOps5_writes : (hostOps5 : List (HloOp τ sig (Elt F))).Forall fun op => op.writes ⊆ (w5.map (Proc.devRef (τ := τ) .tc)).toFinset :=
  ⟨writes_sub main_cst_11 (i := 0) rfl rfl,
    writes_sub main_v88 (i := 1) rfl rfl,
    writes_sub main_v89 (i := 2) rfl rfl,
    writes_sub main_cst_12 (i := 3) rfl rfl,
    writes_sub main_v90 (i := 4) rfl rfl,
    writes_sub main_v91 (i := 5) rfl rfl,
    writes_sub main_v92 (i := 6) rfl rfl,
    writes_sub main_v93 (i := 7) rfl rfl,
    writes_sub main_v94 (i := 8) rfl rfl,
    writes_sub main_v95 (i := 9) rfl rfl,
    writes_sub main_v96 (i := 10) rfl rfl,
    writes_sub main_v97 (i := 11) rfl rfl,
    writes_sub main_v98 (i := 12) rfl rfl,
    writes_sub main_v99 (i := 13) rfl rfl,
    writes_sub main_v100 (i := 14) rfl rfl,
    writes_sub main_v101 (i := 15) rfl rfl,
    writes_sub main_v102 (i := 16) rfl rfl,
    writes_sub main_v103 (i := 17) rfl rfl,
    writes_sub main_v104 (i := 18) rfl rfl⟩

/-- The buffers stretch 6 writes, one per operation, in order. -/
abbrev w6 : List (Ref sig .tc) :=
  [ main_c_13, main_v106, main_v107, main_c_14, main_v108, main_v109, main_v110, main_v111, main_v112, main_cst_15, main_v113, main_v114, main_v115, main_v116, main_v117, main_v118, main_v119, main_v120 ]

theorem hostOps6_writes : (hostOps6 : List (HloOp τ sig (Elt F))).Forall fun op => op.writes ⊆ (w6.map (Proc.devRef (τ := τ) .tc)).toFinset :=
  ⟨writes_sub main_c_13 (i := 0) rfl rfl,
    writes_sub main_v106 (i := 1) rfl rfl,
    writes_sub main_v107 (i := 2) rfl rfl,
    writes_sub main_c_14 (i := 3) rfl rfl,
    writes_sub main_v108 (i := 4) rfl rfl,
    writes_sub main_v109 (i := 5) rfl rfl,
    writes_sub main_v110 (i := 6) rfl rfl,
    writes_sub main_v111 (i := 7) rfl rfl,
    writes_sub main_v112 (i := 8) rfl rfl,
    writes_sub main_cst_15 (i := 9) rfl rfl,
    writes_sub main_v113 (i := 10) rfl rfl,
    writes_sub main_v114 (i := 11) rfl rfl,
    writes_sub main_v115 (i := 12) rfl rfl,
    writes_sub main_v116 (i := 13) rfl rfl,
    writes_sub main_v117 (i := 14) rfl rfl,
    writes_sub main_v118 (i := 15) rfl rfl,
    writes_sub main_v119 (i := 16) rfl rfl,
    writes_sub main_v120 (i := 17) rfl rfl⟩

/-- The buffers stretch 7 writes, one per operation, in order. -/
abbrev w7 : List (Ref sig .tc) :=
  [ main_cst_16, main_v122, main_v123, main_cst_17, main_v124, main_v125, main_v126, main_v127, main_v128, main_v129, main_v130, main_v131, main_v132, main_v133, main_v134, main_v135, main_v136, main_v137, main_v138 ]

theorem hostOps7_writes : (hostOps7 : List (HloOp τ sig (Elt F))).Forall fun op => op.writes ⊆ (w7.map (Proc.devRef (τ := τ) .tc)).toFinset :=
  ⟨writes_sub main_cst_16 (i := 0) rfl rfl,
    writes_sub main_v122 (i := 1) rfl rfl,
    writes_sub main_v123 (i := 2) rfl rfl,
    writes_sub main_cst_17 (i := 3) rfl rfl,
    writes_sub main_v124 (i := 4) rfl rfl,
    writes_sub main_v125 (i := 5) rfl rfl,
    writes_sub main_v126 (i := 6) rfl rfl,
    writes_sub main_v127 (i := 7) rfl rfl,
    writes_sub main_v128 (i := 8) rfl rfl,
    writes_sub main_v129 (i := 9) rfl rfl,
    writes_sub main_v130 (i := 10) rfl rfl,
    writes_sub main_v131 (i := 11) rfl rfl,
    writes_sub main_v132 (i := 12) rfl rfl,
    writes_sub main_v133 (i := 13) rfl rfl,
    writes_sub main_v134 (i := 14) rfl rfl,
    writes_sub main_v135 (i := 15) rfl rfl,
    writes_sub main_v136 (i := 16) rfl rfl,
    writes_sub main_v137 (i := 17) rfl rfl,
    writes_sub main_v138 (i := 18) rfl rfl⟩

/-- The buffers stretch 8 writes, one per operation, in order. -/
abbrev w8 : List (Ref sig .tc) :=
  [ main_cst_18, main_v140, main_v141, main_v142, main_cst_19, main_v143, main_cst_20, main_v144, main_v145, main_v146, main_cst_21, main_v147, main_v148, main_v149, main_v150, main_v151, main_v152, main_v153, main_v154 ]

theorem hostOps8_writes : (hostOps8 : List (HloOp τ sig (Elt F))).Forall fun op => op.writes ⊆ (w8.map (Proc.devRef (τ := τ) .tc)).toFinset :=
  ⟨writes_sub main_cst_18 (i := 0) rfl rfl,
    writes_sub main_v140 (i := 1) rfl rfl,
    writes_sub main_v141 (i := 2) rfl rfl,
    writes_sub main_v142 (i := 3) rfl rfl,
    writes_sub main_cst_19 (i := 4) rfl rfl,
    writes_sub main_v143 (i := 5) rfl rfl,
    writes_sub main_cst_20 (i := 6) rfl rfl,
    writes_sub main_v144 (i := 7) rfl rfl,
    writes_sub main_v145 (i := 8) rfl rfl,
    writes_sub main_v146 (i := 9) rfl rfl,
    writes_sub main_cst_21 (i := 10) rfl rfl,
    writes_sub main_v147 (i := 11) rfl rfl,
    writes_sub main_v148 (i := 12) rfl rfl,
    writes_sub main_v149 (i := 13) rfl rfl,
    writes_sub main_v150 (i := 14) rfl rfl,
    writes_sub main_v151 (i := 15) rfl rfl,
    writes_sub main_v152 (i := 16) rfl rfl,
    writes_sub main_v153 (i := 17) rfl rfl,
    writes_sub main_v154 (i := 18) rfl rfl⟩

variable (m : (ℓ : Loc nD τ sig) → Buf (Elt F) ℓ) (ρ : Dev nD → PrngReg)

/-! ## The arguments hold the launch contents at every boundary -/

theorem W1_arg0 (c : Dev nD) : W1 m ρ c (Proc.devRef .tc main_arg0) = m ((c : Thread nD τ).loc main_arg0) :=
  (StableHlo.after_of_writes_sub hostOps0 (W0 m ρ c) hostOps0_writes (by decide : main_arg0 ∉ w0)).trans rfl
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W3_arg0 (c : Dev nD) : W3 m ρ c (Proc.devRef .tc main_arg0) = m ((c : Thread nD τ).loc main_arg0) :=
  (StableHlo.after_of_writes_sub hostOps1 (W2 m ρ c) hostOps1_writes (by decide : main_arg0 ∉ w1)).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) :=
  (StableHlo.after_of_writes_sub hostOps2 (W4 m ρ c) hostOps2_writes (by decide : main_arg0 ∉ w2)).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W7_arg0 (c : Dev nD) : W7 m ρ c (Proc.devRef .tc main_arg0) = m ((c : Thread nD τ).loc main_arg0) :=
  (StableHlo.after_of_writes_sub hostOps3 (W6 m ρ c) hostOps3_writes (by decide : main_arg0 ∉ w3)).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)
theorem W9_arg0 (c : Dev nD) : W9 m ρ c (Proc.devRef .tc main_arg0) = m ((c : Thread nD τ).loc main_arg0) :=
  (StableHlo.after_of_writes_sub hostOps4 (W8 m ρ c) hostOps4_writes (by decide : main_arg0 ∉ w4)).trans (W8_arg0 m ρ c)
theorem W10_arg0 (c : Dev nD) : W10 m ρ c (Proc.devRef .tc main_arg0) = m ((c : Thread nD τ).loc main_arg0) :=
  (W10_of_ne m ρ c main_arg0 (by decide)).trans (W9_arg0 m ρ c)
theorem W11_arg0 (c : Dev nD) : W11 m ρ c (Proc.devRef .tc main_arg0) = m ((c : Thread nD τ).loc main_arg0) :=
  (StableHlo.after_of_writes_sub hostOps5 (W10 m ρ c) hostOps5_writes (by decide : main_arg0 ∉ w5)).trans (W10_arg0 m ρ c)
theorem W12_arg0 (c : Dev nD) : W12 m ρ c (Proc.devRef .tc main_arg0) = m ((c : Thread nD τ).loc main_arg0) :=
  (W12_of_ne m ρ c main_arg0 (by decide)).trans (W11_arg0 m ρ c)
theorem W13_arg0 (c : Dev nD) : W13 m ρ c (Proc.devRef .tc main_arg0) = m ((c : Thread nD τ).loc main_arg0) :=
  (StableHlo.after_of_writes_sub hostOps6 (W12 m ρ c) hostOps6_writes (by decide : main_arg0 ∉ w6)).trans (W12_arg0 m ρ c)
theorem W14_arg0 (c : Dev nD) : W14 m ρ c (Proc.devRef .tc main_arg0) = m ((c : Thread nD τ).loc main_arg0) :=
  (W14_of_ne m ρ c main_arg0 (by decide)).trans (W13_arg0 m ρ c)
theorem W15_arg0 (c : Dev nD) : W15 m ρ c (Proc.devRef .tc main_arg0) = m ((c : Thread nD τ).loc main_arg0) :=
  (StableHlo.after_of_writes_sub hostOps7 (W14 m ρ c) hostOps7_writes (by decide : main_arg0 ∉ w7)).trans (W14_arg0 m ρ c)
theorem W16_arg0 (c : Dev nD) : W16 m ρ c (Proc.devRef .tc main_arg0) = m ((c : Thread nD τ).loc main_arg0) :=
  (W16_of_ne m ρ c main_arg0 (by decide)).trans (W15_arg0 m ρ c)

theorem W1_arg1 (c : Dev nD) : W1 m ρ c (Proc.devRef .tc main_arg1) = m ((c : Thread nD τ).loc main_arg1) :=
  (StableHlo.after_of_writes_sub hostOps0 (W0 m ρ c) hostOps0_writes (by decide : main_arg1 ∉ w0)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (StableHlo.after_of_writes_sub hostOps1 (W2 m ρ c) hostOps1_writes (by decide : main_arg1 ∉ w1)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (StableHlo.after_of_writes_sub hostOps2 (W4 m ρ c) hostOps2_writes (by decide : main_arg1 ∉ w2)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (StableHlo.after_of_writes_sub hostOps3 (W6 m ρ c) hostOps3_writes (by decide : main_arg1 ∉ w3)).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)
theorem W9_arg1 (c : Dev nD) : W9 m ρ c (Proc.devRef .tc main_arg1) = m ((c : Thread nD τ).loc main_arg1) :=
  (StableHlo.after_of_writes_sub hostOps4 (W8 m ρ c) hostOps4_writes (by decide : main_arg1 ∉ w4)).trans (W8_arg1 m ρ c)
theorem W10_arg1 (c : Dev nD) : W10 m ρ c (Proc.devRef .tc main_arg1) = m ((c : Thread nD τ).loc main_arg1) :=
  (W10_of_ne m ρ c main_arg1 (by decide)).trans (W9_arg1 m ρ c)
theorem W11_arg1 (c : Dev nD) : W11 m ρ c (Proc.devRef .tc main_arg1) = m ((c : Thread nD τ).loc main_arg1) :=
  (StableHlo.after_of_writes_sub hostOps5 (W10 m ρ c) hostOps5_writes (by decide : main_arg1 ∉ w5)).trans (W10_arg1 m ρ c)
theorem W12_arg1 (c : Dev nD) : W12 m ρ c (Proc.devRef .tc main_arg1) = m ((c : Thread nD τ).loc main_arg1) :=
  (W12_of_ne m ρ c main_arg1 (by decide)).trans (W11_arg1 m ρ c)
theorem W13_arg1 (c : Dev nD) : W13 m ρ c (Proc.devRef .tc main_arg1) = m ((c : Thread nD τ).loc main_arg1) :=
  (StableHlo.after_of_writes_sub hostOps6 (W12 m ρ c) hostOps6_writes (by decide : main_arg1 ∉ w6)).trans (W12_arg1 m ρ c)
theorem W14_arg1 (c : Dev nD) : W14 m ρ c (Proc.devRef .tc main_arg1) = m ((c : Thread nD τ).loc main_arg1) :=
  (W14_of_ne m ρ c main_arg1 (by decide)).trans (W13_arg1 m ρ c)
theorem W15_arg1 (c : Dev nD) : W15 m ρ c (Proc.devRef .tc main_arg1) = m ((c : Thread nD τ).loc main_arg1) :=
  (StableHlo.after_of_writes_sub hostOps7 (W14 m ρ c) hostOps7_writes (by decide : main_arg1 ∉ w7)).trans (W14_arg1 m ρ c)
theorem W16_arg1 (c : Dev nD) : W16 m ρ c (Proc.devRef .tc main_arg1) = m ((c : Thread nD τ).loc main_arg1) :=
  (W16_of_ne m ρ c main_arg1 (by decide)).trans (W15_arg1 m ρ c)

theorem W1_arg2 (c : Dev nD) : W1 m ρ c (Proc.devRef .tc main_arg2) = m ((c : Thread nD τ).loc main_arg2) :=
  (StableHlo.after_of_writes_sub hostOps0 (W0 m ρ c) hostOps0_writes (by decide : main_arg2 ∉ w0)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (StableHlo.after_of_writes_sub hostOps1 (W2 m ρ c) hostOps1_writes (by decide : main_arg2 ∉ w1)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) :=
  (StableHlo.after_of_writes_sub hostOps2 (W4 m ρ c) hostOps2_writes (by decide : main_arg2 ∉ w2)).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W7_arg2 (c : Dev nD) : W7 m ρ c (Proc.devRef .tc main_arg2) = m ((c : Thread nD τ).loc main_arg2) :=
  (StableHlo.after_of_writes_sub hostOps3 (W6 m ρ c) hostOps3_writes (by decide : main_arg2 ∉ w3)).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (StableHlo.after_of_writes_sub hostOps4 (W8 m ρ c) hostOps4_writes (by decide : main_arg2 ∉ w4)).trans (W8_arg2 m ρ c)
theorem W10_arg2 (c : Dev nD) : W10 m ρ c (Proc.devRef .tc main_arg2) = m ((c : Thread nD τ).loc main_arg2) :=
  (W10_of_ne m ρ c main_arg2 (by decide)).trans (W9_arg2 m ρ c)
theorem W11_arg2 (c : Dev nD) : W11 m ρ c (Proc.devRef .tc main_arg2) = m ((c : Thread nD τ).loc main_arg2) :=
  (StableHlo.after_of_writes_sub hostOps5 (W10 m ρ c) hostOps5_writes (by decide : main_arg2 ∉ w5)).trans (W10_arg2 m ρ c)
theorem W12_arg2 (c : Dev nD) : W12 m ρ c (Proc.devRef .tc main_arg2) = m ((c : Thread nD τ).loc main_arg2) :=
  (W12_of_ne m ρ c main_arg2 (by decide)).trans (W11_arg2 m ρ c)
theorem W13_arg2 (c : Dev nD) : W13 m ρ c (Proc.devRef .tc main_arg2) = m ((c : Thread nD τ).loc main_arg2) :=
  (StableHlo.after_of_writes_sub hostOps6 (W12 m ρ c) hostOps6_writes (by decide : main_arg2 ∉ w6)).trans (W12_arg2 m ρ c)
theorem W14_arg2 (c : Dev nD) : W14 m ρ c (Proc.devRef .tc main_arg2) = m ((c : Thread nD τ).loc main_arg2) :=
  (W14_of_ne m ρ c main_arg2 (by decide)).trans (W13_arg2 m ρ c)
theorem W15_arg2 (c : Dev nD) : W15 m ρ c (Proc.devRef .tc main_arg2) = m ((c : Thread nD τ).loc main_arg2) :=
  (StableHlo.after_of_writes_sub hostOps7 (W14 m ρ c) hostOps7_writes (by decide : main_arg2 ∉ w7)).trans (W14_arg2 m ρ c)
theorem W16_arg2 (c : Dev nD) : W16 m ρ c (Proc.devRef .tc main_arg2) = m ((c : Thread nD τ).loc main_arg2) :=
  (W16_of_ne m ρ c main_arg2 (by decide)).trans (W15_arg2 m ρ c)

theorem W1_arg3 (c : Dev nD) : W1 m ρ c (Proc.devRef .tc main_arg3) = m ((c : Thread nD τ).loc main_arg3) :=
  (StableHlo.after_of_writes_sub hostOps0 (W0 m ρ c) hostOps0_writes (by decide : main_arg3 ∉ w0)).trans rfl
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (StableHlo.after_of_writes_sub hostOps1 (W2 m ρ c) hostOps1_writes (by decide : main_arg3 ∉ w1)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (StableHlo.after_of_writes_sub hostOps2 (W4 m ρ c) hostOps2_writes (by decide : main_arg3 ∉ w2)).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (StableHlo.after_of_writes_sub hostOps3 (W6 m ρ c) hostOps3_writes (by decide : main_arg3 ∉ w3)).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W9_arg3 (c : Dev nD) : W9 m ρ c (Proc.devRef .tc main_arg3) = m ((c : Thread nD τ).loc main_arg3) :=
  (StableHlo.after_of_writes_sub hostOps4 (W8 m ρ c) hostOps4_writes (by decide : main_arg3 ∉ w4)).trans (W8_arg3 m ρ c)
theorem W10_arg3 (c : Dev nD) : W10 m ρ c (Proc.devRef .tc main_arg3) = m ((c : Thread nD τ).loc main_arg3) :=
  (W10_of_ne m ρ c main_arg3 (by decide)).trans (W9_arg3 m ρ c)
theorem W11_arg3 (c : Dev nD) : W11 m ρ c (Proc.devRef .tc main_arg3) = m ((c : Thread nD τ).loc main_arg3) :=
  (StableHlo.after_of_writes_sub hostOps5 (W10 m ρ c) hostOps5_writes (by decide : main_arg3 ∉ w5)).trans (W10_arg3 m ρ c)
theorem W12_arg3 (c : Dev nD) : W12 m ρ c (Proc.devRef .tc main_arg3) = m ((c : Thread nD τ).loc main_arg3) :=
  (W12_of_ne m ρ c main_arg3 (by decide)).trans (W11_arg3 m ρ c)
theorem W13_arg3 (c : Dev nD) : W13 m ρ c (Proc.devRef .tc main_arg3) = m ((c : Thread nD τ).loc main_arg3) :=
  (StableHlo.after_of_writes_sub hostOps6 (W12 m ρ c) hostOps6_writes (by decide : main_arg3 ∉ w6)).trans (W12_arg3 m ρ c)
theorem W14_arg3 (c : Dev nD) : W14 m ρ c (Proc.devRef .tc main_arg3) = m ((c : Thread nD τ).loc main_arg3) :=
  (W14_of_ne m ρ c main_arg3 (by decide)).trans (W13_arg3 m ρ c)
theorem W15_arg3 (c : Dev nD) : W15 m ρ c (Proc.devRef .tc main_arg3) = m ((c : Thread nD τ).loc main_arg3) :=
  (StableHlo.after_of_writes_sub hostOps7 (W14 m ρ c) hostOps7_writes (by decide : main_arg3 ∉ w7)).trans (W14_arg3 m ρ c)
theorem W16_arg3 (c : Dev nD) : W16 m ρ c (Proc.devRef .tc main_arg3) = m ((c : Thread nD τ).loc main_arg3) :=
  (W16_of_ne m ρ c main_arg3 (by decide)).trans (W15_arg3 m ρ c)

theorem W1_arg4 (c : Dev nD) : W1 m ρ c (Proc.devRef .tc main_arg4) = m ((c : Thread nD τ).loc main_arg4) :=
  (StableHlo.after_of_writes_sub hostOps0 (W0 m ρ c) hostOps0_writes (by decide : main_arg4 ∉ w0)).trans rfl
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (StableHlo.after_of_writes_sub hostOps1 (W2 m ρ c) hostOps1_writes (by decide : main_arg4 ∉ w1)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (StableHlo.after_of_writes_sub hostOps2 (W4 m ρ c) hostOps2_writes (by decide : main_arg4 ∉ w2)).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) :=
  (StableHlo.after_of_writes_sub hostOps3 (W6 m ρ c) hostOps3_writes (by decide : main_arg4 ∉ w3)).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W9_arg4 (c : Dev nD) : W9 m ρ c (Proc.devRef .tc main_arg4) = m ((c : Thread nD τ).loc main_arg4) :=
  (StableHlo.after_of_writes_sub hostOps4 (W8 m ρ c) hostOps4_writes (by decide : main_arg4 ∉ w4)).trans (W8_arg4 m ρ c)
theorem W10_arg4 (c : Dev nD) : W10 m ρ c (Proc.devRef .tc main_arg4) = m ((c : Thread nD τ).loc main_arg4) :=
  (W10_of_ne m ρ c main_arg4 (by decide)).trans (W9_arg4 m ρ c)
theorem W11_arg4 (c : Dev nD) : W11 m ρ c (Proc.devRef .tc main_arg4) = m ((c : Thread nD τ).loc main_arg4) :=
  (StableHlo.after_of_writes_sub hostOps5 (W10 m ρ c) hostOps5_writes (by decide : main_arg4 ∉ w5)).trans (W10_arg4 m ρ c)
theorem W12_arg4 (c : Dev nD) : W12 m ρ c (Proc.devRef .tc main_arg4) = m ((c : Thread nD τ).loc main_arg4) :=
  (W12_of_ne m ρ c main_arg4 (by decide)).trans (W11_arg4 m ρ c)
theorem W13_arg4 (c : Dev nD) : W13 m ρ c (Proc.devRef .tc main_arg4) = m ((c : Thread nD τ).loc main_arg4) :=
  (StableHlo.after_of_writes_sub hostOps6 (W12 m ρ c) hostOps6_writes (by decide : main_arg4 ∉ w6)).trans (W12_arg4 m ρ c)
theorem W14_arg4 (c : Dev nD) : W14 m ρ c (Proc.devRef .tc main_arg4) = m ((c : Thread nD τ).loc main_arg4) :=
  (W14_of_ne m ρ c main_arg4 (by decide)).trans (W13_arg4 m ρ c)
theorem W15_arg4 (c : Dev nD) : W15 m ρ c (Proc.devRef .tc main_arg4) = m ((c : Thread nD τ).loc main_arg4) :=
  (StableHlo.after_of_writes_sub hostOps7 (W14 m ρ c) hostOps7_writes (by decide : main_arg4 ∉ w7)).trans (W14_arg4 m ρ c)
theorem W16_arg4 (c : Dev nD) : W16 m ρ c (Proc.devRef .tc main_arg4) = m ((c : Thread nD τ).loc main_arg4) :=
  (W16_of_ne m ρ c main_arg4 (by decide)).trans (W15_arg4 m ρ c)

theorem W1_arg5 (c : Dev nD) : W1 m ρ c (Proc.devRef .tc main_arg5) = m ((c : Thread nD τ).loc main_arg5) :=
  (StableHlo.after_of_writes_sub hostOps0 (W0 m ρ c) hostOps0_writes (by decide : main_arg5 ∉ w0)).trans rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (StableHlo.after_of_writes_sub hostOps1 (W2 m ρ c) hostOps1_writes (by decide : main_arg5 ∉ w1)).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) :=
  (StableHlo.after_of_writes_sub hostOps2 (W4 m ρ c) hostOps2_writes (by decide : main_arg5 ∉ w2)).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) :=
  (StableHlo.after_of_writes_sub hostOps3 (W6 m ρ c) hostOps3_writes (by decide : main_arg5 ∉ w3)).trans (W6_arg5 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W9_arg5 (c : Dev nD) : W9 m ρ c (Proc.devRef .tc main_arg5) = m ((c : Thread nD τ).loc main_arg5) :=
  (StableHlo.after_of_writes_sub hostOps4 (W8 m ρ c) hostOps4_writes (by decide : main_arg5 ∉ w4)).trans (W8_arg5 m ρ c)
theorem W10_arg5 (c : Dev nD) : W10 m ρ c (Proc.devRef .tc main_arg5) = m ((c : Thread nD τ).loc main_arg5) :=
  (W10_of_ne m ρ c main_arg5 (by decide)).trans (W9_arg5 m ρ c)
theorem W11_arg5 (c : Dev nD) : W11 m ρ c (Proc.devRef .tc main_arg5) = m ((c : Thread nD τ).loc main_arg5) :=
  (StableHlo.after_of_writes_sub hostOps5 (W10 m ρ c) hostOps5_writes (by decide : main_arg5 ∉ w5)).trans (W10_arg5 m ρ c)
theorem W12_arg5 (c : Dev nD) : W12 m ρ c (Proc.devRef .tc main_arg5) = m ((c : Thread nD τ).loc main_arg5) :=
  (W12_of_ne m ρ c main_arg5 (by decide)).trans (W11_arg5 m ρ c)
theorem W13_arg5 (c : Dev nD) : W13 m ρ c (Proc.devRef .tc main_arg5) = m ((c : Thread nD τ).loc main_arg5) :=
  (StableHlo.after_of_writes_sub hostOps6 (W12 m ρ c) hostOps6_writes (by decide : main_arg5 ∉ w6)).trans (W12_arg5 m ρ c)
theorem W14_arg5 (c : Dev nD) : W14 m ρ c (Proc.devRef .tc main_arg5) = m ((c : Thread nD τ).loc main_arg5) :=
  (W14_of_ne m ρ c main_arg5 (by decide)).trans (W13_arg5 m ρ c)
theorem W15_arg5 (c : Dev nD) : W15 m ρ c (Proc.devRef .tc main_arg5) = m ((c : Thread nD τ).loc main_arg5) :=
  (StableHlo.after_of_writes_sub hostOps7 (W14 m ρ c) hostOps7_writes (by decide : main_arg5 ∉ w7)).trans (W14_arg5 m ρ c)
theorem W16_arg5 (c : Dev nD) : W16 m ρ c (Proc.devRef .tc main_arg5) = m ((c : Thread nD τ).loc main_arg5) :=
  (W16_of_ne m ρ c main_arg5 (by decide)).trans (W15_arg5 m ρ c)

theorem W1_arg6 (c : Dev nD) : W1 m ρ c (Proc.devRef .tc main_arg6) = m ((c : Thread nD τ).loc main_arg6) :=
  (StableHlo.after_of_writes_sub hostOps0 (W0 m ρ c) hostOps0_writes (by decide : main_arg6 ∉ w0)).trans rfl
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) :=
  (StableHlo.after_of_writes_sub hostOps1 (W2 m ρ c) hostOps1_writes (by decide : main_arg6 ∉ w1)).trans (W2_arg6 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (StableHlo.after_of_writes_sub hostOps2 (W4 m ρ c) hostOps2_writes (by decide : main_arg6 ∉ w2)).trans (W4_arg6 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) :=
  (StableHlo.after_of_writes_sub hostOps3 (W6 m ρ c) hostOps3_writes (by decide : main_arg6 ∉ w3)).trans (W6_arg6 m ρ c)
theorem W8_arg6 (c : Dev nD) : W8 m ρ c (Proc.devRef .tc main_arg6) = m ((c : Thread nD τ).loc main_arg6) :=
  (W8_of_ne m ρ c main_arg6 (by decide)).trans (W7_arg6 m ρ c)
theorem W9_arg6 (c : Dev nD) : W9 m ρ c (Proc.devRef .tc main_arg6) = m ((c : Thread nD τ).loc main_arg6) :=
  (StableHlo.after_of_writes_sub hostOps4 (W8 m ρ c) hostOps4_writes (by decide : main_arg6 ∉ w4)).trans (W8_arg6 m ρ c)
theorem W10_arg6 (c : Dev nD) : W10 m ρ c (Proc.devRef .tc main_arg6) = m ((c : Thread nD τ).loc main_arg6) :=
  (W10_of_ne m ρ c main_arg6 (by decide)).trans (W9_arg6 m ρ c)
theorem W11_arg6 (c : Dev nD) : W11 m ρ c (Proc.devRef .tc main_arg6) = m ((c : Thread nD τ).loc main_arg6) :=
  (StableHlo.after_of_writes_sub hostOps5 (W10 m ρ c) hostOps5_writes (by decide : main_arg6 ∉ w5)).trans (W10_arg6 m ρ c)
theorem W12_arg6 (c : Dev nD) : W12 m ρ c (Proc.devRef .tc main_arg6) = m ((c : Thread nD τ).loc main_arg6) :=
  (W12_of_ne m ρ c main_arg6 (by decide)).trans (W11_arg6 m ρ c)
theorem W13_arg6 (c : Dev nD) : W13 m ρ c (Proc.devRef .tc main_arg6) = m ((c : Thread nD τ).loc main_arg6) :=
  (StableHlo.after_of_writes_sub hostOps6 (W12 m ρ c) hostOps6_writes (by decide : main_arg6 ∉ w6)).trans (W12_arg6 m ρ c)
theorem W14_arg6 (c : Dev nD) : W14 m ρ c (Proc.devRef .tc main_arg6) = m ((c : Thread nD τ).loc main_arg6) :=
  (W14_of_ne m ρ c main_arg6 (by decide)).trans (W13_arg6 m ρ c)
theorem W15_arg6 (c : Dev nD) : W15 m ρ c (Proc.devRef .tc main_arg6) = m ((c : Thread nD τ).loc main_arg6) :=
  (StableHlo.after_of_writes_sub hostOps7 (W14 m ρ c) hostOps7_writes (by decide : main_arg6 ∉ w7)).trans (W14_arg6 m ρ c)
theorem W16_arg6 (c : Dev nD) : W16 m ρ c (Proc.devRef .tc main_arg6) = m ((c : Thread nD τ).loc main_arg6) :=
  (W16_of_ne m ρ c main_arg6 (by decide)).trans (W15_arg6 m ρ c)

theorem W1_arg7 (c : Dev nD) : W1 m ρ c (Proc.devRef .tc main_arg7) = m ((c : Thread nD τ).loc main_arg7) :=
  (StableHlo.after_of_writes_sub hostOps0 (W0 m ρ c) hostOps0_writes (by decide : main_arg7 ∉ w0)).trans rfl
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (StableHlo.after_of_writes_sub hostOps1 (W2 m ρ c) hostOps1_writes (by decide : main_arg7 ∉ w1)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) :=
  (StableHlo.after_of_writes_sub hostOps2 (W4 m ρ c) hostOps2_writes (by decide : main_arg7 ∉ w2)).trans (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W7_arg7 (c : Dev nD) : W7 m ρ c (Proc.devRef .tc main_arg7) = m ((c : Thread nD τ).loc main_arg7) :=
  (StableHlo.after_of_writes_sub hostOps3 (W6 m ρ c) hostOps3_writes (by decide : main_arg7 ∉ w3)).trans (W6_arg7 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) :=
  (StableHlo.after_of_writes_sub hostOps4 (W8 m ρ c) hostOps4_writes (by decide : main_arg7 ∉ w4)).trans (W8_arg7 m ρ c)
theorem W10_arg7 (c : Dev nD) : W10 m ρ c (Proc.devRef .tc main_arg7) = m ((c : Thread nD τ).loc main_arg7) :=
  (W10_of_ne m ρ c main_arg7 (by decide)).trans (W9_arg7 m ρ c)
theorem W11_arg7 (c : Dev nD) : W11 m ρ c (Proc.devRef .tc main_arg7) = m ((c : Thread nD τ).loc main_arg7) :=
  (StableHlo.after_of_writes_sub hostOps5 (W10 m ρ c) hostOps5_writes (by decide : main_arg7 ∉ w5)).trans (W10_arg7 m ρ c)
theorem W12_arg7 (c : Dev nD) : W12 m ρ c (Proc.devRef .tc main_arg7) = m ((c : Thread nD τ).loc main_arg7) :=
  (W12_of_ne m ρ c main_arg7 (by decide)).trans (W11_arg7 m ρ c)
theorem W13_arg7 (c : Dev nD) : W13 m ρ c (Proc.devRef .tc main_arg7) = m ((c : Thread nD τ).loc main_arg7) :=
  (StableHlo.after_of_writes_sub hostOps6 (W12 m ρ c) hostOps6_writes (by decide : main_arg7 ∉ w6)).trans (W12_arg7 m ρ c)
theorem W14_arg7 (c : Dev nD) : W14 m ρ c (Proc.devRef .tc main_arg7) = m ((c : Thread nD τ).loc main_arg7) :=
  (W14_of_ne m ρ c main_arg7 (by decide)).trans (W13_arg7 m ρ c)
theorem W15_arg7 (c : Dev nD) : W15 m ρ c (Proc.devRef .tc main_arg7) = m ((c : Thread nD τ).loc main_arg7) :=
  (StableHlo.after_of_writes_sub hostOps7 (W14 m ρ c) hostOps7_writes (by decide : main_arg7 ∉ w7)).trans (W14_arg7 m ρ c)
theorem W16_arg7 (c : Dev nD) : W16 m ρ c (Proc.devRef .tc main_arg7) = m ((c : Thread nD τ).loc main_arg7) :=
  (W16_of_ne m ρ c main_arg7 (by decide)).trans (W15_arg7 m ρ c)

theorem W1_arg8 (c : Dev nD) : W1 m ρ c (Proc.devRef .tc main_arg8) = m ((c : Thread nD τ).loc main_arg8) :=
  (StableHlo.after_of_writes_sub hostOps0 (W0 m ρ c) hostOps0_writes (by decide : main_arg8 ∉ w0)).trans rfl
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (StableHlo.after_of_writes_sub hostOps1 (W2 m ρ c) hostOps1_writes (by decide : main_arg8 ∉ w1)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (StableHlo.after_of_writes_sub hostOps2 (W4 m ρ c) hostOps2_writes (by decide : main_arg8 ∉ w2)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) :=
  (StableHlo.after_of_writes_sub hostOps3 (W6 m ρ c) hostOps3_writes (by decide : main_arg8 ∉ w3)).trans (W6_arg8 m ρ c)
theorem W8_arg8 (c : Dev nD) : W8 m ρ c (Proc.devRef .tc main_arg8) = m ((c : Thread nD τ).loc main_arg8) :=
  (W8_of_ne m ρ c main_arg8 (by decide)).trans (W7_arg8 m ρ c)
theorem W9_arg8 (c : Dev nD) : W9 m ρ c (Proc.devRef .tc main_arg8) = m ((c : Thread nD τ).loc main_arg8) :=
  (StableHlo.after_of_writes_sub hostOps4 (W8 m ρ c) hostOps4_writes (by decide : main_arg8 ∉ w4)).trans (W8_arg8 m ρ c)
theorem W10_arg8 (c : Dev nD) : W10 m ρ c (Proc.devRef .tc main_arg8) = m ((c : Thread nD τ).loc main_arg8) :=
  (W10_of_ne m ρ c main_arg8 (by decide)).trans (W9_arg8 m ρ c)
theorem W11_arg8 (c : Dev nD) : W11 m ρ c (Proc.devRef .tc main_arg8) = m ((c : Thread nD τ).loc main_arg8) :=
  (StableHlo.after_of_writes_sub hostOps5 (W10 m ρ c) hostOps5_writes (by decide : main_arg8 ∉ w5)).trans (W10_arg8 m ρ c)
theorem W12_arg8 (c : Dev nD) : W12 m ρ c (Proc.devRef .tc main_arg8) = m ((c : Thread nD τ).loc main_arg8) :=
  (W12_of_ne m ρ c main_arg8 (by decide)).trans (W11_arg8 m ρ c)
theorem W13_arg8 (c : Dev nD) : W13 m ρ c (Proc.devRef .tc main_arg8) = m ((c : Thread nD τ).loc main_arg8) :=
  (StableHlo.after_of_writes_sub hostOps6 (W12 m ρ c) hostOps6_writes (by decide : main_arg8 ∉ w6)).trans (W12_arg8 m ρ c)
theorem W14_arg8 (c : Dev nD) : W14 m ρ c (Proc.devRef .tc main_arg8) = m ((c : Thread nD τ).loc main_arg8) :=
  (W14_of_ne m ρ c main_arg8 (by decide)).trans (W13_arg8 m ρ c)
theorem W15_arg8 (c : Dev nD) : W15 m ρ c (Proc.devRef .tc main_arg8) = m ((c : Thread nD τ).loc main_arg8) :=
  (StableHlo.after_of_writes_sub hostOps7 (W14 m ρ c) hostOps7_writes (by decide : main_arg8 ∉ w7)).trans (W14_arg8 m ρ c)
theorem W16_arg8 (c : Dev nD) : W16 m ρ c (Proc.devRef .tc main_arg8) = m ((c : Thread nD τ).loc main_arg8) :=
  (W16_of_ne m ρ c main_arg8 (by decide)).trans (W15_arg8 m ρ c)

theorem W1_arg9 (c : Dev nD) : W1 m ρ c (Proc.devRef .tc main_arg9) = m ((c : Thread nD τ).loc main_arg9) :=
  (StableHlo.after_of_writes_sub hostOps0 (W0 m ρ c) hostOps0_writes (by decide : main_arg9 ∉ w0)).trans rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (StableHlo.after_of_writes_sub hostOps1 (W2 m ρ c) hostOps1_writes (by decide : main_arg9 ∉ w1)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (StableHlo.after_of_writes_sub hostOps2 (W4 m ρ c) hostOps2_writes (by decide : main_arg9 ∉ w2)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) :=
  (StableHlo.after_of_writes_sub hostOps3 (W6 m ρ c) hostOps3_writes (by decide : main_arg9 ∉ w3)).trans (W6_arg9 m ρ c)
theorem W8_arg9 (c : Dev nD) : W8 m ρ c (Proc.devRef .tc main_arg9) = m ((c : Thread nD τ).loc main_arg9) :=
  (W8_of_ne m ρ c main_arg9 (by decide)).trans (W7_arg9 m ρ c)
theorem W9_arg9 (c : Dev nD) : W9 m ρ c (Proc.devRef .tc main_arg9) = m ((c : Thread nD τ).loc main_arg9) :=
  (StableHlo.after_of_writes_sub hostOps4 (W8 m ρ c) hostOps4_writes (by decide : main_arg9 ∉ w4)).trans (W8_arg9 m ρ c)
theorem W10_arg9 (c : Dev nD) : W10 m ρ c (Proc.devRef .tc main_arg9) = m ((c : Thread nD τ).loc main_arg9) :=
  (W10_of_ne m ρ c main_arg9 (by decide)).trans (W9_arg9 m ρ c)
theorem W11_arg9 (c : Dev nD) : W11 m ρ c (Proc.devRef .tc main_arg9) = m ((c : Thread nD τ).loc main_arg9) :=
  (StableHlo.after_of_writes_sub hostOps5 (W10 m ρ c) hostOps5_writes (by decide : main_arg9 ∉ w5)).trans (W10_arg9 m ρ c)
theorem W12_arg9 (c : Dev nD) : W12 m ρ c (Proc.devRef .tc main_arg9) = m ((c : Thread nD τ).loc main_arg9) :=
  (W12_of_ne m ρ c main_arg9 (by decide)).trans (W11_arg9 m ρ c)
theorem W13_arg9 (c : Dev nD) : W13 m ρ c (Proc.devRef .tc main_arg9) = m ((c : Thread nD τ).loc main_arg9) :=
  (StableHlo.after_of_writes_sub hostOps6 (W12 m ρ c) hostOps6_writes (by decide : main_arg9 ∉ w6)).trans (W12_arg9 m ρ c)
theorem W14_arg9 (c : Dev nD) : W14 m ρ c (Proc.devRef .tc main_arg9) = m ((c : Thread nD τ).loc main_arg9) :=
  (W14_of_ne m ρ c main_arg9 (by decide)).trans (W13_arg9 m ρ c)
theorem W15_arg9 (c : Dev nD) : W15 m ρ c (Proc.devRef .tc main_arg9) = m ((c : Thread nD τ).loc main_arg9) :=
  (StableHlo.after_of_writes_sub hostOps7 (W14 m ρ c) hostOps7_writes (by decide : main_arg9 ∉ w7)).trans (W14_arg9 m ρ c)
theorem W16_arg9 (c : Dev nD) : W16 m ρ c (Proc.devRef .tc main_arg9) = m ((c : Thread nD τ).loc main_arg9) :=
  (W16_of_ne m ρ c main_arg9 (by decide)).trans (W15_arg9 m ρ c)

theorem W1_arg10 (c : Dev nD) : W1 m ρ c (Proc.devRef .tc main_arg10) = m ((c : Thread nD τ).loc main_arg10) :=
  (StableHlo.after_of_writes_sub hostOps0 (W0 m ρ c) hostOps0_writes (by decide : main_arg10 ∉ w0)).trans rfl
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (StableHlo.after_of_writes_sub hostOps1 (W2 m ρ c) hostOps1_writes (by decide : main_arg10 ∉ w1)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (StableHlo.after_of_writes_sub hostOps2 (W4 m ρ c) hostOps2_writes (by decide : main_arg10 ∉ w2)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (StableHlo.after_of_writes_sub hostOps3 (W6 m ρ c) hostOps3_writes (by decide : main_arg10 ∉ w3)).trans (W6_arg10 m ρ c)
theorem W8_arg10 (c : Dev nD) : W8 m ρ c (Proc.devRef .tc main_arg10) = m ((c : Thread nD τ).loc main_arg10) :=
  (W8_of_ne m ρ c main_arg10 (by decide)).trans (W7_arg10 m ρ c)
theorem W9_arg10 (c : Dev nD) : W9 m ρ c (Proc.devRef .tc main_arg10) = m ((c : Thread nD τ).loc main_arg10) :=
  (StableHlo.after_of_writes_sub hostOps4 (W8 m ρ c) hostOps4_writes (by decide : main_arg10 ∉ w4)).trans (W8_arg10 m ρ c)
theorem W10_arg10 (c : Dev nD) : W10 m ρ c (Proc.devRef .tc main_arg10) = m ((c : Thread nD τ).loc main_arg10) :=
  (W10_of_ne m ρ c main_arg10 (by decide)).trans (W9_arg10 m ρ c)
theorem W11_arg10 (c : Dev nD) : W11 m ρ c (Proc.devRef .tc main_arg10) = m ((c : Thread nD τ).loc main_arg10) :=
  (StableHlo.after_of_writes_sub hostOps5 (W10 m ρ c) hostOps5_writes (by decide : main_arg10 ∉ w5)).trans (W10_arg10 m ρ c)
theorem W12_arg10 (c : Dev nD) : W12 m ρ c (Proc.devRef .tc main_arg10) = m ((c : Thread nD τ).loc main_arg10) :=
  (W12_of_ne m ρ c main_arg10 (by decide)).trans (W11_arg10 m ρ c)
theorem W13_arg10 (c : Dev nD) : W13 m ρ c (Proc.devRef .tc main_arg10) = m ((c : Thread nD τ).loc main_arg10) :=
  (StableHlo.after_of_writes_sub hostOps6 (W12 m ρ c) hostOps6_writes (by decide : main_arg10 ∉ w6)).trans (W12_arg10 m ρ c)
theorem W14_arg10 (c : Dev nD) : W14 m ρ c (Proc.devRef .tc main_arg10) = m ((c : Thread nD τ).loc main_arg10) :=
  (W14_of_ne m ρ c main_arg10 (by decide)).trans (W13_arg10 m ρ c)
theorem W15_arg10 (c : Dev nD) : W15 m ρ c (Proc.devRef .tc main_arg10) = m ((c : Thread nD τ).loc main_arg10) :=
  (StableHlo.after_of_writes_sub hostOps7 (W14 m ρ c) hostOps7_writes (by decide : main_arg10 ∉ w7)).trans (W14_arg10 m ρ c)
theorem W16_arg10 (c : Dev nD) : W16 m ρ c (Proc.devRef .tc main_arg10) = m ((c : Thread nD τ).loc main_arg10) :=
  (W16_of_ne m ρ c main_arg10 (by decide)).trans (W15_arg10 m ρ c)

/-! ## The two rows of the edge list, computed once by the first stretch -/

theorem W2_v1 (c : Dev nD) : W2 m ρ c (Proc.devRef .tc main_v1) = W1 m ρ c (Proc.devRef .tc main_v1) :=
  W2_of_ne m ρ c main_v1 (by decide)
theorem W3_v1 (c : Dev nD) : W3 m ρ c (Proc.devRef .tc main_v1) = W1 m ρ c (Proc.devRef .tc main_v1) :=
  (StableHlo.after_of_writes_sub hostOps1 (W2 m ρ c) hostOps1_writes (by decide : main_v1 ∉ w1)).trans (W2_v1 m ρ c)
theorem W4_v1 (c : Dev nD) : W4 m ρ c (Proc.devRef .tc main_v1) = W1 m ρ c (Proc.devRef .tc main_v1) :=
  (W4_of_ne m ρ c main_v1 (by decide)).trans (W3_v1 m ρ c)
theorem W5_v1 (c : Dev nD) : W5 m ρ c (Proc.devRef .tc main_v1) = W1 m ρ c (Proc.devRef .tc main_v1) :=
  (StableHlo.after_of_writes_sub hostOps2 (W4 m ρ c) hostOps2_writes (by decide : main_v1 ∉ w2)).trans (W4_v1 m ρ c)
theorem W6_v1 (c : Dev nD) : W6 m ρ c (Proc.devRef .tc main_v1) = W1 m ρ c (Proc.devRef .tc main_v1) :=
  (W6_of_ne m ρ c main_v1 (by decide)).trans (W5_v1 m ρ c)
theorem W7_v1 (c : Dev nD) : W7 m ρ c (Proc.devRef .tc main_v1) = W1 m ρ c (Proc.devRef .tc main_v1) :=
  (StableHlo.after_of_writes_sub hostOps3 (W6 m ρ c) hostOps3_writes (by decide : main_v1 ∉ w3)).trans (W6_v1 m ρ c)
theorem W8_v1 (c : Dev nD) : W8 m ρ c (Proc.devRef .tc main_v1) = W1 m ρ c (Proc.devRef .tc main_v1) :=
  (W8_of_ne m ρ c main_v1 (by decide)).trans (W7_v1 m ρ c)
theorem W9_v1 (c : Dev nD) : W9 m ρ c (Proc.devRef .tc main_v1) = W1 m ρ c (Proc.devRef .tc main_v1) :=
  (StableHlo.after_of_writes_sub hostOps4 (W8 m ρ c) hostOps4_writes (by decide : main_v1 ∉ w4)).trans (W8_v1 m ρ c)
theorem W10_v1 (c : Dev nD) : W10 m ρ c (Proc.devRef .tc main_v1) = W1 m ρ c (Proc.devRef .tc main_v1) :=
  (W10_of_ne m ρ c main_v1 (by decide)).trans (W9_v1 m ρ c)
theorem W11_v1 (c : Dev nD) : W11 m ρ c (Proc.devRef .tc main_v1) = W1 m ρ c (Proc.devRef .tc main_v1) :=
  (StableHlo.after_of_writes_sub hostOps5 (W10 m ρ c) hostOps5_writes (by decide : main_v1 ∉ w5)).trans (W10_v1 m ρ c)
theorem W12_v1 (c : Dev nD) : W12 m ρ c (Proc.devRef .tc main_v1) = W1 m ρ c (Proc.devRef .tc main_v1) :=
  (W12_of_ne m ρ c main_v1 (by decide)).trans (W11_v1 m ρ c)
theorem W13_v1 (c : Dev nD) : W13 m ρ c (Proc.devRef .tc main_v1) = W1 m ρ c (Proc.devRef .tc main_v1) :=
  (StableHlo.after_of_writes_sub hostOps6 (W12 m ρ c) hostOps6_writes (by decide : main_v1 ∉ w6)).trans (W12_v1 m ρ c)

theorem W2_v3 (c : Dev nD) : W2 m ρ c (Proc.devRef .tc main_v3) = W1 m ρ c (Proc.devRef .tc main_v3) :=
  W2_of_ne m ρ c main_v3 (by decide)
theorem W3_v3 (c : Dev nD) : W3 m ρ c (Proc.devRef .tc main_v3) = W1 m ρ c (Proc.devRef .tc main_v3) :=
  (StableHlo.after_of_writes_sub hostOps1 (W2 m ρ c) hostOps1_writes (by decide : main_v3 ∉ w1)).trans (W2_v3 m ρ c)
theorem W4_v3 (c : Dev nD) : W4 m ρ c (Proc.devRef .tc main_v3) = W1 m ρ c (Proc.devRef .tc main_v3) :=
  (W4_of_ne m ρ c main_v3 (by decide)).trans (W3_v3 m ρ c)
theorem W5_v3 (c : Dev nD) : W5 m ρ c (Proc.devRef .tc main_v3) = W1 m ρ c (Proc.devRef .tc main_v3) :=
  (StableHlo.after_of_writes_sub hostOps2 (W4 m ρ c) hostOps2_writes (by decide : main_v3 ∉ w2)).trans (W4_v3 m ρ c)
theorem W6_v3 (c : Dev nD) : W6 m ρ c (Proc.devRef .tc main_v3) = W1 m ρ c (Proc.devRef .tc main_v3) :=
  (W6_of_ne m ρ c main_v3 (by decide)).trans (W5_v3 m ρ c)
theorem W7_v3 (c : Dev nD) : W7 m ρ c (Proc.devRef .tc main_v3) = W1 m ρ c (Proc.devRef .tc main_v3) :=
  (StableHlo.after_of_writes_sub hostOps3 (W6 m ρ c) hostOps3_writes (by decide : main_v3 ∉ w3)).trans (W6_v3 m ρ c)
theorem W8_v3 (c : Dev nD) : W8 m ρ c (Proc.devRef .tc main_v3) = W1 m ρ c (Proc.devRef .tc main_v3) :=
  (W8_of_ne m ρ c main_v3 (by decide)).trans (W7_v3 m ρ c)
theorem W9_v3 (c : Dev nD) : W9 m ρ c (Proc.devRef .tc main_v3) = W1 m ρ c (Proc.devRef .tc main_v3) :=
  (StableHlo.after_of_writes_sub hostOps4 (W8 m ρ c) hostOps4_writes (by decide : main_v3 ∉ w4)).trans (W8_v3 m ρ c)
theorem W10_v3 (c : Dev nD) : W10 m ρ c (Proc.devRef .tc main_v3) = W1 m ρ c (Proc.devRef .tc main_v3) :=
  (W10_of_ne m ρ c main_v3 (by decide)).trans (W9_v3 m ρ c)
theorem W11_v3 (c : Dev nD) : W11 m ρ c (Proc.devRef .tc main_v3) = W1 m ρ c (Proc.devRef .tc main_v3) :=
  (StableHlo.after_of_writes_sub hostOps5 (W10 m ρ c) hostOps5_writes (by decide : main_v3 ∉ w5)).trans (W10_v3 m ρ c)
theorem W12_v3 (c : Dev nD) : W12 m ρ c (Proc.devRef .tc main_v3) = W1 m ρ c (Proc.devRef .tc main_v3) :=
  (W12_of_ne m ρ c main_v3 (by decide)).trans (W11_v3 m ρ c)
theorem W13_v3 (c : Dev nD) : W13 m ρ c (Proc.devRef .tc main_v3) = W1 m ρ c (Proc.devRef .tc main_v3) :=
  (StableHlo.after_of_writes_sub hostOps6 (W12 m ρ c) hostOps6_writes (by decide : main_v3 ∉ w6)).trans (W12_v3 m ρ c)

/-! ## A layer's result, and a first pass's z array, across the stretch that follows -/

theorem W5_v37 (c : Dev nD) : W5 m ρ c (Proc.devRef .tc main_v37) = W4 m ρ c (Proc.devRef .tc main_v37) :=
  StableHlo.after_of_writes_sub hostOps2 (W4 m ρ c) hostOps2_writes (by decide : main_v37 ∉ w2)
theorem W9_v71 (c : Dev nD) : W9 m ρ c (Proc.devRef .tc main_v71) = W8 m ρ c (Proc.devRef .tc main_v71) :=
  StableHlo.after_of_writes_sub hostOps4 (W8 m ρ c) hostOps4_writes (by decide : main_v71 ∉ w4)
theorem W13_v105 (c : Dev nD) : W13 m ρ c (Proc.devRef .tc main_v105) = W12 m ρ c (Proc.devRef .tc main_v105) :=
  StableHlo.after_of_writes_sub hostOps6 (W12 m ρ c) hostOps6_writes (by decide : main_v105 ∉ w6)
theorem W3_v19_0 (c : Dev nD) : W3 m ρ c (Proc.devRef .tc main_v19_0) = W2 m ρ c (Proc.devRef .tc main_v19_0) :=
  StableHlo.after_of_writes_sub hostOps1 (W2 m ρ c) hostOps1_writes (by decide : main_v19_0 ∉ w1)
theorem W7_v53_0 (c : Dev nD) : W7 m ρ c (Proc.devRef .tc main_v53_0) = W6 m ρ c (Proc.devRef .tc main_v53_0) :=
  StableHlo.after_of_writes_sub hostOps3 (W6 m ρ c) hostOps3_writes (by decide : main_v53_0 ∉ w3)
theorem W11_v87_0 (c : Dev nD) : W11 m ρ c (Proc.devRef .tc main_v87_0) = W10 m ρ c (Proc.devRef .tc main_v87_0) :=
  StableHlo.after_of_writes_sub hostOps5 (W10 m ρ c) hostOps5_writes (by decide : main_v87_0 ∉ w5)
theorem W15_v121_0 (c : Dev nD) : W15 m ρ c (Proc.devRef .tc main_v121_0) = W14 m ρ c (Proc.devRef .tc main_v121_0) :=
  StableHlo.after_of_writes_sub hostOps7 (W14 m ρ c) hostOps7_writes (by decide : main_v121_0 ∉ w7)

end Cert.KernelIdeal.KCarry

end
-- ==== Proof.RefRunA.lean ====
/-
  The reference program's @main as a list of host operations, in the source's order, every call of the outlined
  activation replaced by the callee's operations over that call's own buffers (and likewise the two selections the
  activation itself calls). The list is an append of chunks that follow the source's layers. For each chunk: the
  buffers it writes, as a list of references (every operation writes exactly one buffer, and no buffer is written
  twice), that every buffer it touches is a TensorCore reference, and that every operation determines its result.
-/
import proofs.«163505_j89335319757549_1_alg».proof.ReferenceIdeal
import proofs.«163505_j89335319757549_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer `y`, where `y` is entry `i` of the list `W`, writes inside `W`. -/
theorem writes_sub {Val : EltTy → Type} {W : List (Ref sig .tc)} (y : Ref sig .tc) {i : Nat} {op : HloOp τ sig Val}
    (hw : op.writes = {Proc.devRef .tc y}) (hy : W[i]? = some y) :
    op.writes ⊆ (W.map (Proc.devRef (τ := τ) .tc)).toFinset := by
  rw [hw, Finset.singleton_subset_iff, List.mem_toFinset]
  exact List.mem_map.mpr ⟨y, List.mem_of_getElem? hy, rfl⟩

/-- A reference outside a list that holds every buffer a line writes is written by no operation of the line. -/
theorem not_written_of {Val : EltTy → Type} {W : List (Ref sig .tc)} {l : List (HloOp τ sig Val)}
    (hW : l.Forall fun op => op.writes ⊆ (W.map (Proc.devRef (τ := τ) .tc)).toFinset) {r : Ref sig .tc} (hr : r ∉ W) :
    l.Forall fun op => Proc.devRef (τ := τ) .tc r ∉ op.writes :=
  hW.imp fun op h hb => by
    obtain ⟨y, hy, he⟩ := List.mem_map.mp (List.mem_toFinset.mp (h hb))
    exact hr (Proc.devRef_injective _ he ▸ hy)

/-! ## `opsPre` -/

/-- The statements that split the edge list into its source row and its destination row (`%0` … `%3`). 4 operations. -/
abbrev opsPre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The buffers `opsPre` writes, one per operation, in order. -/
abbrev wPre : List (Ref sig .tc) :=
  [ main_v0, main_v1, main_v2, main_v3 ]

theorem opsPre_sub : (opsPre (F := F)).Forall fun op => op.bufs ⊆ tcRefs τ sig :=
  ⟨unary_bufs_sub .., reshape_bufs_sub .., unary_bufs_sub .., reshape_bufs_sub ..⟩

theorem opsPre_writes : (opsPre (F := F)).Forall fun op => op.writes ⊆ (wPre.map (Proc.devRef (τ := τ) .tc)).toFinset :=
  ⟨writes_sub main_v0 (i := 0) rfl rfl, writes_sub main_v1 (i := 1) rfl rfl, writes_sub main_v2 (i := 2) rfl rfl,
    writes_sub main_v3 (i := 3) rfl rfl⟩

theorem opsPre_fresh : (opsPre (F := F)).Forall fun op => op.fresh = ∅ :=
  ⟨rfl, rfl, rfl, rfl⟩

/-! ## `opsLayer0` -/

/-- Layer 0: the index normalisation, the gather and scatter-add of the neighbour sums, the first linear map, the column mean and variance, the normalisation, the activation, the second linear map and the second activation (`%c` … `%61`), each activation's outlined body written out at its call over that call's buffers. 94 operations. -/
abbrev opsLayer0 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v18 ((extractStridedSlice S1x128 ![0, 0] · slices_S4x128_S1x128_0_0) : (⟨S4x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v22 main_cst_1 main_v23 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.unary main_v25 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v27 main_v28 (subf : (⟨S100000x128, .f32⟩ : BufTy).Contents (Elt F) → (⟨S100000x128, .f32⟩ : BufTy).Contents (Elt F) → (⟨S100000x128, .f32⟩ : BufTy).Contents (Elt F)),
    StableHlo.binary main_v28 main_v28 main_v29 (mulf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.binary main_v29 main_cst_3 main_v30 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_4 (constant S_ .f32 0x47C35000#32),
    StableHlo.unary main_cst_4 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.unary main_v25 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v34 main_v35 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v36 (broadcastInDim S128 ![] bcast_S_S128 : (⟨S_, .f32⟩ : BufTy).Contents (Elt F) → (⟨S128, .f32⟩ : BufTy).Contents (Elt F)),
    StableHlo.binary main_v32 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v40 main_v41 (mulf : (⟨S100000x128, .f32⟩ : BufTy).Contents (Elt F) → (⟨S100000x128, .f32⟩ : BufTy).Contents (Elt F) → (⟨S100000x128, .f32⟩ : BufTy).Contents (Elt F)),
    StableHlo.unary main_arg5 main_v42 ((extractStridedSlice S1x128 ![0, 0] · slices_S4x128_S1x128_0_0) : (⟨S4x128, .f32⟩ : BufTy).Contents (Elt F) → (⟨S1x128, .f32⟩ : BufTy).Contents (Elt F)),
    StableHlo.reshape main_v42 main_v43 rfl shapeCasts_S1x128_S128,
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg6 main_v47 ((extractStridedSlice S1x128 ![0, 0] · slices_S4x128_S1x128_0_0) : (⟨S4x128, .f32⟩ : BufTy).Contents (Elt F) → (⟨S1x128, .f32⟩ : BufTy).Contents (Elt F)),
    StableHlo.reshape main_v47 main_v48 rfl shapeCasts_S1x128_S128,
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v50 main_v51 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v51 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v51 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v51 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v51 : TRef sig ⟨S100000x128, .f32⟩) main_call0.v7 main_call0.call1.v0 select,
    StableHlo.unary main_arg7 main_v53 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v53 main_v54 rfl shapeCasts_S1x128x128_S128x128,
    StableHlo.binary main_v52 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v56 ((extractStridedSlice S1x128 ![0, 0] · slices_S4x128_S1x128_0_0) : (⟨S4x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v60 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v60 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v60 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v60 : TRef sig ⟨S100000x128, .f32⟩) main_call1.v7 main_call1.call1.v0 select ]

/-- The buffers `opsLayer0` writes, one per operation, in order. -/
abbrev wLayer0 : List (Ref sig .tc) :=
  [ main_c, main_v4, main_v5, main_c_0, main_v6, main_v7, main_v8, main_v9,
    main_v10, main_cst, main_v11, main_v12, main_v13, main_v14, main_v15, main_v16,
    main_v17, main_v18, main_v19, main_v20, main_v21, main_v22, main_cst_1, main_v23,
    main_cst_2, main_v24, main_v25, main_v26, main_v27, main_v28, main_v29, main_cst_3,
    main_v30, main_cst_4, main_v31, main_v32, main_v33, main_v34, main_v35, main_cst_5,
    main_v36, main_v37, main_v38, main_v39, main_v40, main_v41, main_v42, main_v43,
    main_v44, main_v45, main_v46, main_v47, main_v48, main_v49, main_v50, main_v51,
    main_call0_cst, main_call0_v0, main_call0_v1, main_call0_cst_0, main_call0_v2, main_call0_v3, main_call0_cst_1, main_call0_call0_v0,
    main_call0_call0_v1, main_call0_v4, main_call0_v5, main_call0_cst_2, main_call0_v6, main_call0_v7, main_v52, main_v53,
    main_v54, main_v55, main_v56, main_v57, main_v58, main_v59, main_v60, main_call1_cst,
    main_call1_v0, main_call1_v1, main_call1_cst_0, main_call1_v2, main_call1_v3, main_call1_cst_1, main_call1_call0_v0, main_call1_call0_v1,
    main_call1_v4, main_call1_v5, main_call1_cst_2, main_call1_v6, main_call1_v7, main_v61 ]

theorem opsLayer0_sub : (opsLayer0 (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

theorem opsLayer0_writes : (opsLayer0 (F := F)).Forall fun op => op.writes ⊆ (wLayer0.map (Proc.devRef (τ := τ) .tc)).toFinset :=
  ⟨writes_sub main_c (i := 0) rfl rfl, writes_sub main_v4 (i := 1) rfl rfl, writes_sub main_v5 (i := 2) rfl rfl,
    writes_sub main_c_0 (i := 3) rfl rfl, writes_sub main_v6 (i := 4) rfl rfl, writes_sub main_v7 (i := 5) rfl rfl,
    writes_sub main_v8 (i := 6) rfl rfl, writes_sub main_v9 (i := 7) rfl rfl, writes_sub main_v10 (i := 8) rfl rfl,
    writes_sub main_cst (i := 9) rfl rfl, writes_sub main_v11 (i := 10) rfl rfl, writes_sub main_v12 (i := 11) rfl rfl,
    writes_sub main_v13 (i := 12) rfl rfl, writes_sub main_v14 (i := 13) rfl rfl, writes_sub main_v15 (i := 14) rfl rfl,
    writes_sub main_v16 (i := 15) rfl rfl, writes_sub main_v17 (i := 16) rfl rfl, writes_sub main_v18 (i := 17) rfl rfl,
    writes_sub main_v19 (i := 18) rfl rfl, writes_sub main_v20 (i := 19) rfl rfl, writes_sub main_v21 (i := 20) rfl rfl,
    writes_sub main_v22 (i := 21) rfl rfl, writes_sub main_cst_1 (i := 22) rfl rfl, writes_sub main_v23 (i := 23) rfl rfl,
    writes_sub main_cst_2 (i := 24) rfl rfl, writes_sub main_v24 (i := 25) rfl rfl, writes_sub main_v25 (i := 26) rfl rfl,
    writes_sub main_v26 (i := 27) rfl rfl, writes_sub main_v27 (i := 28) rfl rfl, writes_sub main_v28 (i := 29) rfl rfl,
    writes_sub main_v29 (i := 30) rfl rfl, writes_sub main_cst_3 (i := 31) rfl rfl, writes_sub main_v30 (i := 32) rfl rfl,
    writes_sub main_cst_4 (i := 33) rfl rfl, writes_sub main_v31 (i := 34) rfl rfl, writes_sub main_v32 (i := 35) rfl rfl,
    writes_sub main_v33 (i := 36) rfl rfl, writes_sub main_v34 (i := 37) rfl rfl, writes_sub main_v35 (i := 38) rfl rfl,
    writes_sub main_cst_5 (i := 39) rfl rfl, writes_sub main_v36 (i := 40) rfl rfl, writes_sub main_v37 (i := 41) rfl rfl,
    writes_sub main_v38 (i := 42) rfl rfl, writes_sub main_v39 (i := 43) rfl rfl, writes_sub main_v40 (i := 44) rfl rfl,
    writes_sub main_v41 (i := 45) rfl rfl, writes_sub main_v42 (i := 46) rfl rfl, writes_sub main_v43 (i := 47) rfl rfl,
    writes_sub main_v44 (i := 48) rfl rfl, writes_sub main_v45 (i := 49) rfl rfl, writes_sub main_v46 (i := 50) rfl rfl,
    writes_sub main_v47 (i := 51) rfl rfl, writes_sub main_v48 (i := 52) rfl rfl, writes_sub main_v49 (i := 53) rfl rfl,
    writes_sub main_v50 (i := 54) rfl rfl, writes_sub main_v51 (i := 55) rfl rfl, writes_sub main_call0_cst (i := 56) rfl rfl,
    writes_sub main_call0_v0 (i := 57) rfl rfl, writes_sub main_call0_v1 (i := 58) rfl rfl, writes_sub main_call0_cst_0 (i := 59) rfl rfl,
    writes_sub main_call0_v2 (i := 60) rfl rfl, writes_sub main_call0_v3 (i := 61) rfl rfl, writes_sub main_call0_cst_1 (i := 62) rfl rfl,
    writes_sub main_call0_call0_v0 (i := 63) rfl rfl, writes_sub main_call0_call0_v1 (i := 64) rfl rfl, writes_sub main_call0_v4 (i := 65) rfl rfl,
    writes_sub main_call0_v5 (i := 66) rfl rfl, writes_sub main_call0_cst_2 (i := 67) rfl rfl, writes_sub main_call0_v6 (i := 68) rfl rfl,
    writes_sub main_call0_v7 (i := 69) rfl rfl, writes_sub main_v52 (i := 70) rfl rfl, writes_sub main_v53 (i := 71) rfl rfl,
    writes_sub main_v54 (i := 72) rfl rfl, writes_sub main_v55 (i := 73) rfl rfl, writes_sub main_v56 (i := 74) rfl rfl,
    writes_sub main_v57 (i := 75) rfl rfl, writes_sub main_v58 (i := 76) rfl rfl, writes_sub main_v59 (i := 77) rfl rfl,
    writes_sub main_v60 (i := 78) rfl rfl, writes_sub main_call1_cst (i := 79) rfl rfl, writes_sub main_call1_v0 (i := 80) rfl rfl,
    writes_sub main_call1_v1 (i := 81) rfl rfl, writes_sub main_call1_cst_0 (i := 82) rfl rfl, writes_sub main_call1_v2 (i := 83) rfl rfl,
    writes_sub main_call1_v3 (i := 84) rfl rfl, writes_sub main_call1_cst_1 (i := 85) rfl rfl, writes_sub main_call1_call0_v0 (i := 86) rfl rfl,
    writes_sub main_call1_call0_v1 (i := 87) rfl rfl, writes_sub main_call1_v4 (i := 88) rfl rfl, writes_sub main_call1_v5 (i := 89) rfl rfl,
    writes_sub main_call1_cst_2 (i := 90) rfl rfl, writes_sub main_call1_v6 (i := 91) rfl rfl, writes_sub main_call1_v7 (i := 92) rfl rfl,
    writes_sub main_v61 (i := 93) rfl rfl⟩

theorem opsLayer0_fresh : (opsLayer0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

/-! ## `opsLayer1` -/

/-- Layer 1 (`%c_6` … `%119`), in the same order as layer 0. 94 operations. -/
abbrev opsLayer1 : List (HloOp τ sig (Elt F)) :=
  [ StableHlo.nullary main_c_6 (constantI S_ 32 0#32),
    StableHlo.unary main_c_6 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v61 main_v67 main_v68 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v69 (broadcastInDim S100000x128 ![] bcast_S_S100000x128 : (⟨S_, .f32⟩ : BufTy).Contents (Elt F) → (⟨S100000x128, .f32⟩ : BufTy).Contents (Elt F)),
    StableHlo.unary main_v3 main_v70 (broadcastInDim S1600000x1 ![0] bcast_S1600000_S1600000x1_0 : (⟨S1600000, .i32⟩ : BufTy).Contents (Elt F) → (⟨S1600000x1, .i32⟩ : BufTy).Contents (Elt F)),
    StableHlo.ternary main_v69 main_v70 main_v68 main_v71 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v61 main_v71 main_v72 (addf : (⟨S100000x128, .f32⟩ : BufTy).Contents (Elt F) → (⟨S100000x128, .f32⟩ : BufTy).Contents (Elt F) → (⟨S100000x128, .f32⟩ : BufTy).Contents (Elt F)),
    StableHlo.unary main_arg3 main_v73 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v76 ((extractStridedSlice S1x128 ![1, 0] · slices_S4x128_S1x128_1_0) : (⟨S4x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v79 main_v80 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.binary main_v80 main_cst_9 main_v81 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v85 main_v86 (subf : (⟨S100000x128, .f32⟩ : BufTy).Contents (Elt F) → (⟨S100000x128, .f32⟩ : BufTy).Contents (Elt F) → (⟨S100000x128, .f32⟩ : BufTy).Contents (Elt F)),
    StableHlo.binary main_v86 main_v86 main_v87 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x00000000#32),
    StableHlo.binary main_v87 main_cst_11 main_v88 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v89 (broadcastInDim S128 ![] bcast_S_S128 : (⟨S_, .f32⟩ : BufTy).Contents (Elt F) → (⟨S128, .f32⟩ : BufTy).Contents (Elt F)),
    StableHlo.binary main_v88 main_v89 main_v90 (Host.divf : (⟨S128, .f32⟩ : BufTy).Contents (Elt F) → (⟨S128, .f32⟩ : BufTy).Contents (Elt F) → (⟨S128, .f32⟩ : BufTy).Contents (Elt F)),
    StableHlo.unary main_v83 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v92 main_v93 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v94 (broadcastInDim S128 ![] bcast_S_S128 : (⟨S_, .f32⟩ : BufTy).Contents (Elt F) → (⟨S128, .f32⟩ : BufTy).Contents (Elt F)),
    StableHlo.binary main_v90 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_arg5 main_v100 ((extractStridedSlice S1x128 ![1, 0] · slices_S4x128_S1x128_1_0) : (⟨S4x128, .f32⟩ : BufTy).Contents (Elt F) → (⟨S1x128, .f32⟩ : BufTy).Contents (Elt F)),
    StableHlo.reshape main_v100 main_v101 rfl shapeCasts_S1x128_S128,
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_arg6 main_v105 ((extractStridedSlice S1x128 ![1, 0] · slices_S4x128_S1x128_1_0) : (⟨S4x128, .f32⟩ : BufTy).Contents (Elt F) → (⟨S1x128, .f32⟩ : BufTy).Contents (Elt F)),
    StableHlo.reshape main_v105 main_v106 rfl shapeCasts_S1x128_S128,
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v108 main_v109 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v109 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v109 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v109 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v109 : TRef sig ⟨S100000x128, .f32⟩) main_call2.v7 main_call2.call1.v0 select,
    StableHlo.unary main_arg7 main_v111 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v111 main_v112 rfl shapeCasts_S1x128x128_S128x128,
    StableHlo.binary main_v110 main_v112 main_v113 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v114 ((extractStridedSlice S1x128 ![1, 0] · slices_S4x128_S1x128_1_0) : (⟨S4x128, .f32⟩ : BufTy).Contents (Elt F) → (⟨S1x128, .f32⟩ : BufTy).Contents (Elt F)),
    StableHlo.reshape main_v114 main_v115 rfl shapeCasts_S1x128_S128,
    StableHlo.unary main_v115 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v117 main_v118 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v118 : TRef sig ⟨S100000x128, .f32⟩) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v118 : TRef sig ⟨S100000x128, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v118 : TRef sig ⟨S100000x128, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v118 : TRef sig ⟨S100000x128, .f32⟩) main_call3.v7 main_call3.call1.v0 select ]

/-- The buffers `opsLayer1` writes, one per operation, in order. -/
abbrev wLayer1 : List (Ref sig .tc) :=
  [ main_c_6, main_v62, main_v63, main_c_7, main_v64, main_v65, main_v66, main_v67,
    main_v68, main_cst_8, main_v69, main_v70, main_v71, main_v72, main_v73, main_v74,
    main_v75, main_v76, main_v77, main_v78, main_v79, main_v80, main_cst_9, main_v81,
    main_cst_10, main_v82, main_v83, main_v84, main_v85, main_v86, main_v87, main_cst_11,
    main_v88, main_cst_12, main_v89, main_v90, main_v91, main_v92, main_v93, main_cst_13,
    main_v94, main_v95, main_v96, main_v97, main_v98, main_v99, main_v100, main_v101,
    main_v102, main_v103, main_v104, main_v105, main_v106, main_v107, main_v108, main_v109,
    main_call2_cst, main_call2_v0, main_call2_v1, main_call2_cst_0, main_call2_v2, main_call2_v3, main_call2_cst_1, main_call2_call0_v0,
    main_call2_call0_v1, main_call2_v4, main_call2_v5, main_call2_cst_2, main_call2_v6, main_call2_v7, main_v110, main_v111,
    main_v112, main_v113, main_v114, main_v115, main_v116, main_v117, main_v118, main_call3_cst,
    main_call3_v0, main_call3_v1, main_call3_cst_0, main_call3_v2, main_call3_v3, main_call3_cst_1, main_call3_call0_v0, main_call3_call0_v1,
    main_call3_v4, main_call3_v5, main_call3_cst_2, main_call3_v6, main_call3_v7, main_v119 ]

theorem opsLayer1_sub : (opsLayer1 (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

theorem opsLayer1_writes : (opsLayer1 (F := F)).Forall fun op => op.writes ⊆ (wLayer1.map (Proc.devRef (τ := τ) .tc)).toFinset :=
  ⟨writes_sub main_c_6 (i := 0) rfl rfl, writes_sub main_v62 (i := 1) rfl rfl, writes_sub main_v63 (i := 2) rfl rfl,
    writes_sub main_c_7 (i := 3) rfl rfl, writes_sub main_v64 (i := 4) rfl rfl, writes_sub main_v65 (i := 5) rfl rfl,
    writes_sub main_v66 (i := 6) rfl rfl, writes_sub main_v67 (i := 7) rfl rfl, writes_sub main_v68 (i := 8) rfl rfl,
    writes_sub main_cst_8 (i := 9) rfl rfl, writes_sub main_v69 (i := 10) rfl rfl, writes_sub main_v70 (i := 11) rfl rfl,
    writes_sub main_v71 (i := 12) rfl rfl, writes_sub main_v72 (i := 13) rfl rfl, writes_sub main_v73 (i := 14) rfl rfl,
    writes_sub main_v74 (i := 15) rfl rfl, writes_sub main_v75 (i := 16) rfl rfl, writes_sub main_v76 (i := 17) rfl rfl,
    writes_sub main_v77 (i := 18) rfl rfl, writes_sub main_v78 (i := 19) rfl rfl, writes_sub main_v79 (i := 20) rfl rfl,
    writes_sub main_v80 (i := 21) rfl rfl, writes_sub main_cst_9 (i := 22) rfl rfl, writes_sub main_v81 (i := 23) rfl rfl,
    writes_sub main_cst_10 (i := 24) rfl rfl, writes_sub main_v82 (i := 25) rfl rfl, writes_sub main_v83 (i := 26) rfl rfl,
    writes_sub main_v84 (i := 27) rfl rfl, writes_sub main_v85 (i := 28) rfl rfl, writes_sub main_v86 (i := 29) rfl rfl,
    writes_sub main_v87 (i := 30) rfl rfl, writes_sub main_cst_11 (i := 31) rfl rfl, writes_sub main_v88 (i := 32) rfl rfl,
    writes_sub main_cst_12 (i := 33) rfl rfl, writes_sub main_v89 (i := 34) rfl rfl, writes_sub main_v90 (i := 35) rfl rfl,
    writes_sub main_v91 (i := 36) rfl rfl, writes_sub main_v92 (i := 37) rfl rfl, writes_sub main_v93 (i := 38) rfl rfl,
    writes_sub main_cst_13 (i := 39) rfl rfl, writes_sub main_v94 (i := 40) rfl rfl, writes_sub main_v95 (i := 41) rfl rfl,
    writes_sub main_v96 (i := 42) rfl rfl, writes_sub main_v97 (i := 43) rfl rfl, writes_sub main_v98 (i := 44) rfl rfl,
    writes_sub main_v99 (i := 45) rfl rfl, writes_sub main_v100 (i := 46) rfl rfl, writes_sub main_v101 (i := 47) rfl rfl,
    writes_sub main_v102 (i := 48) rfl rfl, writes_sub main_v103 (i := 49) rfl rfl, writes_sub main_v104 (i := 50) rfl rfl,
    writes_sub main_v105 (i := 51) rfl rfl, writes_sub main_v106 (i := 52) rfl rfl, writes_sub main_v107 (i := 53) rfl rfl,
    writes_sub main_v108 (i := 54) rfl rfl, writes_sub main_v109 (i := 55) rfl rfl, writes_sub main_call2_cst (i := 56) rfl rfl,
    writes_sub main_call2_v0 (i := 57) rfl rfl, writes_sub main_call2_v1 (i := 58) rfl rfl, writes_sub main_call2_cst_0 (i := 59) rfl rfl,
    writes_sub main_call2_v2 (i := 60) rfl rfl, writes_sub main_call2_v3 (i := 61) rfl rfl, writes_sub main_call2_cst_1 (i := 62) rfl rfl,
    writes_sub main_call2_call0_v0 (i := 63) rfl rfl, writes_sub main_call2_call0_v1 (i := 64) rfl rfl, writes_sub main_call2_v4 (i := 65) rfl rfl,
    writes_sub main_call2_v5 (i := 66) rfl rfl, writes_sub main_call2_cst_2 (i := 67) rfl rfl, writes_sub main_call2_v6 (i := 68) rfl rfl,
    writes_sub main_call2_v7 (i := 69) rfl rfl, writes_sub main_v110 (i := 70) rfl rfl, writes_sub main_v111 (i := 71) rfl rfl,
    writes_sub main_v112 (i := 72) rfl rfl, writes_sub main_v113 (i := 73) rfl rfl, writes_sub main_v114 (i := 74) rfl rfl,
    writes_sub main_v115 (i := 75) rfl rfl, writes_sub main_v116 (i := 76) rfl rfl, writes_sub main_v117 (i := 77) rfl rfl,
    writes_sub main_v118 (i := 78) rfl rfl, writes_sub main_call3_cst (i := 79) rfl rfl, writes_sub main_call3_v0 (i := 80) rfl rfl,
    writes_sub main_call3_v1 (i := 81) rfl rfl, writes_sub main_call3_cst_0 (i := 82) rfl rfl, writes_sub main_call3_v2 (i := 83) rfl rfl,
    writes_sub main_call3_v3 (i := 84) rfl rfl, writes_sub main_call3_cst_1 (i := 85) rfl rfl, writes_sub main_call3_call0_v0 (i := 86) rfl rfl,
    writes_sub main_call3_call0_v1 (i := 87) rfl rfl, writes_sub main_call3_v4 (i := 88) rfl rfl, writes_sub main_call3_v5 (i := 89) rfl rfl,
    writes_sub main_call3_cst_2 (i := 90) rfl rfl, writes_sub main_call3_v6 (i := 91) rfl rfl, writes_sub main_call3_v7 (i := 92) rfl rfl,
    writes_sub main_v119 (i := 93) rfl rfl⟩

theorem opsLayer1_fresh : (opsLayer1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

/-! ## `opsLayer2` -/

/-- Layer 2 (`%c_14` … `%177`), in the same order as layer 0. 94 operations. -/
abbrev opsLayer2 : List (HloOp τ sig (Elt F)) :=
  [ StableHlo.nullary main_c_14 (constantI S_ 32 0#32),
    StableHlo.unary main_c_14 main_v120 (broadcastInDim S1600000 ![] bcast_S_S1600000 : (⟨S_, .i32⟩ : BufTy).Contents (Elt F) → (⟨S1600000, .i32⟩ : BufTy).Contents (Elt F)),
    StableHlo.binary main_v1 main_v120 main_v121 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v122 (broadcastInDim S1600000 ![] bcast_S_S1600000 : (⟨S_, .i32⟩ : BufTy).Contents (Elt F) → (⟨S1600000, .i32⟩ : BufTy).Contents (Elt F)),
    StableHlo.binary main_v1 main_v122 main_v123 (addi : (⟨S1600000, .i32⟩ : BufTy).Contents (Elt F) → (⟨S1600000, .i32⟩ : BufTy).Contents (Elt F) → (⟨S1600000, .i32⟩ : BufTy).Contents (Elt F)),
    StableHlo.ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v124 main_v125 (broadcastInDim S1600000x1 ![0] bcast_S1600000_S1600000x1_0 : (⟨S1600000, .i32⟩ : BufTy).Contents (Elt F) → (⟨S1600000x1, .i32⟩ : BufTy).Contents (Elt F)),
    StableHlo.binary main_v119 main_v125 main_v126 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v127 (broadcastInDim S100000x128 ![] bcast_S_S100000x128 : (⟨S_, .f32⟩ : BufTy).Contents (Elt F) → (⟨S100000x128, .f32⟩ : BufTy).Contents (Elt F)),
    StableHlo.unary main_v3 main_v128 (broadcastInDim S1600000x1 ![0] bcast_S1600000_S1600000x1_0 : (⟨S1600000, .i32⟩ : BufTy).Contents (Elt F) → (⟨S1600000x1, .i32⟩ : BufTy).Contents (Elt F)),
    StableHlo.ternary main_v127 main_v128 main_v126 main_v129 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v119 main_v129 main_v130 (addf : (⟨S100000x128, .f32⟩ : BufTy).Contents (Elt F) → (⟨S100000x128, .f32⟩ : BufTy).Contents (Elt F) → (⟨S100000x128, .f32⟩ : BufTy).Contents (Elt F)),
    StableHlo.unary main_arg3 main_v131 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v131 main_v132 rfl shapeCasts_S1x128x128_S128x128,
    StableHlo.binary main_v130 main_v132 main_v133 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v134 ((extractStridedSlice S1x128 ![2, 0] · slices_S4x128_S1x128_2_0) : (⟨S4x128, .f32⟩ : BufTy).Contents (Elt F) → (⟨S1x128, .f32⟩ : BufTy).Contents (Elt F)),
    StableHlo.reshape main_v134 main_v135 rfl shapeCasts_S1x128_S128,
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S100000x128 ![0, 1] bcast_S1x128_S100000x128_0_1 : (⟨S1x128, .f32⟩ : BufTy).Contents (Elt F) → (⟨S100000x128, .f32⟩ : BufTy).Contents (Elt F)),
    StableHlo.binary main_v133 main_v137 main_v138 (addf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v138 main_cst_17 main_v139 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v140 (broadcastInDim S128 ![] bcast_S_S128 : (⟨S_, .f32⟩ : BufTy).Contents (Elt F) → (⟨S128, .f32⟩ : BufTy).Contents (Elt F)),
    StableHlo.binary main_v139 main_v140 main_v141 (Host.divf : (⟨S128, .f32⟩ : BufTy).Contents (Elt F) → (⟨S128, .f32⟩ : BufTy).Contents (Elt F) → (⟨S128, .f32⟩ : BufTy).Contents (Elt F)),
    StableHlo.unary main_v141 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v143 main_v144 (subf : (⟨S100000x128, .f32⟩ : BufTy).Contents (Elt F) → (⟨S100000x128, .f32⟩ : BufTy).Contents (Elt F) → (⟨S100000x128, .f32⟩ : BufTy).Contents (Elt F)),
    StableHlo.binary main_v144 main_v144 main_v145 (mulf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.binary main_v145 main_cst_19 main_v146 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v147 (broadcastInDim S128 ![] bcast_S_S128 : (⟨S_, .f32⟩ : BufTy).Contents (Elt F) → (⟨S128, .f32⟩ : BufTy).Contents (Elt F)),
    StableHlo.binary main_v146 main_v147 main_v148 (Host.divf : (⟨S128, .f32⟩ : BufTy).Contents (Elt F) → (⟨S128, .f32⟩ : BufTy).Contents (Elt F) → (⟨S128, .f32⟩ : BufTy).Contents (Elt F)),
    StableHlo.unary main_v141 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v150 main_v151 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v152 (broadcastInDim S128 ![] bcast_S_S128 : (⟨S_, .f32⟩ : BufTy).Contents (Elt F) → (⟨S128, .f32⟩ : BufTy).Contents (Elt F)),
    StableHlo.binary main_v148 main_v152 main_v153 (addf : (⟨S128, .f32⟩ : BufTy).Contents (Elt F) → (⟨S128, .f32⟩ : BufTy).Contents (Elt F) → (⟨S128, .f32⟩ : BufTy).Contents (Elt F)),
    StableHlo.unary main_v153 main_v154 (Host.rsqrt : (⟨S128, .f32⟩ : BufTy).Contents (Elt F) → (⟨S128, .f32⟩ : BufTy).Contents (Elt F)),
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v156 main_v157 (mulf : (⟨S100000x128, .f32⟩ : BufTy).Contents (Elt F) → (⟨S100000x128, .f32⟩ : BufTy).Contents (Elt F) → (⟨S100000x128, .f32⟩ : BufTy).Contents (Elt F)),
    StableHlo.unary main_arg5 main_v158 ((extractStridedSlice S1x128 ![2, 0] · slices_S4x128_S1x128_2_0) : (⟨S4x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v161 main_v162 (mulf : (⟨S100000x128, .f32⟩ : BufTy).Contents (Elt F) → (⟨S100000x128, .f32⟩ : BufTy).Contents (Elt F) → (⟨S100000x128, .f32⟩ : BufTy).Contents (Elt F)),
    StableHlo.unary main_arg6 main_v163 ((extractStridedSlice S1x128 ![2, 0] · slices_S4x128_S1x128_2_0) : (⟨S4x128, .f32⟩ : BufTy).Contents (Elt F) → (⟨S1x128, .f32⟩ : BufTy).Contents (Elt F)),
    StableHlo.reshape main_v163 main_v164 rfl shapeCasts_S1x128_S128,
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v166 main_v167 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v167 : TRef sig ⟨S100000x128, .f32⟩) main_call4.v0 main_call4.v1 (cmpf .ogt),
    TRef.nullary main_call4.cst_0 (constant S_ .f32 0x00000000#32),
    TRef.unary main_call4.cst_0 main_call4.v2 (broadcastInDim S100000x128 ![] bcast_S_S100000x128),
    TRef.binary (.of main_v167 : TRef sig ⟨S100000x128, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S100000x128 ![] bcast_S_S100000x128),
    TRef.ternary main_call4.v3 main_call4.call0.v1 (.of main_v167 : TRef sig ⟨S100000x128, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S100000x128 ![] bcast_S_S100000x128),
    TRef.binary main_call4.v6 main_call4.v5 main_call4.v7 mulf,
    TRef.ternary main_call4.v1 (.of main_v167 : TRef sig ⟨S100000x128, .f32⟩) main_call4.v7 main_call4.call1.v0 select,
    StableHlo.unary main_arg7 main_v169 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v169 main_v170 rfl shapeCasts_S1x128x128_S128x128,
    StableHlo.binary main_v168 main_v170 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v172 ((extractStridedSlice S1x128 ![2, 0] · slices_S4x128_S1x128_2_0) : (⟨S4x128, .f32⟩ : BufTy).Contents (Elt F) → (⟨S1x128, .f32⟩ : BufTy).Contents (Elt F)),
    StableHlo.reshape main_v172 main_v173 rfl shapeCasts_S1x128_S128,
    StableHlo.unary main_v173 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v171 main_v175 main_v176 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v176 : TRef sig ⟨S100000x128, .f32⟩) main_call5.v0 main_call5.v1 (cmpf .ogt),
    TRef.nullary main_call5.cst_0 (constant S_ .f32 0x00000000#32),
    TRef.unary main_call5.cst_0 main_call5.v2 (broadcastInDim S100000x128 ![] bcast_S_S100000x128),
    TRef.binary (.of main_v176 : TRef sig ⟨S100000x128, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S100000x128 ![] bcast_S_S100000x128),
    TRef.ternary main_call5.v3 main_call5.call0.v1 (.of main_v176 : TRef sig ⟨S100000x128, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S100000x128 ![] bcast_S_S100000x128),
    TRef.binary main_call5.v6 main_call5.v5 main_call5.v7 mulf,
    TRef.ternary main_call5.v1 (.of main_v176 : TRef sig ⟨S100000x128, .f32⟩) main_call5.v7 main_call5.call1.v0 select ]

/-- The buffers `opsLayer2` writes, one per operation, in order. -/
abbrev wLayer2 : List (Ref sig .tc) :=
  [ main_c_14, main_v120, main_v121, main_c_15, main_v122, main_v123, main_v124, main_v125,
    main_v126, main_cst_16, main_v127, main_v128, main_v129, main_v130, main_v131, main_v132,
    main_v133, main_v134, main_v135, main_v136, main_v137, main_v138, main_cst_17, main_v139,
    main_cst_18, main_v140, main_v141, main_v142, main_v143, main_v144, main_v145, main_cst_19,
    main_v146, main_cst_20, main_v147, main_v148, main_v149, main_v150, main_v151, main_cst_21,
    main_v152, main_v153, main_v154, main_v155, main_v156, main_v157, main_v158, main_v159,
    main_v160, main_v161, main_v162, main_v163, main_v164, main_v165, main_v166, main_v167,
    main_call4_cst, main_call4_v0, main_call4_v1, main_call4_cst_0, main_call4_v2, main_call4_v3, main_call4_cst_1, main_call4_call0_v0,
    main_call4_call0_v1, main_call4_v4, main_call4_v5, main_call4_cst_2, main_call4_v6, main_call4_v7, main_v168, main_v169,
    main_v170, main_v171, main_v172, main_v173, main_v174, main_v175, main_v176, main_call5_cst,
    main_call5_v0, main_call5_v1, main_call5_cst_0, main_call5_v2, main_call5_v3, main_call5_cst_1, main_call5_call0_v0, main_call5_call0_v1,
    main_call5_v4, main_call5_v5, main_call5_cst_2, main_call5_v6, main_call5_v7, main_v177 ]

theorem opsLayer2_sub : (opsLayer2 (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

theorem opsLayer2_writes : (opsLayer2 (F := F)).Forall fun op => op.writes ⊆ (wLayer2.map (Proc.devRef (τ := τ) .tc)).toFinset :=
  ⟨writes_sub main_c_14 (i := 0) rfl rfl, writes_sub main_v120 (i := 1) rfl rfl, writes_sub main_v121 (i := 2) rfl rfl,
    writes_sub main_c_15 (i := 3) rfl rfl, writes_sub main_v122 (i := 4) rfl rfl, writes_sub main_v123 (i := 5) rfl rfl,
    writes_sub main_v124 (i := 6) rfl rfl, writes_sub main_v125 (i := 7) rfl rfl, writes_sub main_v126 (i := 8) rfl rfl,
    writes_sub main_cst_16 (i := 9) rfl rfl, writes_sub main_v127 (i := 10) rfl rfl, writes_sub main_v128 (i := 11) rfl rfl,
    writes_sub main_v129 (i := 12) rfl rfl, writes_sub main_v130 (i := 13) rfl rfl, writes_sub main_v131 (i := 14) rfl rfl,
    writes_sub main_v132 (i := 15) rfl rfl, writes_sub main_v133 (i := 16) rfl rfl, writes_sub main_v134 (i := 17) rfl rfl,
    writes_sub main_v135 (i := 18) rfl rfl, writes_sub main_v136 (i := 19) rfl rfl, writes_sub main_v137 (i := 20) rfl rfl,
    writes_sub main_v138 (i := 21) rfl rfl, writes_sub main_cst_17 (i := 22) rfl rfl, writes_sub main_v139 (i := 23) rfl rfl,
    writes_sub main_cst_18 (i := 24) rfl rfl, writes_sub main_v140 (i := 25) rfl rfl, writes_sub main_v141 (i := 26) rfl rfl,
    writes_sub main_v142 (i := 27) rfl rfl, writes_sub main_v143 (i := 28) rfl rfl, writes_sub main_v144 (i := 29) rfl rfl,
    writes_sub main_v145 (i := 30) rfl rfl, writes_sub main_cst_19 (i := 31) rfl rfl, writes_sub main_v146 (i := 32) rfl rfl,
    writes_sub main_cst_20 (i := 33) rfl rfl, writes_sub main_v147 (i := 34) rfl rfl, writes_sub main_v148 (i := 35) rfl rfl,
    writes_sub main_v149 (i := 36) rfl rfl, writes_sub main_v150 (i := 37) rfl rfl, writes_sub main_v151 (i := 38) rfl rfl,
    writes_sub main_cst_21 (i := 39) rfl rfl, writes_sub main_v152 (i := 40) rfl rfl, writes_sub main_v153 (i := 41) rfl rfl,
    writes_sub main_v154 (i := 42) rfl rfl, writes_sub main_v155 (i := 43) rfl rfl, writes_sub main_v156 (i := 44) rfl rfl,
    writes_sub main_v157 (i := 45) rfl rfl, writes_sub main_v158 (i := 46) rfl rfl, writes_sub main_v159 (i := 47) rfl rfl,
    writes_sub main_v160 (i := 48) rfl rfl, writes_sub main_v161 (i := 49) rfl rfl, writes_sub main_v162 (i := 50) rfl rfl,
    writes_sub main_v163 (i := 51) rfl rfl, writes_sub main_v164 (i := 52) rfl rfl, writes_sub main_v165 (i := 53) rfl rfl,
    writes_sub main_v166 (i := 54) rfl rfl, writes_sub main_v167 (i := 55) rfl rfl, writes_sub main_call4_cst (i := 56) rfl rfl,
    writes_sub main_call4_v0 (i := 57) rfl rfl, writes_sub main_call4_v1 (i := 58) rfl rfl, writes_sub main_call4_cst_0 (i := 59) rfl rfl,
    writes_sub main_call4_v2 (i := 60) rfl rfl, writes_sub main_call4_v3 (i := 61) rfl rfl, writes_sub main_call4_cst_1 (i := 62) rfl rfl,
    writes_sub main_call4_call0_v0 (i := 63) rfl rfl, writes_sub main_call4_call0_v1 (i := 64) rfl rfl, writes_sub main_call4_v4 (i := 65) rfl rfl,
    writes_sub main_call4_v5 (i := 66) rfl rfl, writes_sub main_call4_cst_2 (i := 67) rfl rfl, writes_sub main_call4_v6 (i := 68) rfl rfl,
    writes_sub main_call4_v7 (i := 69) rfl rfl, writes_sub main_v168 (i := 70) rfl rfl, writes_sub main_v169 (i := 71) rfl rfl,
    writes_sub main_v170 (i := 72) rfl rfl, writes_sub main_v171 (i := 73) rfl rfl, writes_sub main_v172 (i := 74) rfl rfl,
    writes_sub main_v173 (i := 75) rfl rfl, writes_sub main_v174 (i := 76) rfl rfl, writes_sub main_v175 (i := 77) rfl rfl,
    writes_sub main_v176 (i := 78) rfl rfl, writes_sub main_call5_cst (i := 79) rfl rfl, writes_sub main_call5_v0 (i := 80) rfl rfl,
    writes_sub main_call5_v1 (i := 81) rfl rfl, writes_sub main_call5_cst_0 (i := 82) rfl rfl, writes_sub main_call5_v2 (i := 83) rfl rfl,
    writes_sub main_call5_v3 (i := 84) rfl rfl, writes_sub main_call5_cst_1 (i := 85) rfl rfl, writes_sub main_call5_call0_v0 (i := 86) rfl rfl,
    writes_sub main_call5_call0_v1 (i := 87) rfl rfl, writes_sub main_call5_v4 (i := 88) rfl rfl, writes_sub main_call5_v5 (i := 89) rfl rfl,
    writes_sub main_call5_cst_2 (i := 90) rfl rfl, writes_sub main_call5_v6 (i := 91) rfl rfl, writes_sub main_call5_v7 (i := 92) rfl rfl,
    writes_sub main_v177 (i := 93) rfl rfl⟩

theorem opsLayer2_fresh : (opsLayer2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

/-! ## `opsLayer3` -/

/-- Layer 3 (`%c_22` … `%235`), in the same order as layer 0. 94 operations. -/
abbrev opsLayer3 : List (HloOp τ sig (Elt F)) :=
  [ StableHlo.nullary main_c_22 (constantI S_ 32 0#32),
    StableHlo.unary main_c_22 main_v178 (broadcastInDim S1600000 ![] bcast_S_S1600000 : (⟨S_, .i32⟩ : BufTy).Contents (Elt F) → (⟨S1600000, .i32⟩ : BufTy).Contents (Elt F)),
    StableHlo.binary main_v1 main_v178 main_v179 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v180 (broadcastInDim S1600000 ![] bcast_S_S1600000 : (⟨S_, .i32⟩ : BufTy).Contents (Elt F) → (⟨S1600000, .i32⟩ : BufTy).Contents (Elt F)),
    StableHlo.binary main_v1 main_v180 main_v181 (addi : (⟨S1600000, .i32⟩ : BufTy).Contents (Elt F) → (⟨S1600000, .i32⟩ : BufTy).Contents (Elt F) → (⟨S1600000, .i32⟩ : BufTy).Contents (Elt F)),
    StableHlo.ternary main_v179 main_v181 main_v1 main_v182 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v182 main_v183 (broadcastInDim S1600000x1 ![0] bcast_S1600000_S1600000x1_0 : (⟨S1600000, .i32⟩ : BufTy).Contents (Elt F) → (⟨S1600000x1, .i32⟩ : BufTy).Contents (Elt F)),
    StableHlo.binary main_v177 main_v183 main_v184 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v185 (broadcastInDim S100000x128 ![] bcast_S_S100000x128 : (⟨S_, .f32⟩ : BufTy).Contents (Elt F) → (⟨S100000x128, .f32⟩ : BufTy).Contents (Elt F)),
    StableHlo.unary main_v3 main_v186 (broadcastInDim S1600000x1 ![0] bcast_S1600000_S1600000x1_0 : (⟨S1600000, .i32⟩ : BufTy).Contents (Elt F) → (⟨S1600000x1, .i32⟩ : BufTy).Contents (Elt F)),
    StableHlo.ternary main_v185 main_v186 main_v184 main_v187 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v177 main_v187 main_v188 (addf : (⟨S100000x128, .f32⟩ : BufTy).Contents (Elt F) → (⟨S100000x128, .f32⟩ : BufTy).Contents (Elt F) → (⟨S100000x128, .f32⟩ : BufTy).Contents (Elt F)),
    StableHlo.unary main_arg3 main_v189 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v189 main_v190 rfl shapeCasts_S1x128x128_S128x128,
    StableHlo.binary main_v188 main_v190 main_v191 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v192 ((extractStridedSlice S1x128 ![3, 0] · slices_S4x128_S1x128_3_0) : (⟨S4x128, .f32⟩ : BufTy).Contents (Elt F) → (⟨S1x128, .f32⟩ : BufTy).Contents (Elt F)),
    StableHlo.reshape main_v192 main_v193 rfl shapeCasts_S1x128_S128,
    StableHlo.unary main_v193 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v191 main_v195 main_v196 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.binary main_v196 main_cst_25 main_v197 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_26 (constant S_ .f32 0x47C35000#32),
    StableHlo.unary main_cst_26 main_v198 (broadcastInDim S128 ![] bcast_S_S128 : (⟨S_, .f32⟩ : BufTy).Contents (Elt F) → (⟨S128, .f32⟩ : BufTy).Contents (Elt F)),
    StableHlo.binary main_v197 main_v198 main_v199 (Host.divf : (⟨S128, .f32⟩ : BufTy).Contents (Elt F) → (⟨S128, .f32⟩ : BufTy).Contents (Elt F) → (⟨S128, .f32⟩ : BufTy).Contents (Elt F)),
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v196 main_v201 main_v202 (subf : (⟨S100000x128, .f32⟩ : BufTy).Contents (Elt F) → (⟨S100000x128, .f32⟩ : BufTy).Contents (Elt F) → (⟨S100000x128, .f32⟩ : BufTy).Contents (Elt F)),
    StableHlo.binary main_v202 main_v202 main_v203 (mulf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x00000000#32),
    StableHlo.binary main_v203 main_cst_27 main_v204 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_28 (constant S_ .f32 0x47C35000#32),
    StableHlo.unary main_cst_28 main_v205 (broadcastInDim S128 ![] bcast_S_S128 : (⟨S_, .f32⟩ : BufTy).Contents (Elt F) → (⟨S128, .f32⟩ : BufTy).Contents (Elt F)),
    StableHlo.binary main_v204 main_v205 main_v206 (Host.divf : (⟨S128, .f32⟩ : BufTy).Contents (Elt F) → (⟨S128, .f32⟩ : BufTy).Contents (Elt F) → (⟨S128, .f32⟩ : BufTy).Contents (Elt F)),
    StableHlo.unary main_v199 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)),
    StableHlo.binary main_v196 main_v208 main_v209 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v210 (broadcastInDim S128 ![] bcast_S_S128 : (⟨S_, .f32⟩ : BufTy).Contents (Elt F) → (⟨S128, .f32⟩ : BufTy).Contents (Elt F)),
    StableHlo.binary main_v206 main_v210 main_v211 (addf : (⟨S128, .f32⟩ : BufTy).Contents (Elt F) → (⟨S128, .f32⟩ : BufTy).Contents (Elt F) → (⟨S128, .f32⟩ : BufTy).Contents (Elt F)),
    StableHlo.unary main_v211 main_v212 (Host.rsqrt : (⟨S128, .f32⟩ : BufTy).Contents (Elt F) → (⟨S128, .f32⟩ : BufTy).Contents (Elt F)),
    StableHlo.unary main_v212 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v214 main_v215 (mulf : (⟨S100000x128, .f32⟩ : BufTy).Contents (Elt F) → (⟨S100000x128, .f32⟩ : BufTy).Contents (Elt F) → (⟨S100000x128, .f32⟩ : BufTy).Contents (Elt F)),
    StableHlo.unary main_arg5 main_v216 ((extractStridedSlice S1x128 ![3, 0] · slices_S4x128_S1x128_3_0) : (⟨S4x128, .f32⟩ : BufTy).Contents (Elt F) → (⟨S1x128, .f32⟩ : BufTy).Contents (Elt F)),
    StableHlo.reshape main_v216 main_v217 rfl shapeCasts_S1x128_S128,
    StableHlo.unary main_v217 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v219 main_v220 (mulf : (⟨S100000x128, .f32⟩ : BufTy).Contents (Elt F) → (⟨S100000x128, .f32⟩ : BufTy).Contents (Elt F) → (⟨S100000x128, .f32⟩ : BufTy).Contents (Elt F)),
    StableHlo.unary main_arg6 main_v221 ((extractStridedSlice S1x128 ![3, 0] · slices_S4x128_S1x128_3_0) : (⟨S4x128, .f32⟩ : BufTy).Contents (Elt F) → (⟨S1x128, .f32⟩ : BufTy).Contents (Elt F)),
    StableHlo.reshape main_v221 main_v222 rfl shapeCasts_S1x128_S128,
    StableHlo.unary main_v222 main_v223 (broadcastInDim S1x128 ![1] bcast_S128_S1x128_1 : (⟨S128, .f32⟩ : BufTy).Contents (Elt F) → (⟨S1x128, .f32⟩ : BufTy).Contents (Elt F)),
    StableHlo.unary main_v223 main_v224 (broadcastInDim S100000x128 ![0, 1] bcast_S1x128_S100000x128_0_1 : (⟨S1x128, .f32⟩ : BufTy).Contents (Elt F) → (⟨S100000x128, .f32⟩ : BufTy).Contents (Elt F)),
    StableHlo.binary main_v220 main_v224 main_v225 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v225 : TRef sig ⟨S100000x128, .f32⟩) main_call6.v0 main_call6.v1 (cmpf .ogt),
    TRef.nullary main_call6.cst_0 (constant S_ .f32 0x00000000#32),
    TRef.unary main_call6.cst_0 main_call6.v2 (broadcastInDim S100000x128 ![] bcast_S_S100000x128),
    TRef.binary (.of main_v225 : TRef sig ⟨S100000x128, .f32⟩) main_call6.v2 main_call6.v3 (cmpf .ogt),
    TRef.nullary main_call6.cst_1 (constant S_ .f32 0x00000000#32),
    TRef.unary main_call6.cst_1 main_call6.call0.v0 id,
    TRef.unary main_call6.call0.v0 main_call6.call0.v1 (broadcastInDim S100000x128 ![] bcast_S_S100000x128),
    TRef.ternary main_call6.v3 main_call6.call0.v1 (.of main_v225 : TRef sig ⟨S100000x128, .f32⟩) main_call6.call0.v2 select,
    TRef.unary main_call6.call0.v2 main_call6.v5 Host.expm1,
    TRef.nullary main_call6.cst_2 (constant S_ .f32 0x3F800000#32),
    TRef.unary main_call6.cst_2 main_call6.v6 (broadcastInDim S100000x128 ![] bcast_S_S100000x128),
    TRef.binary main_call6.v6 main_call6.v5 main_call6.v7 mulf,
    TRef.ternary main_call6.v1 (.of main_v225 : TRef sig ⟨S100000x128, .f32⟩) main_call6.v7 main_call6.call1.v0 select,
    StableHlo.unary main_arg7 main_v227 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v227 main_v228 rfl shapeCasts_S1x128x128_S128x128,
    StableHlo.binary main_v226 main_v228 main_v229 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v230 ((extractStridedSlice S1x128 ![3, 0] · slices_S4x128_S1x128_3_0) : (⟨S4x128, .f32⟩ : BufTy).Contents (Elt F) → (⟨S1x128, .f32⟩ : BufTy).Contents (Elt F)),
    StableHlo.reshape main_v230 main_v231 rfl shapeCasts_S1x128_S128,
    StableHlo.unary main_v231 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S100000x128 ![0, 1] bcast_S1x128_S100000x128_0_1 : (⟨S1x128, .f32⟩ : BufTy).Contents (Elt F) → (⟨S100000x128, .f32⟩ : BufTy).Contents (Elt F)),
    StableHlo.binary main_v229 main_v233 main_v234 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v234 : TRef sig ⟨S100000x128, .f32⟩) main_call7.v0 main_call7.v1 (cmpf .ogt),
    TRef.nullary main_call7.cst_0 (constant S_ .f32 0x00000000#32),
    TRef.unary main_call7.cst_0 main_call7.v2 (broadcastInDim S100000x128 ![] bcast_S_S100000x128),
    TRef.binary (.of main_v234 : TRef sig ⟨S100000x128, .f32⟩) main_call7.v2 main_call7.v3 (cmpf .ogt),
    TRef.nullary main_call7.cst_1 (constant S_ .f32 0x00000000#32),
    TRef.unary main_call7.cst_1 main_call7.call0.v0 id,
    TRef.unary main_call7.call0.v0 main_call7.call0.v1 (broadcastInDim S100000x128 ![] bcast_S_S100000x128),
    TRef.ternary main_call7.v3 main_call7.call0.v1 (.of main_v234 : TRef sig ⟨S100000x128, .f32⟩) main_call7.call0.v2 select,
    TRef.unary main_call7.call0.v2 main_call7.v5 Host.expm1,
    TRef.nullary main_call7.cst_2 (constant S_ .f32 0x3F800000#32),
    TRef.unary main_call7.cst_2 main_call7.v6 (broadcastInDim S100000x128 ![] bcast_S_S100000x128),
    TRef.binary main_call7.v6 main_call7.v5 main_call7.v7 mulf,
    TRef.ternary main_call7.v1 (.of main_v234 : TRef sig ⟨S100000x128, .f32⟩) main_call7.v7 main_call7.call1.v0 select ]

/-- The buffers `opsLayer3` writes, one per operation, in order. -/
abbrev wLayer3 : List (Ref sig .tc) :=
  [ main_c_22, main_v178, main_v179, main_c_23, main_v180, main_v181, main_v182, main_v183,
    main_v184, main_cst_24, main_v185, main_v186, main_v187, main_v188, main_v189, main_v190,
    main_v191, main_v192, main_v193, main_v194, main_v195, main_v196, main_cst_25, main_v197,
    main_cst_26, main_v198, main_v199, main_v200, main_v201, main_v202, main_v203, main_cst_27,
    main_v204, main_cst_28, main_v205, main_v206, main_v207, main_v208, main_v209, main_cst_29,
    main_v210, main_v211, main_v212, main_v213, main_v214, main_v215, main_v216, main_v217,
    main_v218, main_v219, main_v220, main_v221, main_v222, main_v223, main_v224, main_v225,
    main_call6_cst, main_call6_v0, main_call6_v1, main_call6_cst_0, main_call6_v2, main_call6_v3, main_call6_cst_1, main_call6_call0_v0,
    main_call6_call0_v1, main_call6_v4, main_call6_v5, main_call6_cst_2, main_call6_v6, main_call6_v7, main_v226, main_v227,
    main_v228, main_v229, main_v230, main_v231, main_v232, main_v233, main_v234, main_call7_cst,
    main_call7_v0, main_call7_v1, main_call7_cst_0, main_call7_v2, main_call7_v3, main_call7_cst_1, main_call7_call0_v0, main_call7_call0_v1,
    main_call7_v4, main_call7_v5, main_call7_cst_2, main_call7_v6, main_call7_v7, main_v235 ]

theorem opsLayer3_sub : (opsLayer3 (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

theorem opsLayer3_writes : (opsLayer3 (F := F)).Forall fun op => op.writes ⊆ (wLayer3.map (Proc.devRef (τ := τ) .tc)).toFinset :=
  ⟨writes_sub main_c_22 (i := 0) rfl rfl, writes_sub main_v178 (i := 1) rfl rfl, writes_sub main_v179 (i := 2) rfl rfl,
    writes_sub main_c_23 (i := 3) rfl rfl, writes_sub main_v180 (i := 4) rfl rfl, writes_sub main_v181 (i := 5) rfl rfl,
    writes_sub main_v182 (i := 6) rfl rfl, writes_sub main_v183 (i := 7) rfl rfl, writes_sub main_v184 (i := 8) rfl rfl,
    writes_sub main_cst_24 (i := 9) rfl rfl, writes_sub main_v185 (i := 10) rfl rfl, writes_sub main_v186 (i := 11) rfl rfl,
    writes_sub main_v187 (i := 12) rfl rfl, writes_sub main_v188 (i := 13) rfl rfl, writes_sub main_v189 (i := 14) rfl rfl,
    writes_sub main_v190 (i := 15) rfl rfl, writes_sub main_v191 (i := 16) rfl rfl, writes_sub main_v192 (i := 17) rfl rfl,
    writes_sub main_v193 (i := 18) rfl rfl, writes_sub main_v194 (i := 19) rfl rfl, writes_sub main_v195 (i := 20) rfl rfl,
    writes_sub main_v196 (i := 21) rfl rfl, writes_sub main_cst_25 (i := 22) rfl rfl, writes_sub main_v197 (i := 23) rfl rfl,
    writes_sub main_cst_26 (i := 24) rfl rfl, writes_sub main_v198 (i := 25) rfl rfl, writes_sub main_v199 (i := 26) rfl rfl,
    writes_sub main_v200 (i := 27) rfl rfl, writes_sub main_v201 (i := 28) rfl rfl, writes_sub main_v202 (i := 29) rfl rfl,
    writes_sub main_v203 (i := 30) rfl rfl, writes_sub main_cst_27 (i := 31) rfl rfl, writes_sub main_v204 (i := 32) rfl rfl,
    writes_sub main_cst_28 (i := 33) rfl rfl, writes_sub main_v205 (i := 34) rfl rfl, writes_sub main_v206 (i := 35) rfl rfl,
    writes_sub main_v207 (i := 36) rfl rfl, writes_sub main_v208 (i := 37) rfl rfl, writes_sub main_v209 (i := 38) rfl rfl,
    writes_sub main_cst_29 (i := 39) rfl rfl, writes_sub main_v210 (i := 40) rfl rfl, writes_sub main_v211 (i := 41) rfl rfl,
    writes_sub main_v212 (i := 42) rfl rfl, writes_sub main_v213 (i := 43) rfl rfl, writes_sub main_v214 (i := 44) rfl rfl,
    writes_sub main_v215 (i := 45) rfl rfl, writes_sub main_v216 (i := 46) rfl rfl, writes_sub main_v217 (i := 47) rfl rfl,
    writes_sub main_v218 (i := 48) rfl rfl, writes_sub main_v219 (i := 49) rfl rfl, writes_sub main_v220 (i := 50) rfl rfl,
    writes_sub main_v221 (i := 51) rfl rfl, writes_sub main_v222 (i := 52) rfl rfl, writes_sub main_v223 (i := 53) rfl rfl,
    writes_sub main_v224 (i := 54) rfl rfl, writes_sub main_v225 (i := 55) rfl rfl, writes_sub main_call6_cst (i := 56) rfl rfl,
    writes_sub main_call6_v0 (i := 57) rfl rfl, writes_sub main_call6_v1 (i := 58) rfl rfl, writes_sub main_call6_cst_0 (i := 59) rfl rfl,
    writes_sub main_call6_v2 (i := 60) rfl rfl, writes_sub main_call6_v3 (i := 61) rfl rfl, writes_sub main_call6_cst_1 (i := 62) rfl rfl,
    writes_sub main_call6_call0_v0 (i := 63) rfl rfl, writes_sub main_call6_call0_v1 (i := 64) rfl rfl, writes_sub main_call6_v4 (i := 65) rfl rfl,
    writes_sub main_call6_v5 (i := 66) rfl rfl, writes_sub main_call6_cst_2 (i := 67) rfl rfl, writes_sub main_call6_v6 (i := 68) rfl rfl,
    writes_sub main_call6_v7 (i := 69) rfl rfl, writes_sub main_v226 (i := 70) rfl rfl, writes_sub main_v227 (i := 71) rfl rfl,
    writes_sub main_v228 (i := 72) rfl rfl, writes_sub main_v229 (i := 73) rfl rfl, writes_sub main_v230 (i := 74) rfl rfl,
    writes_sub main_v231 (i := 75) rfl rfl, writes_sub main_v232 (i := 76) rfl rfl, writes_sub main_v233 (i := 77) rfl rfl,
    writes_sub main_v234 (i := 78) rfl rfl, writes_sub main_call7_cst (i := 79) rfl rfl, writes_sub main_call7_v0 (i := 80) rfl rfl,
    writes_sub main_call7_v1 (i := 81) rfl rfl, writes_sub main_call7_cst_0 (i := 82) rfl rfl, writes_sub main_call7_v2 (i := 83) rfl rfl,
    writes_sub main_call7_v3 (i := 84) rfl rfl, writes_sub main_call7_cst_1 (i := 85) rfl rfl, writes_sub main_call7_call0_v0 (i := 86) rfl rfl,
    writes_sub main_call7_call0_v1 (i := 87) rfl rfl, writes_sub main_call7_v4 (i := 88) rfl rfl, writes_sub main_call7_v5 (i := 89) rfl rfl,
    writes_sub main_call7_cst_2 (i := 90) rfl rfl, writes_sub main_call7_v6 (i := 91) rfl rfl, writes_sub main_call7_v7 (i := 92) rfl rfl,
    writes_sub main_v235 (i := 93) rfl rfl⟩

theorem opsLayer3_fresh : (opsLayer3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

/-! ## `opsTail` -/

/-- The pooling over the graph index and the linear head (`%cst_30` … `%250`). 19 operations. -/
abbrev opsTail : List (HloOp τ sig (Elt F)) :=
  [ StableHlo.nullary main_cst_30 (constant S_ .f32 0x00000000#32),
    StableHlo.unary main_cst_30 main_v236 (broadcastInDim S512x128 ![] bcast_S_S512x128 : (⟨S_, .f32⟩ : BufTy).Contents (Elt F) → (⟨S512x128, .f32⟩ : BufTy).Contents (Elt F)),
    StableHlo.unary main_arg2 main_v237 (broadcastInDim S100000x1 ![0] bcast_S100000_S100000x1_0 : (⟨S100000, .i32⟩ : BufTy).Contents (Elt F) → (⟨S100000x1, .i32⟩ : BufTy).Contents (Elt F)),
    StableHlo.ternary main_v236 main_v237 main_v235 main_v238 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_31 (constant S_ .f32 0x3F800000#32),
    StableHlo.unary main_cst_31 main_v239 (broadcastInDim S100000x1 ![] bcast_S_S100000x1 : (⟨S_, .f32⟩ : BufTy).Contents (Elt F) → (⟨S100000x1, .f32⟩ : BufTy).Contents (Elt F)),
    StableHlo.nullary main_cst_32 (constant S_ .f32 0x00000000#32),
    StableHlo.unary main_cst_32 main_v240 (broadcastInDim S512x1 ![] bcast_S_S512x1 : (⟨S_, .f32⟩ : BufTy).Contents (Elt F) → (⟨S512x1, .f32⟩ : BufTy).Contents (Elt F)),
    StableHlo.unary main_arg2 main_v241 (broadcastInDim S100000x1 ![0] bcast_S100000_S100000x1_0 : (⟨S100000, .i32⟩ : BufTy).Contents (Elt F) → (⟨S100000x1, .i32⟩ : BufTy).Contents (Elt F)),
    StableHlo.ternary main_v240 main_v241 main_v239 main_v242 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    StableHlo.nullary main_cst_33 (constant S_ .f32 0x3F800000#32),
    StableHlo.unary main_cst_33 main_v243 (broadcastInDim S512x1 ![] bcast_S_S512x1 : (⟨S_, .f32⟩ : BufTy).Contents (Elt F) → (⟨S512x1, .f32⟩ : BufTy).Contents (Elt F)),
    StableHlo.binary main_v242 main_v243 main_v244 (maximumf : (⟨S512x1, .f32⟩ : BufTy).Contents (Elt F) → (⟨S512x1, .f32⟩ : BufTy).Contents (Elt F) → (⟨S512x1, .f32⟩ : BufTy).Contents (Elt F)),
    StableHlo.unary main_v244 main_v245 (broadcastInDim S512x128 ![0, 1] bcast_S512x1_S512x128_0_1 : (⟨S512x1, .f32⟩ : BufTy).Contents (Elt F) → (⟨S512x128, .f32⟩ : BufTy).Contents (Elt F)),
    StableHlo.binary main_v238 main_v245 main_v246 (Host.divf : (⟨S512x128, .f32⟩ : BufTy).Contents (Elt F) → (⟨S512x128, .f32⟩ : BufTy).Contents (Elt F) → (⟨S512x128, .f32⟩ : BufTy).Contents (Elt F)),
    StableHlo.binary main_v246 main_arg9 main_v247 ((fun l r => Host.dotGeneral dot_S512x128_S128x2_S512x2_1_0_0_1_n_n none l r) : (⟨S512x128, .f32⟩ : BufTy).Contents (Elt F) → (⟨S128x2, .f32⟩ : BufTy).Contents (Elt F) → (⟨S512x2, .f32⟩ : BufTy).Contents (Elt F)),
    StableHlo.unary main_arg10 main_v248 (broadcastInDim S1x2 ![1] bcast_S2_S1x2_1 : (⟨S2, .f32⟩ : BufTy).Contents (Elt F) → (⟨S1x2, .f32⟩ : BufTy).Contents (Elt F)),
    StableHlo.unary main_v248 main_v249 (broadcastInDim S512x2 ![0, 1] bcast_S1x2_S512x2_0_1 : (⟨S1x2, .f32⟩ : BufTy).Contents (Elt F) → (⟨S512x2, .f32⟩ : BufTy).Contents (Elt F)),
    StableHlo.binary main_v247 main_v249 main_v250 (addf : (⟨S512x2, .f32⟩ : BufTy).Contents (Elt F) → (⟨S512x2, .f32⟩ : BufTy).Contents (Elt F) → (⟨S512x2, .f32⟩ : BufTy).Contents (Elt F)) ]

/-- The buffers `opsTail` writes, one per operation, in order. -/
abbrev wTail : List (Ref sig .tc) :=
  [ main_cst_30, main_v236, main_v237, main_v238, main_cst_31, main_v239, main_cst_32, main_v240,
    main_v241, main_v242, main_cst_33, main_v243, main_v244, main_v245, main_v246, main_v247,
    main_v248, main_v249, main_v250 ]

theorem opsTail_sub : (opsTail (F := F)).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., binary_bufs_sub .., unary_bufs_sub .., unary_bufs_sub ..,
    binary_bufs_sub ..⟩

theorem opsTail_writes : (opsTail (F := F)).Forall fun op => op.writes ⊆ (wTail.map (Proc.devRef (τ := τ) .tc)).toFinset :=
  ⟨writes_sub main_cst_30 (i := 0) rfl rfl, writes_sub main_v236 (i := 1) rfl rfl, writes_sub main_v237 (i := 2) rfl rfl,
    writes_sub main_v238 (i := 3) rfl rfl, writes_sub main_cst_31 (i := 4) rfl rfl, writes_sub main_v239 (i := 5) rfl rfl,
    writes_sub main_cst_32 (i := 6) rfl rfl, writes_sub main_v240 (i := 7) rfl rfl, writes_sub main_v241 (i := 8) rfl rfl,
    writes_sub main_v242 (i := 9) rfl rfl, writes_sub main_cst_33 (i := 10) rfl rfl, writes_sub main_v243 (i := 11) rfl rfl,
    writes_sub main_v244 (i := 12) rfl rfl, writes_sub main_v245 (i := 13) rfl rfl, writes_sub main_v246 (i := 14) rfl rfl,
    writes_sub main_v247 (i := 15) rfl rfl, writes_sub main_v248 (i := 16) rfl rfl, writes_sub main_v249 (i := 17) rfl rfl,
    writes_sub main_v250 (i := 18) rfl rfl⟩

theorem opsTail_fresh : (opsTail (F := F)).Forall fun op => op.fresh = ∅ :=
  ⟨rfl, rfl, rfl, rfl, rfl, rfl, rfl, rfl, rfl, rfl, rfl, rfl, rfl, rfl, rfl, rfl, rfl, rfl, rfl⟩

/-! ## The whole line -/

/-- @main's operations, in order: the chunks appended. -/
abbrev ops : List (HloOp τ sig (Elt F)) :=
  opsPre ++ opsLayer0 ++ opsLayer1 ++ opsLayer2 ++ opsLayer3 ++ opsTail

/-- A property of every operation of every chunk is one of every operation of the line. -/
theorem forall_ops {p : HloOp τ sig (Elt F) → Prop} (h0 : (opsPre (F := F)).Forall p) (h1 : (opsLayer0 (F := F)).Forall p)
    (h2 : (opsLayer1 (F := F)).Forall p) (h3 : (opsLayer2 (F := F)).Forall p) (h4 : (opsLayer3 (F := F)).Forall p)
    (h5 : (opsTail (F := F)).Forall p) : (ops (F := F)).Forall p :=
  List.forall_append.mpr ⟨List.forall_append.mpr ⟨List.forall_append.mpr ⟨List.forall_append.mpr
    ⟨List.forall_append.mpr ⟨h0, h1⟩, h2⟩, h3⟩, h4⟩, h5⟩

theorem ops_sub : (ops (F := F)).Forall fun op => op.bufs ⊆ tcRefs τ sig :=
  forall_ops opsPre_sub opsLayer0_sub opsLayer1_sub opsLayer2_sub opsLayer3_sub opsTail_sub

theorem ops_fresh : ∀ op ∈ (ops (F := F)), op.fresh = ∅ :=
  List.forall_iff_forall_mem.mp
    (forall_ops opsPre_fresh opsLayer0_fresh opsLayer1_fresh opsLayer2_fresh opsLayer3_fresh opsTail_fresh)

/-- A buffer none of the chunks writes holds after the whole line what it held before. -/
theorem after_ops_of_not_written (V : Valuation τ sig (Elt F)) {r : Ref sig .tc} (h0 : r ∉ wPre) (h1 : r ∉ wLayer0)
    (h2 : r ∉ wLayer1) (h3 : r ∉ wLayer2) (h4 : r ∉ wLayer3) (h5 : r ∉ wTail) :
    after (ops (F := F)) V (Proc.devRef .tc r) = V (Proc.devRef .tc r) :=
  after_of_forall_not_mem ops V (List.forall_iff_forall_mem.mp
    (forall_ops (not_written_of opsPre_writes h0) (not_written_of opsLayer0_writes h1) (not_written_of opsLayer1_writes h2)
      (not_written_of opsLayer2_writes h3) (not_written_of opsLayer3_writes h4) (not_written_of opsTail_writes h5)))

end Cert.ReferenceIdeal.RefRun

end
-- ==== Proof.RefRunB.lean ====
/-
  @main is the line of its operations. @main is printed as five consecutive windows of statements; each window is
  the line of its own operations (the outlined bodies unfold at their calls), the windows appended are the chunks
  appended, and a line of an append is the lines one after the other.
-/
import proofs.«163505_j89335319757549_1_alg».proof.Proof.RefRunA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, the calls written out. 60 operations. -/
abbrev win0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v18 ((extractStridedSlice S1x128 ![0, 0] · slices_S4x128_S1x128_0_0) : (⟨S4x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v22 main_cst_1 main_v23 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.unary main_v25 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v27 main_v28 (subf : (⟨S100000x128, .f32⟩ : BufTy).Contents (Elt F) → (⟨S100000x128, .f32⟩ : BufTy).Contents (Elt F) → (⟨S100000x128, .f32⟩ : BufTy).Contents (Elt F)),
    StableHlo.binary main_v28 main_v28 main_v29 (mulf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.binary main_v29 main_cst_3 main_v30 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_4 (constant S_ .f32 0x47C35000#32),
    StableHlo.unary main_cst_4 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.unary main_v25 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v34 main_v35 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v36 (broadcastInDim S128 ![] bcast_S_S128 : (⟨S_, .f32⟩ : BufTy).Contents (Elt F) → (⟨S128, .f32⟩ : BufTy).Contents (Elt F)),
    StableHlo.binary main_v32 main_v36 main_v37 (addf : (⟨S128, .f32⟩ : BufTy).Contents (Elt F) → (⟨S128, .f32⟩ : BufTy).Contents (Elt F) → (⟨S128, .f32⟩ : BufTy).Contents (Elt F)),
    StableHlo.unary main_v37 main_v38 (Host.rsqrt : (⟨S128, .f32⟩ : BufTy).Contents (Elt F) → (⟨S128, .f32⟩ : BufTy).Contents (Elt F)),
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v40 main_v41 (mulf : (⟨S100000x128, .f32⟩ : BufTy).Contents (Elt F) → (⟨S100000x128, .f32⟩ : BufTy).Contents (Elt F) → (⟨S100000x128, .f32⟩ : BufTy).Contents (Elt F)),
    StableHlo.unary main_arg5 main_v42 ((extractStridedSlice S1x128 ![0, 0] · slices_S4x128_S1x128_0_0) : (⟨S4x128, .f32⟩ : BufTy).Contents (Elt F) → (⟨S1x128, .f32⟩ : BufTy).Contents (Elt F)),
    StableHlo.reshape main_v42 main_v43 rfl shapeCasts_S1x128_S128,
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg6 main_v47 ((extractStridedSlice S1x128 ![0, 0] · slices_S4x128_S1x128_0_0) : (⟨S4x128, .f32⟩ : BufTy).Contents (Elt F) → (⟨S1x128, .f32⟩ : BufTy).Contents (Elt F)),
    StableHlo.reshape main_v47 main_v48 rfl shapeCasts_S1x128_S128,
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v50 main_v51 (addf : (⟨S100000x128, .f32⟩ : BufTy).Contents (Elt F) → (⟨S100000x128, .f32⟩ : BufTy).Contents (Elt F) → (⟨S100000x128, .f32⟩ : BufTy).Contents (Elt F)) ]

/-- The operations of @main's statements 61 … 120, the calls written out. 88 operations. -/
abbrev win1 : List (HloOp τ sig (Elt F)) :=
  [ TRef.nullary main_call0.cst (constant S_ .f32 0x00000000#32),
    TRef.unary main_call0.cst main_call0.v0 (broadcastInDim S100000x128 ![] bcast_S_S100000x128),
    TRef.binary (.of main_v51 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v51 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v51 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v51 : TRef sig ⟨S100000x128, .f32⟩) main_call0.v7 main_call0.call1.v0 select,
    StableHlo.unary main_arg7 main_v53 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v53 main_v54 rfl shapeCasts_S1x128x128_S128x128,
    StableHlo.binary main_v52 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v56 ((extractStridedSlice S1x128 ![0, 0] · slices_S4x128_S1x128_0_0) : (⟨S4x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v60 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v60 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v60 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v60 : TRef sig ⟨S100000x128, .f32⟩) main_call1.v7 main_call1.call1.v0 select,
    StableHlo.nullary main_c_6 (constantI S_ 32 0#32),
    StableHlo.unary main_c_6 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v61 main_v67 main_v68 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v69 (broadcastInDim S100000x128 ![] bcast_S_S100000x128 : (⟨S_, .f32⟩ : BufTy).Contents (Elt F) → (⟨S100000x128, .f32⟩ : BufTy).Contents (Elt F)),
    StableHlo.unary main_v3 main_v70 (broadcastInDim S1600000x1 ![0] bcast_S1600000_S1600000x1_0 : (⟨S1600000, .i32⟩ : BufTy).Contents (Elt F) → (⟨S1600000x1, .i32⟩ : BufTy).Contents (Elt F)),
    StableHlo.ternary main_v69 main_v70 main_v68 main_v71 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v61 main_v71 main_v72 (addf : (⟨S100000x128, .f32⟩ : BufTy).Contents (Elt F) → (⟨S100000x128, .f32⟩ : BufTy).Contents (Elt F) → (⟨S100000x128, .f32⟩ : BufTy).Contents (Elt F)),
    StableHlo.unary main_arg3 main_v73 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v76 ((extractStridedSlice S1x128 ![1, 0] · slices_S4x128_S1x128_1_0) : (⟨S4x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v79 main_v80 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.binary main_v80 main_cst_9 main_v81 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v85 main_v86 (subf : (⟨S100000x128, .f32⟩ : BufTy).Contents (Elt F) → (⟨S100000x128, .f32⟩ : BufTy).Contents (Elt F) → (⟨S100000x128, .f32⟩ : BufTy).Contents (Elt F)),
    StableHlo.binary main_v86 main_v86 main_v87 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x00000000#32),
    StableHlo.binary main_v87 main_cst_11 main_v88 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v89 (broadcastInDim S128 ![] bcast_S_S128 : (⟨S_, .f32⟩ : BufTy).Contents (Elt F) → (⟨S128, .f32⟩ : BufTy).Contents (Elt F)),
    StableHlo.binary main_v88 main_v89 main_v90 (Host.divf : (⟨S128, .f32⟩ : BufTy).Contents (Elt F) → (⟨S128, .f32⟩ : BufTy).Contents (Elt F) → (⟨S128, .f32⟩ : BufTy).Contents (Elt F)),
    StableHlo.unary main_v83 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v92 main_v93 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v94 (broadcastInDim S128 ![] bcast_S_S128 : (⟨S_, .f32⟩ : BufTy).Contents (Elt F) → (⟨S128, .f32⟩ : BufTy).Contents (Elt F)),
    StableHlo.binary main_v90 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_arg5 main_v100 ((extractStridedSlice S1x128 ![1, 0] · slices_S4x128_S1x128_1_0) : (⟨S4x128, .f32⟩ : BufTy).Contents (Elt F) → (⟨S1x128, .f32⟩ : BufTy).Contents (Elt F)),
    StableHlo.reshape main_v100 main_v101 rfl shapeCasts_S1x128_S128,
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)) ]

/-- The operations of @main's statements 121 … 180, the calls written out. 88 operations. -/
abbrev win2 : List (HloOp τ sig (Elt F)) :=
  [ StableHlo.binary main_v99 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_arg6 main_v105 ((extractStridedSlice S1x128 ![1, 0] · slices_S4x128_S1x128_1_0) : (⟨S4x128, .f32⟩ : BufTy).Contents (Elt F) → (⟨S1x128, .f32⟩ : BufTy).Contents (Elt F)),
    StableHlo.reshape main_v105 main_v106 rfl shapeCasts_S1x128_S128,
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v108 main_v109 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v109 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v109 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v109 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v109 : TRef sig ⟨S100000x128, .f32⟩) main_call2.v7 main_call2.call1.v0 select,
    StableHlo.unary main_arg7 main_v111 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v111 main_v112 rfl shapeCasts_S1x128x128_S128x128,
    StableHlo.binary main_v110 main_v112 main_v113 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v114 ((extractStridedSlice S1x128 ![1, 0] · slices_S4x128_S1x128_1_0) : (⟨S4x128, .f32⟩ : BufTy).Contents (Elt F) → (⟨S1x128, .f32⟩ : BufTy).Contents (Elt F)),
    StableHlo.reshape main_v114 main_v115 rfl shapeCasts_S1x128_S128,
    StableHlo.unary main_v115 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v117 main_v118 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v118 : TRef sig ⟨S100000x128, .f32⟩) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v118 : TRef sig ⟨S100000x128, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v118 : TRef sig ⟨S100000x128, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v118 : TRef sig ⟨S100000x128, .f32⟩) main_call3.v7 main_call3.call1.v0 select,
    StableHlo.nullary main_c_14 (constantI S_ 32 0#32),
    StableHlo.unary main_c_14 main_v120 (broadcastInDim S1600000 ![] bcast_S_S1600000 : (⟨S_, .i32⟩ : BufTy).Contents (Elt F) → (⟨S1600000, .i32⟩ : BufTy).Contents (Elt F)),
    StableHlo.binary main_v1 main_v120 main_v121 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v122 (broadcastInDim S1600000 ![] bcast_S_S1600000 : (⟨S_, .i32⟩ : BufTy).Contents (Elt F) → (⟨S1600000, .i32⟩ : BufTy).Contents (Elt F)),
    StableHlo.binary main_v1 main_v122 main_v123 (addi : (⟨S1600000, .i32⟩ : BufTy).Contents (Elt F) → (⟨S1600000, .i32⟩ : BufTy).Contents (Elt F) → (⟨S1600000, .i32⟩ : BufTy).Contents (Elt F)),
    StableHlo.ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v124 main_v125 (broadcastInDim S1600000x1 ![0] bcast_S1600000_S1600000x1_0 : (⟨S1600000, .i32⟩ : BufTy).Contents (Elt F) → (⟨S1600000x1, .i32⟩ : BufTy).Contents (Elt F)),
    StableHlo.binary main_v119 main_v125 main_v126 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v127 (broadcastInDim S100000x128 ![] bcast_S_S100000x128 : (⟨S_, .f32⟩ : BufTy).Contents (Elt F) → (⟨S100000x128, .f32⟩ : BufTy).Contents (Elt F)),
    StableHlo.unary main_v3 main_v128 (broadcastInDim S1600000x1 ![0] bcast_S1600000_S1600000x1_0 : (⟨S1600000, .i32⟩ : BufTy).Contents (Elt F) → (⟨S1600000x1, .i32⟩ : BufTy).Contents (Elt F)),
    StableHlo.ternary main_v127 main_v128 main_v126 main_v129 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v119 main_v129 main_v130 (addf : (⟨S100000x128, .f32⟩ : BufTy).Contents (Elt F) → (⟨S100000x128, .f32⟩ : BufTy).Contents (Elt F) → (⟨S100000x128, .f32⟩ : BufTy).Contents (Elt F)),
    StableHlo.unary main_arg3 main_v131 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v131 main_v132 rfl shapeCasts_S1x128x128_S128x128,
    StableHlo.binary main_v130 main_v132 main_v133 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v134 ((extractStridedSlice S1x128 ![2, 0] · slices_S4x128_S1x128_2_0) : (⟨S4x128, .f32⟩ : BufTy).Contents (Elt F) → (⟨S1x128, .f32⟩ : BufTy).Contents (Elt F)),
    StableHlo.reshape main_v134 main_v135 rfl shapeCasts_S1x128_S128,
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S100000x128 ![0, 1] bcast_S1x128_S100000x128_0_1 : (⟨S1x128, .f32⟩ : BufTy).Contents (Elt F) → (⟨S100000x128, .f32⟩ : BufTy).Contents (Elt F)),
    StableHlo.binary main_v133 main_v137 main_v138 (addf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v138 main_cst_17 main_v139 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v140 (broadcastInDim S128 ![] bcast_S_S128 : (⟨S_, .f32⟩ : BufTy).Contents (Elt F) → (⟨S128, .f32⟩ : BufTy).Contents (Elt F)),
    StableHlo.binary main_v139 main_v140 main_v141 (Host.divf : (⟨S128, .f32⟩ : BufTy).Contents (Elt F) → (⟨S128, .f32⟩ : BufTy).Contents (Elt F) → (⟨S128, .f32⟩ : BufTy).Contents (Elt F)),
    StableHlo.unary main_v141 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v143 main_v144 (subf : (⟨S100000x128, .f32⟩ : BufTy).Contents (Elt F) → (⟨S100000x128, .f32⟩ : BufTy).Contents (Elt F) → (⟨S100000x128, .f32⟩ : BufTy).Contents (Elt F)),
    StableHlo.binary main_v144 main_v144 main_v145 (mulf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.binary main_v145 main_cst_19 main_v146 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v147 (broadcastInDim S128 ![] bcast_S_S128 : (⟨S_, .f32⟩ : BufTy).Contents (Elt F) → (⟨S128, .f32⟩ : BufTy).Contents (Elt F)),
    StableHlo.binary main_v146 main_v147 main_v148 (Host.divf : (⟨S128, .f32⟩ : BufTy).Contents (Elt F) → (⟨S128, .f32⟩ : BufTy).Contents (Elt F) → (⟨S128, .f32⟩ : BufTy).Contents (Elt F)),
    StableHlo.unary main_v141 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v150 main_v151 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v152 (broadcastInDim S128 ![] bcast_S_S128 : (⟨S_, .f32⟩ : BufTy).Contents (Elt F) → (⟨S128, .f32⟩ : BufTy).Contents (Elt F)),
    StableHlo.binary main_v148 main_v152 main_v153 (addf : (⟨S128, .f32⟩ : BufTy).Contents (Elt F) → (⟨S128, .f32⟩ : BufTy).Contents (Elt F) → (⟨S128, .f32⟩ : BufTy).Contents (Elt F)),
    StableHlo.unary main_v153 main_v154 (Host.rsqrt : (⟨S128, .f32⟩ : BufTy).Contents (Elt F) → (⟨S128, .f32⟩ : BufTy).Contents (Elt F)),
    StableHlo.unary main_v154 main_v155 (broadcastInDim S1x128 ![1] bcast_S128_S1x128_1 : (⟨S128, .f32⟩ : BufTy).Contents (Elt F) → (⟨S1x128, .f32⟩ : BufTy).Contents (Elt F)) ]

/-- The operations of @main's statements 181 … 240, the calls written out. 88 operations. -/
abbrev win3 : List (HloOp τ sig (Elt F)) :=
  [ StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v156 main_v157 (mulf : (⟨S100000x128, .f32⟩ : BufTy).Contents (Elt F) → (⟨S100000x128, .f32⟩ : BufTy).Contents (Elt F) → (⟨S100000x128, .f32⟩ : BufTy).Contents (Elt F)),
    StableHlo.unary main_arg5 main_v158 ((extractStridedSlice S1x128 ![2, 0] · slices_S4x128_S1x128_2_0) : (⟨S4x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v161 main_v162 (mulf : (⟨S100000x128, .f32⟩ : BufTy).Contents (Elt F) → (⟨S100000x128, .f32⟩ : BufTy).Contents (Elt F) → (⟨S100000x128, .f32⟩ : BufTy).Contents (Elt F)),
    StableHlo.unary main_arg6 main_v163 ((extractStridedSlice S1x128 ![2, 0] · slices_S4x128_S1x128_2_0) : (⟨S4x128, .f32⟩ : BufTy).Contents (Elt F) → (⟨S1x128, .f32⟩ : BufTy).Contents (Elt F)),
    StableHlo.reshape main_v163 main_v164 rfl shapeCasts_S1x128_S128,
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v166 main_v167 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v167 : TRef sig ⟨S100000x128, .f32⟩) main_call4.v0 main_call4.v1 (cmpf .ogt),
    TRef.nullary main_call4.cst_0 (constant S_ .f32 0x00000000#32),
    TRef.unary main_call4.cst_0 main_call4.v2 (broadcastInDim S100000x128 ![] bcast_S_S100000x128),
    TRef.binary (.of main_v167 : TRef sig ⟨S100000x128, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S100000x128 ![] bcast_S_S100000x128),
    TRef.ternary main_call4.v3 main_call4.call0.v1 (.of main_v167 : TRef sig ⟨S100000x128, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S100000x128 ![] bcast_S_S100000x128),
    TRef.binary main_call4.v6 main_call4.v5 main_call4.v7 mulf,
    TRef.ternary main_call4.v1 (.of main_v167 : TRef sig ⟨S100000x128, .f32⟩) main_call4.v7 main_call4.call1.v0 select,
    StableHlo.unary main_arg7 main_v169 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v169 main_v170 rfl shapeCasts_S1x128x128_S128x128,
    StableHlo.binary main_v168 main_v170 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v172 ((extractStridedSlice S1x128 ![2, 0] · slices_S4x128_S1x128_2_0) : (⟨S4x128, .f32⟩ : BufTy).Contents (Elt F) → (⟨S1x128, .f32⟩ : BufTy).Contents (Elt F)),
    StableHlo.reshape main_v172 main_v173 rfl shapeCasts_S1x128_S128,
    StableHlo.unary main_v173 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v171 main_v175 main_v176 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v176 : TRef sig ⟨S100000x128, .f32⟩) main_call5.v0 main_call5.v1 (cmpf .ogt),
    TRef.nullary main_call5.cst_0 (constant S_ .f32 0x00000000#32),
    TRef.unary main_call5.cst_0 main_call5.v2 (broadcastInDim S100000x128 ![] bcast_S_S100000x128),
    TRef.binary (.of main_v176 : TRef sig ⟨S100000x128, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S100000x128 ![] bcast_S_S100000x128),
    TRef.ternary main_call5.v3 main_call5.call0.v1 (.of main_v176 : TRef sig ⟨S100000x128, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S100000x128 ![] bcast_S_S100000x128),
    TRef.binary main_call5.v6 main_call5.v5 main_call5.v7 mulf,
    TRef.ternary main_call5.v1 (.of main_v176 : TRef sig ⟨S100000x128, .f32⟩) main_call5.v7 main_call5.call1.v0 select,
    StableHlo.nullary main_c_22 (constantI S_ 32 0#32),
    StableHlo.unary main_c_22 main_v178 (broadcastInDim S1600000 ![] bcast_S_S1600000 : (⟨S_, .i32⟩ : BufTy).Contents (Elt F) → (⟨S1600000, .i32⟩ : BufTy).Contents (Elt F)),
    StableHlo.binary main_v1 main_v178 main_v179 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v180 (broadcastInDim S1600000 ![] bcast_S_S1600000 : (⟨S_, .i32⟩ : BufTy).Contents (Elt F) → (⟨S1600000, .i32⟩ : BufTy).Contents (Elt F)),
    StableHlo.binary main_v1 main_v180 main_v181 (addi : (⟨S1600000, .i32⟩ : BufTy).Contents (Elt F) → (⟨S1600000, .i32⟩ : BufTy).Contents (Elt F) → (⟨S1600000, .i32⟩ : BufTy).Contents (Elt F)),
    StableHlo.ternary main_v179 main_v181 main_v1 main_v182 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v182 main_v183 (broadcastInDim S1600000x1 ![0] bcast_S1600000_S1600000x1_0 : (⟨S1600000, .i32⟩ : BufTy).Contents (Elt F) → (⟨S1600000x1, .i32⟩ : BufTy).Contents (Elt F)),
    StableHlo.binary main_v177 main_v183 main_v184 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v185 (broadcastInDim S100000x128 ![] bcast_S_S100000x128 : (⟨S_, .f32⟩ : BufTy).Contents (Elt F) → (⟨S100000x128, .f32⟩ : BufTy).Contents (Elt F)),
    StableHlo.unary main_v3 main_v186 (broadcastInDim S1600000x1 ![0] bcast_S1600000_S1600000x1_0 : (⟨S1600000, .i32⟩ : BufTy).Contents (Elt F) → (⟨S1600000x1, .i32⟩ : BufTy).Contents (Elt F)),
    StableHlo.ternary main_v185 main_v186 main_v184 main_v187 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v177 main_v187 main_v188 (addf : (⟨S100000x128, .f32⟩ : BufTy).Contents (Elt F) → (⟨S100000x128, .f32⟩ : BufTy).Contents (Elt F) → (⟨S100000x128, .f32⟩ : BufTy).Contents (Elt F)),
    StableHlo.unary main_arg3 main_v189 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v189 main_v190 rfl shapeCasts_S1x128x128_S128x128,
    StableHlo.binary main_v188 main_v190 main_v191 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v192 ((extractStridedSlice S1x128 ![3, 0] · slices_S4x128_S1x128_3_0) : (⟨S4x128, .f32⟩ : BufTy).Contents (Elt F) → (⟨S1x128, .f32⟩ : BufTy).Contents (Elt F)),
    StableHlo.reshape main_v192 main_v193 rfl shapeCasts_S1x128_S128,
    StableHlo.unary main_v193 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v191 main_v195 main_v196 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.binary main_v196 main_cst_25 main_v197 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_26 (constant S_ .f32 0x47C35000#32),
    StableHlo.unary main_cst_26 main_v198 (broadcastInDim S128 ![] bcast_S_S128 : (⟨S_, .f32⟩ : BufTy).Contents (Elt F) → (⟨S128, .f32⟩ : BufTy).Contents (Elt F)),
    StableHlo.binary main_v197 main_v198 main_v199 (Host.divf : (⟨S128, .f32⟩ : BufTy).Contents (Elt F) → (⟨S128, .f32⟩ : BufTy).Contents (Elt F) → (⟨S128, .f32⟩ : BufTy).Contents (Elt F)),
    StableHlo.unary main_v199 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v196 main_v201 main_v202 (subf : (⟨S100000x128, .f32⟩ : BufTy).Contents (Elt F) → (⟨S100000x128, .f32⟩ : BufTy).Contents (Elt F) → (⟨S100000x128, .f32⟩ : BufTy).Contents (Elt F)),
    StableHlo.binary main_v202 main_v202 main_v203 (mulf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x00000000#32),
    StableHlo.binary main_v203 main_cst_27 main_v204 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_28 (constant S_ .f32 0x47C35000#32),
    StableHlo.unary main_cst_28 main_v205 (broadcastInDim S128 ![] bcast_S_S128 : (⟨S_, .f32⟩ : BufTy).Contents (Elt F) → (⟨S128, .f32⟩ : BufTy).Contents (Elt F)),
    StableHlo.binary main_v204 main_v205 main_v206 (Host.divf : (⟨S128, .f32⟩ : BufTy).Contents (Elt F) → (⟨S128, .f32⟩ : BufTy).Contents (Elt F) → (⟨S128, .f32⟩ : BufTy).Contents (Elt F)),
    StableHlo.unary main_v199 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)) ]

/-- The operations of @main's statements 241 … 288, the calls written out. 75 operations. -/
abbrev win4 : List (HloOp τ sig (Elt F)) :=
  [ StableHlo.binary main_v196 main_v208 main_v209 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v210 (broadcastInDim S128 ![] bcast_S_S128 : (⟨S_, .f32⟩ : BufTy).Contents (Elt F) → (⟨S128, .f32⟩ : BufTy).Contents (Elt F)),
    StableHlo.binary main_v206 main_v210 main_v211 (addf : (⟨S128, .f32⟩ : BufTy).Contents (Elt F) → (⟨S128, .f32⟩ : BufTy).Contents (Elt F) → (⟨S128, .f32⟩ : BufTy).Contents (Elt F)),
    StableHlo.unary main_v211 main_v212 (Host.rsqrt : (⟨S128, .f32⟩ : BufTy).Contents (Elt F) → (⟨S128, .f32⟩ : BufTy).Contents (Elt F)),
    StableHlo.unary main_v212 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v214 main_v215 (mulf : (⟨S100000x128, .f32⟩ : BufTy).Contents (Elt F) → (⟨S100000x128, .f32⟩ : BufTy).Contents (Elt F) → (⟨S100000x128, .f32⟩ : BufTy).Contents (Elt F)),
    StableHlo.unary main_arg5 main_v216 ((extractStridedSlice S1x128 ![3, 0] · slices_S4x128_S1x128_3_0) : (⟨S4x128, .f32⟩ : BufTy).Contents (Elt F) → (⟨S1x128, .f32⟩ : BufTy).Contents (Elt F)),
    StableHlo.reshape main_v216 main_v217 rfl shapeCasts_S1x128_S128,
    StableHlo.unary main_v217 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v219 main_v220 (mulf : (⟨S100000x128, .f32⟩ : BufTy).Contents (Elt F) → (⟨S100000x128, .f32⟩ : BufTy).Contents (Elt F) → (⟨S100000x128, .f32⟩ : BufTy).Contents (Elt F)),
    StableHlo.unary main_arg6 main_v221 ((extractStridedSlice S1x128 ![3, 0] · slices_S4x128_S1x128_3_0) : (⟨S4x128, .f32⟩ : BufTy).Contents (Elt F) → (⟨S1x128, .f32⟩ : BufTy).Contents (Elt F)),
    StableHlo.reshape main_v221 main_v222 rfl shapeCasts_S1x128_S128,
    StableHlo.unary main_v222 main_v223 (broadcastInDim S1x128 ![1] bcast_S128_S1x128_1 : (⟨S128, .f32⟩ : BufTy).Contents (Elt F) → (⟨S1x128, .f32⟩ : BufTy).Contents (Elt F)),
    StableHlo.unary main_v223 main_v224 (broadcastInDim S100000x128 ![0, 1] bcast_S1x128_S100000x128_0_1 : (⟨S1x128, .f32⟩ : BufTy).Contents (Elt F) → (⟨S100000x128, .f32⟩ : BufTy).Contents (Elt F)),
    StableHlo.binary main_v220 main_v224 main_v225 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v225 : TRef sig ⟨S100000x128, .f32⟩) main_call6.v0 main_call6.v1 (cmpf .ogt),
    TRef.nullary main_call6.cst_0 (constant S_ .f32 0x00000000#32),
    TRef.unary main_call6.cst_0 main_call6.v2 (broadcastInDim S100000x128 ![] bcast_S_S100000x128),
    TRef.binary (.of main_v225 : TRef sig ⟨S100000x128, .f32⟩) main_call6.v2 main_call6.v3 (cmpf .ogt),
    TRef.nullary main_call6.cst_1 (constant S_ .f32 0x00000000#32),
    TRef.unary main_call6.cst_1 main_call6.call0.v0 id,
    TRef.unary main_call6.call0.v0 main_call6.call0.v1 (broadcastInDim S100000x128 ![] bcast_S_S100000x128),
    TRef.ternary main_call6.v3 main_call6.call0.v1 (.of main_v225 : TRef sig ⟨S100000x128, .f32⟩) main_call6.call0.v2 select,
    TRef.unary main_call6.call0.v2 main_call6.v5 Host.expm1,
    TRef.nullary main_call6.cst_2 (constant S_ .f32 0x3F800000#32),
    TRef.unary main_call6.cst_2 main_call6.v6 (broadcastInDim S100000x128 ![] bcast_S_S100000x128),
    TRef.binary main_call6.v6 main_call6.v5 main_call6.v7 mulf,
    TRef.ternary main_call6.v1 (.of main_v225 : TRef sig ⟨S100000x128, .f32⟩) main_call6.v7 main_call6.call1.v0 select,
    StableHlo.unary main_arg7 main_v227 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v227 main_v228 rfl shapeCasts_S1x128x128_S128x128,
    StableHlo.binary main_v226 main_v228 main_v229 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v230 ((extractStridedSlice S1x128 ![3, 0] · slices_S4x128_S1x128_3_0) : (⟨S4x128, .f32⟩ : BufTy).Contents (Elt F) → (⟨S1x128, .f32⟩ : BufTy).Contents (Elt F)),
    StableHlo.reshape main_v230 main_v231 rfl shapeCasts_S1x128_S128,
    StableHlo.unary main_v231 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S100000x128 ![0, 1] bcast_S1x128_S100000x128_0_1 : (⟨S1x128, .f32⟩ : BufTy).Contents (Elt F) → (⟨S100000x128, .f32⟩ : BufTy).Contents (Elt F)),
    StableHlo.binary main_v229 main_v233 main_v234 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v234 : TRef sig ⟨S100000x128, .f32⟩) main_call7.v0 main_call7.v1 (cmpf .ogt),
    TRef.nullary main_call7.cst_0 (constant S_ .f32 0x00000000#32),
    TRef.unary main_call7.cst_0 main_call7.v2 (broadcastInDim S100000x128 ![] bcast_S_S100000x128),
    TRef.binary (.of main_v234 : TRef sig ⟨S100000x128, .f32⟩) main_call7.v2 main_call7.v3 (cmpf .ogt),
    TRef.nullary main_call7.cst_1 (constant S_ .f32 0x00000000#32),
    TRef.unary main_call7.cst_1 main_call7.call0.v0 id,
    TRef.unary main_call7.call0.v0 main_call7.call0.v1 (broadcastInDim S100000x128 ![] bcast_S_S100000x128),
    TRef.ternary main_call7.v3 main_call7.call0.v1 (.of main_v234 : TRef sig ⟨S100000x128, .f32⟩) main_call7.call0.v2 select,
    TRef.unary main_call7.call0.v2 main_call7.v5 Host.expm1,
    TRef.nullary main_call7.cst_2 (constant S_ .f32 0x3F800000#32),
    TRef.unary main_call7.cst_2 main_call7.v6 (broadcastInDim S100000x128 ![] bcast_S_S100000x128),
    TRef.binary main_call7.v6 main_call7.v5 main_call7.v7 mulf,
    TRef.ternary main_call7.v1 (.of main_v234 : TRef sig ⟨S100000x128, .f32⟩) main_call7.v7 main_call7.call1.v0 select,
    StableHlo.nullary main_cst_30 (constant S_ .f32 0x00000000#32),
    StableHlo.unary main_cst_30 main_v236 (broadcastInDim S512x128 ![] bcast_S_S512x128 : (⟨S_, .f32⟩ : BufTy).Contents (Elt F) → (⟨S512x128, .f32⟩ : BufTy).Contents (Elt F)),
    StableHlo.unary main_arg2 main_v237 (broadcastInDim S100000x1 ![0] bcast_S100000_S100000x1_0 : (⟨S100000, .i32⟩ : BufTy).Contents (Elt F) → (⟨S100000x1, .i32⟩ : BufTy).Contents (Elt F)),
    StableHlo.ternary main_v236 main_v237 main_v235 main_v238 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_31 (constant S_ .f32 0x3F800000#32),
    StableHlo.unary main_cst_31 main_v239 (broadcastInDim S100000x1 ![] bcast_S_S100000x1 : (⟨S_, .f32⟩ : BufTy).Contents (Elt F) → (⟨S100000x1, .f32⟩ : BufTy).Contents (Elt F)),
    StableHlo.nullary main_cst_32 (constant S_ .f32 0x00000000#32),
    StableHlo.unary main_cst_32 main_v240 (broadcastInDim S512x1 ![] bcast_S_S512x1 : (⟨S_, .f32⟩ : BufTy).Contents (Elt F) → (⟨S512x1, .f32⟩ : BufTy).Contents (Elt F)),
    StableHlo.unary main_arg2 main_v241 (broadcastInDim S100000x1 ![0] bcast_S100000_S100000x1_0 : (⟨S100000, .i32⟩ : BufTy).Contents (Elt F) → (⟨S100000x1, .i32⟩ : BufTy).Contents (Elt F)),
    StableHlo.ternary main_v240 main_v241 main_v239 main_v242 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    StableHlo.nullary main_cst_33 (constant S_ .f32 0x3F800000#32),
    StableHlo.unary main_cst_33 main_v243 (broadcastInDim S512x1 ![] bcast_S_S512x1 : (⟨S_, .f32⟩ : BufTy).Contents (Elt F) → (⟨S512x1, .f32⟩ : BufTy).Contents (Elt F)),
    StableHlo.binary main_v242 main_v243 main_v244 (maximumf : (⟨S512x1, .f32⟩ : BufTy).Contents (Elt F) → (⟨S512x1, .f32⟩ : BufTy).Contents (Elt F) → (⟨S512x1, .f32⟩ : BufTy).Contents (Elt F)),
    StableHlo.unary main_v244 main_v245 (broadcastInDim S512x128 ![0, 1] bcast_S512x1_S512x128_0_1 : (⟨S512x1, .f32⟩ : BufTy).Contents (Elt F) → (⟨S512x128, .f32⟩ : BufTy).Contents (Elt F)),
    StableHlo.binary main_v238 main_v245 main_v246 (Host.divf : (⟨S512x128, .f32⟩ : BufTy).Contents (Elt F) → (⟨S512x128, .f32⟩ : BufTy).Contents (Elt F) → (⟨S512x128, .f32⟩ : BufTy).Contents (Elt F)),
    StableHlo.binary main_v246 main_arg9 main_v247 ((fun l r => Host.dotGeneral dot_S512x128_S128x2_S512x2_1_0_0_1_n_n none l r) : (⟨S512x128, .f32⟩ : BufTy).Contents (Elt F) → (⟨S128x2, .f32⟩ : BufTy).Contents (Elt F) → (⟨S512x2, .f32⟩ : BufTy).Contents (Elt F)),
    StableHlo.unary main_arg10 main_v248 (broadcastInDim S1x2 ![1] bcast_S2_S1x2_1 : (⟨S2, .f32⟩ : BufTy).Contents (Elt F) → (⟨S1x2, .f32⟩ : BufTy).Contents (Elt F)),
    StableHlo.unary main_v248 main_v249 (broadcastInDim S512x2 ![0, 1] bcast_S1x2_S512x2_0_1 : (⟨S1x2, .f32⟩ : BufTy).Contents (Elt F) → (⟨S512x2, .f32⟩ : BufTy).Contents (Elt F)),
    StableHlo.binary main_v247 main_v249 main_v250 (addf : (⟨S512x2, .f32⟩ : BufTy).Contents (Elt F) → (⟨S512x2, .f32⟩ : BufTy).Contents (Elt F) → (⟨S512x2, .f32⟩ : BufTy).Contents (Elt F)) ]

/-! Each window of @main is the line of its operations: the outlined bodies unfold at their calls, and sequencing
    computes on both sides. -/
theorem main_part0_eq (c : Dev nD) : main_part0 (F := F) c = seq win0 := rfl
theorem main_part1_eq (c : Dev nD) : main_part1 (F := F) c = seq win1 := rfl
theorem main_part2_eq (c : Dev nD) : main_part2 (F := F) c = seq win2 := rfl
theorem main_part3_eq (c : Dev nD) : main_part3 (F := F) c = seq win3 := rfl
theorem main_part4_eq (c : Dev nD) : main_part4 (F := F) c = seq win4 := rfl

/-- The windows appended are the chunks appended: the same operations in the same order, cut at other places. -/
theorem wins_eq : (win0 ++ win1 ++ win2 ++ win3 ++ win4 : List (HloOp τ sig (Elt F))) = ops := rfl

/-- @main is the line of its operations. -/
theorem main_eq (c : Dev nD) : main (F := F) c = seq ops := by
  rw [← wins_eq, seq_append, seq_append, seq_append, seq_append, ← main_part0_eq c, ← main_part1_eq c, ← main_part2_eq c,
    ← main_part3_eq c, ← main_part4_eq c]
  simp only [main, bind_assoc]

end Cert.ReferenceIdeal.RefRun

end
-- ==== Proof.RefRun.lean ====
/-
  The reference's run: on every device, from any memory with zero counters, every weakly fair execution of @main
  terminates; the result buffer then holds the fold of @main's operations over the launch contents, and the eleven
  arguments hold what they held at launch, since no operation writes an argument's buffer.
-/
import proofs.«163505_j89335319757549_1_alg».proof.Proof.RefRunB
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- No operation of @main writes an argument's buffer: after the whole line each argument holds what it held. -/
theorem after_ops_arg (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6)
    ∧ after (ops (F := F)) V (Proc.devRef .tc main_arg7) = V (Proc.devRef .tc main_arg7)
    ∧ after (ops (F := F)) V (Proc.devRef .tc main_arg8) = V (Proc.devRef .tc main_arg8)
    ∧ after (ops (F := F)) V (Proc.devRef .tc main_arg9) = V (Proc.devRef .tc main_arg9)
    ∧ after (ops (F := F)) V (Proc.devRef .tc main_arg10) = V (Proc.devRef .tc main_arg10) :=
  ⟨after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide),
   after_ops_of_not_written V (by decide) (by decide) (by decide) (by decide) (by decide) (by decide)⟩

/-- On every device, for any float values, from any memory with zero counters: every weakly fair execution of
    @main terminates with the result buffer at the fold of @main's operations over the launch contents and the
    eleven arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v250) = after ops (launchContents m c) (Proc.devRef .tc main_v250)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      have hA := after_ops_arg (F := F) (launchContents m c)
      ⟨h c main_v250,
       (h c main_arg0).trans hA.1,
       (h c main_arg1).trans hA.2.1,
       (h c main_arg2).trans hA.2.2.1,
       (h c main_arg3).trans hA.2.2.2.1,
       (h c main_arg4).trans hA.2.2.2.2.1,
       (h c main_arg5).trans hA.2.2.2.2.2.1,
       (h c main_arg6).trans hA.2.2.2.2.2.2.1,
       (h c main_arg7).trans hA.2.2.2.2.2.2.2.1,
       (h c main_arg8).trans hA.2.2.2.2.2.2.2.2.1,
       (h c main_arg9).trans hA.2.2.2.2.2.2.2.2.2.1,
       (h c main_arg10).trans hA.2.2.2.2.2.2.2.2.2.2⟩)
    (run_seq scopedRefs_eq scopedSems_eq defs main (fun _ => ops) main_eq (fun _ => ops_sub) m ρ (fun _ => ops_fresh))

/-- The fold over the whole line is the chunks' folds composed, the first chunk innermost. -/
theorem after_ops (V : Valuation τ sig (Elt F)) :
    after (ops (F := F)) V
      = after opsTail (after opsLayer3 (after opsLayer2 (after opsLayer1 (after opsLayer0 (after opsPre V))))) := by
  rw [show (ops (F := F)) = opsPre ++ opsLayer0 ++ opsLayer1 ++ opsLayer2 ++ opsLayer3 ++ opsTail from rfl,
    after_append, after_append, after_append, after_append, after_append]

end Cert.ReferenceIdeal.RefRun

end
-- ==== Proof.Spec.lean ====
/-
  The dense part of one graph-isomorphism layer, written index by index on the extended reals.

  A layer takes the node features `h` (100000 rows of 128 channels) and the neighbour sums `agg` and computes
    z  = (h + agg) · W1 + b1,
    mu = column mean of z,   var = column variance of z (biased),
    zn = (z - mu) · rsqrt(var + eps) · gamma + beta,
    h' = elu (elu zn · W2 + b2).
  The rows are processed in 20 tiles of 5000 rows; `row t r` is row `5000·t + r`, and the column sums are written as
  the sum over the tiles of the sum over a tile's rows, which is how a tiled accumulation produces them.
-/
import Idealize.ShloMosaic.PureOps.Ideal
import Idealize.ShloMosaic.Lib.ValueIdx

noncomputable section

open scoped BigOperators
open Idealize.ShloMosaic Idealize.ShloMosaic.ValueIdx

namespace Cert.Gin

/-- An `r × c` array of extended reals, indexed as the printed programs index a rank-2 array. -/
abbrev Mat (r c : Nat) : Type := (⟨2, ![r, c]⟩ : Shape).Idx → EReal

/-- The stabiliser added to the variance before the inverse square root (the word both programs carry). -/
def eps : EReal := Ideal.ofBits .f32 0x3727C5AC#32

/-- The number of rows as both programs spell it when they divide a column sum. -/
def nRows : EReal := Ideal.ofBits .f32 0x47C35000#32

/-- The exponential linear unit written out: `x` where `x > 0`, `exp x - 1` elsewhere. -/
def elu (x : EReal) : EReal :=
  Scalar.select (Ideal.cmp .ogt x (Ideal.ofBits .f32 0x00000000#32)) x (Ideal.exp x - Ideal.ofBits .f32 0x3F800000#32)

/-- Row `5000·t + r`: row `r` of tile `t`. -/
def row (t : Fin 20) (r : Fin 5000) : Fin 100000 := ⟨5000 * t.val + r.val, by omega⟩

/-- The first linear map at row `r`, channel `j`: `Σ_k (h + agg)[r,k] · W1[k,j] + b1[j]`. -/
def zAt (h agg : Mat 100000 128) (w1 : Mat 128 128) (b1 : Mat 1 128) (r : Fin 100000) (j : Fin 128) : EReal :=
  (∑ k : Fin 128, (h (ix2 r k) + agg (ix2 r k)) * w1 (ix2 k j)) + b1 (ix2 0 j)

/-- A column's sum, tile by tile. -/
def colSum (z : Mat 100000 128) (j : Fin 128) : EReal := ∑ t : Fin 20, ∑ r : Fin 5000, z (ix2 (row t r) j)

/-- A column's sum of squares, tile by tile. -/
def colSumSq (z : Mat 100000 128) (j : Fin 128) : EReal :=
  ∑ t : Fin 20, ∑ r : Fin 5000, z (ix2 (row t r) j) * z (ix2 (row t r) j)

/-- The normalised, activated value at row `r`, channel `k`. -/
def actAt (z : Mat 100000 128) (mu var g be : Mat 1 128) (r : Fin 100000) (k : Fin 128) : EReal :=
  elu (((z (ix2 r k) - mu (ix2 0 k)) * Ideal.rsqrt (var (ix2 0 k) + eps)) * g (ix2 0 k) + be (ix2 0 k))

/-- The layer's output at row `r`, channel `j`: `elu (Σ_k act[r,k] · W2[k,j] + b2[j])`. -/
def outAt (z : Mat 100000 128) (mu var g be : Mat 1 128) (w2 : Mat 128 128) (b2 : Mat 1 128)
    (r : Fin 100000) (j : Fin 128) : EReal :=
  elu ((∑ k : Fin 128, actAt z mu var g be r k * w2 (ix2 k j)) + b2 (ix2 0 j))

end Cert.Gin

end
-- ==== Proof.Algebra.lean ====
/-
  The arithmetic that joins a tiled two-pass layer to the plain one, on the extended reals.

  * The words `1.0`, `100000.0` and the stabiliser denote the reals one, 100000 and a positive number.
  * Sums, products, differences, exponentials, the exponential linear unit, a division by the number of rows and an
    inverse square root of a non-negative number plus the stabiliser all send reals to reals.
  * A sum over the 100000 rows is the sum over 20 tiles of the sum over 5000 rows.
  * For real entries the mean of the squared deviations from the mean is the mean of the squares minus the square of
    the mean. This is the one identity that needs finiteness: the extended reals do not distribute at the infinities.
-/
import proofs.«163505_j89335319757549_1_alg».proof.Proof.Spec
import Idealize.ShloMosaic.PureOps.Ideal.Laws

noncomputable section

open scoped BigOperators
open Idealize.ShloMosaic Idealize.ShloMosaic.ValueIdx

namespace Cert.Gin

/-! ## The constants -/

/-- The word `1.0` denotes the real number one. -/
theorem ofBits_one : Ideal.ofBits .f32 0x3F800000#32 = 1 := by
  simp [Ideal.ofBits, Ideal.ieee, -EReal.coe_mul]; norm_num

/-- The word `100000.0` denotes the real number 100000. -/
theorem nRows_eq : nRows = ((100000 : ℝ) : EReal) := by
  unfold nRows
  simp [Ideal.ofBits, Ideal.ieee, -EReal.coe_mul]; norm_num

/-- The stabiliser is a positive real. -/
theorem eps_pos : ∃ e : ℝ, 0 < e ∧ eps = (e : EReal) := by
  unfold eps
  simp [Ideal.ofBits, Ideal.ieee, -EReal.coe_mul]

/-! ## Real entries -/

/-- An extended real that is a real number. -/
def IsReal (x : EReal) : Prop := ∃ r : ℝ, x = (r : EReal)

theorem isReal_zero : IsReal 0 := ⟨0, EReal.coe_zero.symm⟩
theorem isReal_one : IsReal 1 := ⟨1, EReal.coe_one.symm⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsReal.exp {x : EReal} (hx : IsReal x) : IsReal (Ideal.exp x) := by
  obtain ⟨a, rfl⟩ := hx; exact ⟨Real.exp a, Ideal.exp_coe a⟩

/-- The exponential linear unit of a real is a real. -/
theorem IsReal.elu {x : EReal} (hx : IsReal x) : IsReal (elu x) := by
  unfold Cert.Gin.elu
  rcases BitVec.eq_zero_or_eq_one (Ideal.cmp .ogt x (Ideal.ofBits .f32 0x00000000#32)) with h | h
  · rw [h, select_zero, ofBits_one]; exact hx.exp.sub isReal_one
  · rw [h, select_one]; exact hx

/-- A real divided by the number of rows is a real. -/
theorem IsReal.divN {x : EReal} (hx : IsReal x) : IsReal (Ideal.div x nRows) := by
  rw [nRows_eq, Ideal.div_coe (by norm_num : (100000 : ℝ) ≠ 0)]
  exact hx.mul (isReal_coe _)

/-- The inverse square root of a non-negative real plus the stabiliser is a real. -/
theorem isReal_rsqrt {v : ℝ} (hv : 0 ≤ v) : IsReal (Ideal.rsqrt ((v : EReal) + eps)) := by
  obtain ⟨e, he, heq⟩ := eps_pos
  rw [heq, ← EReal.coe_add, Ideal.rsqrt_coe, if_neg (by linarith), if_neg (by linarith)]
  exact isReal_coe _

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Rows by tiles -/

/-- A sum over the 100000 rows is the sum over the 20 tiles of the sum over a tile's 5000 rows. -/
theorem sum_rows {M : Type*} [AddCommMonoid M] (f : Fin 100000 → M) :
    ∑ r : Fin 100000, f r = ∑ t : Fin 20, ∑ r' : Fin 5000, f (row t r') := by
  rw [← Fintype.sum_prod_type' (fun t r' => f (row t r'))]
  refine (Fintype.sum_equiv (finProdFinEquiv (m := 20) (n := 5000)) _ _ (fun p => ?_)).symm
  refine congrArg f (Fin.ext ?_)
  show 5000 * p.1.val + p.2.val = p.2.val + 5000 * p.1.val
  omega

/-! ## The variance, two ways -/

/-- For real entries, the mean of the squared deviations from the mean is the mean of the squares minus the square
    of the mean — on the extended reals, with the divisions spelt as both programs spell them. -/
theorem var_eq (z : Fin 100000 → EReal) (hz : ∀ r, IsReal (z r)) :
    Ideal.div (∑ r, (z r - Ideal.div (∑ r, z r) nRows) * (z r - Ideal.div (∑ r, z r) nRows)) nRows
      = Ideal.div (∑ r, z r * z r) nRows - Ideal.div (∑ r, z r) nRows * Ideal.div (∑ r, z r) nRows := by
  choose x hx using hz
  obtain rfl : z = fun r => (x r : EReal) := funext hx
  rw [nRows_eq]
  simp only [Ideal.div_coe (by norm_num : (100000 : ℝ) ≠ 0)]
  simp only [← coe_sum, ← EReal.coe_mul, ← EReal.coe_sub]
  refine congrArg _ ?_
  have e1 : ∀ r, (x r - (∑ r, x r) * (1 / 100000)) * (x r - (∑ r, x r) * (1 / 100000))
      = x r * x r - 2 * ((∑ r, x r) * (1 / 100000)) * x r + ((∑ r, x r) * (1 / 100000)) * ((∑ r, x r) * (1 / 100000)) :=
    fun r => by ring
  simp only [e1, Finset.sum_add_distrib, Finset.sum_sub_distrib, ← Finset.mul_sum, Finset.sum_const, Finset.card_univ,
    Fintype.card_fin, nsmul_eq_mul]
  push_cast
  ring

end Cert.Gin

end
-- ==== Proof.Layer.lean ====
/-
  One layer, spelt twice, and why the two spellings agree on real data.

  The tiled two-pass program accumulates each column's sum and sum of squares tile by tile, forms the mean and the
  variance as mean-of-squares minus squared mean, and applies the exponential linear unit written out with `exp`.
  The plain program sums each column over all rows at once, forms the variance as the mean of the squared
  deviations, and spells the unit with a guarded `exp y - 1` times one. The column sums agree because addition of
  extended reals is commutative and associative; the two unit spellings agree everywhere; the variances agree when
  the entries are real, and a layer of real data is real, so the agreement carries from layer to layer.
-/
import proofs.«163505_j89335319757549_1_alg».proof.Proof.Algebra

noncomputable section

open scoped BigOperators
open Idealize.ShloMosaic Idealize.ShloMosaic.ValueIdx

namespace Cert.Gin

/-! ## The two spellings of a layer -/

/-- All entries real. -/
def RealMat {r c : Nat} (a : Mat r c) : Prop := ∀ i, IsReal (a i)

/-- The first linear map as an array. -/
def zMat (h agg : Mat 100000 128) (w1 : Mat 128 128) (b1 : Mat 1 128) : Mat 100000 128 :=
  fun i => zAt h agg w1 b1 (i 0) (i 1)

/-- The column means from the tiled column sums. -/
def muK (Z : Mat 100000 128) : Mat 1 128 := fun i => Ideal.div (colSum Z (i 1)) nRows

/-- The column variances as mean of squares minus squared mean, from the tiled sums. -/
def varK (Z : Mat 100000 128) : Mat 1 128 :=
  fun i => Ideal.div (colSumSq Z (i 1)) nRows - muK Z i * muK Z i

/-- A layer as the tiled two-pass program computes it. -/
def layerK (h agg : Mat 100000 128) (w1 : Mat 128 128) (b1 g be : Mat 1 128) (w2 : Mat 128 128) (b2 : Mat 1 128) :
    Mat 100000 128 :=
  fun i => outAt (zMat h agg w1 b1) (muK (zMat h agg w1 b1)) (varK (zMat h agg w1 b1)) g be w2 b2 (i 0) (i 1)

/-- The word `0.0` as a value: the initial value of the plain program's column reductions. -/
def zero32 : EReal := Ideal.ofBits .f32 0x00000000#32

/-- The exponential linear unit as the plain program spells it: `x` where `x > 0`, elsewhere one times
    `exp y - 1` with `y` the input where it is not positive (and zero where it is). -/
def eluR (x : EReal) : EReal :=
  Scalar.select (Ideal.cmp .ogt x (Ideal.ofBits .f32 0x00000000#32)) x
    (Ideal.ofBits .f32 0x3F800000#32 *
      (Ideal.exp (Scalar.select (Ideal.cmp .ogt x (Ideal.ofBits .f32 0x00000000#32)) (Ideal.ofBits .f32 0x00000000#32) x) - 1))

/-- The column mean as one sum over all rows. -/
def muR (Z : Mat 100000 128) (k : Fin 128) : EReal := Ideal.div (zero32 + ∑ r : Fin 100000, Z (ix2 r k)) nRows

/-- The column variance as the mean of the squared deviations. -/
def varR (Z : Mat 100000 128) (k : Fin 128) : EReal :=
  Ideal.div (zero32 + ∑ r : Fin 100000, (Z (ix2 r k) - muR Z k) * (Z (ix2 r k) - muR Z k)) nRows

/-- The normalised, activated value, plain spelling. -/
def actR (Z : Mat 100000 128) (g be : Mat 1 128) (r : Fin 100000) (k : Fin 128) : EReal :=
  eluR (((Z (ix2 r k) - muR Z k) * Ideal.rsqrt (varR Z k + eps)) * g (ix2 0 k) + be (ix2 0 k))

/-- A layer as the plain program computes it. -/
def layerR (h agg : Mat 100000 128) (w1 : Mat 128 128) (b1 g be : Mat 1 128) (w2 : Mat 128 128) (b2 : Mat 1 128) :
    Mat 100000 128 :=
  fun i => eluR ((∑ k : Fin 128, actR (zMat h agg w1 b1) g be (i 0) k * w2 (ix2 k (i 1))) + b2 (ix2 0 (i 1)))

/-- The two spellings of the exponential linear unit agree on every extended real. -/
theorem eluR_eq (x : EReal) : eluR x = elu x := by
  unfold eluR elu
  rcases BitVec.eq_zero_or_eq_one (Ideal.cmp .ogt x (Ideal.ofBits .f32 0x00000000#32)) with h | h
  · rw [h, select_zero, select_zero, select_zero, ofBits_one, one_mul]
  · rw [h, select_one, select_one]

theorem zMat_real {h agg : Mat 100000 128} {w1 : Mat 128 128} {b1 : Mat 1 128}
    (hh : RealMat h) (ha : RealMat agg) (hw : RealMat w1) (hb : RealMat b1) : RealMat (zMat h agg w1 b1) := by
  intro i
  unfold zMat zAt
  exact (IsReal.sum _ _ fun k _ => ((hh _).add (ha _)).mul (hw _)).add (hb _)

/-- The tiled mean is the plain mean. -/
theorem muK_eq (Z : Mat 100000 128) (k : Fin 128) : muK Z (ix2 0 k) = muR Z k := by
  unfold muK muR colSum zero32
  rw [Ideal.ofBits_zero_f32, zero_add, sum_rows (fun r => Z (ix2 r k))]

/-- For real entries the tiled variance is the plain variance. -/
theorem varK_eq (Z : Mat 100000 128) (hZ : RealMat Z) (k : Fin 128) : varK Z (ix2 0 k) = varR Z k := by
  unfold varK varR
  rw [muK_eq]
  unfold muR colSumSq zero32
  rw [Ideal.ofBits_zero_f32, zero_add, zero_add, ← sum_rows (fun r => Z (ix2 r k) * Z (ix2 r k))]
  exact (var_eq (fun r => Z (ix2 r k)) (fun r => hZ _)).symm

/-- The plain variance of real entries is a non-negative real. -/
theorem varR_nonneg (Z : Mat 100000 128) (hZ : RealMat Z) (k : Fin 128) : ∃ v : ℝ, 0 ≤ v ∧ varR Z k = (v : EReal) := by
  choose x hx using hZ
  have hm : IsReal (muR Z k) := ((isReal_zero.add (IsReal.sum _ _ fun r _ => ⟨_, hx _⟩)).divN).imp fun _ h => by
    unfold muR zero32; rw [Ideal.ofBits_zero_f32]; exact h
  obtain ⟨mu, hmu⟩ := hm
  refine ⟨(∑ r : Fin 100000, (x (ix2 r k) - mu) * (x (ix2 r k) - mu)) * (1 / 100000), ?_, ?_⟩
  · exact mul_nonneg (Finset.sum_nonneg fun r _ => mul_self_nonneg _) (by norm_num)
  · unfold varR zero32
    rw [hmu, Ideal.ofBits_zero_f32, zero_add, nRows_eq, Ideal.div_coe (by norm_num : (100000 : ℝ) ≠ 0)]
    simp only [hx, ← EReal.coe_sub, ← EReal.coe_mul, ← coe_sum]

theorem actR_real {Z : Mat 100000 128} {g be : Mat 1 128} (hZ : RealMat Z) (hg : RealMat g) (hbe : RealMat be)
    (r : Fin 100000) (k : Fin 128) : IsReal (actR Z g be r k) := by
  unfold actR
  rw [eluR_eq]
  obtain ⟨v, hv, hveq⟩ := varR_nonneg Z hZ k
  have hm : IsReal (muR Z k) := by
    unfold muR zero32; rw [Ideal.ofBits_zero_f32]
    exact (isReal_zero.add (IsReal.sum _ _ fun r _ => hZ _)).divN
  rw [hveq]
  exact ((((hZ _).sub hm).mul (isReal_rsqrt hv)).mul (hg _)).add (hbe _) |>.elu

/-- A layer of real data is real. -/
theorem layerR_real {h agg : Mat 100000 128} {w1 : Mat 128 128} {b1 g be : Mat 1 128} {w2 : Mat 128 128} {b2 : Mat 1 128}
    (hh : RealMat h) (ha : RealMat agg) (hw1 : RealMat w1) (hb1 : RealMat b1) (hg : RealMat g) (hbe : RealMat be)
    (hw2 : RealMat w2) (hb2 : RealMat b2) : RealMat (layerR h agg w1 b1 g be w2 b2) := by
  intro i
  unfold layerR
  rw [eluR_eq]
  exact ((IsReal.sum _ _ fun k _ => (actR_real (zMat_real hh ha hw1 hb1) hg hbe _ _).mul (hw2 _)).add (hb2 _)).elu

/-- On real data the tiled two-pass layer is the plain layer. -/
theorem layer_eq {h agg : Mat 100000 128} {w1 : Mat 128 128} {b1 : Mat 1 128} (g be : Mat 1 128) (w2 : Mat 128 128) (b2 : Mat 1 128)
    (hh : RealMat h) (ha : RealMat agg) (hw1 : RealMat w1) (hb1 : RealMat b1) :
    layerK h agg w1 b1 g be w2 b2 = layerR h agg w1 b1 g be w2 b2 := by
  funext i
  unfold layerK layerR outAt
  rw [eluR_eq]
  refine congrArg elu (congrArg (· + _) (Finset.sum_congr rfl fun k _ => congrArg (· * _) ?_))
  unfold actAt actR
  rw [eluR_eq, muK_eq, varK_eq _ (zMat_real hh ha hw1 hb1)]

end Cert.Gin

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibRows.lean ====
/-
  General facts about arrays of extended reals read at an entry, used by the layer and head lemmas:
  a host matrix product M × K by K × N at entry (a, b) is the sum over c of A (a, c) · B (c, b) (the same sum a
  matmul into the zero accumulator gives); a length-N vector laid out as one row and repeated down M rows reads,
  at (a, b), the vector at b; a length-M vector laid out as one column and repeated across N columns reads the
  vector at a; a scalar repeated over any shape reads the scalar; and a sum over 192 terms is the sum of its
  three consecutive runs of 64.
-/
import Idealize.ShloMosaic.Lib.ValueIdx
import Idealize.ShloMosaic.Lib.ValueLayout
import Idealize.ShloMosaic.Lib.Pipeline.Value
import Idealize.ShloMosaic.PureOps.Ideal.Laws
import proofs.«163505_j89335319757549_1_alg».proof.Proof.LibMatmul

noncomputable section

open scoped BigOperators

namespace Cert.LibRows

open Idealize.ShloMosaic Idealize.ShloMosaic.ValueIdx

/-- The contraction sum of a plain M × K by K × N product at entry `(a, b)`, re-indexed by the contracted
    coordinate: `∑ c, A (a, c) · B (c, b)`. -/
theorem plain_contr_sum {M K N : Nat} {φ₁ φ₂ : FTy}
    (A : FVec Ideal ⟨2, ![M, K]⟩ φ₁) (B : FVec Ideal ⟨2, ![K, N]⟩ φ₂) (a : Fin M) (b : Fin N) :
    (∑ k : (DotDims.plain M K N).contr.Idx,
        A ((DotDims.plain M K N).lhsIdx (ix2 a b) k) * B ((DotDims.plain M K N).rhsIdx (ix2 a b) k))
      = ∑ c : Fin K, A (ix2 a c) * B (ix2 c b) :=
  (Ideal.matmul_constant_zero_apply (DotDims.plain M K N) none A B (ix2 a b)).symm.trans
    (Cert.LibMatmul.matmul_plain_zero_apply none A B a b)

/-- A host `dot_general` of an M × K by a K × N matrix, at the exact values and at entry `(a, b)`, is
    `∑ c, A (a, c) · B (c, b)`. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) :=
  (Ideal.dotGeneral_apply (DotDims.plain M K N) prec sched A B (ix2 a b)).trans (plain_contr_sum A B a b)

variable {α : Type}

/-- A vector of length N cast to one row and repeated down M rows: entry `(a, b)` is the vector's entry `b`. -/
theorem rowBroadcastTo_apply {M N : Nat} (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (a : Fin M) (b : Fin N) :
    broadcastTo ⟨2, ![M, N]⟩ (shapeCast ⟨2, ![1, N]⟩ v h1) h2 (ix2 a b) = v (ix1 b) := by
  rw [broadcastTo_apply _ h2 (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact shapeCast_a_1a_apply v h1 0 b

/-- The host form of the same: a vector placed along axis 1 of a 1 × N array, then along both axes of an M × N one. -/
theorem rowBroadcastInDim_apply {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 v) (ix2 a b) = v (ix1 b) := by
  rw [broadcastInDim_apply ![0, 1] h2 _ (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact broadcastInDim_apply ![1] h1 v (ix2 (0 : Fin 1) b) (ix1 b) (fun c => by
    match c with
    | ⟨0, _⟩ =>
      show b.val = if N = 1 then 0 else b.val
      split
      · have := b.isLt; omega
      · rfl)

/-- A vector of length M cast to one column and repeated across N columns: entry `(a, b)` is the vector's entry `a`. -/
theorem colBroadcastTo_apply {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (a : Fin M) (b : Fin N) :
    broadcastTo ⟨2, ![M, N]⟩ (shapeCast ⟨2, ![M, 1]⟩ v h1) h2 (ix2 a b) = v (ix1 a) := by
  rw [broadcastTo_apply _ h2 (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact shapeCast_apply v h1 _ _ (by
    rw [Shape.rowMajor_val_two, Shape.rowMajor_val_one]
    show a.val = a.val * 1 + 0
    omega)

/-- The host form: a vector placed along axis 0 of an M × 1 array, then along both axes of an M × N one. -/
theorem colBroadcastInDim_apply {M N : Nat} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (a : Fin M) (b : Fin N) :
    broadcastInDim ⟨2, ![M, N]⟩ ![0, 1] h2 (broadcastInDim ⟨2, ![M, 1]⟩ ![0] h1 v) (ix2 a b) = v (ix1 a) := by
  rw [broadcastInDim_apply ![0, 1] h2 _ (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact broadcastInDim_apply ![0] h1 v (ix2 a (0 : Fin 1)) (ix1 a) (fun c => by
    match c with
    | ⟨0, _⟩ =>
      show a.val = if M = 1 then 0 else a.val
      split
      · have := a.isLt; omega
      · rfl)

/-- A scalar placed along no axis of any shape reads the scalar everywhere. -/
theorem splatInDim_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun c => c.elim0)

/-- Putting coordinate `k` back on axis 1 of a row index `g` gives the entry `(g, k)`. -/
theorem lift_axis1 {m n : Nat} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

/-- A sum of 192 terms is the sum of its three consecutive runs of 64 terms. -/
theorem sum_192_split {M : Type*} [AddCommMonoid M] (f : Fin 192 → M) :
    ∑ k : Fin 192, f k
      = (∑ k : Fin 64, f ⟨k.val, by omega⟩) + (∑ k : Fin 64, f ⟨64 + k.val, by omega⟩)
        + ∑ k : Fin 64, f ⟨128 + k.val, by omega⟩ := by
  have e : ∑ k : Fin 192, f k = ∑ k : Fin (64 + 64 + 64), f (k.cast (by norm_num)) := by
    exact (Fin.castOrderIso (by norm_num : 64 + 64 + 64 = 192)).toEquiv.sum_comp f |>.symm
  rw [e, Fin.sum_univ_add, Fin.sum_univ_add]
  rfl

end Cert.LibRows

end
-- ==== Proof.RefLayer.lean ====
/-
  One layer of the plain program, operation by operation, read at an entry.

  After the neighbour sum the plain program applies, to whole arrays: the host product with the first weights and the
  bias row; the column means by a host reduction over the rows and a division; the deviations, their squares, the
  second reduction and division; the inverse square root of the variance plus the stabiliser; scale, shift, the
  exponential linear unit (a comparison, a guarded `exp y - 1`, a product with one, a selection); the second product
  and bias; the unit again. Read at row `r`, channel `j`, that chain is the plain spelling of the layer
  (`Cert.Gin.layerR`): a host product is the sum over the contracted channel, a host reduction over the rows is
  the initial word plus the sum over the rows, a row repeated down the rows reads the row's entry.
-/
import proofs.«163505_j89335319757549_1_alg».proof.ReferenceIdeal
import proofs.«163505_j89335319757549_1_alg».proof.Proof.Layer
import proofs.«163505_j89335319757549_1_alg».proof.Proof.LibRows

noncomputable section

open scoped BigOperators
open Idealize.ShloMosaic Idealize.ShloMosaic.ValueIdx

namespace Cert.ReferenceIdeal.RefLayer

open Cert.ReferenceIdeal Cert.Gin
open Cert.ReferenceIdeal.Facts₀ Cert.ReferenceIdeal.Facts
variable [Cert.ReferenceIdeal.Facts]

/-- A scalar word placed at every entry of the node array reads as that word's value. -/
theorem splat_apply (b : BitVec 32) (i : S100000x128.Idx) :
    broadcastInDim S100000x128 ![] bcast_S_S100000x128 (constant (F := Ideal) S_ .f32 b) i = Ideal.ofBits .f32 b :=
  Cert.LibRows.splatInDim_apply _ _ i

/-- A scalar word placed at every entry of a channel vector reads as that word's value. -/
theorem splat128_apply (b : BitVec 32) (i : S128.Idx) :
    broadcastInDim S128 ![] bcast_S_S128 (constant (F := Ideal) S_ .f32 b) i = Ideal.ofBits .f32 b :=
  Cert.LibRows.splatInDim_apply _ _ i

/-- The plain program's exponential linear unit on an array: its operations, in order. -/
def eluOps (x : FVec Ideal S100000x128 .f32) : FVec Ideal S100000x128 .f32 :=
  select (cmpf .ogt x (broadcastInDim S100000x128 ![] bcast_S_S100000x128 (constant (F := Ideal) S_ .f32 0x00000000#32))) x
    (mulf (broadcastInDim S100000x128 ![] bcast_S_S100000x128 (constant (F := Ideal) S_ .f32 0x3F800000#32))
      (Host.expm1 (F := Ideal) (select (cmpf .ogt x (broadcastInDim S100000x128 ![] bcast_S_S100000x128 (constant (F := Ideal) S_ .f32 0x00000000#32)))
        (broadcastInDim S100000x128 ![] bcast_S_S100000x128 (id (constant (F := Ideal) S_ .f32 0x00000000#32))) x)))

theorem eluOps_apply (x : FVec Ideal S100000x128 .f32) (i : S100000x128.Idx) : eluOps x i = eluR (x i) := by
  unfold eluOps eluR
  simp only [select_apply, cmpf_apply, mulf_apply, Host.expm1, id, Ideal.hostUnary_expm1_def, splat_apply]
  rfl

/-- A channel vector laid out as one row and repeated down the rows. -/
def rowB (v : FVec Ideal S128 .f32) : FVec Ideal S100000x128 .f32 :=
  broadcastInDim S100000x128 ![0, 1] bcast_S1x128_S100000x128_0_1 (broadcastInDim S1x128 ![1] bcast_S128_S1x128_1 v)

theorem rowB_apply (v : FVec Ideal S128 .f32) (r : Fin 100000) (j : Fin 128) : rowB v (ix2 r j) = v (ix1 j) :=
  Cert.LibRows.rowBroadcastInDim_apply v _ _ r j

/-- A channel vector as a one-row array. -/
def rowMat (v : FVec Ideal S128 .f32) : Mat 1 128 := fun i => v (ix1 (i 1))

/-- The column sums: the host reduction over the rows from the zero word. -/
def colSumOps (x : FVec Ideal S100000x128 .f32) : FVec Ideal S128 .f32 :=
  Host.reduceAdd (F := Ideal) x (constant (F := Ideal) S_ .f32 0x00000000#32) reducesTo_S100000x128_S128_d0 h_S_

theorem colSumOps_apply (x : FVec Ideal S100000x128 .f32) (k : Fin 128) :
    colSumOps x (ix1 k) = zero32 + ∑ r : Fin 100000, x (ix2 r k) := by
  unfold colSumOps Host.reduceAdd zero32
  rw [Ideal.hostReduceAdd_def]
  have hR : S100000x128.Reduces [0] S128 := by decide
  rw [Ideal.hostReduceAdd_single reducesTo_S100000x128_S128_d0 hR]
  refine congrArg₂ (· + ·) rfl (Finset.sum_congr rfl fun r _ => congrArg x ?_)
  funext c; apply Fin.ext
  fin_cases c <;> rfl

/-- The column means. -/
def meanOps (x : FVec Ideal S100000x128 .f32) : FVec Ideal S128 .f32 :=
  Host.divf (F := Ideal) (colSumOps x) (broadcastInDim S128 ![] bcast_S_S128 (constant (F := Ideal) S_ .f32 0x47C35000#32))

theorem meanOps_apply (x : FVec Ideal S100000x128 .f32) (k : Fin 128) :
    meanOps x (ix1 k) = Ideal.div (zero32 + ∑ r : Fin 100000, x (ix2 r k)) nRows := by
  unfold meanOps Host.divf nRows
  rw [Ideal.hostDivf_def, colSumOps_apply, splat128_apply]

/-- The first linear map: the host product of `h + agg` with the weights, plus the bias row. -/
def zOps (h agg : FVec Ideal S100000x128 .f32) (w1 : FVec Ideal S128x128 .f32) (b1 : FVec Ideal S128 .f32) :
    FVec Ideal S100000x128 .f32 :=
  addf (Host.dotGeneral (F := Ideal) dot_S100000x128_S128x128_S100000x128_1_0_0_1_n_n none (addf h agg) w1) (rowB b1)

theorem dot_apply (A : FVec Ideal S100000x128 .f32) (B : FVec Ideal S128x128 .f32) (r : Fin 100000) (j : Fin 128) :
    Host.dotGeneral (F := Ideal) dot_S100000x128_S128x128_S100000x128_1_0_0_1_n_n none A B (ix2 r j)
      = ∑ c : Fin 128, A (ix2 r c) * B (ix2 c j) :=
  Cert.LibRows.dotGeneral_plain_apply (M := 100000) (K := 128) (N := 128) none _ A B r j

theorem zOps_apply (h agg : FVec Ideal S100000x128 .f32) (w1 : FVec Ideal S128x128 .f32) (b1 : FVec Ideal S128 .f32)
    (r : Fin 100000) (j : Fin 128) : zOps h agg w1 b1 (ix2 r j) = zAt h agg w1 (rowMat b1) r j := by
  unfold zOps zAt rowMat
  rw [addf_apply, dot_apply, rowB_apply]
  rfl

/-- The whole layer after the neighbour sum: the plain program's operations, in order. -/
def layerOps (h agg : FVec Ideal S100000x128 .f32) (w1 : FVec Ideal S128x128 .f32) (b1 g be : FVec Ideal S128 .f32)
    (w2 : FVec Ideal S128x128 .f32) (b2 : FVec Ideal S128 .f32) : FVec Ideal S100000x128 .f32 :=
  eluOps (addf (Host.dotGeneral (F := Ideal) dot_S100000x128_S128x128_S100000x128_1_0_0_1_n_n none
    (eluOps (addf (mulf (mulf (subf (zOps h agg w1 b1) (rowB (meanOps (zOps h agg w1 b1))))
        (rowB (Host.rsqrt (F := Ideal) (addf
          (meanOps (mulf (subf (zOps h agg w1 b1) (rowB (meanOps (zOps h agg w1 b1))))
                         (subf (zOps h agg w1 b1) (rowB (meanOps (zOps h agg w1 b1))))))
          (broadcastInDim S128 ![] bcast_S_S128 (constant (F := Ideal) S_ .f32 0x3727C5AC#32))))))
      (rowB g)) (rowB be))) w2) (rowB b2))

theorem zOps_eq (h agg : FVec Ideal S100000x128 .f32) (w1 : FVec Ideal S128x128 .f32) (b1 : FVec Ideal S128 .f32) :
    zOps h agg w1 b1 = zMat h agg w1 (rowMat b1) := by
  funext i
  obtain ⟨r, j, rfl⟩ : ∃ (r : Fin 100000) (j : Fin 128), i = ix2 r j := ⟨i 0, i 1, eq_ix2 i⟩
  exact zOps_apply h agg w1 b1 r j

theorem layerOps_apply (h agg : FVec Ideal S100000x128 .f32) (w1 : FVec Ideal S128x128 .f32) (b1 g be : FVec Ideal S128 .f32)
    (w2 : FVec Ideal S128x128 .f32) (b2 : FVec Ideal S128 .f32) (r : Fin 100000) (j : Fin 128) :
    layerOps h agg w1 b1 g be w2 b2 (ix2 r j) = layerR h agg w1 (rowMat b1) (rowMat g) (rowMat be) w2 (rowMat b2) (ix2 r j) := by
  unfold layerOps layerR
  rw [eluOps_apply, addf_apply, dot_apply, rowB_apply, zOps_eq]
  refine congrArg eluR (congrArg₂ (· + ·) (Finset.sum_congr rfl fun k _ => congrArg (· * _) ?_) rfl)
  rw [eluOps_apply, addf_apply, mulf_apply, mulf_apply, subf_apply, rowB_apply, rowB_apply, rowB_apply, rowB_apply, meanOps_apply]
  unfold actR
  refine congrArg eluR (congrArg₂ (· + ·) (congrArg₂ (· * ·) (congrArg₂ (· * ·) rfl ?_) rfl) rfl)
  unfold Host.rsqrt
  rw [Ideal.hostUnary_rsqrt_def, addf_apply, splat128_apply, meanOps_apply]
  refine congrArg Ideal.rsqrt (congrArg₂ (· + ·) (congrArg (Ideal.div · nRows) (congrArg₂ (· + ·) rfl (Finset.sum_congr rfl fun r' _ => ?_))) rfl)
  rw [mulf_apply, subf_apply, rowB_apply, meanOps_apply]
  rfl

end Cert.ReferenceIdeal.RefLayer

end
-- ==== Proof.RefHost.lean ====
/-
  The host operations both programs share, as functions of whole arrays: the two index rows of the edge list, the
  neighbour sum (a gather of the source rows, with negative sources wrapped, scattered and added at the target
  rows from zero), and a layer's parameters cut out of the stacked argument arrays.
-/
import proofs.«163505_j89335319757549_1_alg».proof.Proof.RefLayer

noncomputable section

open scoped BigOperators
open Idealize.ShloMosaic Idealize.ShloMosaic.ValueIdx

namespace Cert.ReferenceIdeal.RefLayer

open Cert.ReferenceIdeal Cert.Gin
open Cert.ReferenceIdeal.Facts₀ Cert.ReferenceIdeal.Facts
variable [Cert.ReferenceIdeal.Facts]

/-- Row `k` of the edge list as a vector of 1600000 node numbers. -/
def edgeRow (ei : IVec S2x1600000 32) (off : Fin 2 → Nat) (hs : S2x1600000.Slices off S1x1600000) : IVec S1600000 32 :=
  shapeCast S1600000 (extractStridedSlice S1x1600000 off ei hs) shapeCasts_S1x1600000_S1600000

/-- The neighbour sum: row `dst e` of the result is the sum over the edges `e` into it of row `src e` of `h`
    (a negative source counted from the end), from zero. -/
def aggOps (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Layer `l`'s square weight matrix out of a stack of four. -/
def slab (a : FVec Ideal S4x128x128 .f32) (off : Fin 3 → Nat) (hs : S4x128x128.Slices off S1x128x128) : FVec Ideal S128x128 .f32 :=
  shapeCast S128x128 (extractStridedSlice S1x128x128 off a hs) shapeCasts_S1x128x128_S128x128

/-- Layer `l`'s channel vector out of a stack of four. -/
def rowv (a : FVec Ideal S4x128 .f32) (off : Fin 2 → Nat) (hs : S4x128.Slices off S1x128) : FVec Ideal S128 .f32 :=
  shapeCast S128 (extractStridedSlice S1x128 off a hs) shapeCasts_S1x128_S128

end Cert.ReferenceIdeal.RefLayer

end
-- ==== Proof.RefChain.lean ====
/-
  The plain program's result as one term. Each chunk of @main's line, folded from any buffer contents and read at the
  buffer the next chunk consumes, is a named function of whole arrays: the two edge rows, a layer (the neighbour sum
  and the dense part), the pooling and the head. No chunk writes an argument's buffer and no later chunk writes the
  edge rows, so the reads compose: the result buffer after the whole line is `refNet` of the eleven arguments.
-/
import proofs.«163505_j89335319757549_1_alg».proof.Proof.RefRun
import proofs.«163505_j89335319757549_1_alg».proof.Proof.RefHost

noncomputable section

namespace Cert.ReferenceIdeal.RefChain

open Cert.ReferenceIdeal Cert.ReferenceIdeal.RefRun Cert.ReferenceIdeal.RefLayer Idealize.ShloMosaic Idealize.ShloMosaic.TcCoe Idealize.SL.Sem Idealize.ShloMosaic.StableHlo
open Cert.ReferenceIdeal.Facts₀ Cert.ReferenceIdeal.Facts

/-- The pooling and the linear head on whole arrays: the rows of `h` summed per graph number from zero, divided by
    the larger of the graph's node count (ones summed per graph number from zero) and one, times the head's
    weights, plus the head's bias row. -/
def tailOps (h : FVec Ideal S100000x128 .f32) (batch : IVec S100000 32) (lw : FVec Ideal S128x2 .f32) (lb : FVec Ideal S2 .f32) :
    FVec Ideal S512x2 .f32 :=
  addf (Host.dotGeneral (F := Ideal) dot_S512x128_S128x2_S512x2_1_0_0_1_n_n none
      (Host.divf (F := Ideal)
        (Host.scatterAdd (F := Ideal) scatter_S512x128_S100000x1_S100000x128_1_0_0_1
          (broadcastInDim S512x128 ![] bcast_S_S512x128 (constant (F := Ideal) S_ .f32 0x00000000#32))
          (broadcastInDim S100000x1 ![0] bcast_S100000_S100000x1_0 batch) h)
        (broadcastInDim S512x128 ![0, 1] bcast_S512x1_S512x128_0_1
          (maximumf
            (Host.scatterAdd (F := Ideal) scatter_S512x1_S100000x1_S100000x1_1_0_0_1
              (broadcastInDim S512x1 ![] bcast_S_S512x1 (constant (F := Ideal) S_ .f32 0x00000000#32))
              (broadcastInDim S100000x1 ![0] bcast_S100000_S100000x1_0 batch)
              (broadcastInDim S100000x1 ![] bcast_S_S100000x1 (constant (F := Ideal) S_ .f32 0x3F800000#32)))
            (broadcastInDim S512x1 ![] bcast_S_S512x1 (constant (F := Ideal) S_ .f32 0x3F800000#32)))))
      lw)
    (broadcastInDim S512x2 ![0, 1] bcast_S1x2_S512x2_0_1 (broadcastInDim S1x2 ![1] bcast_S2_S1x2_1 lb))

/-! ## Each chunk's result, from any buffer contents -/

theorem pre_src (V : Valuation τ sig (Elt Ideal)) :
    after (opsPre (F := Ideal)) V (Proc.devRef .tc main_v1)
      = edgeRow (V (Proc.devRef .tc main_arg1)) ![0, 0] slices_S2x1600000_S1x1600000_0_0 := by
  after_results_simp
  rfl

theorem pre_dst (V : Valuation τ sig (Elt Ideal)) :
    after (opsPre (F := Ideal)) V (Proc.devRef .tc main_v3)
      = edgeRow (V (Proc.devRef .tc main_arg1)) ![1, 0] slices_S2x1600000_S1x1600000_1_0 := by
  after_results_simp
  rfl

set_option maxHeartbeats 1600000 in
theorem layer0_out (V : Valuation τ sig (Elt Ideal)) :
    after (opsLayer0 (F := Ideal)) V (Proc.devRef .tc main_v61)
      = layerOps (V (Proc.devRef .tc main_arg0)) (aggOps (V (Proc.devRef .tc main_arg0)) (V (Proc.devRef .tc main_v1)) (V (Proc.devRef .tc main_v3)))
          (slab (V (Proc.devRef .tc main_arg3)) ![0, 0, 0] slices_S4x128x128_S1x128x128_0_0_0)
          (rowv (V (Proc.devRef .tc main_arg4)) ![0, 0] slices_S4x128_S1x128_0_0)
          (rowv (V (Proc.devRef .tc main_arg5)) ![0, 0] slices_S4x128_S1x128_0_0)
          (rowv (V (Proc.devRef .tc main_arg6)) ![0, 0] slices_S4x128_S1x128_0_0)
          (slab (V (Proc.devRef .tc main_arg7)) ![0, 0, 0] slices_S4x128x128_S1x128x128_0_0_0)
          (rowv (V (Proc.devRef .tc main_arg8)) ![0, 0] slices_S4x128_S1x128_0_0) := by
  after_results_simp
  rfl

set_option maxHeartbeats 1600000 in
theorem layer1_out (V : Valuation τ sig (Elt Ideal)) :
    after (opsLayer1 (F := Ideal)) V (Proc.devRef .tc main_v119)
      = layerOps (V (Proc.devRef .tc main_v61)) (aggOps (V (Proc.devRef .tc main_v61)) (V (Proc.devRef .tc main_v1)) (V (Proc.devRef .tc main_v3)))
          (slab (V (Proc.devRef .tc main_arg3)) ![1, 0, 0] slices_S4x128x128_S1x128x128_1_0_0)
          (rowv (V (Proc.devRef .tc main_arg4)) ![1, 0] slices_S4x128_S1x128_1_0)
          (rowv (V (Proc.devRef .tc main_arg5)) ![1, 0] slices_S4x128_S1x128_1_0)
          (rowv (V (Proc.devRef .tc main_arg6)) ![1, 0] slices_S4x128_S1x128_1_0)
          (slab (V (Proc.devRef .tc main_arg7)) ![1, 0, 0] slices_S4x128x128_S1x128x128_1_0_0)
          (rowv (V (Proc.devRef .tc main_arg8)) ![1, 0] slices_S4x128_S1x128_1_0) := by
  after_results_simp
  rfl

set_option maxHeartbeats 1600000 in
theorem layer2_out (V : Valuation τ sig (Elt Ideal)) :
    after (opsLayer2 (F := Ideal)) V (Proc.devRef .tc main_v177)
      = layerOps (V (Proc.devRef .tc main_v119)) (aggOps (V (Proc.devRef .tc main_v119)) (V (Proc.devRef .tc main_v1)) (V (Proc.devRef .tc main_v3)))
          (slab (V (Proc.devRef .tc main_arg3)) ![2, 0, 0] slices_S4x128x128_S1x128x128_2_0_0)
          (rowv (V (Proc.devRef .tc main_arg4)) ![2, 0] slices_S4x128_S1x128_2_0)
          (rowv (V (Proc.devRef .tc main_arg5)) ![2, 0] slices_S4x128_S1x128_2_0)
          (rowv (V (Proc.devRef .tc main_arg6)) ![2, 0] slices_S4x128_S1x128_2_0)
          (slab (V (Proc.devRef .tc main_arg7)) ![2, 0, 0] slices_S4x128x128_S1x128x128_2_0_0)
          (rowv (V (Proc.devRef .tc main_arg8)) ![2, 0] slices_S4x128_S1x128_2_0) := by
  after_results_simp
  rfl

set_option maxHeartbeats 1600000 in
theorem layer3_out (V : Valuation τ sig (Elt Ideal)) :
    after (opsLayer3 (F := Ideal)) V (Proc.devRef .tc main_v235)
      = layerOps (V (Proc.devRef .tc main_v177)) (aggOps (V (Proc.devRef .tc main_v177)) (V (Proc.devRef .tc main_v1)) (V (Proc.devRef .tc main_v3)))
          (slab (V (Proc.devRef .tc main_arg3)) ![3, 0, 0] slices_S4x128x128_S1x128x128_3_0_0)
          (rowv (V (Proc.devRef .tc main_arg4)) ![3, 0] slices_S4x128_S1x128_3_0)
          (rowv (V (Proc.devRef .tc main_arg5)) ![3, 0] slices_S4x128_S1x128_3_0)
          (rowv (V (Proc.devRef .tc main_arg6)) ![3, 0] slices_S4x128_S1x128_3_0)
          (slab (V (Proc.devRef .tc main_arg7)) ![3, 0, 0] slices_S4x128x128_S1x128x128_3_0_0)
          (rowv (V (Proc.devRef .tc main_arg8)) ![3, 0] slices_S4x128_S1x128_3_0) := by
  after_results_simp
  rfl

theorem tail_out (V : Valuation τ sig (Elt Ideal)) :
    after (opsTail (F := Ideal)) V (Proc.devRef .tc main_v250)
      = tailOps (V (Proc.devRef .tc main_v235)) (V (Proc.devRef .tc main_arg2)) (V (Proc.devRef .tc main_arg9)) (V (Proc.devRef .tc main_arg10)) := by
  after_results_simp
  rfl

/-! ## What the chunks carry

No chunk writes an argument's buffer, and no layer or the tail writes the two edge rows: read after any prefix of
the line they are the launch contents, resp. the rows cut from the edge list. -/

/-- Contents `W` reached from launch contents `V` by a prefix of the line that contains the first chunk: the
    arguments as at launch, the two edge rows cut from the edge list. -/
structure Carried (V W : Valuation τ sig (Elt Ideal)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  a10 : W (Proc.devRef .tc main_arg10) = V (Proc.devRef .tc main_arg10)
  src : W (Proc.devRef .tc main_v1) = edgeRow (V (Proc.devRef .tc main_arg1)) ![0, 0] slices_S2x1600000_S1x1600000_0_0
  dst : W (Proc.devRef .tc main_v3) = edgeRow (V (Proc.devRef .tc main_arg1)) ![1, 0] slices_S2x1600000_S1x1600000_1_0

theorem carried_pre (V : Valuation τ sig (Elt Ideal)) : Carried V (after (opsPre (F := Ideal)) V) where
  a0 := after_of_writes_sub opsPre V opsPre_writes (by decide)
  a1 := after_of_writes_sub opsPre V opsPre_writes (by decide)
  a2 := after_of_writes_sub opsPre V opsPre_writes (by decide)
  a3 := after_of_writes_sub opsPre V opsPre_writes (by decide)
  a4 := after_of_writes_sub opsPre V opsPre_writes (by decide)
  a5 := after_of_writes_sub opsPre V opsPre_writes (by decide)
  a6 := after_of_writes_sub opsPre V opsPre_writes (by decide)
  a7 := after_of_writes_sub opsPre V opsPre_writes (by decide)
  a8 := after_of_writes_sub opsPre V opsPre_writes (by decide)
  a9 := after_of_writes_sub opsPre V opsPre_writes (by decide)
  a10 := after_of_writes_sub opsPre V opsPre_writes (by decide)
  src := pre_src V
  dst := pre_dst V

theorem carried_layer0 {V W : Valuation τ sig (Elt Ideal)} (h : Carried V W) :
    Carried V (after (opsLayer0 (F := Ideal)) W) where
  a0 := (after_of_writes_sub opsLayer0 W opsLayer0_writes (by decide)).trans h.a0
  a1 := (after_of_writes_sub opsLayer0 W opsLayer0_writes (by decide)).trans h.a1
  a2 := (after_of_writes_sub opsLayer0 W opsLayer0_writes (by decide)).trans h.a2
  a3 := (after_of_writes_sub opsLayer0 W opsLayer0_writes (by decide)).trans h.a3
  a4 := (after_of_writes_sub opsLayer0 W opsLayer0_writes (by decide)).trans h.a4
  a5 := (after_of_writes_sub opsLayer0 W opsLayer0_writes (by decide)).trans h.a5
  a6 := (after_of_writes_sub opsLayer0 W opsLayer0_writes (by decide)).trans h.a6
  a7 := (after_of_writes_sub opsLayer0 W opsLayer0_writes (by decide)).trans h.a7
  a8 := (after_of_writes_sub opsLayer0 W opsLayer0_writes (by decide)).trans h.a8
  a9 := (after_of_writes_sub opsLayer0 W opsLayer0_writes (by decide)).trans h.a9
  a10 := (after_of_writes_sub opsLayer0 W opsLayer0_writes (by decide)).trans h.a10
  src := (after_of_writes_sub opsLayer0 W opsLayer0_writes (by decide)).trans h.src
  dst := (after_of_writes_sub opsLayer0 W opsLayer0_writes (by decide)).trans h.dst

theorem carried_layer1 {V W : Valuation τ sig (Elt Ideal)} (h : Carried V W) :
    Carried V (after (opsLayer1 (F := Ideal)) W) where
  a0 := (after_of_writes_sub opsLayer1 W opsLayer1_writes (by decide)).trans h.a0
  a1 := (after_of_writes_sub opsLayer1 W opsLayer1_writes (by decide)).trans h.a1
  a2 := (after_of_writes_sub opsLayer1 W opsLayer1_writes (by decide)).trans h.a2
  a3 := (after_of_writes_sub opsLayer1 W opsLayer1_writes (by decide)).trans h.a3
  a4 := (after_of_writes_sub opsLayer1 W opsLayer1_writes (by decide)).trans h.a4
  a5 := (after_of_writes_sub opsLayer1 W opsLayer1_writes (by decide)).trans h.a5
  a6 := (after_of_writes_sub opsLayer1 W opsLayer1_writes (by decide)).trans h.a6
  a7 := (after_of_writes_sub opsLayer1 W opsLayer1_writes (by decide)).trans h.a7
  a8 := (after_of_writes_sub opsLayer1 W opsLayer1_writes (by decide)).trans h.a8
  a9 := (after_of_writes_sub opsLayer1 W opsLayer1_writes (by decide)).trans h.a9
  a10 := (after_of_writes_sub opsLayer1 W opsLayer1_writes (by decide)).trans h.a10
  src := (after_of_writes_sub opsLayer1 W opsLayer1_writes (by decide)).trans h.src
  dst := (after_of_writes_sub opsLayer1 W opsLayer1_writes (by decide)).trans h.dst

theorem carried_layer2 {V W : Valuation τ sig (Elt Ideal)} (h : Carried V W) :
    Carried V (after (opsLayer2 (F := Ideal)) W) where
  a0 := (after_of_writes_sub opsLayer2 W opsLayer2_writes (by decide)).trans h.a0
  a1 := (after_of_writes_sub opsLayer2 W opsLayer2_writes (by decide)).trans h.a1
  a2 := (after_of_writes_sub opsLayer2 W opsLayer2_writes (by decide)).trans h.a2
  a3 := (after_of_writes_sub opsLayer2 W opsLayer2_writes (by decide)).trans h.a3
  a4 := (after_of_writes_sub opsLayer2 W opsLayer2_writes (by decide)).trans h.a4
  a5 := (after_of_writes_sub opsLayer2 W opsLayer2_writes (by decide)).trans h.a5
  a6 := (after_of_writes_sub opsLayer2 W opsLayer2_writes (by decide)).trans h.a6
  a7 := (after_of_writes_sub opsLayer2 W opsLayer2_writes (by decide)).trans h.a7
  a8 := (after_of_writes_sub opsLayer2 W opsLayer2_writes (by decide)).trans h.a8
  a9 := (after_of_writes_sub opsLayer2 W opsLayer2_writes (by decide)).trans h.a9
  a10 := (after_of_writes_sub opsLayer2 W opsLayer2_writes (by decide)).trans h.a10
  src := (after_of_writes_sub opsLayer2 W opsLayer2_writes (by decide)).trans h.src
  dst := (after_of_writes_sub opsLayer2 W opsLayer2_writes (by decide)).trans h.dst

theorem carried_layer3 {V W : Valuation τ sig (Elt Ideal)} (h : Carried V W) :
    Carried V (after (opsLayer3 (F := Ideal)) W) where
  a0 := (after_of_writes_sub opsLayer3 W opsLayer3_writes (by decide)).trans h.a0
  a1 := (after_of_writes_sub opsLayer3 W opsLayer3_writes (by decide)).trans h.a1
  a2 := (after_of_writes_sub opsLayer3 W opsLayer3_writes (by decide)).trans h.a2
  a3 := (after_of_writes_sub opsLayer3 W opsLayer3_writes (by decide)).trans h.a3
  a4 := (after_of_writes_sub opsLayer3 W opsLayer3_writes (by decide)).trans h.a4
  a5 := (after_of_writes_sub opsLayer3 W opsLayer3_writes (by decide)).trans h.a5
  a6 := (after_of_writes_sub opsLayer3 W opsLayer3_writes (by decide)).trans h.a6
  a7 := (after_of_writes_sub opsLayer3 W opsLayer3_writes (by decide)).trans h.a7
  a8 := (after_of_writes_sub opsLayer3 W opsLayer3_writes (by decide)).trans h.a8
  a9 := (after_of_writes_sub opsLayer3 W opsLayer3_writes (by decide)).trans h.a9
  a10 := (after_of_writes_sub opsLayer3 W opsLayer3_writes (by decide)).trans h.a10
  src := (after_of_writes_sub opsLayer3 W opsLayer3_writes (by decide)).trans h.src
  dst := (after_of_writes_sub opsLayer3 W opsLayer3_writes (by decide)).trans h.dst

/-! ## The layers and the whole program as functions of the arguments -/

/-- Layer 0 of the plain program on whole arrays: the neighbour sum of `h` along the edge list's two rows, then the
    dense part with the layer's parameters cut from the stacked arguments. -/
def layerRef0 (h : FVec Ideal S100000x128 .f32) (a1 : IVec S2x1600000 32)
    (a3 : FVec Ideal S4x128x128 .f32) (a4 a5 a6 : FVec Ideal S4x128 .f32) (a7 : FVec Ideal S4x128x128 .f32)
    (a8 : FVec Ideal S4x128 .f32) : FVec Ideal S100000x128 .f32 :=
  layerOps h (aggOps h (edgeRow a1 ![0, 0] slices_S2x1600000_S1x1600000_0_0) (edgeRow a1 ![1, 0] slices_S2x1600000_S1x1600000_1_0))
    (slab a3 ![0, 0, 0] slices_S4x128x128_S1x128x128_0_0_0) (rowv a4 ![0, 0] slices_S4x128_S1x128_0_0)
    (rowv a5 ![0, 0] slices_S4x128_S1x128_0_0) (rowv a6 ![0, 0] slices_S4x128_S1x128_0_0)
    (slab a7 ![0, 0, 0] slices_S4x128x128_S1x128x128_0_0_0) (rowv a8 ![0, 0] slices_S4x128_S1x128_0_0)

theorem layer0_ref {V W : Valuation τ sig (Elt Ideal)} (h : Carried V W) :
    after (opsLayer0 (F := Ideal)) W (Proc.devRef .tc main_v61)
      = layerRef0 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [layer0_out W, h.src, h.dst, h.a0, h.a3, h.a4, h.a5, h.a6, h.a7, h.a8]
  rfl

/-- Layer 1 of the plain program on whole arrays: the neighbour sum of `h` along the edge list's two rows, then the
    dense part with the layer's parameters cut from the stacked arguments. -/
def layerRef1 (h : FVec Ideal S100000x128 .f32) (a1 : IVec S2x1600000 32)
    (a3 : FVec Ideal S4x128x128 .f32) (a4 a5 a6 : FVec Ideal S4x128 .f32) (a7 : FVec Ideal S4x128x128 .f32)
    (a8 : FVec Ideal S4x128 .f32) : FVec Ideal S100000x128 .f32 :=
  layerOps h (aggOps h (edgeRow a1 ![0, 0] slices_S2x1600000_S1x1600000_0_0) (edgeRow a1 ![1, 0] slices_S2x1600000_S1x1600000_1_0))
    (slab a3 ![1, 0, 0] slices_S4x128x128_S1x128x128_1_0_0) (rowv a4 ![1, 0] slices_S4x128_S1x128_1_0)
    (rowv a5 ![1, 0] slices_S4x128_S1x128_1_0) (rowv a6 ![1, 0] slices_S4x128_S1x128_1_0)
    (slab a7 ![1, 0, 0] slices_S4x128x128_S1x128x128_1_0_0) (rowv a8 ![1, 0] slices_S4x128_S1x128_1_0)

theorem layer1_ref {V W : Valuation τ sig (Elt Ideal)} (h : Carried V W) :
    after (opsLayer1 (F := Ideal)) W (Proc.devRef .tc main_v119)
      = layerRef1 (W (Proc.devRef .tc main_v61)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [layer1_out W, h.src, h.dst, h.a3, h.a4, h.a5, h.a6, h.a7, h.a8]
  rfl

/-- Layer 2 of the plain program on whole arrays: the neighbour sum of `h` along the edge list's two rows, then the
    dense part with the layer's parameters cut from the stacked arguments. -/
def layerRef2 (h : FVec Ideal S100000x128 .f32) (a1 : IVec S2x1600000 32)
    (a3 : FVec Ideal S4x128x128 .f32) (a4 a5 a6 : FVec Ideal S4x128 .f32) (a7 : FVec Ideal S4x128x128 .f32)
    (a8 : FVec Ideal S4x128 .f32) : FVec Ideal S100000x128 .f32 :=
  layerOps h (aggOps h (edgeRow a1 ![0, 0] slices_S2x1600000_S1x1600000_0_0) (edgeRow a1 ![1, 0] slices_S2x1600000_S1x1600000_1_0))
    (slab a3 ![2, 0, 0] slices_S4x128x128_S1x128x128_2_0_0) (rowv a4 ![2, 0] slices_S4x128_S1x128_2_0)
    (rowv a5 ![2, 0] slices_S4x128_S1x128_2_0) (rowv a6 ![2, 0] slices_S4x128_S1x128_2_0)
    (slab a7 ![2, 0, 0] slices_S4x128x128_S1x128x128_2_0_0) (rowv a8 ![2, 0] slices_S4x128_S1x128_2_0)

theorem layer2_ref {V W : Valuation τ sig (Elt Ideal)} (h : Carried V W) :
    after (opsLayer2 (F := Ideal)) W (Proc.devRef .tc main_v177)
      = layerRef2 (W (Proc.devRef .tc main_v119)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [layer2_out W, h.src, h.dst, h.a3, h.a4, h.a5, h.a6, h.a7, h.a8]
  rfl

/-- Layer 3 of the plain program on whole arrays: the neighbour sum of `h` along the edge list's two rows, then the
    dense part with the layer's parameters cut from the stacked arguments. -/
def layerRef3 (h : FVec Ideal S100000x128 .f32) (a1 : IVec S2x1600000 32)
    (a3 : FVec Ideal S4x128x128 .f32) (a4 a5 a6 : FVec Ideal S4x128 .f32) (a7 : FVec Ideal S4x128x128 .f32)
    (a8 : FVec Ideal S4x128 .f32) : FVec Ideal S100000x128 .f32 :=
  layerOps h (aggOps h (edgeRow a1 ![0, 0] slices_S2x1600000_S1x1600000_0_0) (edgeRow a1 ![1, 0] slices_S2x1600000_S1x1600000_1_0))
    (slab a3 ![3, 0, 0] slices_S4x128x128_S1x128x128_3_0_0) (rowv a4 ![3, 0] slices_S4x128_S1x128_3_0)
    (rowv a5 ![3, 0] slices_S4x128_S1x128_3_0) (rowv a6 ![3, 0] slices_S4x128_S1x128_3_0)
    (slab a7 ![3, 0, 0] slices_S4x128x128_S1x128x128_3_0_0) (rowv a8 ![3, 0] slices_S4x128_S1x128_3_0)

theorem layer3_ref {V W : Valuation τ sig (Elt Ideal)} (h : Carried V W) :
    after (opsLayer3 (F := Ideal)) W (Proc.devRef .tc main_v235)
      = layerRef3 (W (Proc.devRef .tc main_v177)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [layer3_out W, h.src, h.dst, h.a3, h.a4, h.a5, h.a6, h.a7, h.a8]
  rfl

/-- The plain program on whole arrays: four layers, then the pooling and the head. -/
def refNet (a0 : FVec Ideal S100000x128 .f32) (a1 : IVec S2x1600000 32) (a2 : IVec S100000 32) (a3 : FVec Ideal S4x128x128 .f32) (a4 : FVec Ideal S4x128 .f32) (a5 : FVec Ideal S4x128 .f32) (a6 : FVec Ideal S4x128 .f32) (a7 : FVec Ideal S4x128x128 .f32) (a8 : FVec Ideal S4x128 .f32) (a9 : FVec Ideal S128x2 .f32) (a10 : FVec Ideal S2 .f32) :
    FVec Ideal S512x2 .f32 :=
  tailOps (layerRef3 (layerRef2 (layerRef1 (layerRef0 a0 a1 a3 a4 a5 a6 a7 a8) a1 a3 a4 a5 a6 a7 a8) a1 a3 a4 a5 a6 a7 a8) a1 a3 a4 a5 a6 a7 a8) a2 a9 a10

/-- The result buffer after the whole line, from any launch contents, is the plain program of the arguments' contents. -/
theorem ref_result (V : Valuation τ sig (Elt Ideal)) :
    after (ops (F := Ideal)) V (Proc.devRef .tc main_v250) = refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  have c0 := carried_pre V
  have c1 := carried_layer0 c0
  have c2 := carried_layer1 c1
  have c3 := carried_layer2 c2
  have c4 := carried_layer3 c3
  rw [after_ops, tail_out, layer3_ref c3, layer2_ref c2, layer1_ref c1, layer0_ref c0, c4.a2, c4.a9, c4.a10]
  rfl

end Cert.ReferenceIdeal.RefChain

end
-- ==== Proof.RefReal.lean ====
/-
  Real data stays real through the shared host operations: a gather reads entries, a scatter-add adds finitely many
  of them to a real, a slice and a reshape only move entries.
-/
import proofs.«163505_j89335319757549_1_alg».proof.Proof.RefHost

noncomputable section

open scoped BigOperators
open Idealize.ShloMosaic Idealize.ShloMosaic.ValueIdx

namespace Cert.ReferenceIdeal.RefLayer

open Cert.ReferenceIdeal Cert.Gin
open Cert.ReferenceIdeal.Facts₀ Cert.ReferenceIdeal.Facts
variable [Cert.ReferenceIdeal.Facts]

/-- A scatter-add of real updates into a real array is real: each entry is the old entry plus a finite sum of
    updates. (Stated at any shapes, so that nothing enumerates an index set.) -/
theorem scatterAdd_real {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd (F := Ideal) d x idx upd i) :=
  (hx i).add (IsReal.sum _ _ fun j _ => hu j)

/-- A gather of a real array is real: every result entry is an entry of the operand. -/
theorem gather_real {s si t : Shape} {w : Nat} (d : GatherDims s si t) (x : s.Idx → EReal) (idx : IVec si w)
    (hx : ∀ i, IsReal (x i)) (j : t.Idx) : IsReal (Host.gather d x idx j) := hx _

theorem zsplat_real (i : S100000x128.Idx) :
    IsReal (broadcastInDim S100000x128 ![] bcast_S_S100000x128 (constant (F := Ideal) S_ .f32 0x00000000#32) i) := by
  rw [splat_apply, Ideal.ofBits_zero_f32]; exact isReal_zero

/-- The neighbour sum of a real array is real. -/
theorem aggOps_real (h : FVec Ideal S100000x128 .f32) (src dst : IVec S1600000 32) (hh : ∀ i, IsReal (h i))
    (i : S100000x128.Idx) : IsReal (aggOps h src dst i) := by
  delta aggOps
  exact scatterAdd_real _ _ _ _ zsplat_real (gather_real _ _ _ hh) i

/-- A reshape of a real array is real. -/
theorem shapeCast_real {s t : Shape} (x : s.Idx → EReal) (h : s.ShapeCasts t) (hx : ∀ i, IsReal (x i)) (j : t.Idx) :
    IsReal (shapeCast t x h j) := hx _

/-- A slice of a real array is real. -/
theorem slice_real {s t : Shape} (off : Fin s.rank → Nat) (x : s.Idx → EReal) (h : s.Slices off t)
    (hx : ∀ i, IsReal (x i)) (j : t.Idx) : IsReal (extractStridedSlice t off x h j) := hx _

theorem slab_real (a : FVec Ideal S4x128x128 .f32) (off : Fin 3 → Nat) (hs : S4x128x128.Slices off S1x128x128)
    (ha : ∀ i, IsReal (a i)) : RealMat (slab a off hs) := fun i => by
  delta slab
  exact shapeCast_real _ _ (slice_real off a hs ha) i

theorem rowv_real (a : FVec Ideal S4x128 .f32) (off : Fin 2 → Nat) (hs : S4x128.Slices off S1x128)
    (ha : ∀ i, IsReal (a i)) : ∀ i, IsReal (rowv a off hs i) := fun i => by
  delta rowv
  exact shapeCast_real _ _ (slice_real off a hs ha) i

theorem rowMat_real (v : FVec Ideal S128 .f32) (hv : ∀ i, IsReal (v i)) : RealMat (rowMat v) := fun _ => hv _

end Cert.ReferenceIdeal.RefLayer

end
-- ==== Proof.KBase.lean ====
/-
  Shared pieces of the tiled program's value chain.

  The tiled program keeps a layer's bias, scale and shift as one-row arrays made by a reshape; read at an entry such a
  row is the channel vector's entry, so it is the one-row array the plain spelling uses. With that, and on real data,
  the tiled two-pass layer over those rows is the plain program's layer over the channel vectors. The two index rows
  of the edge list are computed once, before the first region, and every later layer reads them from there.
-/
import proofs.«163505_j89335319757549_1_alg».proof.Proof.KRun
import proofs.«163505_j89335319757549_1_alg».proof.Proof.KCarry
import proofs.«163505_j89335319757549_1_alg».proof.Proof.RefChain
import proofs.«163505_j89335319757549_1_alg».proof.Proof.RefReal
import proofs.«163505_j89335319757549_1_alg».proof.Proof.Gen.ReferenceIdeal
import Idealize.ShloMosaic.Lib.StableHlo.Run
import Idealize.ShloMosaic.Lib.ValueLayout

set_option maxRecDepth 16384

noncomputable section

open scoped BigOperators
open Idealize.ShloMosaic Idealize.ShloMosaic.ValueIdx Idealize.ShloMosaic.TcCoe Idealize.SL.Sem

namespace Cert.KernelIdeal.KChain

open Cert.KernelIdeal Cert.KernelIdeal.Gen Cert.Gin
open Cert.ReferenceIdeal.RefLayer Cert.ReferenceIdeal.RefChain

variable [Cert.KernelIdeal.Facts] [Cert.ReferenceIdeal.Facts]
variable (m : (ℓ : Loc nD τ sig) → Buf (Elt Ideal) ℓ) (ρ : Dev nD → PrngReg)

/-- A channel vector as a one-row array, the tiled program's way (a reshape). -/
def rowK (v : FVec Ideal Cert.ReferenceIdeal.S128 .f32) : Mat 1 128 :=
  shapeCast S1x128 v Cert.KernelIdeal.Gen.shapeCasts_S128_S1x128

/-- Read at an entry, the reshaped row is the vector: it is the one-row array of the plain spelling. -/
theorem rowK_eq (v : FVec Ideal Cert.ReferenceIdeal.S128 .f32) : rowK v = rowMat v := by
  funext i
  obtain ⟨a, j, rfl⟩ : ∃ (a : Fin 1) (j : Fin 128), i = ix2 a j := ⟨i 0, i 1, eq_ix2 i⟩
  obtain rfl : a = 0 := Subsingleton.elim _ _
  exact shapeCast_a_1a_apply v _ 0 j

/-- The number of rows placed at every entry of a one-row array. -/
theorem splatN_apply (i : S1x128.Idx) :
    broadcastInDim S1x128 ![] Cert.KernelIdeal.Gen.bcast_S_S1x128 (constant (F := Ideal) S_ .f32 0x47C35000#32) i = nRows :=
  Cert.LibRows.splatInDim_apply _ _ i

/-- On real data the tiled two-pass layer over the reshaped rows is the plain program's layer. -/
theorem layerK_eq_layerOps (h agg : FVec Ideal Cert.ReferenceIdeal.S100000x128 .f32) (w1 : FVec Ideal Cert.ReferenceIdeal.S128x128 .f32)
    (b1 g be : FVec Ideal Cert.ReferenceIdeal.S128 .f32) (w2 : FVec Ideal Cert.ReferenceIdeal.S128x128 .f32)
    (b2 : FVec Ideal Cert.ReferenceIdeal.S128 .f32)
    (hh : ∀ i, IsReal (h i)) (ha : ∀ i, IsReal (agg i)) (hw1 : ∀ i, IsReal (w1 i)) (hb1 : ∀ i, IsReal (b1 i)) :
    layerK h agg w1 (rowK b1) (rowK g) (rowK be) w2 (rowK b2) = layerOps h agg w1 b1 g be w2 b2 := by
  rw [rowK_eq, rowK_eq, rowK_eq, rowK_eq, layer_eq _ _ _ _ hh ha hw1 (rowMat_real b1 hb1)]
  funext i
  obtain ⟨r, j, rfl⟩ : ∃ (r : Fin 100000) (j : Fin 128), i = ix2 r j := ⟨i 0, i 1, eq_ix2 i⟩
  exact (layerOps_apply h agg w1 b1 g be w2 b2 r j).symm

/-- The plain program's layer of real data is real. -/
theorem layerOps_real (h agg : FVec Ideal Cert.ReferenceIdeal.S100000x128 .f32) (w1 : FVec Ideal Cert.ReferenceIdeal.S128x128 .f32)
    (b1 g be : FVec Ideal Cert.ReferenceIdeal.S128 .f32) (w2 : FVec Ideal Cert.ReferenceIdeal.S128x128 .f32)
    (b2 : FVec Ideal Cert.ReferenceIdeal.S128 .f32)
    (hh : ∀ i, IsReal (h i)) (ha : ∀ i, IsReal (agg i)) (hw1 : ∀ i, IsReal (w1 i)) (hb1 : ∀ i, IsReal (b1 i))
    (hg : ∀ i, IsReal (g i)) (hbe : ∀ i, IsReal (be i)) (hw2 : ∀ i, IsReal (w2 i)) (hb2 : ∀ i, IsReal (b2 i)) :
    ∀ i, IsReal (layerOps h agg w1 b1 g be w2 b2 i) := by
  intro i
  obtain ⟨r, j, rfl⟩ : ∃ (r : Fin 100000) (j : Fin 128), i = ix2 r j := ⟨i 0, i 1, eq_ix2 i⟩
  rw [layerOps_apply]
  exact layerR_real hh ha hw1 (rowMat_real b1 hb1) (rowMat_real g hg) (rowMat_real be hbe) hw2 (rowMat_real b2 hb2) _

/-- The source row of the edge list. -/
abbrev src0 (c : Dev nD) : IVec Cert.ReferenceIdeal.S1600000 32 :=
  edgeRow (m ((c : Thread nD τ).loc main_arg1)) ![0, 0] Cert.ReferenceIdeal.Gen.slices_S2x1600000_S1x1600000_0_0
/-- The target row of the edge list. -/
abbrev dst0 (c : Dev nD) : IVec Cert.ReferenceIdeal.S1600000 32 :=
  edgeRow (m ((c : Thread nD τ).loc main_arg1)) ![1, 0] Cert.ReferenceIdeal.Gen.slices_S2x1600000_S1x1600000_1_0

set_option maxHeartbeats 4000000 in
theorem W1_src (c : Dev nD) : W1 (F := Ideal) m ρ c (Proc.devRef .tc main_v1) = src0 m c := by
  show StableHlo.after hostOps0 (W0 m ρ c) (Proc.devRef .tc main_v1) = _
  after_results_simp
  rfl

set_option maxHeartbeats 4000000 in
theorem W1_dst (c : Dev nD) : W1 (F := Ideal) m ρ c (Proc.devRef .tc main_v3) = dst0 m c := by
  show StableHlo.after hostOps0 (W0 m ρ c) (Proc.devRef .tc main_v3) = _
  after_results_simp
  rfl

end Cert.KernelIdeal.KChain

end
-- ==== Proof.Pass1R0.lean ====
/-
  The first kernel of a layer, region 0 of the program: what its three result arrays hold when it has run, as
  functions of the four arrays it reads.

  The kernel visits the 100000 rows in 20 tiles of 5000. At each tile it forms z = (h + agg) · W1 + b1 for the tile's
  rows and stores it; it adds the tile's column sums of z, and of z², to two running 1 × 128 rows, which it sets to
  zero before the first tile. The tiles' z blocks are written back one by one and together fill the z array; the two
  running rows are written back once, after the last tile, when they hold the sums over all tiles.

  Here: the arithmetic of one tile read entry by entry (a matrix product into a zero accumulator is a finite sum of
  products; a sum down the rows is a finite sum); what each visit leaves in the three output blocks; by induction on
  the tile, the running rows after tile n are the sums over tiles 0 … n; and the passage from blocks to arrays.
-/
import proofs.«163505_j89335319757549_1_alg».proof.Proof.Gen.KernelIdeal.Frame
import proofs.«163505_j89335319757549_1_alg».proof.Proof.Spec
import proofs.«163505_j89335319757549_1_alg».proof.Proof.LibMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Pass1R0

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

/-! ## One tile's arithmetic, entry by entry, on the extended reals -/

section Payloads

/-- A 5000 × 128 by 128 × 128 product into the zero accumulator, at entry (r, j): the sum over k of A (r, k) · B (k, j). -/
theorem matmul_at (A : FVec Ideal S5000x128 .bf16) (B : FVec Ideal S128x128 .bf16) (r : Fin 5000) (j : Fin 128) :
    FloatOps.matmul dot_S5000x128_S128x128_S5000x128_1_0_0_1_n_n none A B
        (constant (F := Ideal) S5000x128 .f32 0x00000000#32) (ix2 r j)
      = ∑ k : Fin 128, A (ix2 r k) * B (ix2 k j) :=
  Cert.LibMatmul.matmul_plain_zero_apply none A B r j

/-- Putting row coordinate k back on axis 0 of a channel index g gives the entry (k, g). -/
theorem lift_axis0 (h : S5000x128.Reduces [0] S128) (g : Fin 128) (k : Fin (S5000x128.size 0)) :
    h.lift (ix1 g) k = ix2 (⟨k.val, k.isLt⟩ : Fin 5000) g := by
  funext c; apply Fin.ext
  fin_cases c <;> rfl

/-- A sum down the 5000 rows of a tile, laid out as one row: entry (0, j) is the sum over the rows r of the source at (r, j). -/
theorem rowsum_at (src : FVec Ideal S5000x128 .f32) (hφ : FKind.Formats .f32)
    (hacc : (0x00000000#32 : BitVec 32) = 0x00000000#32) (u : Fin 1) (j : Fin 128) :
    shapeCast S1x128 (multiReduction .add [0] S128 src 0x00000000#32 reduces_S5000x128_S128 hφ hacc) shapeCasts_S128_S1x128 (ix2 u j)
      = ∑ r : Fin 5000, src (ix2 r j) := by
  refine (shapeCast_a_1a_apply _ shapeCasts_S128_S1x128 u j).trans ?_
  refine (Ideal.multiReduction_add_single src 0x00000000#32 reduces_S5000x128_S128 hφ hacc (ix1 j)).trans ?_
  exact Finset.sum_congr rfl fun k _ => congrArg src (lift_axis0 reduces_S5000x128_S128 j k)

/-- The tile's first linear map at row r of the tile and channel j: Σ_k (x0 + x1)(r, k) · x2 (k, j) + x3 (0, j). -/
theorem pay3_at (x0 x1 : Vec Ideal S5000x128 .f32) (x2 : Vec Ideal S128x128 .f32) (x3 : Vec Ideal S1x128 .f32)
    (r : Fin 5000) (j : Fin 128) :
    k0_pay3 (F := Ideal) x0 x1 x2 x3 (ix2 r j)
      = (∑ k : Fin 128, (x0 (ix2 r k) + x1 (ix2 r k)) * x2 (ix2 k j)) + x3 (ix2 0 j) := by
  unfold k0_pay3
  simp only [shapeCast_self]
  rw [addf_apply]
  refine congrArg₂ (· + ·) ?_ ?_
  · exact (matmul_at _ _ r j).trans (Finset.sum_congr rfl fun k _ => rfl)
  · exact broadcastTo_1b_ab_apply x3 broadcasts_S1x128_S5000x128 r j

/-- The zero rows the first visit stores. -/
theorem pay1_at (u : Fin 1) (j : Fin 128) : k0_pay1 (F := Ideal) (ix2 u j) = 0 := by
  unfold k0_pay1
  exact Ideal.ofBits_zero_f32

theorem pay2_at (u : Fin 1) (j : Fin 128) : k0_pay2 (F := Ideal) (ix2 u j) = 0 := by
  unfold k0_pay2
  exact Ideal.ofBits_zero_f32

/-- The running column sum after a tile: what was there plus the tile's column sum of z. -/
theorem pay4_at (x0 x1 : Vec Ideal S5000x128 .f32) (x2 : Vec Ideal S128x128 .f32) (x3 xo : Vec Ideal S1x128 .f32)
    (u : Fin 1) (j : Fin 128) :
    k0_pay4 (F := Ideal) x0 x1 x2 x3 xo (ix2 u j)
      = xo (ix2 u j) + ∑ r : Fin 5000, k0_pay3 (F := Ideal) x0 x1 x2 x3 (ix2 r j) := by
  unfold k0_pay4
  simp only [shapeCast_self]
  rw [addf_apply]
  exact congrArg (xo (ix2 u j) + ·) (rowsum_at _ _ _ u j)

/-- The running column sum of squares after a tile. -/
theorem pay5_at (x0 x1 : Vec Ideal S5000x128 .f32) (x2 : Vec Ideal S128x128 .f32) (x3 xo : Vec Ideal S1x128 .f32)
    (u : Fin 1) (j : Fin 128) :
    k0_pay5 (F := Ideal) x0 x1 x2 x3 xo (ix2 u j)
      = xo (ix2 u j) + ∑ r : Fin 5000, k0_pay3 (F := Ideal) x0 x1 x2 x3 (ix2 r j) * k0_pay3 (F := Ideal) x0 x1 x2 x3 (ix2 r j) := by
  unfold k0_pay5
  simp only [shapeCast_self]
  rw [addf_apply]
  refine congrArg (xo (ix2 u j) + ·) ((rowsum_at _ _ _ u j).trans ?_)
  exact Finset.sum_congr rfl fun r _ => rfl

/-- When the four blocks are tile t of the row arrays and the whole of the weight and bias arrays, the tile's first
    linear map is the layer's at the tile's rows. -/
theorem tile_at (x0 x1 : Vec Ideal S5000x128 .f32) (x2 : Vec Ideal S128x128 .f32) (x3 : Vec Ideal S1x128 .f32)
    (H A : Cert.Gin.Mat 100000 128) (W : Cert.Gin.Mat 128 128) (B : Cert.Gin.Mat 1 128) (t : Fin 20)
    (e0 : ∀ r k, x0 (ix2 r k) = H (ix2 (Cert.Gin.row t r) k)) (e1 : ∀ r k, x1 (ix2 r k) = A (ix2 (Cert.Gin.row t r) k))
    (e2 : ∀ k j, x2 (ix2 k j) = W (ix2 k j)) (e3 : ∀ j, x3 (ix2 0 j) = B (ix2 0 j)) (r : Fin 5000) (j : Fin 128) :
    k0_pay3 (F := Ideal) x0 x1 x2 x3 (ix2 r j) = Cert.Gin.zAt H A W B (Cert.Gin.row t r) j := by
  rw [pay3_at]
  unfold Cert.Gin.zAt
  rw [e3]
  refine congrArg (· + B (ix2 0 j)) (Finset.sum_congr rfl fun k _ => ?_)
  rw [e0, e1, e2]

end Payloads

/-! ## What one visit leaves in the three output blocks

Each case's stores, read back: the z block is the tile's first linear map; a running row is the row the visit found
(the zero row at the first tile, where the visit has just stored it) plus the tile's column sums. These hold for any
float values. -/

section Pieces

variable {F : FTy → Type} [FloatOps F]

theorem hz : (![0, 0] : Fin 2 → Nat) = fun _ => 0 := funext fun a => by fin_cases a <;> rfl

/-- First tile: the z block. -/
theorem out_A_4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 : Vec F S128x128 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum starts from the zero row the visit has just stored. -/
theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 : Vec F S128x128 .f32) (x3 : Vec F S1x128 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum of squares likewise. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 : Vec F S128x128 .f32) (x3 : Vec F S1x128 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the z block. -/
theorem out_B_4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 : Vec F S128x128 .f32) (x3 : Vec F S1x128 .f32) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum continues from the row the tile before left. -/
theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 : Vec F S128x128 .f32) (x3 : Vec F S1x128 .f32) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum of squares likewise. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 : Vec F S128x128 .f32) (x3 : Vec F S1x128 .f32) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

/-! ## The windows' blocks as parts of their arrays

A block's entry sits in the array, on each axis, at the block index times the block size plus its own coordinate.
The two row windows and the z window move one tile per point; the weight, bias and running-row windows stay at
block (0, 0), which is their whole array. -/

section Blocks

variable {F : FTy → Type} [FloatOps F]

/-- The block index maps over the grid: the row windows move one tile per point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (c : Dev nD)

/-- Window 0's block at point t, at (r, k), is the array at row 5000·t + r, column k. -/
theorem blk0_read (X : Buf (Elt F) ((cfg0.win 0).arr.view.loc (c.tc : Thread nD τ))) (t : Fin cfg0.N) (r : Fin 5000) (k : Fin 128)
    (i : S100000x128.Idx) (h0 : (i 0).val = 5000 * t.val + r.val) (h1 : (i 1).val = k.val) :
    ((cfg0.win 0).blk t).view.read (Elt F) X (ix2 r k) = X i := by
  rw [View.read_apply]
  show X _ = X i
  refine congrArg X ?_
  funext a; apply Fin.ext
  obtain ⟨e0, e1, -⟩ := idx_facts t
  match a with
  | ⟨0, _⟩ => show win0_0.index t (0 : Fin 2) * 5000 + 1 * r.val = (i 0).val; rw [e0, h0]; omega
  | ⟨1, _⟩ => show win0_0.index t (1 : Fin 2) * 128 + 1 * k.val = (i 1).val; rw [e1, h1]; omega

/-- Window 1's block likewise. -/
theorem blk1_read (X : Buf (Elt F) ((cfg0.win 1).arr.view.loc (c.tc : Thread nD τ))) (t : Fin cfg0.N) (r : Fin 5000) (k : Fin 128)
    (i : S100000x128.Idx) (h0 : (i 0).val = 5000 * t.val + r.val) (h1 : (i 1).val = k.val) :
    ((cfg0.win 1).blk t).view.read (Elt F) X (ix2 r k) = X i := by
  rw [View.read_apply]
  show X _ = X i
  refine congrArg X ?_
  funext a; apply Fin.ext
  obtain ⟨-, -, e0, e1, -⟩ := idx_facts t
  match a with
  | ⟨0, _⟩ => show win0_1.index t (0 : Fin 2) * 5000 + 1 * r.val = (i 0).val; rw [e0, h0]; omega
  | ⟨1, _⟩ => show win0_1.index t (1 : Fin 2) * 128 + 1 * k.val = (i 1).val; rw [e1, h1]; omega

/-- The weight window's one block is the whole 128 × 128 array. -/
theorem blk2_read (X : Buf (Elt F) ((cfg0.win 2).arr.view.loc (c.tc : Thread nD τ))) (t : Fin cfg0.N) (k j : Fin 128) :
    ((cfg0.win 2).blk t).view.read (Elt F) X (ix2 k j) = X (ix2 k j) := by
  rw [View.read_apply]
  show X _ = X _
  refine congrArg X ?_
  funext a; apply Fin.ext
  obtain ⟨-, -, -, -, e0, e1, -⟩ := idx_facts t
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The bias window's one block is the whole 1 × 128 array. -/
theorem blk3_read (X : Buf (Elt F) ((cfg0.win 3).arr.view.loc (c.tc : Thread nD τ))) (t : Fin cfg0.N) (u : Fin 1) (j : Fin 128) :
    ((cfg0.win 3).blk t).view.read (Elt F) X (ix2 u j) = X (ix2 u j) := by
  rw [View.read_apply]
  show X _ = X _
  refine congrArg X ?_
  funext a; apply Fin.ext
  obtain ⟨-, -, -, -, -, -, e0, e1, -⟩ := idx_facts t
  match a with
  | ⟨0, _⟩ => show win0_3.index t (0 : Fin 2) * 1 + 1 * u.val = u.val; rw [e0]; omega
  | ⟨1, _⟩ => show win0_3.index t (1 : Fin 2) * 128 + 1 * j.val = j.val; rw [e1]; omega

/-- The z window's block at point t, at (r, k), is the array at row 5000·t + r, column k. -/
theorem blk4_read (X : Buf (Elt F) ((cfg0.win 4).arr.view.loc (c.tc : Thread nD τ))) (t : Fin cfg0.N) (r : Fin 5000) (k : Fin 128)
    (i : S100000x128.Idx) (h0 : (i 0).val = 5000 * t.val + r.val) (h1 : (i 1).val = k.val) :
    ((cfg0.win 4).blk t).view.read (Elt F) X (ix2 r k) = X i := by
  rw [View.read_apply]
  show X _ = X i
  refine congrArg X ?_
  funext a; apply Fin.ext
  obtain ⟨-, -, -, -, -, -, -, -, e0, e1, -⟩ := idx_facts t
  match a with
  | ⟨0, _⟩ => show win0_4.index t (0 : Fin 2) * 5000 + 1 * r.val = (i 0).val; rw [e0, h0]; omega
  | ⟨1, _⟩ => show win0_4.index t (1 : Fin 2) * 128 + 1 * k.val = (i 1).val; rw [e1, h1]; omega

/-- The running-sum window's one block is the whole 1 × 128 array. -/
theorem blk5_read (X : Buf (Elt F) ((cfg0.win 5).arr.view.loc (c.tc : Thread nD τ))) (t : Fin cfg0.N) (u : Fin 1) (j : Fin 128) :
    ((cfg0.win 5).blk t).view.read (Elt F) X (ix2 u j) = X (ix2 u j) := by
  rw [View.read_apply]
  show X _ = X _
  refine congrArg X ?_
  funext a; apply Fin.ext
  obtain ⟨-, -, -, -, -, -, -, -, -, -, e0, e1, -⟩ := idx_facts t
  match a with
  | ⟨0, _⟩ => show win0_5.index t (0 : Fin 2) * 1 + 1 * u.val = u.val; rw [e0]; omega
  | ⟨1, _⟩ => show win0_5.index t (1 : Fin 2) * 128 + 1 * j.val = j.val; rw [e1]; omega

/-- The running sum of squares' window likewise. -/
theorem blk6_read (X : Buf (Elt F) ((cfg0.win 6).arr.view.loc (c.tc : Thread nD τ))) (t : Fin cfg0.N) (u : Fin 1) (j : Fin 128) :
    ((cfg0.win 6).blk t).view.read (Elt F) X (ix2 u j) = X (ix2 u j) := by
  rw [View.read_apply]
  show X _ = X _
  refine congrArg X ?_
  funext a; apply Fin.ext
  obtain ⟨-, -, -, -, -, -, -, -, -, -, -, -, e0, e1⟩ := idx_facts t
  match a with
  | ⟨0, _⟩ => show win0_6.index t (0 : Fin 2) * 1 + 1 * u.val = u.val; rw [e0]; omega
  | ⟨1, _⟩ => show win0_6.index t (1 : Fin 2) * 128 + 1 * j.val = j.val; rw [e1]; omega

/-- Every row of the result lies in the block of the point that holds its tile. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨t, htv⟩ : ∃ t : Fin cfg0.N, t.val = (i 0).val / 5000 := ⟨⟨_, ht⟩, rfl⟩
  refine ⟨t, flush0_4 t, ?_⟩
  show i ∈ ((View.whole main_v19_0).slice (win0_4.rect t)).set
  rw [View.set_slice_whole, Rect.mem_set_unit]
  obtain ⟨-, -, -, -, -, -, -, -, e0, e1, -⟩ := idx_facts t
  intro a
  match a with
  | ⟨0, _⟩ =>
    show win0_4.index t (0 : Fin 2) * 5000 ≤ (i 0).val ∧ (i 0).val < win0_4.index t (0 : Fin 2) * 5000 + 5000
    rw [e0, htv]; omega
  | ⟨1, _⟩ =>
    show win0_4.index t (1 : Fin 2) * 128 ≤ (i 1).val ∧ (i 1).val < win0_4.index t (1 : Fin 2) * 128 + 128
    rw [e1]; omega

/-- The one block of the column sums is the whole 1 × 128 array: the last point covers it. -/
theorem cover5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 20 := N_0
  obtain ⟨t, htv⟩ : ∃ t : Fin cfg0.N, t.val = 19 := ⟨⟨19, by rw [hN]; omega⟩, rfl⟩
  refine ⟨t, (flush0_5 t).mpr (by rw [htv]), ?_⟩
  show i ∈ ((View.whole main_v19_1).slice (win0_5.rect t)).set
  rw [View.set_slice_whole, Rect.mem_set_unit]
  obtain ⟨-, -, -, -, -, -, -, -, -, -, e0, e1, -⟩ := idx_facts t
  intro a
  match a with
  | ⟨0, _⟩ =>
    show win0_5.index t (0 : Fin 2) * 1 ≤ (i 0).val ∧ (i 0).val < win0_5.index t (0 : Fin 2) * 1 + 1
    rw [e0]; omega
  | ⟨1, _⟩ =>
    show win0_5.index t (1 : Fin 2) * 128 ≤ (i 1).val ∧ (i 1).val < win0_5.index t (1 : Fin 2) * 128 + 128
    rw [e1]; omega

/-- The same for the sums of squares. -/
theorem cover6 (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 20 := N_0
  obtain ⟨t, htv⟩ : ∃ t : Fin cfg0.N, t.val = 19 := ⟨⟨19, by rw [hN]; omega⟩, rfl⟩
  refine ⟨t, (flush0_6 t).mpr (by rw [htv]), ?_⟩
  show i ∈ ((View.whole main_v19_2).slice (win0_6.rect t)).set
  rw [View.set_slice_whole, Rect.mem_set_unit]
  obtain ⟨-, -, -, -, -, -, -, -, -, -, -, -, e0, e1⟩ := idx_facts t
  intro a
  match a with
  | ⟨0, _⟩ =>
    show win0_6.index t (0 : Fin 2) * 1 ≤ (i 0).val ∧ (i 0).val < win0_6.index t (0 : Fin 2) * 1 + 1
    rw [e0]; omega
  | ⟨1, _⟩ =>
    show win0_6.index t (1 : Fin 2) * 128 ≤ (i 1).val ∧ (i 1).val < win0_6.index t (1 : Fin 2) * 128 + 128
    rw [e1]; omega

end Blocks

/-! ## The run: the three result arrays

From here on the values are the extended reals and `V` is what the buffers hold when the region is entered. -/

section Run

variable (V : (c : Dev nD) → (b : Ref sig .tc) → Buf (Elt Ideal) ((c : Thread nD τ).loc b))

/-- The four arrays the kernel reads, as the region finds them: node features, neighbour sums, weights, bias. -/
abbrev Hm (c : Dev nD) : Cert.Gin.Mat 100000 128 := V c (Pipeline.arrRef spec0 0)
abbrev Am (c : Dev nD) : Cert.Gin.Mat 100000 128 := V c (Pipeline.arrRef spec0 1)
abbrev Wm (c : Dev nD) : Cert.Gin.Mat 128 128 := V c (Pipeline.arrRef spec0 2)
abbrev Bm (c : Dev nD) : Cert.Gin.Mat 1 128 := V c (Pipeline.arrRef spec0 3)

/-- The first linear map of the layer as a 100000 × 128 array. -/
abbrev zMat (c : Dev nD) : Cert.Gin.Mat 100000 128 := fun i => Cert.Gin.zAt (Hm V c) (Am V c) (Wm V c) (Bm V c) (i 0) (i 1)

/-- A grid point as a tile number. -/
def tileOf (t : Fin cfg0.N) : Fin 20 := ⟨t.val, lt_of_lt_of_eq t.isLt N_0⟩

/-- A tile-indexed quantity as a function of a natural number (zero past the last tile), so that running sums are
    sums over an initial segment of the naturals. -/
def tsum (f : Fin 20 → EReal) (s : ℕ) : EReal := if h : s < 20 then f ⟨s, h⟩ else 0

theorem tsum_of_lt (f : Fin 20 → EReal) (s : ℕ) (h : s < 20) : tsum f s = f ⟨s, h⟩ := dif_pos h

theorem sum_range_tsum (f : Fin 20 → EReal) : ∑ s ∈ Finset.range 20, tsum f s = ∑ t : Fin 20, f t := by
  rw [Finset.sum_range]
  exact Finset.sum_congr rfl fun t _ => dif_pos t.isLt

/-- At point t the body's first linear map, on the blocks the windows hand it, is the layer's z at the rows of tile t. -/
theorem tile_blk (c : Dev nD) (t : Fin cfg0.N) (r : Fin 5000) (j : Fin 128) :
    k0_pay3 (F := Ideal) (iblk0 V c 0 t) (iblk0 V c 1 t) (iblk0 V c 2 t) (iblk0 V c 3 t) (ix2 r j)
      = Cert.Gin.zAt (Hm V c) (Am V c) (Wm V c) (Bm V c) (Cert.Gin.row (tileOf t) r) j :=
  tile_at (iblk0 V c 0 t) (iblk0 V c 1 t) (iblk0 V c 2 t) (iblk0 V c 3 t) (Hm V c) (Am V c) (Wm V c) (Bm V c) (tileOf t)
    (fun r k => blk0_read c (V c (Pipeline.arrRef spec0 0)) t r k (ix2 (Cert.Gin.row (tileOf t) r) k) rfl rfl)
    (fun r k => blk1_read c (V c (Pipeline.arrRef spec0 1)) t r k (ix2 (Cert.Gin.row (tileOf t) r) k) rfl rfl)
    (fun k j => blk2_read c (V c (Pipeline.arrRef spec0 2)) t k j)
    (fun j => blk3_read c (V c (Pipeline.arrRef spec0 3)) t 0 j)
    r j

/-- After any point the z block holds the point's tile of z. -/
theorem inv4 (c : Dev nD) (t : Fin cfg0.N) :
    (outsAt0 V c t.val t.isLt).1 = k0_pay3 (F := Ideal) (iblk0 V c 0 t) (iblk0 V c 1 t) (iblk0 V c 2 t) (iblk0 V c 3 t) := by
  by_cases h0 : t.val % 20 = 0
  · rw [outsAt0_A V c t h0]
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t)
      (outsAt0 V c (t.val - 1) (Nat.lt_of_le_of_lt (Nat.sub_le _ _) t.isLt)).2.1 (outsAt0 V c (t.val - 1) (Nat.lt_of_le_of_lt (Nat.sub_le _ _) t.isLt)).2.2

/-- The first point leaves the first tile's column sums in the running row. -/
theorem step5_A (c : Dev nD) (t : Fin cfg0.N) (h0 : t.val % 20 = 0) (u : Fin 1) (j : Fin 128) :
    (outsAt0 V c t.val t.isLt).2.1 (ix2 u j) = ∑ r : Fin 5000, Cert.Gin.zAt (Hm V c) (Am V c) (Wm V c) (Bm V c) (Cert.Gin.row (tileOf t) r) j := by
  rw [outsAt0_A V c t h0]
  refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)) (ix2 u j)).trans ?_
  refine (pay4_at (iblk0 V c 0 t) (iblk0 V c 1 t) (iblk0 V c 2 t) (iblk0 V c 3 t) (k0_pay1 (F := Ideal)) u j).trans ?_
  rw [pay1_at, zero_add]
  exact Finset.sum_congr rfl fun r _ => tile_blk V c t r j

/-- A later point adds its tile's column sums to what the point before left. -/
theorem step5_B (c : Dev nD) (t : Fin cfg0.N) (h0 : ¬t.val % 20 = 0) (u : Fin 1) (j : Fin 128) :
    (outsAt0 V c t.val t.isLt).2.1 (ix2 u j)
      = (outsAt0 V c (t.val - 1) (Nat.lt_of_le_of_lt (Nat.sub_le _ _) t.isLt)).2.1 (ix2 u j) + ∑ r : Fin 5000, Cert.Gin.zAt (Hm V c) (Am V c) (Wm V c) (Bm V c) (Cert.Gin.row (tileOf t) r) j := by
  rw [outsAt0_B V c t h0]
  refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t)
    (outsAt0 V c (t.val - 1) (Nat.lt_of_le_of_lt (Nat.sub_le _ _) t.isLt)).2.1 (outsAt0 V c (t.val - 1) (Nat.lt_of_le_of_lt (Nat.sub_le _ _) t.isLt)).2.2) (ix2 u j)).trans ?_
  refine (pay4_at (iblk0 V c 0 t) (iblk0 V c 1 t) (iblk0 V c 2 t) (iblk0 V c 3 t) (outsAt0 V c (t.val - 1) (Nat.lt_of_le_of_lt (Nat.sub_le _ _) t.isLt)).2.1 u j).trans ?_
  exact congrArg ((outsAt0 V c (t.val - 1) (Nat.lt_of_le_of_lt (Nat.sub_le _ _) t.isLt)).2.1 (ix2 u j) + ·) (Finset.sum_congr rfl fun r _ => tile_blk V c t r j)

/-- The same two steps for the sums of squares. -/
theorem step6_A (c : Dev nD) (t : Fin cfg0.N) (h0 : t.val % 20 = 0) (u : Fin 1) (j : Fin 128) :
    (outsAt0 V c t.val t.isLt).2.2 (ix2 u j)
      = ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt0_A V c t h0]
  refine (congrFun (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)) (ix2 u j)).trans ?_
  refine (pay5_at (iblk0 V c 0 t) (iblk0 V c 1 t) (iblk0 V c 2 t) (iblk0 V c 3 t) (k0_pay2 (F := Ideal)) u j).trans ?_
  rw [pay2_at, zero_add]
  exact Finset.sum_congr rfl fun r _ => by rw [tile_blk V c t r j]

theorem step6_B (c : Dev nD) (t : Fin cfg0.N) (h0 : ¬t.val % 20 = 0) (u : Fin 1) (j : Fin 128) :
    (outsAt0 V c t.val t.isLt).2.2 (ix2 u j)
      = (outsAt0 V c (t.val - 1) (Nat.lt_of_le_of_lt (Nat.sub_le _ _) t.isLt)).2.2 (ix2 u j)
        + ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt0_B V c t h0]
  refine (congrFun (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t)
    (outsAt0 V c (t.val - 1) (Nat.lt_of_le_of_lt (Nat.sub_le _ _) t.isLt)).2.1 (outsAt0 V c (t.val - 1) (Nat.lt_of_le_of_lt (Nat.sub_le _ _) t.isLt)).2.2) (ix2 u j)).trans ?_
  refine (pay5_at (iblk0 V c 0 t) (iblk0 V c 1 t) (iblk0 V c 2 t) (iblk0 V c 3 t) (outsAt0 V c (t.val - 1) (Nat.lt_of_le_of_lt (Nat.sub_le _ _) t.isLt)).2.2 u j).trans ?_
  exact congrArg ((outsAt0 V c (t.val - 1) (Nat.lt_of_le_of_lt (Nat.sub_le _ _) t.isLt)).2.2 (ix2 u j) + ·) (Finset.sum_congr rfl fun r _ => by rw [tile_blk V c t r j])

/-- THE RUNNING SUM: after point n the row holds the column sums of z over tiles 0 … n. By induction on the point. -/
theorem inv5 (c : Dev nD) (u : Fin 1) (j : Fin 128) : ∀ (n : ℕ) (h : n < cfg0.N),
    (outsAt0 V c n h).2.1 (ix2 u j)
      = ∑ s ∈ Finset.range (n + 1), tsum (fun t => ∑ r : Fin 5000, Cert.Gin.zAt (Hm V c) (Am V c) (Wm V c) (Bm V c) (Cert.Gin.row t r) j) s
  | 0, h => by
    rw [Finset.sum_range_one, tsum_of_lt _ 0 (by omega)]
    exact step5_A V c ⟨0, h⟩ rfl u j
  | n + 1, h => by
    have hN : cfg0.N = 20 := N_0
    have hB : ¬(⟨n + 1, h⟩ : Fin cfg0.N).val % 20 = 0 := by dsimp only; omega
    rw [Finset.sum_range_succ, ← inv5 c u j n (Nat.lt_of_succ_lt h), tsum_of_lt _ (n + 1) (by omega)]
    exact step5_B V c ⟨n + 1, h⟩ hB u j

/-- THE RUNNING SUM OF SQUARES likewise. -/
theorem inv6 (c : Dev nD) (u : Fin 1) (j : Fin 128) : ∀ (n : ℕ) (h : n < cfg0.N),
    (outsAt0 V c n h).2.2 (ix2 u j)
      = ∑ s ∈ Finset.range (n + 1), tsum (fun t => ∑ r : Fin 5000,
          Cert.Gin.zAt (Hm V c) (Am V c) (Wm V c) (Bm V c) (Cert.Gin.row t r) j * Cert.Gin.zAt (Hm V c) (Am V c) (Wm V c) (Bm V c) (Cert.Gin.row t r) j) s
  | 0, h => by
    rw [Finset.sum_range_one, tsum_of_lt _ 0 (by omega)]
    exact step6_A V c ⟨0, h⟩ rfl u j
  | n + 1, h => by
    have hN : cfg0.N = 20 := N_0
    have hB : ¬(⟨n + 1, h⟩ : Fin cfg0.N).val % 20 = 0 := by dsimp only; omega
    rw [Finset.sum_range_succ, ← inv6 c u j n (Nat.lt_of_succ_lt h), tsum_of_lt _ (n + 1) (by omega)]
    exact step6_B V c ⟨n + 1, h⟩ hB u j

/-! ### From blocks to arrays -/

/-- What the z array ends holding. -/
abbrev G4 (c : Dev nD) : Buf (Elt Ideal) ((cfg0.win 4).arr.view.loc (c.tc : Thread nD τ)) := zMat V c
/-- What the column-sum array ends holding. -/
abbrev G5 (c : Dev nD) : Buf (Elt Ideal) ((cfg0.win 5).arr.view.loc (c.tc : Thread nD τ)) :=
  fun i => Cert.Gin.colSum (zMat V c) (i 1)
/-- What the array of column sums of squares ends holding. -/
abbrev G6 (c : Dev nD) : Buf (Elt Ideal) ((cfg0.win 6).arr.view.loc (c.tc : Thread nD τ)) :=
  fun i => Cert.Gin.colSumSq (zMat V c) (i 1)

/-- Every point writes back its block of z. -/
theorem flushed4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4, inv4]
  funext y
  obtain ⟨r, k, rfl⟩ : ∃ (r : Fin 5000) (k : Fin 128), y = ix2 r k := ⟨y 0, y 1, eq_ix2 y⟩
  rw [blk4_read c (G4 V c) t r k (ix2 (Cert.Gin.row (tileOf t) r) k) rfl rfl]
  show k0_pay3 (F := Ideal) _ _ _ _ (ix2 r k) = _
  exact tile_blk V c t r k

/-- So the z array ends holding z. -/
theorem final4 (c : Dev nD) : (dat0 V c).arrAt 4 cfg0.N = G4 V c :=
  (dat0 V c).arrAt_eq_of_cover 4 (G4 V c) (fun t _ => flushed4 V c t) (fun i => cover4 i)

/-- The last point writes back the running sums, which by then run over all twenty tiles. -/
theorem flushed5 (c : Dev nD) (t : Fin cfg0.N) (hf : (cfg0.win 5).flush t = true) :
    (dat0 V c).flushed 5 t = ((cfg0.win 5).blk t).view.read (Elt Ideal) (G5 V c) := by
  have hN : cfg0.N = 20 := N_0
  have h19 : t.val = 19 := by have := (flush0_5 t).mp hf; have := t.isLt; omega
  show (cfg0.win 5).cut (grid0.coords t) ((dat0 V c).after 5 t) = _
  rw [after0_5]
  funext y
  obtain ⟨u, j, rfl⟩ : ∃ (u : Fin 1) (j : Fin 128), y = ix2 u j := ⟨y 0, y 1, eq_ix2 y⟩
  rw [blk5_read c (G5 V c) t u j]
  show (outsAt0 V c t.val t.isLt).2.1 (ix2 u j) = _
  rw [inv5 V c u j t.val t.isLt, h19]
  exact sum_range_tsum _

theorem final5 (c : Dev nD) : (dat0 V c).arrAt 5 cfg0.N = G5 V c :=
  (dat0 V c).arrAt_eq_of_cover 5 (G5 V c) (flushed5 V c) (fun i => cover5 i)

theorem flushed6 (c : Dev nD) (t : Fin cfg0.N) (hf : (cfg0.win 6).flush t = true) :
    (dat0 V c).flushed 6 t = ((cfg0.win 6).blk t).view.read (Elt Ideal) (G6 V c) := by
  have hN : cfg0.N = 20 := N_0
  have h19 : t.val = 19 := by have := (flush0_6 t).mp hf; have := t.isLt; omega
  show (cfg0.win 6).cut (grid0.coords t) ((dat0 V c).after 6 t) = _
  rw [after0_6]
  funext y
  obtain ⟨u, j, rfl⟩ : ∃ (u : Fin 1) (j : Fin 128), y = ix2 u j := ⟨y 0, y 1, eq_ix2 y⟩
  rw [blk6_read c (G6 V c) t u j]
  show (outsAt0 V c t.val t.isLt).2.2 (ix2 u j) = _
  rw [inv6 V c u j t.val t.isLt, h19]
  exact sum_range_tsum _

theorem final6 (c : Dev nD) : (dat0 V c).arrAt 6 cfg0.N = G6 V c :=
  (dat0 V c).arrAt_eq_of_cover 6 (G6 V c) (flushed6 V c) (fun i => cover6 i)

/-! ### The three closed forms -/

/-- The z array after the region: the layer's first linear map, entry by entry. -/
theorem z0 (c : Dev nD) (r : Fin 100000) (j : Fin 128) :
    (dat0 (F := Ideal) V c).arrAt 4 cfg0.N (ix2 r j) = Cert.Gin.zAt (Hm V c) (Am V c) (Wm V c) (Bm V c) r j :=
  congrFun (final4 V c) (ix2 r j)

/-- The column sums of z. -/
theorem s0 (c : Dev nD) (j : Fin 128) :
    (dat0 (F := Ideal) V c).arrAt 5 cfg0.N (ix2 0 j)
      = Cert.Gin.colSum (fun i => Cert.Gin.zAt (Hm V c) (Am V c) (Wm V c) (Bm V c) (i 0) (i 1)) j :=
  congrFun (final5 V c) (ix2 0 j)

/-- The column sums of z². -/
theorem ss0 (c : Dev nD) (j : Fin 128) :
    (dat0 (F := Ideal) V c).arrAt 6 cfg0.N (ix2 0 j)
      = Cert.Gin.colSumSq (fun i => Cert.Gin.zAt (Hm V c) (Am V c) (Wm V c) (Bm V c) (i 0) (i 1)) j :=
  congrFun (final6 V c) (ix2 0 j)

end Run

end Cert.KernelIdeal.Pass1R0

end
-- ==== Proof.Pass2Core.lean ====
/-
  The second pass of a layer on one tile of 5000 rows, read entry by entry on the extended reals.

  The kernel body normalises the tile of `z` with the mean and variance rows, scales and shifts it, applies the
  exponential linear unit, multiplies by the second weight matrix, adds the bias row and applies the unit again. Each
  step is a whole-tile operation; here the chain is read at one entry `(r, j)` of the tile: a row broadcast down the
  tile reads its entry of the channel, rounding to a narrower format is the identity on the extended reals, and the
  matrix product into the zero accumulator is the plain sum over the contracted channel. The result is the layer's
  output `outAt` at row `5000·t + r` once the tile's rows are identified with those rows of `z`.
-/
import Idealize.ShloMosaic.PureOps.Ideal
import Idealize.ShloMosaic.Lib.ValueIdx
import Idealize.ShloMosaic.Lib.ValueLayout
import Idealize.ShloMosaic.Lib.Pipeline.Value
import Idealize.ShloMosaic.PureOps.Ideal.Laws
import proofs.«163505_j89335319757549_1_alg».proof.Proof.Spec
import proofs.«163505_j89335319757549_1_alg».proof.Proof.LibMatmul

noncomputable section

open scoped BigOperators
open Idealize.ShloMosaic Idealize.ShloMosaic.ValueIdx

namespace Cert.Gin.Pass2

/-- The shape of one tile of rows, of a per-channel row, and of the second weight matrix. -/
abbrev T5 : Shape := ⟨2, ![5000, 128]⟩
abbrev T1 : Shape := ⟨2, ![1, 128]⟩
abbrev TW : Shape := ⟨2, ![128, 128]⟩

/-- The normalised value at local row `r`, channel `k` of a tile whose rows of `z` are `x`:
    `(x - mu) · rsqrt (var + eps) · gamma + beta`. -/
def normT (x : Mat 5000 128) (mu var g be : Mat 1 128) (r : Fin 5000) (k : Fin 128) : EReal :=
  ((x (ix2 r k) - mu (ix2 0 k)) * Ideal.rsqrt (var (ix2 0 k) + eps)) * g (ix2 0 k) + be (ix2 0 k)

/-- The normalised, activated value on a tile. -/
def actT (x : Mat 5000 128) (mu var g be : Mat 1 128) (r : Fin 5000) (k : Fin 128) : EReal :=
  elu (normT x mu var g be r k)

/-- The second linear map on a tile before the last activation: `Σ_k act[r,k] · W2[k,j] + b2[j]`. -/
def linT (x : Mat 5000 128) (mu var g be : Mat 1 128) (w2 : Mat 128 128) (b2 : Mat 1 128)
    (r : Fin 5000) (j : Fin 128) : EReal :=
  (∑ k : Fin 128, actT x mu var g be r k * w2 (ix2 k j)) + b2 (ix2 0 j)

/-- The layer's output on a tile at local row `r`, channel `j`. -/
def outT (x : Mat 5000 128) (mu var g be : Mat 1 128) (w2 : Mat 128 128) (b2 : Mat 1 128)
    (r : Fin 5000) (j : Fin 128) : EReal :=
  elu (linT x mu var g be w2 b2 r j)

/-- When the tile's rows are rows `5000·t + r` of `z`, the tile's output is the layer's output at those rows. -/
theorem outT_eq_outAt (z : Mat 100000 128) (x : Mat 5000 128) (mu var g be : Mat 1 128) (w2 : Mat 128 128)
    (b2 : Mat 1 128) (t : Fin 20) (hx : ∀ (r : Fin 5000) (k : Fin 128), x (ix2 r k) = z (ix2 (row t r) k))
    (r : Fin 5000) (j : Fin 128) :
    outT x mu var g be w2 b2 r j = outAt z mu var g be w2 b2 (row t r) j := by
  unfold outT linT outAt
  refine congrArg elu (congrArg (· + b2 (ix2 0 j)) (Finset.sum_congr rfl fun k _ => ?_))
  unfold actT normT actAt
  rw [hx r k]

/-- The same with the tile's other blocks identified with their arrays: every input but the first is read whole at
    every point. -/
theorem outT_eq_outAt_of_blocks (z : Mat 100000 128) (mu var g be : Mat 1 128) (w2 : Mat 128 128) (b2 : Mat 1 128)
    (x : Mat 5000 128) (mu' var' g' be' : Mat 1 128) (w2' : Mat 128 128) (b2' : Mat 1 128) (t : Fin 20)
    (hx : ∀ (r : Fin 5000) (k : Fin 128), x (ix2 r k) = z (ix2 (row t r) k))
    (hmu : mu' = mu) (hvar : var' = var) (hg : g' = g) (hbe : be' = be) (hw2 : w2' = w2) (hb2 : b2' = b2)
    (r : Fin 5000) (j : Fin 128) :
    outT x mu' var' g' be' w2' b2' r j = outAt z mu var g be w2 b2 (row t r) j := by
  subst hmu hvar hg hbe hw2 hb2
  exact outT_eq_outAt z x _ _ _ _ _ _ t hx r j

/-- A per-channel row repeated down the tile's rows reads, at `(r, j)`, the row's entry `j`. -/
theorem rowB_apply (v : T1.Idx → EReal) (hb : T1.Broadcasts T5) (r : Fin 5000) (j : Fin 128) :
    broadcastTo T5 v hb (ix2 r j) = v (ix2 0 j) :=
  broadcastTo_1b_ab_apply v hb r j

/-- The exponential and the inverse square root of an array act entry by entry. -/
theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-- The normalisation of one tile as the chain of whole-tile operations the kernel body performs, from the tile of
    `z` (`v0`), the variance row (`v2`), the mean row (`v7`) and the scale and shift rows (`v13`, `v17`). -/
def tileNorm (h55 : T5.ShapeCasts T5) (h11 : T1.ShapeCasts T1) (hb : T1.Broadcasts T5)
    (v0 : Vec Ideal T5 .f32) (v2 v7 v13 v17 : Vec Ideal T1 .f32) : FVec Ideal T5 .f32 :=
  have v1 : FVec Ideal T5 .f32 := shapeCast T5 v0 h55
  have v3 : FVec Ideal T1 .f32 := shapeCast T1 v2 h11
  have cst : Ideal .f32 := Scalar.ofBits .f32 0x3727C5AC#32
  have v4 : FVec Ideal T1 .f32 := broadcast T1 cst
  have v5 : FVec Ideal T1 .f32 := addf v3 v4
  have v6 : FVec Ideal T1 .f32 := rsqrt v5
  have v8 : FVec Ideal T1 .f32 := shapeCast T1 v7 h11
  have v9 : FVec Ideal T5 .f32 := broadcastTo T5 v8 hb
  have v10 : FVec Ideal T5 .f32 := subf v1 v9
  have v11 : FVec Ideal T5 .f32 := broadcastTo T5 v6 hb
  have v12 : FVec Ideal T5 .f32 := mulf v10 v11
  have v14 : FVec Ideal T1 .f32 := shapeCast T1 v13 h11
  have v15 : FVec Ideal T5 .f32 := broadcastTo T5 v14 hb
  have v16 : FVec Ideal T5 .f32 := mulf v12 v15
  have v18 : FVec Ideal T1 .f32 := shapeCast T1 v17 h11
  have v19 : FVec Ideal T5 .f32 := broadcastTo T5 v18 hb
  have v20 : FVec Ideal T5 .f32 := addf v16 v19
  v20

/-- The chain read at local row `r`, channel `k`: each row broadcast down the tile reads its entry of the channel. -/
theorem tileNorm_apply (h55 : T5.ShapeCasts T5) (h11 : T1.ShapeCasts T1) (hb : T1.Broadcasts T5)
    (v0 : Vec Ideal T5 .f32) (v2 v7 v13 v17 : Vec Ideal T1 .f32) (r : Fin 5000) (k : Fin 128) :
    tileNorm h55 h11 hb v0 v2 v7 v13 v17 (ix2 r k) = normT v0 v7 v2 v13 v17 r k := by
  unfold tileNorm normT
  simp only [shapeCast_self]
  rw [addf_apply, mulf_apply, mulf_apply, subf_apply, rowB_apply, rowB_apply, rowB_apply, rowB_apply,
    rsqrt_apply, addf_apply]
  rfl

/-- The second pass on one tile up to the last activation's argument: the normalisation, the activation, the rounding
    of both factors to the narrower format, the product with the second weight matrix (`v28`) into the zero
    accumulator, and the bias row (`v32`). -/
def tileLin (h55 : T5.ShapeCasts T5) (h11 : T1.ShapeCasts T1) (hWW : TW.ShapeCasts TW) (hb : T1.Broadcasts T5)
    (hlt : FTy.bits .bf16 < FTy.bits .f32)
    (v0 : Vec Ideal T5 .f32) (v2 v7 v13 v17 : Vec Ideal T1 .f32) (v28 : Vec Ideal TW .f32) (v32 : Vec Ideal T1 .f32) :
    FVec Ideal T5 .f32 :=
  have v20 : FVec Ideal T5 .f32 := tileNorm h55 h11 hb v0 v2 v7 v13 v17
  have cst_9 : Ideal .f32 := Scalar.ofBits .f32 0x00000000#32
  have v21 : FVec Ideal T5 .f32 := broadcast T5 cst_9
  have v22 : IVec T5 1 := cmpf .ogt v20 v21
  have v23 : FVec Ideal T5 .f32 := exp v20
  have cst_10 : Ideal .f32 := Scalar.ofBits .f32 0x3F800000#32
  have v24 : FVec Ideal T5 .f32 := broadcast T5 cst_10
  have v25 : FVec Ideal T5 .f32 := subf v23 v24
  have v26 : FVec Ideal T5 .f32 := select v22 v20 v25
  have v27 : FVec Ideal T5 .bf16 := truncf .bf16 v26 hlt
  have v29 : FVec Ideal TW .f32 := shapeCast TW v28 hWW
  have v30 : FVec Ideal TW .bf16 := truncf .bf16 v29 hlt
  have cst_13 : FVec Ideal T5 .f32 := constant T5 .f32 0x00000000#32
  have v31 : FVec Ideal T5 .f32 := matmul (DotDims.plain 5000 128 128) none v27 v30 cst_13
  have v33 : FVec Ideal T1 .f32 := shapeCast T1 v32 h11
  have v34 : FVec Ideal T5 .f32 := broadcastTo T5 v33 hb
  have v35 : FVec Ideal T5 .f32 := addf v31 v34
  v35

/-- The chain read at local row `r`, channel `j`: the roundings to the narrower format are the identity on the
    extended reals, and the product into the zero accumulator is the plain sum over the contracted channel. -/
theorem tileLin_apply (h55 : T5.ShapeCasts T5) (h11 : T1.ShapeCasts T1) (hWW : TW.ShapeCasts TW) (hb : T1.Broadcasts T5)
    (hlt : FTy.bits .bf16 < FTy.bits .f32)
    (v0 : Vec Ideal T5 .f32) (v2 v7 v13 v17 : Vec Ideal T1 .f32) (v28 : Vec Ideal TW .f32) (v32 : Vec Ideal T1 .f32)
    (r : Fin 5000) (j : Fin 128) :
    tileLin h55 h11 hWW hb hlt v0 v2 v7 v13 v17 v28 v32 (ix2 r j) = linT v0 v7 v2 v13 v17 v28 v32 r j := by
  unfold tileLin linT
  rw [addf_apply, rowB_apply, shapeCast_self v32 h11]
  refine congrArg (· + v32 (ix2 0 j)) ?_
  refine (Cert.LibMatmul.matmul_plain_zero_apply none _ _ r j).trans ?_
  refine Finset.sum_congr rfl fun k _ => ?_
  rw [truncf_apply, truncf_apply]
  refine congrArg₂ (· * ·) ?_ (congrFun (shapeCast_self v28 hWW) (ix2 k j))
  rw [select_apply, cmpf_apply, subf_apply, exp_apply, tileNorm_apply]
  rfl

end Cert.Gin.Pass2

end
-- ==== Proof.Pass2R1.lean ====
/-
  Region 1: the second pass of a layer over all 100000 rows, as one function of the arrays the region finds.

  The region runs the tile body at 20 grid points; point `t` reads rows `5000·t … 5000·t + 4999` of `z` and the whole
  of the mean, variance, scale, shift, weight and bias arrays, and writes the same rows of the result. So the result
  array ends holding, at row `r` and channel `j`, the layer's output `outAt` of those arrays: the row is covered by
  point `r / 5000`, whose block holds the tile body's value at local row `r mod 5000`.
-/
import proofs.«163505_j89335319757549_1_alg».proof.Proof.Gen.KernelIdeal.Frame
import proofs.«163505_j89335319757549_1_alg».proof.Proof.Spec
import proofs.«163505_j89335319757549_1_alg».proof.Proof.Pass2Core
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pass2R1

open Cert.KernelIdeal Cert.KernelIdeal.Gen Idealize.ShloMosaic Idealize.ShloMosaic.TcCoe Idealize.SL.Sem
open Idealize.ShloMosaic.ValueIdx
open Idealize.ShloMosaic.Pipeline (Dat)
open Cert.Gin Cert.Gin.Pass2

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds -/

/-- Window 0's array as the region finds it: the first linear map's result `z`. -/
abbrev aZ (c : Dev nD) : Mat 100000 128 := V c (Pipeline.arrRef spec1 0)
/-- Window 1's array as the region finds it: the column means. -/
abbrev aMu (c : Dev nD) : Mat 1 128 := V c (Pipeline.arrRef spec1 1)
/-- Window 2's array as the region finds it: the column variances. -/
abbrev aVar (c : Dev nD) : Mat 1 128 := V c (Pipeline.arrRef spec1 2)
/-- Window 3's array as the region finds it: the scale row. -/
abbrev aG (c : Dev nD) : Mat 1 128 := V c (Pipeline.arrRef spec1 3)
/-- Window 4's array as the region finds it: the shift row. -/
abbrev aBe (c : Dev nD) : Mat 1 128 := V c (Pipeline.arrRef spec1 4)
/-- Window 5's array as the region finds it: the second weight matrix. -/
abbrev aW2 (c : Dev nD) : Mat 128 128 := V c (Pipeline.arrRef spec1 5)
/-- Window 6's array as the region finds it: the second bias row. -/
abbrev aB2 (c : Dev nD) : Mat 1 128 := V c (Pipeline.arrRef spec1 6)

/-! ## The tile body at an entry -/

/-- The body's chain up to the last activation's argument is the tile chain of the shared module. -/
theorem lin_eq (x0 : Vec Ideal S5000x128 .f32) (x1 x2 x3 x4 : Vec Ideal S1x128 .f32) (x5 : Vec Ideal S128x128 .f32)
    (x6 : Vec Ideal S1x128 .f32) :
    k1_pay2 (F := Ideal) x0 x2 x1 x3 x4 x5 x6
      = tileLin shapeCasts_S5000x128_S5000x128 shapeCasts_S1x128_S1x128 shapeCasts_S128x128_S128x128
          broadcasts_S1x128_S5000x128 bitsLt_bf16_f32 x0 x2 x1 x3 x4 x5 x6 := rfl

/-- What the body stores, at local row `r` and channel `j`, from the blocks it loaded: the tile's output. The body
    hands the variance block to its arithmetic before the mean block. -/
theorem out_apply (x0 : Vec Ideal S5000x128 .f32) (x1 x2 x3 x4 : Vec Ideal S1x128 .f32) (x5 : Vec Ideal S128x128 .f32)
    (x6 : Vec Ideal S1x128 .f32) (r : Fin 5000) (j : Fin 128) :
    out1_7 (F := Ideal) x0 x1 x2 x3 x4 x5 x6 (ix2 r j) = outT x0 x1 x2 x3 x4 x5 x6 r j := by
  unfold out1_7
  rw [View.canon_unit_zero hz]
  simp only [View.ld_unit_zero (S := S5000x128) hz, View.ld_unit_zero (S := S1x128) hz,
    View.ld_unit_zero (S := S128x128) hz]
  show elu (k1_pay2 (F := Ideal) x0 x2 x1 x3 x4 x5 x6 (ix2 r j)) = _
  rw [lin_eq, tileLin_apply]
  rfl

/-! ## The blocks the points read -/

/-- The printed index maps over the grid: the first input and the output move one block of rows per point, every
    other input stays at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The grid has 20 points. -/
theorem lt20 (t : Fin cfg1.N) : t.val < 20 :=
  lt_of_lt_of_eq t.isLt (N_1 : cfg1.N = 20)

/-- The first input's block at point `t` is rows `5000·t …` of its array. -/
theorem iblk0_apply (c : Dev nD) (t : Fin cfg1.N) (r : Fin 5000) (k : Fin 128) :
    (iblk1 V c 0 t : Vec Ideal S5000x128 .f32) (ix2 r k) = aZ V c (ix2 (row ⟨t.val, lt20 t⟩ r) k) := by
  obtain ⟨e0, e1, -⟩ := idx_facts t
  show aZ V c (((cfg1.win 0).blk t).view.emb (ix2 r k)) = aZ V c _
  refine congrArg (aZ V c) (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 128 + 1 * k.val = k.val; rw [e1]; omega

/-- Input 1's block is its whole array, at every point. -/
theorem iblk1_eq (c : Dev nD) (t : Fin cfg1.N) :
    (iblk1 V c 1 t : Vec Ideal S1x128 .f32) = aMu V c := by
  obtain ⟨-, -, e0, e1, -⟩ := idx_facts t
  funext x
  show aMu V c (((cfg1.win 1).blk t).view.emb x) = aMu V c x
  refine congrArg (aMu V c) (funext fun a => Fin.ext ?_)
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- Input 2's block is its whole array, at every point. -/
theorem iblk2_eq (c : Dev nD) (t : Fin cfg1.N) :
    (iblk1 V c 2 t : Vec Ideal S1x128 .f32) = aVar V c := by
  obtain ⟨-, -, -, -, e0, e1, -⟩ := idx_facts t
  funext x
  show aVar V c (((cfg1.win 2).blk t).view.emb x) = aVar V c x
  refine congrArg (aVar V c) (funext fun a => Fin.ext ?_)
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- Input 3's block is its whole array, at every point. -/
theorem iblk3_eq (c : Dev nD) (t : Fin cfg1.N) :
    (iblk1 V c 3 t : Vec Ideal S1x128 .f32) = aG V c := by
  obtain ⟨-, -, -, -, -, -, e0, e1, -⟩ := idx_facts t
  funext x
  show aG V c (((cfg1.win 3).blk t).view.emb x) = aG V c x
  refine congrArg (aG V c) (funext fun a => Fin.ext ?_)
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- Input 4's block is its whole array, at every point. -/
theorem iblk4_eq (c : Dev nD) (t : Fin cfg1.N) :
    (iblk1 V c 4 t : Vec Ideal S1x128 .f32) = aBe V c := by
  obtain ⟨-, -, -, -, -, -, -, -, e0, e1, -⟩ := idx_facts t
  funext x
  show aBe V c (((cfg1.win 4).blk t).view.emb x) = aBe V c x
  refine congrArg (aBe V c) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Input 5's block is its whole array, at every point. -/
theorem iblk5_eq (c : Dev nD) (t : Fin cfg1.N) :
    (iblk1 V c 5 t : Vec Ideal S128x128 .f32) = aW2 V c := by
  obtain ⟨-, -, -, -, -, -, -, -, -, -, e0, e1, -⟩ := idx_facts t
  funext x
  show aW2 V c (((cfg1.win 5).blk t).view.emb x) = aW2 V c x
  refine congrArg (aW2 V c) (funext fun a => Fin.ext ?_)
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- Input 6's block is its whole array, at every point. -/
theorem iblk6_eq (c : Dev nD) (t : Fin cfg1.N) :
    (iblk1 V c 6 t : Vec Ideal S1x128 .f32) = aB2 V c := by
  obtain ⟨-, -, -, -, -, -, -, -, -, -, -, -, e0, e1, -⟩ := idx_facts t
  funext x
  show aB2 V c (((cfg1.win 6).blk t).view.emb x) = aB2 V c x
  refine congrArg (aB2 V c) (funext fun a => Fin.ext ?_)
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-! ## From the points' blocks to the array -/

/-- The result as one function of the arrays the region finds: the layer's output at every row and channel. -/
def G (c : Dev nD) : S100000x128.Idx → EReal := fun i =>
  outAt (aZ V c) (aMu V c) (aVar V c) (aG V c) (aBe V c) (aW2 V c) (aB2 V c) (i 0) (i 1)

/-- What point `t` writes back is block `t` of `G`: the body's value at local row `r` is the layer's output at row
    `5000·t + r`, and the block's entry `(r, j)` sits at `(5000·t + r, j)` of the array. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  obtain ⟨-, -, -, -, -, -, -, -, -, -, -, -, -, -, e0, e1⟩ := idx_facts t
  funext y
  have hR : ((cfg1.win 7).blk t).view.read (Elt Ideal) (G V c) y = G V c (((cfg1.win 7).blk t).view.emb y) := rfl
  refine Eq.trans ?_ hR.symm
  unfold G
  have hy : (cfg1.win 7).xinj (grid1.coords t) y
      = ix2 (⟨(y 0).val, (y 0).isLt⟩ : Fin 5000) (⟨(y 1).val, (y 1).isLt⟩ : Fin 128) :=
    funext fun a => by
      match a with
      | ⟨0, _⟩ => rfl
      | ⟨1, _⟩ => rfl
  refine (congrArg (out1_7 (F := Ideal) (iblk1 V c 0 t) (iblk1 V c 1 t) (iblk1 V c 2 t) (iblk1 V c 3 t) (iblk1 V c 4 t) (iblk1 V c 5 t) (iblk1 V c 6 t)) hy).trans ?_
  refine (out_apply (iblk1 V c 0 t) (iblk1 V c 1 t) (iblk1 V c 2 t) (iblk1 V c 3 t) (iblk1 V c 4 t) (iblk1 V c 5 t) (iblk1 V c 6 t) _ _).trans ?_
  refine (outT_eq_outAt_of_blocks (aZ V c) (aMu V c) (aVar V c) (aG V c) (aBe V c) (aW2 V c) (aB2 V c)
    (iblk1 V c 0 t) (iblk1 V c 1 t) (iblk1 V c 2 t) (iblk1 V c 3 t) (iblk1 V c 4 t) (iblk1 V c 5 t) (iblk1 V c 6 t) ⟨t.val, lt20 t⟩
    (fun r k => iblk0_apply V c t r k) (iblk1_eq V c t) (iblk2_eq V c t) (iblk3_eq V c t) (iblk4_eq V c t)
    (iblk5_eq V c t) (iblk6_eq V c t) _ _).trans ?_
  refine congrArg₂ (outAt (aZ V c) (aMu V c) (aVar V c) (aG V c) (aBe V c) (aW2 V c) (aB2 V c)) (Fin.ext ?_) (Fin.ext ?_)
  · show 5000 * t.val + (y 0).val = win1_7.index t (0 : Fin 2) * 5000 + 1 * (y 0).val
    rw [e0]; omega
  · show (y 1).val = win1_7.index t (1 : Fin 2) * 128 + 1 * (y 1).val
    rw [e1]; omega

/-- An index of the array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v37).slice (win1_7.rect t)).set ↔ _
  rw [View.set_slice_whole, Rect.mem_set_unit]
  exact Iff.rfl

/-- Row `r` of the array is covered by point `r / 5000`. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  have hq : (i 0).val / 5000 < cfg1.N := by rw [hN]; omega
  obtain ⟨-, -, -, -, -, -, -, -, -, -, -, -, -, -, e0, e1⟩ := idx_facts ⟨(i 0).val / 5000, hq⟩
  refine ⟨⟨(i 0).val / 5000, hq⟩, flush1_7 _, ?_⟩
  rw [mem_blk]
  intro a
  match a with
  | ⟨0, _⟩ =>
    show win1_7.index ⟨(i 0).val / 5000, hq⟩ (0 : Fin 2) * 5000 ≤ (i 0).val
      ∧ (i 0).val < win1_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, hq⟩ (1 : Fin 2) * 128 ≤ (i 1).val
      ∧ (i 1).val < win1_7.index ⟨(i 0).val / 5000, hq⟩ (1 : Fin 2) * 128 + 128
    rw [e1]
    omega

/-- The result array after the region's last point is `G`. -/
theorem final (c : Dev nD) : (dat1 (F := Ideal) V c).arrAt 7 cfg1.N = G V c :=
  (dat1 (F := Ideal) V c).arrAt_eq_of_cover 7 (G V c) (fun t _ => flushed_eq V c t) cover

/-- The result array at row `r`, channel `j`: the layer's output of the arrays the region finds. -/
theorem h1 (c : Dev nD) (r : Fin 100000) (j : Fin 128) :
    (dat1 (F := Ideal) V c).arrAt 7 cfg1.N (ix2 r j)
      = outAt (aZ V c) (aMu V c) (aVar V c) (aG V c) (aBe V c) (aW2 V c) (aB2 V c) r j :=
  congrFun (final V c) (ix2 r j)

end Cert.KernelIdeal.Pass2R1

end
-- ==== Proof.KLayer0.lean ====
/-
  Layer 0 of the tiled program: from the buffer contents when its first host stretch starts to its output array.

  The host stretch forms the neighbour sum and cuts the layer's first weights and bias out of the stacked arguments;
  the first tiled region leaves the first linear map and its tiled column sums and sums of squares; the next stretch
  divides by the number of rows, forms the variance as mean of squares minus squared mean, and cuts the remaining
  parameters; the second tiled region leaves the layer's output. Read together that output is the tiled spelling of
  the layer on the arguments, which on real data is the plain program's layer.
-/
import proofs.«163505_j89335319757549_1_alg».proof.Proof.KBase
import proofs.«163505_j89335319757549_1_alg».proof.Proof.Pass1R0
import proofs.«163505_j89335319757549_1_alg».proof.Proof.Pass2R1

set_option maxRecDepth 16384

noncomputable section

open scoped BigOperators
open Idealize.ShloMosaic Idealize.ShloMosaic.ValueIdx Idealize.ShloMosaic.TcCoe Idealize.SL.Sem

namespace Cert.KernelIdeal.KChain
namespace L0

open Cert.KernelIdeal Cert.KernelIdeal.Gen Cert.Gin
open Cert.ReferenceIdeal.RefLayer Cert.ReferenceIdeal.RefChain

variable [Cert.KernelIdeal.Facts] [Cert.ReferenceIdeal.Facts]
variable (m : (ℓ : Loc nD τ sig) → Buf (Elt Ideal) ℓ) (ρ : Dev nD → PrngReg)

variable (c : Dev nD)

/-! ## The first host stretch -/

set_option maxHeartbeats 4000000 in
theorem a_h : (W1 (F := Ideal) m ρ c (Proc.devRef .tc main_arg0)) = (m ((c : Thread nD τ).loc main_arg0)) := by

  show StableHlo.after hostOps0 (W0 m ρ c) (Proc.devRef .tc main_arg0) = _
  after_results_simp

set_option maxHeartbeats 4000000 in
theorem a_agg : (W1 (F := Ideal) m ρ c (Proc.devRef .tc main_v13)) = aggOps (m ((c : Thread nD τ).loc main_arg0)) (src0 m c) (dst0 m c) := by
  show StableHlo.after hostOps0 (W0 m ρ c) (Proc.devRef .tc main_v13) = _
  after_results_simp

  rfl

set_option maxHeartbeats 4000000 in
theorem a_w1 : (W1 (F := Ideal) m ρ c (Proc.devRef .tc main_v15)) = slab (m ((c : Thread nD τ).loc main_arg3)) ![0, 0, 0] Cert.ReferenceIdeal.Gen.slices_S4x128x128_S1x128x128_0_0_0 := by
  show StableHlo.after hostOps0 (W0 m ρ c) (Proc.devRef .tc main_v15) = _
  after_results_simp

  rfl

set_option maxHeartbeats 4000000 in
theorem a_b1 : (W1 (F := Ideal) m ρ c (Proc.devRef .tc main_v18)) = rowK (rowv (m ((c : Thread nD τ).loc main_arg4)) ![0, 0] Cert.ReferenceIdeal.Gen.slices_S4x128_S1x128_0_0) := by
  show StableHlo.after hostOps0 (W0 m ρ c) (Proc.devRef .tc main_v18) = _
  after_results_simp

  rfl

/-! ## The first tiled region -/

/-- The region's first output, at any entry contents `W`, read through the four input buffers. -/
theorem g4_gen (W : Dev nD → Valuation τ sig (Elt Ideal)) (c : Dev nD) :
    Cert.KernelIdeal.Pass1R0.G4 (fun c b => W c b) c
      = Cert.Gin.zMat (W c (Proc.devRef .tc main_arg0)) (W c (Proc.devRef .tc main_v13)) (W c (Proc.devRef .tc main_v15)) (W c (Proc.devRef .tc main_v18)) := rfl

theorem r_z : (W2 (F := Ideal) m ρ c (Proc.devRef .tc main_v19_0)) = (Cert.Gin.zMat (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowK (rowv (m ((c : Thread nD τ).loc main_arg4)) ![0, 0] Cert.ReferenceIdeal.Gen.slices_S4x128_S1x128_0_0))) := by
  refine (W2_arr m ρ c 4).trans ((Cert.KernelIdeal.Pass1R0.final4 (V1 m ρ) c).trans ((g4_gen (W1 m ρ) c).trans ?_))
  rw [a_h m ρ c, a_agg m ρ c, a_w1 m ρ c, a_b1 m ρ c]

theorem r_s (j : Fin 128) : (W2 (F := Ideal) m ρ c (Proc.devRef .tc main_v19_1)) (ix2 0 j) = colSum (Cert.Gin.zMat (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowK (rowv (m ((c : Thread nD τ).loc main_arg4)) ![0, 0] Cert.ReferenceIdeal.Gen.slices_S4x128_S1x128_0_0))) j := by
  refine (congrFun (W2_arr m ρ c 5) _).trans ((Cert.KernelIdeal.Pass1R0.s0 (V1 m ρ) c j).trans
    ((congrArg (fun Z => colSum Z j) (g4_gen (W1 m ρ) c)).trans ?_))
  rw [a_h m ρ c, a_agg m ρ c, a_w1 m ρ c, a_b1 m ρ c]

theorem r_ss (j : Fin 128) : (W2 (F := Ideal) m ρ c (Proc.devRef .tc main_v19_2)) (ix2 0 j) = colSumSq (Cert.Gin.zMat (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowK (rowv (m ((c : Thread nD τ).loc main_arg4)) ![0, 0] Cert.ReferenceIdeal.Gen.slices_S4x128_S1x128_0_0))) j := by
  refine (congrFun (W2_arr m ρ c 6) _).trans ((Cert.KernelIdeal.Pass1R0.ss0 (V1 m ρ) c j).trans
    ((congrArg (fun Z => colSumSq Z j) (g4_gen (W1 m ρ) c)).trans ?_))
  rw [a_h m ρ c, a_agg m ρ c, a_w1 m ρ c, a_b1 m ρ c]

/-! ## The second host stretch -/

theorem b_z : (W3 (F := Ideal) m ρ c (Proc.devRef .tc main_v19_0)) = (Cert.Gin.zMat (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowK (rowv (m ((c : Thread nD τ).loc main_arg4)) ![0, 0] Cert.ReferenceIdeal.Gen.slices_S4x128_S1x128_0_0))) :=
  (KCarry.W3_v19_0 m ρ c).trans (r_z m ρ c)

set_option maxHeartbeats 4000000 in
theorem b_mu_ops : (W3 (F := Ideal) m ρ c (Proc.devRef .tc main_v21)) = Host.divf (F := Ideal) (W2 (F := Ideal) m ρ c (Proc.devRef .tc main_v19_1)) (broadcastInDim S1x128 ![] Cert.KernelIdeal.Gen.bcast_S_S1x128 (constant (F := Ideal) S_ .f32 0x47C35000#32)) := by
  show StableHlo.after hostOps1 (W2 m ρ c) (Proc.devRef .tc main_v21) = _
  after_results_simp

theorem b_mu : (W3 (F := Ideal) m ρ c (Proc.devRef .tc main_v21)) = muK (Cert.Gin.zMat (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowK (rowv (m ((c : Thread nD τ).loc main_arg4)) ![0, 0] Cert.ReferenceIdeal.Gen.slices_S4x128_S1x128_0_0))) := by
  funext i
  obtain ⟨a, j, rfl⟩ : ∃ (a : Fin 1) (j : Fin 128), i = ix2 a j := ⟨i 0, i 1, eq_ix2 i⟩
  obtain rfl : a = 0 := Subsingleton.elim _ _
  rw [b_mu_ops m ρ c]
  show Ideal.div ((W2 (F := Ideal) m ρ c (Proc.devRef .tc main_v19_1)) (ix2 0 j)) ((broadcastInDim S1x128 ![] Cert.KernelIdeal.Gen.bcast_S_S1x128 (constant (F := Ideal) S_ .f32 0x47C35000#32)) (ix2 0 j)) = _
  rw [r_s m ρ c, splatN_apply]
  rfl

set_option maxHeartbeats 4000000 in
theorem b_var_ops : (W3 (F := Ideal) m ρ c (Proc.devRef .tc main_v25))
    = subf (Host.divf (F := Ideal) (W2 (F := Ideal) m ρ c (Proc.devRef .tc main_v19_2)) (broadcastInDim S1x128 ![] Cert.KernelIdeal.Gen.bcast_S_S1x128 (constant (F := Ideal) S_ .f32 0x47C35000#32)))
        (mulf (Host.divf (F := Ideal) (W2 (F := Ideal) m ρ c (Proc.devRef .tc main_v19_1)) (broadcastInDim S1x128 ![] Cert.KernelIdeal.Gen.bcast_S_S1x128 (constant (F := Ideal) S_ .f32 0x47C35000#32))) (Host.divf (F := Ideal) (W2 (F := Ideal) m ρ c (Proc.devRef .tc main_v19_1)) (broadcastInDim S1x128 ![] Cert.KernelIdeal.Gen.bcast_S_S1x128 (constant (F := Ideal) S_ .f32 0x47C35000#32)))) := by
  show StableHlo.after hostOps1 (W2 m ρ c) (Proc.devRef .tc main_v25) = _
  after_results_simp

theorem b_var : (W3 (F := Ideal) m ρ c (Proc.devRef .tc main_v25)) = varK (Cert.Gin.zMat (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowK (rowv (m ((c : Thread nD τ).loc main_arg4)) ![0, 0] Cert.ReferenceIdeal.Gen.slices_S4x128_S1x128_0_0))) := by
  funext i
  obtain ⟨a, j, rfl⟩ : ∃ (a : Fin 1) (j : Fin 128), i = ix2 a j := ⟨i 0, i 1, eq_ix2 i⟩
  obtain rfl : a = 0 := Subsingleton.elim _ _
  rw [b_var_ops m ρ c]
  show Ideal.div ((W2 (F := Ideal) m ρ c (Proc.devRef .tc main_v19_2)) (ix2 0 j)) ((broadcastInDim S1x128 ![] Cert.KernelIdeal.Gen.bcast_S_S1x128 (constant (F := Ideal) S_ .f32 0x47C35000#32)) (ix2 0 j))
      - Ideal.div ((W2 (F := Ideal) m ρ c (Proc.devRef .tc main_v19_1)) (ix2 0 j)) ((broadcastInDim S1x128 ![] Cert.KernelIdeal.Gen.bcast_S_S1x128 (constant (F := Ideal) S_ .f32 0x47C35000#32)) (ix2 0 j)) * Ideal.div ((W2 (F := Ideal) m ρ c (Proc.devRef .tc main_v19_1)) (ix2 0 j)) ((broadcastInDim S1x128 ![] Cert.KernelIdeal.Gen.bcast_S_S1x128 (constant (F := Ideal) S_ .f32 0x47C35000#32)) (ix2 0 j)) = _
  rw [r_s m ρ c, r_ss m ρ c, splatN_apply]
  rfl

set_option maxHeartbeats 4000000 in
theorem b_g : (W3 (F := Ideal) m ρ c (Proc.devRef .tc main_v28)) = rowK (rowv (m ((c : Thread nD τ).loc main_arg5)) ![0, 0] Cert.ReferenceIdeal.Gen.slices_S4x128_S1x128_0_0) := by
  rw [← KCarry.W2_arg5 m ρ c]
  show StableHlo.after hostOps1 (W2 m ρ c) (Proc.devRef .tc main_v28) = _
  after_results_simp
  rfl

set_option maxHeartbeats 4000000 in
theorem b_be : (W3 (F := Ideal) m ρ c (Proc.devRef .tc main_v31)) = rowK (rowv (m ((c : Thread nD τ).loc main_arg6)) ![0, 0] Cert.ReferenceIdeal.Gen.slices_S4x128_S1x128_0_0) := by
  rw [← KCarry.W2_arg6 m ρ c]
  show StableHlo.after hostOps1 (W2 m ρ c) (Proc.devRef .tc main_v31) = _
  after_results_simp
  rfl

set_option maxHeartbeats 4000000 in
theorem b_w2 : (W3 (F := Ideal) m ρ c (Proc.devRef .tc main_v33)) = slab (m ((c : Thread nD τ).loc main_arg7)) ![0, 0, 0] Cert.ReferenceIdeal.Gen.slices_S4x128x128_S1x128x128_0_0_0 := by
  rw [← KCarry.W2_arg7 m ρ c]
  show StableHlo.after hostOps1 (W2 m ρ c) (Proc.devRef .tc main_v33) = _
  after_results_simp
  rfl

set_option maxHeartbeats 4000000 in
theorem b_b2 : (W3 (F := Ideal) m ρ c (Proc.devRef .tc main_v36)) = rowK (rowv (m ((c : Thread nD τ).loc main_arg8)) ![0, 0] Cert.ReferenceIdeal.Gen.slices_S4x128_S1x128_0_0) := by
  rw [← KCarry.W2_arg8 m ρ c]
  show StableHlo.after hostOps1 (W2 m ρ c) (Proc.devRef .tc main_v36) = _
  after_results_simp
  rfl

/-! ## The second tiled region -/

/-- The region's output array, at any entry contents `W`, read through the seven input buffers. -/
theorem g7_gen (W : Dev nD → Valuation τ sig (Elt Ideal)) (c : Dev nD) :
    Cert.KernelIdeal.Pass2R1.G (fun c b => W c b) c
      = fun i => outAt (W c (Proc.devRef .tc main_v19_0)) (W c (Proc.devRef .tc main_v21)) (W c (Proc.devRef .tc main_v25)) (W c (Proc.devRef .tc main_v28)) (W c (Proc.devRef .tc main_v31)) (W c (Proc.devRef .tc main_v33)) (W c (Proc.devRef .tc main_v36)) (i 0) (i 1) := rfl

/-- The layer's output array in the tiled spelling. -/
theorem r_out : (W4 (F := Ideal) m ρ c (Proc.devRef .tc main_v37))
    = layerK (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowK (rowv (m ((c : Thread nD τ).loc main_arg4)) ![0, 0] Cert.ReferenceIdeal.Gen.slices_S4x128_S1x128_0_0)) (rowK (rowv (m ((c : Thread nD τ).loc main_arg5)) ![0, 0] Cert.ReferenceIdeal.Gen.slices_S4x128_S1x128_0_0)) (rowK (rowv (m ((c : Thread nD τ).loc main_arg6)) ![0, 0] Cert.ReferenceIdeal.Gen.slices_S4x128_S1x128_0_0)) (slab (m ((c : Thread nD τ).loc main_arg7)) ![0, 0, 0] Cert.ReferenceIdeal.Gen.slices_S4x128x128_S1x128x128_0_0_0) (rowK (rowv (m ((c : Thread nD τ).loc main_arg8)) ![0, 0] Cert.ReferenceIdeal.Gen.slices_S4x128_S1x128_0_0)) := by
  refine (W4_arr m ρ c 7).trans ((Cert.KernelIdeal.Pass2R1.final (V3 m ρ) c).trans ((g7_gen (W3 m ρ) c).trans ?_))
  rw [b_z m ρ c, b_mu m ρ c, b_var m ρ c, b_g m ρ c, b_be m ρ c, b_w2 m ρ c, b_b2 m ρ c]
  rfl

/-- On real data the layer's output array is the plain program's layer 0 of the arguments. -/
theorem layer_out (hH : ∀ i, IsReal ((m ((c : Thread nD τ).loc main_arg0)) i)) (h3 : ∀ i, IsReal ((m ((c : Thread nD τ).loc main_arg3)) i)) (h4 : ∀ i, IsReal ((m ((c : Thread nD τ).loc main_arg4)) i)) :
    (W4 (F := Ideal) m ρ c (Proc.devRef .tc main_v37)) = layerRef0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (r_out m ρ c).trans ((layerK_eq_layerOps (m ((c : Thread nD τ).loc main_arg0)) (aggOps (m ((c : Thread nD τ).loc main_arg0)) (src0 m c) (dst0 m c)) (slab (m ((c : Thread nD τ).loc main_arg3)) ![0, 0, 0] Cert.ReferenceIdeal.Gen.slices_S4x128x128_S1x128x128_0_0_0) (rowv (m ((c : Thread nD τ).loc main_arg4)) ![0, 0] Cert.ReferenceIdeal.Gen.slices_S4x128_S1x128_0_0) (rowv (m ((c : Thread nD τ).loc main_arg5)) ![0, 0] Cert.ReferenceIdeal.Gen.slices_S4x128_S1x128_0_0) (rowv (m ((c : Thread nD τ).loc main_arg6)) ![0, 0] Cert.ReferenceIdeal.Gen.slices_S4x128_S1x128_0_0) (slab (m ((c : Thread nD τ).loc main_arg7)) ![0, 0, 0] Cert.ReferenceIdeal.Gen.slices_S4x128x128_S1x128x128_0_0_0) (rowv (m ((c : Thread nD τ).loc main_arg8)) ![0, 0] Cert.ReferenceIdeal.Gen.slices_S4x128_S1x128_0_0) hH
    (aggOps_real _ _ _ hH) (slab_real _ _ _ h3) (rowv_real _ _ _ h4)).trans rfl)

end L0
end Cert.KernelIdeal.KChain

end
-- ==== Proof.Pass1R2.lean ====
/-
  The first kernel of a layer, region 2 of the program: what its three result arrays hold when it has run, as
  functions of the four arrays it reads.

  The kernel visits the 100000 rows in 20 tiles of 5000. At each tile it forms z = (h + agg) · W1 + b1 for the tile's
  rows and stores it; it adds the tile's column sums of z, and of z², to two running 1 × 128 rows, which it sets to
  zero before the first tile. The tiles' z blocks are written back one by one and together fill the z array; the two
  running rows are written back once, after the last tile, when they hold the sums over all tiles.

  Here: the arithmetic of one tile read entry by entry (a matrix product into a zero accumulator is a finite sum of
  products; a sum down the rows is a finite sum); what each visit leaves in the three output blocks; by induction on
  the tile, the running rows after tile n are the sums over tiles 0 … n; and the passage from blocks to arrays.
-/
import proofs.«163505_j89335319757549_1_alg».proof.Proof.Gen.KernelIdeal.Frame
import proofs.«163505_j89335319757549_1_alg».proof.Proof.Spec
import proofs.«163505_j89335319757549_1_alg».proof.Proof.LibMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Pass1R2

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

/-! ## One tile's arithmetic, entry by entry, on the extended reals -/

section Payloads

/-- A 5000 × 128 by 128 × 128 product into the zero accumulator, at entry (r, j): the sum over k of A (r, k) · B (k, j). -/
theorem matmul_at (A : FVec Ideal S5000x128 .bf16) (B : FVec Ideal S128x128 .bf16) (r : Fin 5000) (j : Fin 128) :
    FloatOps.matmul dot_S5000x128_S128x128_S5000x128_1_0_0_1_n_n none A B
        (constant (F := Ideal) S5000x128 .f32 0x00000000#32) (ix2 r j)
      = ∑ k : Fin 128, A (ix2 r k) * B (ix2 k j) :=
  Cert.LibMatmul.matmul_plain_zero_apply none A B r j

/-- Putting row coordinate k back on axis 0 of a channel index g gives the entry (k, g). -/
theorem lift_axis0 (h : S5000x128.Reduces [0] S128) (g : Fin 128) (k : Fin (S5000x128.size 0)) :
    h.lift (ix1 g) k = ix2 (⟨k.val, k.isLt⟩ : Fin 5000) g := by
  funext c; apply Fin.ext
  fin_cases c <;> rfl

/-- A sum down the 5000 rows of a tile, laid out as one row: entry (0, j) is the sum over the rows r of the source at (r, j). -/
theorem rowsum_at (src : FVec Ideal S5000x128 .f32) (hφ : FKind.Formats .f32)
    (hacc : (0x00000000#32 : BitVec 32) = 0x00000000#32) (u : Fin 1) (j : Fin 128) :
    shapeCast S1x128 (multiReduction .add [0] S128 src 0x00000000#32 reduces_S5000x128_S128 hφ hacc) shapeCasts_S128_S1x128 (ix2 u j)
      = ∑ r : Fin 5000, src (ix2 r j) := by
  refine (shapeCast_a_1a_apply _ shapeCasts_S128_S1x128 u j).trans ?_
  refine (Ideal.multiReduction_add_single src 0x00000000#32 reduces_S5000x128_S128 hφ hacc (ix1 j)).trans ?_
  exact Finset.sum_congr rfl fun k _ => congrArg src (lift_axis0 reduces_S5000x128_S128 j k)

/-- The tile's first linear map at row r of the tile and channel j: Σ_k (x0 + x1)(r, k) · x2 (k, j) + x3 (0, j). -/
theorem pay3_at (x0 x1 : Vec Ideal S5000x128 .f32) (x2 : Vec Ideal S128x128 .f32) (x3 : Vec Ideal S1x128 .f32)
    (r : Fin 5000) (j : Fin 128) :
    k2_pay3 (F := Ideal) x0 x1 x2 x3 (ix2 r j)
      = (∑ k : Fin 128, (x0 (ix2 r k) + x1 (ix2 r k)) * x2 (ix2 k j)) + x3 (ix2 0 j) := by
  unfold k2_pay3
  simp only [shapeCast_self]
  rw [addf_apply]
  refine congrArg₂ (· + ·) ?_ ?_
  · exact (matmul_at _ _ r j).trans (Finset.sum_congr rfl fun k _ => rfl)
  · exact broadcastTo_1b_ab_apply x3 broadcasts_S1x128_S5000x128 r j

/-- The zero rows the first visit stores. -/
theorem pay1_at (u : Fin 1) (j : Fin 128) : k2_pay1 (F := Ideal) (ix2 u j) = 0 := by
  unfold k2_pay1
  exact Ideal.ofBits_zero_f32

theorem pay2_at (u : Fin 1) (j : Fin 128) : k2_pay2 (F := Ideal) (ix2 u j) = 0 := by
  unfold k2_pay2
  exact Ideal.ofBits_zero_f32

/-- The running column sum after a tile: what was there plus the tile's column sum of z. -/
theorem pay4_at (x0 x1 : Vec Ideal S5000x128 .f32) (x2 : Vec Ideal S128x128 .f32) (x3 xo : Vec Ideal S1x128 .f32)
    (u : Fin 1) (j : Fin 128) :
    k2_pay4 (F := Ideal) x0 x1 x2 x3 xo (ix2 u j)
      = xo (ix2 u j) + ∑ r : Fin 5000, k2_pay3 (F := Ideal) x0 x1 x2 x3 (ix2 r j) := by
  unfold k2_pay4
  simp only [shapeCast_self]
  rw [addf_apply]
  exact congrArg (xo (ix2 u j) + ·) (rowsum_at _ _ _ u j)

/-- The running column sum of squares after a tile. -/
theorem pay5_at (x0 x1 : Vec Ideal S5000x128 .f32) (x2 : Vec Ideal S128x128 .f32) (x3 xo : Vec Ideal S1x128 .f32)
    (u : Fin 1) (j : Fin 128) :
    k2_pay5 (F := Ideal) x0 x1 x2 x3 xo (ix2 u j)
      = xo (ix2 u j) + ∑ r : Fin 5000, k2_pay3 (F := Ideal) x0 x1 x2 x3 (ix2 r j) * k2_pay3 (F := Ideal) x0 x1 x2 x3 (ix2 r j) := by
  unfold k2_pay5
  simp only [shapeCast_self]
  rw [addf_apply]
  refine congrArg (xo (ix2 u j) + ·) ((rowsum_at _ _ _ u j).trans ?_)
  exact Finset.sum_congr rfl fun r _ => rfl

/-- When the four blocks are tile t of the row arrays and the whole of the weight and bias arrays, the tile's first
    linear map is the layer's at the tile's rows. -/
theorem tile_at (x0 x1 : Vec Ideal S5000x128 .f32) (x2 : Vec Ideal S128x128 .f32) (x3 : Vec Ideal S1x128 .f32)
    (H A : Cert.Gin.Mat 100000 128) (W : Cert.Gin.Mat 128 128) (B : Cert.Gin.Mat 1 128) (t : Fin 20)
    (e0 : ∀ r k, x0 (ix2 r k) = H (ix2 (Cert.Gin.row t r) k)) (e1 : ∀ r k, x1 (ix2 r k) = A (ix2 (Cert.Gin.row t r) k))
    (e2 : ∀ k j, x2 (ix2 k j) = W (ix2 k j)) (e3 : ∀ j, x3 (ix2 0 j) = B (ix2 0 j)) (r : Fin 5000) (j : Fin 128) :
    k2_pay3 (F := Ideal) x0 x1 x2 x3 (ix2 r j) = Cert.Gin.zAt H A W B (Cert.Gin.row t r) j := by
  rw [pay3_at]
  unfold Cert.Gin.zAt
  rw [e3]
  refine congrArg (· + B (ix2 0 j)) (Finset.sum_congr rfl fun k _ => ?_)
  rw [e0, e1, e2]

end Payloads

/-! ## What one visit leaves in the three output blocks

Each case's stores, read back: the z block is the tile's first linear map; a running row is the row the visit found
(the zero row at the first tile, where the visit has just stored it) plus the tile's column sums. These hold for any
float values. -/

section Pieces

variable {F : FTy → Type} [FloatOps F]

theorem hz : (![0, 0] : Fin 2 → Nat) = fun _ => 0 := funext fun a => by fin_cases a <;> rfl

/-- First tile: the z block. -/
theorem out_A_4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 : Vec F S128x128 .f32) (x3 : Vec F S1x128 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum starts from the zero row the visit has just stored. -/
theorem out_A_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 : Vec F S128x128 .f32) (x3 : Vec F S1x128 .f32) :
    out2_A_5 c i a1 h1 a2 h2 a3 h3 a4 h4 a5 h5 a6 h6 a7 h7 hc x0 x1 x2 x3 = k2_pay4 x0 x1 x2 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum of squares likewise. -/
theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 : Vec F S128x128 .f32) (x3 : Vec F S1x128 .f32) :
    out2_A_6 c i a1 h1 a2 h2 a3 h3 a4 h4 a5 h5 a6 h6 a7 h7 hc x0 x1 x2 x3 = k2_pay5 x0 x1 x2 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the z block. -/
theorem out_B_4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 : Vec F S128x128 .f32) (x3 : Vec F S1x128 .f32) (xo5 xo6 : Vec F S1x128 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum continues from the row the tile before left. -/
theorem out_B_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 : Vec F S128x128 .f32) (x3 : Vec F S1x128 .f32) (xo5 xo6 : Vec F S1x128 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum of squares likewise. -/
theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 : Vec F S128x128 .f32) (x3 : Vec F S1x128 .f32) (xo5 xo6 : Vec F S1x128 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

/-! ## The windows' blocks as parts of their arrays

A block's entry sits in the array, on each axis, at the block index times the block size plus its own coordinate.
The two row windows and the z window move one tile per point; the weight, bias and running-row windows stay at
block (0, 0), which is their whole array. -/

section Blocks

variable {F : FTy → Type} [FloatOps F]

/-- The block index maps over the grid: the row windows move one tile per point, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

variable (c : Dev nD)

/-- Window 0's block at point t, at (r, k), is the array at row 5000·t + r, column k. -/
theorem blk0_read (X : Buf (Elt F) ((cfg2.win 0).arr.view.loc (c.tc : Thread nD τ))) (t : Fin cfg2.N) (r : Fin 5000) (k : Fin 128)
    (i : S100000x128.Idx) (h0 : (i 0).val = 5000 * t.val + r.val) (h1 : (i 1).val = k.val) :
    ((cfg2.win 0).blk t).view.read (Elt F) X (ix2 r k) = X i := by
  rw [View.read_apply]
  show X _ = X i
  refine congrArg X ?_
  funext a; apply Fin.ext
  obtain ⟨e0, e1, -⟩ := idx_facts t
  match a with
  | ⟨0, _⟩ => show win2_0.index t (0 : Fin 2) * 5000 + 1 * r.val = (i 0).val; rw [e0, h0]; omega
  | ⟨1, _⟩ => show win2_0.index t (1 : Fin 2) * 128 + 1 * k.val = (i 1).val; rw [e1, h1]; omega

/-- Window 1's block likewise. -/
theorem blk1_read (X : Buf (Elt F) ((cfg2.win 1).arr.view.loc (c.tc : Thread nD τ))) (t : Fin cfg2.N) (r : Fin 5000) (k : Fin 128)
    (i : S100000x128.Idx) (h0 : (i 0).val = 5000 * t.val + r.val) (h1 : (i 1).val = k.val) :
    ((cfg2.win 1).blk t).view.read (Elt F) X (ix2 r k) = X i := by
  rw [View.read_apply]
  show X _ = X i
  refine congrArg X ?_
  funext a; apply Fin.ext
  obtain ⟨-, -, e0, e1, -⟩ := idx_facts t
  match a with
  | ⟨0, _⟩ => show win2_1.index t (0 : Fin 2) * 5000 + 1 * r.val = (i 0).val; rw [e0, h0]; omega
  | ⟨1, _⟩ => show win2_1.index t (1 : Fin 2) * 128 + 1 * k.val = (i 1).val; rw [e1, h1]; omega

/-- The weight window's one block is the whole 128 × 128 array. -/
theorem blk2_read (X : Buf (Elt F) ((cfg2.win 2).arr.view.loc (c.tc : Thread nD τ))) (t : Fin cfg2.N) (k j : Fin 128) :
    ((cfg2.win 2).blk t).view.read (Elt F) X (ix2 k j) = X (ix2 k j) := by
  rw [View.read_apply]
  show X _ = X _
  refine congrArg X ?_
  funext a; apply Fin.ext
  obtain ⟨-, -, -, -, e0, e1, -⟩ := idx_facts t
  match a with
  | ⟨0, _⟩ => show win2_2.index t (0 : Fin 2) * 128 + 1 * k.val = k.val; rw [e0]; omega
  | ⟨1, _⟩ => show win2_2.index t (1 : Fin 2) * 128 + 1 * j.val = j.val; rw [e1]; omega

/-- The bias window's one block is the whole 1 × 128 array. -/
theorem blk3_read (X : Buf (Elt F) ((cfg2.win 3).arr.view.loc (c.tc : Thread nD τ))) (t : Fin cfg2.N) (u : Fin 1) (j : Fin 128) :
    ((cfg2.win 3).blk t).view.read (Elt F) X (ix2 u j) = X (ix2 u j) := by
  rw [View.read_apply]
  show X _ = X _
  refine congrArg X ?_
  funext a; apply Fin.ext
  obtain ⟨-, -, -, -, -, -, e0, e1, -⟩ := idx_facts t
  match a with
  | ⟨0, _⟩ => show win2_3.index t (0 : Fin 2) * 1 + 1 * u.val = u.val; rw [e0]; omega
  | ⟨1, _⟩ => show win2_3.index t (1 : Fin 2) * 128 + 1 * j.val = j.val; rw [e1]; omega

/-- The z window's block at point t, at (r, k), is the array at row 5000·t + r, column k. -/
theorem blk4_read (X : Buf (Elt F) ((cfg2.win 4).arr.view.loc (c.tc : Thread nD τ))) (t : Fin cfg2.N) (r : Fin 5000) (k : Fin 128)
    (i : S100000x128.Idx) (h0 : (i 0).val = 5000 * t.val + r.val) (h1 : (i 1).val = k.val) :
    ((cfg2.win 4).blk t).view.read (Elt F) X (ix2 r k) = X i := by
  rw [View.read_apply]
  show X _ = X i
  refine congrArg X ?_
  funext a; apply Fin.ext
  obtain ⟨-, -, -, -, -, -, -, -, e0, e1, -⟩ := idx_facts t
  match a with
  | ⟨0, _⟩ => show win2_4.index t (0 : Fin 2) * 5000 + 1 * r.val = (i 0).val; rw [e0, h0]; omega
  | ⟨1, _⟩ => show win2_4.index t (1 : Fin 2) * 128 + 1 * k.val = (i 1).val; rw [e1, h1]; omega

/-- The running-sum window's one block is the whole 1 × 128 array. -/
theorem blk5_read (X : Buf (Elt F) ((cfg2.win 5).arr.view.loc (c.tc : Thread nD τ))) (t : Fin cfg2.N) (u : Fin 1) (j : Fin 128) :
    ((cfg2.win 5).blk t).view.read (Elt F) X (ix2 u j) = X (ix2 u j) := by
  rw [View.read_apply]
  show X _ = X _
  refine congrArg X ?_
  funext a; apply Fin.ext
  obtain ⟨-, -, -, -, -, -, -, -, -, -, e0, e1, -⟩ := idx_facts t
  match a with
  | ⟨0, _⟩ => show win2_5.index t (0 : Fin 2) * 1 + 1 * u.val = u.val; rw [e0]; omega
  | ⟨1, _⟩ => show win2_5.index t (1 : Fin 2) * 128 + 1 * j.val = j.val; rw [e1]; omega

/-- The running sum of squares' window likewise. -/
theorem blk6_read (X : Buf (Elt F) ((cfg2.win 6).arr.view.loc (c.tc : Thread nD τ))) (t : Fin cfg2.N) (u : Fin 1) (j : Fin 128) :
    ((cfg2.win 6).blk t).view.read (Elt F) X (ix2 u j) = X (ix2 u j) := by
  rw [View.read_apply]
  show X _ = X _
  refine congrArg X ?_
  funext a; apply Fin.ext
  obtain ⟨-, -, -, -, -, -, -, -, -, -, -, -, e0, e1⟩ := idx_facts t
  match a with
  | ⟨0, _⟩ => show win2_6.index t (0 : Fin 2) * 1 + 1 * u.val = u.val; rw [e0]; omega
  | ⟨1, _⟩ => show win2_6.index t (1 : Fin 2) * 128 + 1 * j.val = j.val; rw [e1]; omega

/-- Every row of the result lies in the block of the point that holds its tile. -/
theorem cover4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨t, htv⟩ : ∃ t : Fin cfg2.N, t.val = (i 0).val / 5000 := ⟨⟨_, ht⟩, rfl⟩
  refine ⟨t, flush2_4 t, ?_⟩
  show i ∈ ((View.whole main_v53_0).slice (win2_4.rect t)).set
  rw [View.set_slice_whole, Rect.mem_set_unit]
  obtain ⟨-, -, -, -, -, -, -, -, e0, e1, -⟩ := idx_facts t
  intro a
  match a with
  | ⟨0, _⟩ =>
    show win2_4.index t (0 : Fin 2) * 5000 ≤ (i 0).val ∧ (i 0).val < win2_4.index t (0 : Fin 2) * 5000 + 5000
    rw [e0, htv]; omega
  | ⟨1, _⟩ =>
    show win2_4.index t (1 : Fin 2) * 128 ≤ (i 1).val ∧ (i 1).val < win2_4.index t (1 : Fin 2) * 128 + 128
    rw [e1]; omega

/-- The one block of the column sums is the whole 1 × 128 array: the last point covers it. -/
theorem cover5 (i : S1x128.Idx) :
    ∃ t : Fin cfg2.N, (cfg2.win 5).flush t = true ∧ i ∈ ((cfg2.win 5).blk t).view.set := by
  have hi0 : (i 0).val < 1 := (i 0).isLt
  have hi1 : (i 1).val < 128 := (i 1).isLt
  have hN : cfg2.N = 20 := N_2
  obtain ⟨t, htv⟩ : ∃ t : Fin cfg2.N, t.val = 19 := ⟨⟨19, by rw [hN]; omega⟩, rfl⟩
  refine ⟨t, (flush2_5 t).mpr (by rw [htv]), ?_⟩
  show i ∈ ((View.whole main_v53_1).slice (win2_5.rect t)).set
  rw [View.set_slice_whole, Rect.mem_set_unit]
  obtain ⟨-, -, -, -, -, -, -, -, -, -, e0, e1, -⟩ := idx_facts t
  intro a
  match a with
  | ⟨0, _⟩ =>
    show win2_5.index t (0 : Fin 2) * 1 ≤ (i 0).val ∧ (i 0).val < win2_5.index t (0 : Fin 2) * 1 + 1
    rw [e0]; omega
  | ⟨1, _⟩ =>
    show win2_5.index t (1 : Fin 2) * 128 ≤ (i 1).val ∧ (i 1).val < win2_5.index t (1 : Fin 2) * 128 + 128
    rw [e1]; omega

/-- The same for the sums of squares. -/
theorem cover6 (i : S1x128.Idx) :
    ∃ t : Fin cfg2.N, (cfg2.win 6).flush t = true ∧ i ∈ ((cfg2.win 6).blk t).view.set := by
  have hi0 : (i 0).val < 1 := (i 0).isLt
  have hi1 : (i 1).val < 128 := (i 1).isLt
  have hN : cfg2.N = 20 := N_2
  obtain ⟨t, htv⟩ : ∃ t : Fin cfg2.N, t.val = 19 := ⟨⟨19, by rw [hN]; omega⟩, rfl⟩
  refine ⟨t, (flush2_6 t).mpr (by rw [htv]), ?_⟩
  show i ∈ ((View.whole main_v53_2).slice (win2_6.rect t)).set
  rw [View.set_slice_whole, Rect.mem_set_unit]
  obtain ⟨-, -, -, -, -, -, -, -, -, -, -, -, e0, e1⟩ := idx_facts t
  intro a
  match a with
  | ⟨0, _⟩ =>
    show win2_6.index t (0 : Fin 2) * 1 ≤ (i 0).val ∧ (i 0).val < win2_6.index t (0 : Fin 2) * 1 + 1
    rw [e0]; omega
  | ⟨1, _⟩ =>
    show win2_6.index t (1 : Fin 2) * 128 ≤ (i 1).val ∧ (i 1).val < win2_6.index t (1 : Fin 2) * 128 + 128
    rw [e1]; omega

end Blocks

/-! ## The run: the three result arrays

From here on the values are the extended reals and `V` is what the buffers hold when the region is entered. -/

section Run

variable (V : (c : Dev nD) → (b : Ref sig .tc) → Buf (Elt Ideal) ((c : Thread nD τ).loc b))

/-- The four arrays the kernel reads, as the region finds them: node features, neighbour sums, weights, bias. -/
abbrev Hm (c : Dev nD) : Cert.Gin.Mat 100000 128 := V c (Pipeline.arrRef spec2 0)
abbrev Am (c : Dev nD) : Cert.Gin.Mat 100000 128 := V c (Pipeline.arrRef spec2 1)
abbrev Wm (c : Dev nD) : Cert.Gin.Mat 128 128 := V c (Pipeline.arrRef spec2 2)
abbrev Bm (c : Dev nD) : Cert.Gin.Mat 1 128 := V c (Pipeline.arrRef spec2 3)

/-- The first linear map of the layer as a 100000 × 128 array. -/
abbrev zMat (c : Dev nD) : Cert.Gin.Mat 100000 128 := fun i => Cert.Gin.zAt (Hm V c) (Am V c) (Wm V c) (Bm V c) (i 0) (i 1)

/-- A grid point as a tile number. -/
def tileOf (t : Fin cfg2.N) : Fin 20 := ⟨t.val, lt_of_lt_of_eq t.isLt N_2⟩

/-- A tile-indexed quantity as a function of a natural number (zero past the last tile), so that running sums are
    sums over an initial segment of the naturals. -/
def tsum (f : Fin 20 → EReal) (s : ℕ) : EReal := if h : s < 20 then f ⟨s, h⟩ else 0

theorem tsum_of_lt (f : Fin 20 → EReal) (s : ℕ) (h : s < 20) : tsum f s = f ⟨s, h⟩ := dif_pos h

theorem sum_range_tsum (f : Fin 20 → EReal) : ∑ s ∈ Finset.range 20, tsum f s = ∑ t : Fin 20, f t := by
  rw [Finset.sum_range]
  exact Finset.sum_congr rfl fun t _ => dif_pos t.isLt

/-- At point t the body's first linear map, on the blocks the windows hand it, is the layer's z at the rows of tile t. -/
theorem tile_blk (c : Dev nD) (t : Fin cfg2.N) (r : Fin 5000) (j : Fin 128) :
    k2_pay3 (F := Ideal) (iblk2 V c 0 t) (iblk2 V c 1 t) (iblk2 V c 2 t) (iblk2 V c 3 t) (ix2 r j)
      = Cert.Gin.zAt (Hm V c) (Am V c) (Wm V c) (Bm V c) (Cert.Gin.row (tileOf t) r) j :=
  tile_at (iblk2 V c 0 t) (iblk2 V c 1 t) (iblk2 V c 2 t) (iblk2 V c 3 t) (Hm V c) (Am V c) (Wm V c) (Bm V c) (tileOf t)
    (fun r k => blk0_read c (V c (Pipeline.arrRef spec2 0)) t r k (ix2 (Cert.Gin.row (tileOf t) r) k) rfl rfl)
    (fun r k => blk1_read c (V c (Pipeline.arrRef spec2 1)) t r k (ix2 (Cert.Gin.row (tileOf t) r) k) rfl rfl)
    (fun k j => blk2_read c (V c (Pipeline.arrRef spec2 2)) t k j)
    (fun j => blk3_read c (V c (Pipeline.arrRef spec2 3)) t 0 j)
    r j

/-- After any point the z block holds the point's tile of z. -/
theorem inv4 (c : Dev nD) (t : Fin cfg2.N) :
    (outsAt2 V c t.val t.isLt).1 = k2_pay3 (F := Ideal) (iblk2 V c 0 t) (iblk2 V c 1 t) (iblk2 V c 2 t) (iblk2 V c 3 t) := by
  by_cases h0 : t.val % 20 = 0
  · rw [outsAt2_A V c t h0]
    dsimp only
    exact out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)
  · rw [outsAt2_B V c t h0]
    dsimp only
    exact out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t)
      (outsAt2 V c (t.val - 1) (Nat.lt_of_le_of_lt (Nat.sub_le _ _) t.isLt)).2.1 (outsAt2 V c (t.val - 1) (Nat.lt_of_le_of_lt (Nat.sub_le _ _) t.isLt)).2.2

/-- The first point leaves the first tile's column sums in the running row. -/
theorem step5_A (c : Dev nD) (t : Fin cfg2.N) (h0 : t.val % 20 = 0) (u : Fin 1) (j : Fin 128) :
    (outsAt2 V c t.val t.isLt).2.1 (ix2 u j) = ∑ r : Fin 5000, Cert.Gin.zAt (Hm V c) (Am V c) (Wm V c) (Bm V c) (Cert.Gin.row (tileOf t) r) j := by
  rw [outsAt2_A V c t h0]
  refine (congrFun (out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)) (ix2 u j)).trans ?_
  refine (pay4_at (iblk2 V c 0 t) (iblk2 V c 1 t) (iblk2 V c 2 t) (iblk2 V c 3 t) (k2_pay1 (F := Ideal)) u j).trans ?_
  rw [pay1_at, zero_add]
  exact Finset.sum_congr rfl fun r _ => tile_blk V c t r j

/-- A later point adds its tile's column sums to what the point before left. -/
theorem step5_B (c : Dev nD) (t : Fin cfg2.N) (h0 : ¬t.val % 20 = 0) (u : Fin 1) (j : Fin 128) :
    (outsAt2 V c t.val t.isLt).2.1 (ix2 u j)
      = (outsAt2 V c (t.val - 1) (Nat.lt_of_le_of_lt (Nat.sub_le _ _) t.isLt)).2.1 (ix2 u j) + ∑ r : Fin 5000, Cert.Gin.zAt (Hm V c) (Am V c) (Wm V c) (Bm V c) (Cert.Gin.row (tileOf t) r) j := by
  rw [outsAt2_B V c t h0]
  refine (congrFun (out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t)
    (outsAt2 V c (t.val - 1) (Nat.lt_of_le_of_lt (Nat.sub_le _ _) t.isLt)).2.1 (outsAt2 V c (t.val - 1) (Nat.lt_of_le_of_lt (Nat.sub_le _ _) t.isLt)).2.2) (ix2 u j)).trans ?_
  refine (pay4_at (iblk2 V c 0 t) (iblk2 V c 1 t) (iblk2 V c 2 t) (iblk2 V c 3 t) (outsAt2 V c (t.val - 1) (Nat.lt_of_le_of_lt (Nat.sub_le _ _) t.isLt)).2.1 u j).trans ?_
  exact congrArg ((outsAt2 V c (t.val - 1) (Nat.lt_of_le_of_lt (Nat.sub_le _ _) t.isLt)).2.1 (ix2 u j) + ·) (Finset.sum_congr rfl fun r _ => tile_blk V c t r j)

/-- The same two steps for the sums of squares. -/
theorem step6_A (c : Dev nD) (t : Fin cfg2.N) (h0 : t.val % 20 = 0) (u : Fin 1) (j : Fin 128) :
    (outsAt2 V c t.val t.isLt).2.2 (ix2 u j)
      = ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt2_A V c t h0]
  refine (congrFun (out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)) (ix2 u j)).trans ?_
  refine (pay5_at (iblk2 V c 0 t) (iblk2 V c 1 t) (iblk2 V c 2 t) (iblk2 V c 3 t) (k2_pay2 (F := Ideal)) u j).trans ?_
  rw [pay2_at, zero_add]
  exact Finset.sum_congr rfl fun r _ => by rw [tile_blk V c t r j]

theorem step6_B (c : Dev nD) (t : Fin cfg2.N) (h0 : ¬t.val % 20 = 0) (u : Fin 1) (j : Fin 128) :
    (outsAt2 V c t.val t.isLt).2.2 (ix2 u j)
      = (outsAt2 V c (t.val - 1) (Nat.lt_of_le_of_lt (Nat.sub_le _ _) t.isLt)).2.2 (ix2 u j)
        + ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt2_B V c t h0]
  refine (congrFun (out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t)
    (outsAt2 V c (t.val - 1) (Nat.lt_of_le_of_lt (Nat.sub_le _ _) t.isLt)).2.1 (outsAt2 V c (t.val - 1) (Nat.lt_of_le_of_lt (Nat.sub_le _ _) t.isLt)).2.2) (ix2 u j)).trans ?_
  refine (pay5_at (iblk2 V c 0 t) (iblk2 V c 1 t) (iblk2 V c 2 t) (iblk2 V c 3 t) (outsAt2 V c (t.val - 1) (Nat.lt_of_le_of_lt (Nat.sub_le _ _) t.isLt)).2.2 u j).trans ?_
  exact congrArg ((outsAt2 V c (t.val - 1) (Nat.lt_of_le_of_lt (Nat.sub_le _ _) t.isLt)).2.2 (ix2 u j) + ·) (Finset.sum_congr rfl fun r _ => by rw [tile_blk V c t r j])

/-- THE RUNNING SUM: after point n the row holds the column sums of z over tiles 0 … n. By induction on the point. -/
theorem inv5 (c : Dev nD) (u : Fin 1) (j : Fin 128) : ∀ (n : ℕ) (h : n < cfg2.N),
    (outsAt2 V c n h).2.1 (ix2 u j)
      = ∑ s ∈ Finset.range (n + 1), tsum (fun t => ∑ r : Fin 5000, Cert.Gin.zAt (Hm V c) (Am V c) (Wm V c) (Bm V c) (Cert.Gin.row t r) j) s
  | 0, h => by
    rw [Finset.sum_range_one, tsum_of_lt _ 0 (by omega)]
    exact step5_A V c ⟨0, h⟩ rfl u j
  | n + 1, h => by
    have hN : cfg2.N = 20 := N_2
    have hB : ¬(⟨n + 1, h⟩ : Fin cfg2.N).val % 20 = 0 := by dsimp only; omega
    rw [Finset.sum_range_succ, ← inv5 c u j n (Nat.lt_of_succ_lt h), tsum_of_lt _ (n + 1) (by omega)]
    exact step5_B V c ⟨n + 1, h⟩ hB u j

/-- THE RUNNING SUM OF SQUARES likewise. -/
theorem inv6 (c : Dev nD) (u : Fin 1) (j : Fin 128) : ∀ (n : ℕ) (h : n < cfg2.N),
    (outsAt2 V c n h).2.2 (ix2 u j)
      = ∑ s ∈ Finset.range (n + 1), tsum (fun t => ∑ r : Fin 5000,
          Cert.Gin.zAt (Hm V c) (Am V c) (Wm V c) (Bm V c) (Cert.Gin.row t r) j * Cert.Gin.zAt (Hm V c) (Am V c) (Wm V c) (Bm V c) (Cert.Gin.row t r) j) s
  | 0, h => by
    rw [Finset.sum_range_one, tsum_of_lt _ 0 (by omega)]
    exact step6_A V c ⟨0, h⟩ rfl u j
  | n + 1, h => by
    have hN : cfg2.N = 20 := N_2
    have hB : ¬(⟨n + 1, h⟩ : Fin cfg2.N).val % 20 = 0 := by dsimp only; omega
    rw [Finset.sum_range_succ, ← inv6 c u j n (Nat.lt_of_succ_lt h), tsum_of_lt _ (n + 1) (by omega)]
    exact step6_B V c ⟨n + 1, h⟩ hB u j

/-! ### From blocks to arrays -/

/-- What the z array ends holding. -/
abbrev G4 (c : Dev nD) : Buf (Elt Ideal) ((cfg2.win 4).arr.view.loc (c.tc : Thread nD τ)) := zMat V c
/-- What the column-sum array ends holding. -/
abbrev G5 (c : Dev nD) : Buf (Elt Ideal) ((cfg2.win 5).arr.view.loc (c.tc : Thread nD τ)) :=
  fun i => Cert.Gin.colSum (zMat V c) (i 1)
/-- What the array of column sums of squares ends holding. -/
abbrev G6 (c : Dev nD) : Buf (Elt Ideal) ((cfg2.win 6).arr.view.loc (c.tc : Thread nD τ)) :=
  fun i => Cert.Gin.colSumSq (zMat V c) (i 1)

/-- Every point writes back its block of z. -/
theorem flushed4 (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4, inv4]
  funext y
  obtain ⟨r, k, rfl⟩ : ∃ (r : Fin 5000) (k : Fin 128), y = ix2 r k := ⟨y 0, y 1, eq_ix2 y⟩
  rw [blk4_read c (G4 V c) t r k (ix2 (Cert.Gin.row (tileOf t) r) k) rfl rfl]
  show k2_pay3 (F := Ideal) _ _ _ _ (ix2 r k) = _
  exact tile_blk V c t r k

/-- So the z array ends holding z. -/
theorem final4 (c : Dev nD) : (dat2 V c).arrAt 4 cfg2.N = G4 V c :=
  (dat2 V c).arrAt_eq_of_cover 4 (G4 V c) (fun t _ => flushed4 V c t) (fun i => cover4 i)

/-- The last point writes back the running sums, which by then run over all twenty tiles. -/
theorem flushed5 (c : Dev nD) (t : Fin cfg2.N) (hf : (cfg2.win 5).flush t = true) :
    (dat2 V c).flushed 5 t = ((cfg2.win 5).blk t).view.read (Elt Ideal) (G5 V c) := by
  have hN : cfg2.N = 20 := N_2
  have h19 : t.val = 19 := by have := (flush2_5 t).mp hf; have := t.isLt; omega
  show (cfg2.win 5).cut (grid2.coords t) ((dat2 V c).after 5 t) = _
  rw [after2_5]
  funext y
  obtain ⟨u, j, rfl⟩ : ∃ (u : Fin 1) (j : Fin 128), y = ix2 u j := ⟨y 0, y 1, eq_ix2 y⟩
  rw [blk5_read c (G5 V c) t u j]
  show (outsAt2 V c t.val t.isLt).2.1 (ix2 u j) = _
  rw [inv5 V c u j t.val t.isLt, h19]
  exact sum_range_tsum _

theorem final5 (c : Dev nD) : (dat2 V c).arrAt 5 cfg2.N = G5 V c :=
  (dat2 V c).arrAt_eq_of_cover 5 (G5 V c) (flushed5 V c) (fun i => cover5 i)

theorem flushed6 (c : Dev nD) (t : Fin cfg2.N) (hf : (cfg2.win 6).flush t = true) :
    (dat2 V c).flushed 6 t = ((cfg2.win 6).blk t).view.read (Elt Ideal) (G6 V c) := by
  have hN : cfg2.N = 20 := N_2
  have h19 : t.val = 19 := by have := (flush2_6 t).mp hf; have := t.isLt; omega
  show (cfg2.win 6).cut (grid2.coords t) ((dat2 V c).after 6 t) = _
  rw [after2_6]
  funext y
  obtain ⟨u, j, rfl⟩ : ∃ (u : Fin 1) (j : Fin 128), y = ix2 u j := ⟨y 0, y 1, eq_ix2 y⟩
  rw [blk6_read c (G6 V c) t u j]
  show (outsAt2 V c t.val t.isLt).2.2 (ix2 u j) = _
  rw [inv6 V c u j t.val t.isLt, h19]
  exact sum_range_tsum _

theorem final6 (c : Dev nD) : (dat2 V c).arrAt 6 cfg2.N = G6 V c :=
  (dat2 V c).arrAt_eq_of_cover 6 (G6 V c) (flushed6 V c) (fun i => cover6 i)

/-! ### The three closed forms -/

/-- The z array after the region: the layer's first linear map, entry by entry. -/
theorem z2 (c : Dev nD) (r : Fin 100000) (j : Fin 128) :
    (dat2 (F := Ideal) V c).arrAt 4 cfg2.N (ix2 r j) = Cert.Gin.zAt (Hm V c) (Am V c) (Wm V c) (Bm V c) r j :=
  congrFun (final4 V c) (ix2 r j)

/-- The column sums of z. -/
theorem s2 (c : Dev nD) (j : Fin 128) :
    (dat2 (F := Ideal) V c).arrAt 5 cfg2.N (ix2 0 j)
      = Cert.Gin.colSum (fun i => Cert.Gin.zAt (Hm V c) (Am V c) (Wm V c) (Bm V c) (i 0) (i 1)) j :=
  congrFun (final5 V c) (ix2 0 j)

/-- The column sums of z². -/
theorem ss2 (c : Dev nD) (j : Fin 128) :
    (dat2 (F := Ideal) V c).arrAt 6 cfg2.N (ix2 0 j)
      = Cert.Gin.colSumSq (fun i => Cert.Gin.zAt (Hm V c) (Am V c) (Wm V c) (Bm V c) (i 0) (i 1)) j :=
  congrFun (final6 V c) (ix2 0 j)

end Run

end Cert.KernelIdeal.Pass1R2

end
-- ==== Proof.Pass2R3.lean ====
/-
  Region 3: the second pass of a layer over all 100000 rows, as one function of the arrays the region finds.

  The region runs the tile body at 20 grid points; point `t` reads rows `5000·t … 5000·t + 4999` of `z` and the whole
  of the mean, variance, scale, shift, weight and bias arrays, and writes the same rows of the result. So the result
  array ends holding, at row `r` and channel `j`, the layer's output `outAt` of those arrays: the row is covered by
  point `r / 5000`, whose block holds the tile body's value at local row `r mod 5000`.
-/
import proofs.«163505_j89335319757549_1_alg».proof.Proof.Gen.KernelIdeal.Frame
import proofs.«163505_j89335319757549_1_alg».proof.Proof.Spec
import proofs.«163505_j89335319757549_1_alg».proof.Proof.Pass2Core
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pass2R3

open Cert.KernelIdeal Cert.KernelIdeal.Gen Idealize.ShloMosaic Idealize.ShloMosaic.TcCoe Idealize.SL.Sem
open Idealize.ShloMosaic.ValueIdx
open Idealize.ShloMosaic.Pipeline (Dat)
open Cert.Gin Cert.Gin.Pass2

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds -/

/-- Window 0's array as the region finds it: the first linear map's result `z`. -/
abbrev aZ (c : Dev nD) : Mat 100000 128 := V c (Pipeline.arrRef spec3 0)
/-- Window 1's array as the region finds it: the column means. -/
abbrev aMu (c : Dev nD) : Mat 1 128 := V c (Pipeline.arrRef spec3 1)
/-- Window 2's array as the region finds it: the column variances. -/
abbrev aVar (c : Dev nD) : Mat 1 128 := V c (Pipeline.arrRef spec3 2)
/-- Window 3's array as the region finds it: the scale row. -/
abbrev aG (c : Dev nD) : Mat 1 128 := V c (Pipeline.arrRef spec3 3)
/-- Window 4's array as the region finds it: the shift row. -/
abbrev aBe (c : Dev nD) : Mat 1 128 := V c (Pipeline.arrRef spec3 4)
/-- Window 5's array as the region finds it: the second weight matrix. -/
abbrev aW2 (c : Dev nD) : Mat 128 128 := V c (Pipeline.arrRef spec3 5)
/-- Window 6's array as the region finds it: the second bias row. -/
abbrev aB2 (c : Dev nD) : Mat 1 128 := V c (Pipeline.arrRef spec3 6)

/-! ## The tile body at an entry -/

/-- The body's chain up to the last activation's argument is the tile chain of the shared module. -/
theorem lin_eq (x0 : Vec Ideal S5000x128 .f32) (x1 x2 x3 x4 : Vec Ideal S1x128 .f32) (x5 : Vec Ideal S128x128 .f32)
    (x6 : Vec Ideal S1x128 .f32) :
    k3_pay2 (F := Ideal) x0 x2 x1 x3 x4 x5 x6
      = tileLin shapeCasts_S5000x128_S5000x128 shapeCasts_S1x128_S1x128 shapeCasts_S128x128_S128x128
          broadcasts_S1x128_S5000x128 bitsLt_bf16_f32 x0 x2 x1 x3 x4 x5 x6 := rfl

/-- What the body stores, at local row `r` and channel `j`, from the blocks it loaded: the tile's output. The body
    hands the variance block to its arithmetic before the mean block. -/
theorem out_apply (x0 : Vec Ideal S5000x128 .f32) (x1 x2 x3 x4 : Vec Ideal S1x128 .f32) (x5 : Vec Ideal S128x128 .f32)
    (x6 : Vec Ideal S1x128 .f32) (r : Fin 5000) (j : Fin 128) :
    out3_7 (F := Ideal) x0 x1 x2 x3 x4 x5 x6 (ix2 r j) = outT x0 x1 x2 x3 x4 x5 x6 r j := by
  unfold out3_7
  rw [View.canon_unit_zero hz]
  simp only [View.ld_unit_zero (S := S5000x128) hz, View.ld_unit_zero (S := S1x128) hz,
    View.ld_unit_zero (S := S128x128) hz]
  show elu (k3_pay2 (F := Ideal) x0 x2 x1 x3 x4 x5 x6 (ix2 r j)) = _
  rw [lin_eq, tileLin_apply]
  rfl

/-! ## The blocks the points read -/

/-- The printed index maps over the grid: the first input and the output move one block of rows per point, every
    other input stays at its one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The grid has 20 points. -/
theorem lt20 (t : Fin cfg3.N) : t.val < 20 :=
  lt_of_lt_of_eq t.isLt (N_3 : cfg3.N = 20)

/-- The first input's block at point `t` is rows `5000·t …` of its array. -/
theorem iblk0_apply (c : Dev nD) (t : Fin cfg3.N) (r : Fin 5000) (k : Fin 128) :
    (iblk3 V c 0 t : Vec Ideal S5000x128 .f32) (ix2 r k) = aZ V c (ix2 (row ⟨t.val, lt20 t⟩ r) k) := by
  obtain ⟨e0, e1, -⟩ := idx_facts t
  show aZ V c (((cfg3.win 0).blk t).view.emb (ix2 r k)) = aZ V c _
  refine congrArg (aZ V c) (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 128 + 1 * k.val = k.val; rw [e1]; omega

/-- Input 1's block is its whole array, at every point. -/
theorem iblk1_eq (c : Dev nD) (t : Fin cfg3.N) :
    (iblk3 V c 1 t : Vec Ideal S1x128 .f32) = aMu V c := by
  obtain ⟨-, -, e0, e1, -⟩ := idx_facts t
  funext x
  show aMu V c (((cfg3.win 1).blk t).view.emb x) = aMu V c x
  refine congrArg (aMu V c) (funext fun a => Fin.ext ?_)
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- Input 2's block is its whole array, at every point. -/
theorem iblk2_eq (c : Dev nD) (t : Fin cfg3.N) :
    (iblk3 V c 2 t : Vec Ideal S1x128 .f32) = aVar V c := by
  obtain ⟨-, -, -, -, e0, e1, -⟩ := idx_facts t
  funext x
  show aVar V c (((cfg3.win 2).blk t).view.emb x) = aVar V c x
  refine congrArg (aVar V c) (funext fun a => Fin.ext ?_)
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

/-- Input 3's block is its whole array, at every point. -/
theorem iblk3_eq (c : Dev nD) (t : Fin cfg3.N) :
    (iblk3 V c 3 t : Vec Ideal S1x128 .f32) = aG V c := by
  obtain ⟨-, -, -, -, -, -, e0, e1, -⟩ := idx_facts t
  funext x
  show aG V c (((cfg3.win 3).blk t).view.emb x) = aG V c x
  refine congrArg (aG V c) (funext fun a => Fin.ext ?_)
  match a with
  | ⟨0, _⟩ => show win3_3.index t (0 : Fin 2) * 1 + 1 * (x 0).val = (x 0).val; rw [e0]; omega
  | ⟨1, _⟩ => show win3_3.index t (1 : Fin 2) * 128 + 1 * (x 1).val = (x 1).val; rw [e1]; omega

/-- Input 4's block is its whole array, at every point. -/
theorem iblk4_eq (c : Dev nD) (t : Fin cfg3.N) :
    (iblk3 V c 4 t : Vec Ideal S1x128 .f32) = aBe V c := by
  obtain ⟨-, -, -, -, -, -, -, -, e0, e1, -⟩ := idx_facts t
  funext x
  show aBe V c (((cfg3.win 4).blk t).view.emb x) = aBe V c x
  refine congrArg (aBe V c) (funext fun a => Fin.ext ?_)
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

/-- Input 5's block is its whole array, at every point. -/
theorem iblk5_eq (c : Dev nD) (t : Fin cfg3.N) :
    (iblk3 V c 5 t : Vec Ideal S128x128 .f32) = aW2 V c := by
  obtain ⟨-, -, -, -, -, -, -, -, -, -, e0, e1, -⟩ := idx_facts t
  funext x
  show aW2 V c (((cfg3.win 5).blk t).view.emb x) = aW2 V c x
  refine congrArg (aW2 V c) (funext fun a => Fin.ext ?_)
  match a with
  | ⟨0, _⟩ => show win3_5.index t (0 : Fin 2) * 128 + 1 * (x 0).val = (x 0).val; rw [e0]; omega
  | ⟨1, _⟩ => show win3_5.index t (1 : Fin 2) * 128 + 1 * (x 1).val = (x 1).val; rw [e1]; omega

/-- Input 6's block is its whole array, at every point. -/
theorem iblk6_eq (c : Dev nD) (t : Fin cfg3.N) :
    (iblk3 V c 6 t : Vec Ideal S1x128 .f32) = aB2 V c := by
  obtain ⟨-, -, -, -, -, -, -, -, -, -, -, -, e0, e1, -⟩ := idx_facts t
  funext x
  show aB2 V c (((cfg3.win 6).blk t).view.emb x) = aB2 V c x
  refine congrArg (aB2 V c) (funext fun a => Fin.ext ?_)
  match a with
  | ⟨0, _⟩ => show win3_6.index t (0 : Fin 2) * 1 + 1 * (x 0).val = (x 0).val; rw [e0]; omega
  | ⟨1, _⟩ => show win3_6.index t (1 : Fin 2) * 128 + 1 * (x 1).val = (x 1).val; rw [e1]; omega

/-! ## From the points' blocks to the array -/

/-- The result as one function of the arrays the region finds: the layer's output at every row and channel. -/
def G (c : Dev nD) : S100000x128.Idx → EReal := fun i =>
  outAt (aZ V c) (aMu V c) (aVar V c) (aG V c) (aBe V c) (aW2 V c) (aB2 V c) (i 0) (i 1)

/-- What point `t` writes back is block `t` of `G`: the body's value at local row `r` is the layer's output at row
    `5000·t + r`, and the block's entry `(r, j)` sits at `(5000·t + r, j)` of the array. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  obtain ⟨-, -, -, -, -, -, -, -, -, -, -, -, -, -, e0, e1⟩ := idx_facts t
  funext y
  have hR : ((cfg3.win 7).blk t).view.read (Elt Ideal) (G V c) y = G V c (((cfg3.win 7).blk t).view.emb y) := rfl
  refine Eq.trans ?_ hR.symm
  unfold G
  have hy : (cfg3.win 7).xinj (grid3.coords t) y
      = ix2 (⟨(y 0).val, (y 0).isLt⟩ : Fin 5000) (⟨(y 1).val, (y 1).isLt⟩ : Fin 128) :=
    funext fun a => by
      match a with
      | ⟨0, _⟩ => rfl
      | ⟨1, _⟩ => rfl
  refine (congrArg (out3_7 (F := Ideal) (iblk3 V c 0 t) (iblk3 V c 1 t) (iblk3 V c 2 t) (iblk3 V c 3 t) (iblk3 V c 4 t) (iblk3 V c 5 t) (iblk3 V c 6 t)) hy).trans ?_
  refine (out_apply (iblk3 V c 0 t) (iblk3 V c 1 t) (iblk3 V c 2 t) (iblk3 V c 3 t) (iblk3 V c 4 t) (iblk3 V c 5 t) (iblk3 V c 6 t) _ _).trans ?_
  refine (outT_eq_outAt_of_blocks (aZ V c) (aMu V c) (aVar V c) (aG V c) (aBe V c) (aW2 V c) (aB2 V c)
    (iblk3 V c 0 t) (iblk3 V c 1 t) (iblk3 V c 2 t) (iblk3 V c 3 t) (iblk3 V c 4 t) (iblk3 V c 5 t) (iblk3 V c 6 t) ⟨t.val, lt20 t⟩
    (fun r k => iblk0_apply V c t r k) (iblk1_eq V c t) (iblk2_eq V c t) (iblk3_eq V c t) (iblk4_eq V c t)
    (iblk5_eq V c t) (iblk6_eq V c t) _ _).trans ?_
  refine congrArg₂ (outAt (aZ V c) (aMu V c) (aVar V c) (aG V c) (aBe V c) (aW2 V c) (aB2 V c)) (Fin.ext ?_) (Fin.ext ?_)
  · show 5000 * t.val + (y 0).val = win3_7.index t (0 : Fin 2) * 5000 + 1 * (y 0).val
    rw [e0]; omega
  · show (y 1).val = win3_7.index t (1 : Fin 2) * 128 + 1 * (y 1).val
    rw [e1]; omega

/-- An index of the array is in point `t`'s block iff each coordinate is in the block's range on its axis. -/
theorem mem_blk (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v71).slice (win3_7.rect t)).set ↔ _
  rw [View.set_slice_whole, Rect.mem_set_unit]
  exact Iff.rfl

/-- Row `r` of the array is covered by point `r / 5000`. -/
theorem cover (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 20 := N_3
  have hq : (i 0).val / 5000 < cfg3.N := by rw [hN]; omega
  obtain ⟨-, -, -, -, -, -, -, -, -, -, -, -, -, -, e0, e1⟩ := idx_facts ⟨(i 0).val / 5000, hq⟩
  refine ⟨⟨(i 0).val / 5000, hq⟩, flush3_7 _, ?_⟩
  rw [mem_blk]
  intro a
  match a with
  | ⟨0, _⟩ =>
    show win3_7.index ⟨(i 0).val / 5000, hq⟩ (0 : Fin 2) * 5000 ≤ (i 0).val
      ∧ (i 0).val < win3_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win3_7.index ⟨(i 0).val / 5000, hq⟩ (1 : Fin 2) * 128 ≤ (i 1).val
      ∧ (i 1).val < win3_7.index ⟨(i 0).val / 5000, hq⟩ (1 : Fin 2) * 128 + 128
    rw [e1]
    omega

/-- The result array after the region's last point is `G`. -/
theorem final (c : Dev nD) : (dat3 (F := Ideal) V c).arrAt 7 cfg3.N = G V c :=
  (dat3 (F := Ideal) V c).arrAt_eq_of_cover 7 (G V c) (fun t _ => flushed_eq V c t) cover

/-- The result array at row `r`, channel `j`: the layer's output of the arrays the region finds. -/
theorem h3 (c : Dev nD) (r : Fin 100000) (j : Fin 128) :
    (dat3 (F := Ideal) V c).arrAt 7 cfg3.N (ix2 r j)
      = outAt (aZ V c) (aMu V c) (aVar V c) (aG V c) (aBe V c) (aW2 V c) (aB2 V c) r j :=
  congrFun (final V c) (ix2 r j)

end Cert.KernelIdeal.Pass2R3

end
-- ==== Proof.KLayer1.lean ====
/-
  Layer 1 of the tiled program: from the buffer contents when its first host stretch starts to its output array.

  The host stretch forms the neighbour sum and cuts the layer's first weights and bias out of the stacked arguments;
  the first tiled region leaves the first linear map and its tiled column sums and sums of squares; the next stretch
  divides by the number of rows, forms the variance as mean of squares minus squared mean, and cuts the remaining
  parameters; the second tiled region leaves the layer's output. Read together that output is the tiled spelling of
  the layer on the arguments, which on real data is the plain program's layer.
-/
import proofs.«163505_j89335319757549_1_alg».proof.Proof.KBase
import proofs.«163505_j89335319757549_1_alg».proof.Proof.Pass1R2
import proofs.«163505_j89335319757549_1_alg».proof.Proof.Pass2R3

set_option maxRecDepth 16384

noncomputable section

open scoped BigOperators
open Idealize.ShloMosaic Idealize.ShloMosaic.ValueIdx Idealize.ShloMosaic.TcCoe Idealize.SL.Sem

namespace Cert.KernelIdeal.KChain
namespace L1

open Cert.KernelIdeal Cert.KernelIdeal.Gen Cert.Gin
open Cert.ReferenceIdeal.RefLayer Cert.ReferenceIdeal.RefChain

variable [Cert.KernelIdeal.Facts] [Cert.ReferenceIdeal.Facts]
variable (m : (ℓ : Loc nD τ sig) → Buf (Elt Ideal) ℓ) (ρ : Dev nD → PrngReg)

variable (c : Dev nD) (H : FVec Ideal Cert.ReferenceIdeal.S100000x128 .f32)

/-! ## The first host stretch -/

set_option maxHeartbeats 4000000 in
theorem a_h (hin : (W4 (F := Ideal) m ρ c (Proc.devRef .tc main_v37)) = H) : (W5 (F := Ideal) m ρ c (Proc.devRef .tc main_v37)) = H := by
  refine Eq.trans ?_ hin
  show StableHlo.after hostOps2 (W4 m ρ c) (Proc.devRef .tc main_v37) = _
  after_results_simp

set_option maxHeartbeats 4000000 in
theorem a_agg (hin : (W4 (F := Ideal) m ρ c (Proc.devRef .tc main_v37)) = H) : (W5 (F := Ideal) m ρ c (Proc.devRef .tc main_v47)) = aggOps H (src0 m c) (dst0 m c) := by
  show StableHlo.after hostOps2 (W4 m ρ c) (Proc.devRef .tc main_v47) = _
  after_results_simp
  rw [KCarry.W4_v1 m ρ c, KCarry.W4_v3 m ρ c, W1_src m ρ c, W1_dst m ρ c, hin]
  rfl

set_option maxHeartbeats 4000000 in
theorem a_w1 : (W5 (F := Ideal) m ρ c (Proc.devRef .tc main_v49)) = slab (m ((c : Thread nD τ).loc main_arg3)) ![1, 0, 0] Cert.ReferenceIdeal.Gen.slices_S4x128x128_S1x128x128_1_0_0 := by
  show StableHlo.after hostOps2 (W4 m ρ c) (Proc.devRef .tc main_v49) = _
  after_results_simp
  rw [KCarry.W4_arg3 m ρ c]
  rfl

set_option maxHeartbeats 4000000 in
theorem a_b1 : (W5 (F := Ideal) m ρ c (Proc.devRef .tc main_v52)) = rowK (rowv (m ((c : Thread nD τ).loc main_arg4)) ![1, 0] Cert.ReferenceIdeal.Gen.slices_S4x128_S1x128_1_0) := by
  show StableHlo.after hostOps2 (W4 m ρ c) (Proc.devRef .tc main_v52) = _
  after_results_simp
  rw [KCarry.W4_arg4 m ρ c]
  rfl

/-! ## The first tiled region -/

/-- The region's first output, at any entry contents `W`, read through the four input buffers. -/
theorem g4_gen (W : Dev nD → Valuation τ sig (Elt Ideal)) (c : Dev nD) :
    Cert.KernelIdeal.Pass1R2.G4 (fun c b => W c b) c
      = Cert.Gin.zMat (W c (Proc.devRef .tc main_v37)) (W c (Proc.devRef .tc main_v47)) (W c (Proc.devRef .tc main_v49)) (W c (Proc.devRef .tc main_v52)) := rfl

theorem r_z (hin : (W4 (F := Ideal) m ρ c (Proc.devRef .tc main_v37)) = H) : (W6 (F := Ideal) m ρ c (Proc.devRef .tc main_v53_0)) = (Cert.Gin.zMat H (aggOps H (src0 m c) (dst0 m c)) (slab (m ((c : Thread nD τ).loc main_arg3)) ![1, 0, 0] Cert.ReferenceIdeal.Gen.slices_S4x128x128_S1x128x128_1_0_0) (rowK (rowv (m ((c : Thread nD τ).loc main_arg4)) ![1, 0] Cert.ReferenceIdeal.Gen.slices_S4x128_S1x128_1_0))) := by
  refine (W6_arr m ρ c 4).trans ((Cert.KernelIdeal.Pass1R2.final4 (V5 m ρ) c).trans ((g4_gen (W5 m ρ) c).trans ?_))
  rw [a_h m ρ c H hin, a_agg m ρ c H hin, a_w1 m ρ c, a_b1 m ρ c]

theorem r_s (hin : (W4 (F := Ideal) m ρ c (Proc.devRef .tc main_v37)) = H) (j : Fin 128) : (W6 (F := Ideal) m ρ c (Proc.devRef .tc main_v53_1)) (ix2 0 j) = colSum (Cert.Gin.zMat H (aggOps H (src0 m c) (dst0 m c)) (slab (m ((c : Thread nD τ).loc main_arg3)) ![1, 0, 0] Cert.ReferenceIdeal.Gen.slices_S4x128x128_S1x128x128_1_0_0) (rowK (rowv (m ((c : Thread nD τ).loc main_arg4)) ![1, 0] Cert.ReferenceIdeal.Gen.slices_S4x128_S1x128_1_0))) j := by
  refine (congrFun (W6_arr m ρ c 5) _).trans ((Cert.KernelIdeal.Pass1R2.s2 (V5 m ρ) c j).trans
    ((congrArg (fun Z => colSum Z j) (g4_gen (W5 m ρ) c)).trans ?_))
  rw [a_h m ρ c H hin, a_agg m ρ c H hin, a_w1 m ρ c, a_b1 m ρ c]

theorem r_ss (hin : (W4 (F := Ideal) m ρ c (Proc.devRef .tc main_v37)) = H) (j : Fin 128) : (W6 (F := Ideal) m ρ c (Proc.devRef .tc main_v53_2)) (ix2 0 j) = colSumSq (Cert.Gin.zMat H (aggOps H (src0 m c) (dst0 m c)) (slab (m ((c : Thread nD τ).loc main_arg3)) ![1, 0, 0] Cert.ReferenceIdeal.Gen.slices_S4x128x128_S1x128x128_1_0_0) (rowK (rowv (m ((c : Thread nD τ).loc main_arg4)) ![1, 0] Cert.ReferenceIdeal.Gen.slices_S4x128_S1x128_1_0))) j := by
  refine (congrFun (W6_arr m ρ c 6) _).trans ((Cert.KernelIdeal.Pass1R2.ss2 (V5 m ρ) c j).trans
    ((congrArg (fun Z => colSumSq Z j) (g4_gen (W5 m ρ) c)).trans ?_))
  rw [a_h m ρ c H hin, a_agg m ρ c H hin, a_w1 m ρ c, a_b1 m ρ c]

/-! ## The second host stretch -/

theorem b_z (hin : (W4 (F := Ideal) m ρ c (Proc.devRef .tc main_v37)) = H) : (W7 (F := Ideal) m ρ c (Proc.devRef .tc main_v53_0)) = (Cert.Gin.zMat H (aggOps H (src0 m c) (dst0 m c)) (slab (m ((c : Thread nD τ).loc main_arg3)) ![1, 0, 0] Cert.ReferenceIdeal.Gen.slices_S4x128x128_S1x128x128_1_0_0) (rowK (rowv (m ((c : Thread nD τ).loc main_arg4)) ![1, 0] Cert.ReferenceIdeal.Gen.slices_S4x128_S1x128_1_0))) :=
  (KCarry.W7_v53_0 m ρ c).trans (r_z m ρ c H hin)

set_option maxHeartbeats 4000000 in
theorem b_mu_ops : (W7 (F := Ideal) m ρ c (Proc.devRef .tc main_v55)) = Host.divf (F := Ideal) (W6 (F := Ideal) m ρ c (Proc.devRef .tc main_v53_1)) (broadcastInDim S1x128 ![] Cert.KernelIdeal.Gen.bcast_S_S1x128 (constant (F := Ideal) S_ .f32 0x47C35000#32)) := by
  show StableHlo.after hostOps3 (W6 m ρ c) (Proc.devRef .tc main_v55) = _
  after_results_simp

theorem b_mu (hin : (W4 (F := Ideal) m ρ c (Proc.devRef .tc main_v37)) = H) : (W7 (F := Ideal) m ρ c (Proc.devRef .tc main_v55)) = muK (Cert.Gin.zMat H (aggOps H (src0 m c) (dst0 m c)) (slab (m ((c : Thread nD τ).loc main_arg3)) ![1, 0, 0] Cert.ReferenceIdeal.Gen.slices_S4x128x128_S1x128x128_1_0_0) (rowK (rowv (m ((c : Thread nD τ).loc main_arg4)) ![1, 0] Cert.ReferenceIdeal.Gen.slices_S4x128_S1x128_1_0))) := by
  funext i
  obtain ⟨a, j, rfl⟩ : ∃ (a : Fin 1) (j : Fin 128), i = ix2 a j := ⟨i 0, i 1, eq_ix2 i⟩
  obtain rfl : a = 0 := Subsingleton.elim _ _
  rw [b_mu_ops m ρ c]
  show Ideal.div ((W6 (F := Ideal) m ρ c (Proc.devRef .tc main_v53_1)) (ix2 0 j)) ((broadcastInDim S1x128 ![] Cert.KernelIdeal.Gen.bcast_S_S1x128 (constant (F := Ideal) S_ .f32 0x47C35000#32)) (ix2 0 j)) = _
  rw [r_s m ρ c H hin, splatN_apply]
  rfl

set_option maxHeartbeats 4000000 in
theorem b_var_ops : (W7 (F := Ideal) m ρ c (Proc.devRef .tc main_v59))
    = subf (Host.divf (F := Ideal) (W6 (F := Ideal) m ρ c (Proc.devRef .tc main_v53_2)) (broadcastInDim S1x128 ![] Cert.KernelIdeal.Gen.bcast_S_S1x128 (constant (F := Ideal) S_ .f32 0x47C35000#32)))
        (mulf (Host.divf (F := Ideal) (W6 (F := Ideal) m ρ c (Proc.devRef .tc main_v53_1)) (broadcastInDim S1x128 ![] Cert.KernelIdeal.Gen.bcast_S_S1x128 (constant (F := Ideal) S_ .f32 0x47C35000#32))) (Host.divf (F := Ideal) (W6 (F := Ideal) m ρ c (Proc.devRef .tc main_v53_1)) (broadcastInDim S1x128 ![] Cert.KernelIdeal.Gen.bcast_S_S1x128 (constant (F := Ideal) S_ .f32 0x47C35000#32)))) := by
  show StableHlo.after hostOps3 (W6 m ρ c) (Proc.devRef .tc main_v59) = _
  after_results_simp

theorem b_var (hin : (W4 (F := Ideal) m ρ c (Proc.devRef .tc main_v37)) = H) : (W7 (F := Ideal) m ρ c (Proc.devRef .tc main_v59)) = varK (Cert.Gin.zMat H (aggOps H (src0 m c) (dst0 m c)) (slab (m ((c : Thread nD τ).loc main_arg3)) ![1, 0, 0] Cert.ReferenceIdeal.Gen.slices_S4x128x128_S1x128x128_1_0_0) (rowK (rowv (m ((c : Thread nD τ).loc main_arg4)) ![1, 0] Cert.ReferenceIdeal.Gen.slices_S4x128_S1x128_1_0))) := by
  funext i
  obtain ⟨a, j, rfl⟩ : ∃ (a : Fin 1) (j : Fin 128), i = ix2 a j := ⟨i 0, i 1, eq_ix2 i⟩
  obtain rfl : a = 0 := Subsingleton.elim _ _
  rw [b_var_ops m ρ c]
  show Ideal.div ((W6 (F := Ideal) m ρ c (Proc.devRef .tc main_v53_2)) (ix2 0 j)) ((broadcastInDim S1x128 ![] Cert.KernelIdeal.Gen.bcast_S_S1x128 (constant (F := Ideal) S_ .f32 0x47C35000#32)) (ix2 0 j))
      - Ideal.div ((W6 (F := Ideal) m ρ c (Proc.devRef .tc main_v53_1)) (ix2 0 j)) ((broadcastInDim S1x128 ![] Cert.KernelIdeal.Gen.bcast_S_S1x128 (constant (F := Ideal) S_ .f32 0x47C35000#32)) (ix2 0 j)) * Ideal.div ((W6 (F := Ideal) m ρ c (Proc.devRef .tc main_v53_1)) (ix2 0 j)) ((broadcastInDim S1x128 ![] Cert.KernelIdeal.Gen.bcast_S_S1x128 (constant (F := Ideal) S_ .f32 0x47C35000#32)) (ix2 0 j)) = _
  rw [r_s m ρ c H hin, r_ss m ρ c H hin, splatN_apply]
  rfl

set_option maxHeartbeats 4000000 in
theorem b_g : (W7 (F := Ideal) m ρ c (Proc.devRef .tc main_v62)) = rowK (rowv (m ((c : Thread nD τ).loc main_arg5)) ![1, 0] Cert.ReferenceIdeal.Gen.slices_S4x128_S1x128_1_0) := by
  rw [← KCarry.W6_arg5 m ρ c]
  show StableHlo.after hostOps3 (W6 m ρ c) (Proc.devRef .tc main_v62) = _
  after_results_simp
  rfl

set_option maxHeartbeats 4000000 in
theorem b_be : (W7 (F := Ideal) m ρ c (Proc.devRef .tc main_v65)) = rowK (rowv (m ((c : Thread nD τ).loc main_arg6)) ![1, 0] Cert.ReferenceIdeal.Gen.slices_S4x128_S1x128_1_0) := by
  rw [← KCarry.W6_arg6 m ρ c]
  show StableHlo.after hostOps3 (W6 m ρ c) (Proc.devRef .tc main_v65) = _
  after_results_simp
  rfl

set_option maxHeartbeats 4000000 in
theorem b_w2 : (W7 (F := Ideal) m ρ c (Proc.devRef .tc main_v67)) = slab (m ((c : Thread nD τ).loc main_arg7)) ![1, 0, 0] Cert.ReferenceIdeal.Gen.slices_S4x128x128_S1x128x128_1_0_0 := by
  rw [← KCarry.W6_arg7 m ρ c]
  show StableHlo.after hostOps3 (W6 m ρ c) (Proc.devRef .tc main_v67) = _
  after_results_simp
  rfl

set_option maxHeartbeats 4000000 in
theorem b_b2 : (W7 (F := Ideal) m ρ c (Proc.devRef .tc main_v70)) = rowK (rowv (m ((c : Thread nD τ).loc main_arg8)) ![1, 0] Cert.ReferenceIdeal.Gen.slices_S4x128_S1x128_1_0) := by
  rw [← KCarry.W6_arg8 m ρ c]
  show StableHlo.after hostOps3 (W6 m ρ c) (Proc.devRef .tc main_v70) = _
  after_results_simp
  rfl

/-! ## The second tiled region -/

/-- The region's output array, at any entry contents `W`, read through the seven input buffers. -/
theorem g7_gen (W : Dev nD → Valuation τ sig (Elt Ideal)) (c : Dev nD) :
    Cert.KernelIdeal.Pass2R3.G (fun c b => W c b) c
      = fun i => outAt (W c (Proc.devRef .tc main_v53_0)) (W c (Proc.devRef .tc main_v55)) (W c (Proc.devRef .tc main_v59)) (W c (Proc.devRef .tc main_v62)) (W c (Proc.devRef .tc main_v65)) (W c (Proc.devRef .tc main_v67)) (W c (Proc.devRef .tc main_v70)) (i 0) (i 1) := rfl

/-- The layer's output array in the tiled spelling. -/
theorem r_out (hin : (W4 (F := Ideal) m ρ c (Proc.devRef .tc main_v37)) = H) : (W8 (F := Ideal) m ρ c (Proc.devRef .tc main_v71))
    = layerK H (aggOps H (src0 m c) (dst0 m c)) (slab (m ((c : Thread nD τ).loc main_arg3)) ![1, 0, 0] Cert.ReferenceIdeal.Gen.slices_S4x128x128_S1x128x128_1_0_0) (rowK (rowv (m ((c : Thread nD τ).loc main_arg4)) ![1, 0] Cert.ReferenceIdeal.Gen.slices_S4x128_S1x128_1_0)) (rowK (rowv (m ((c : Thread nD τ).loc main_arg5)) ![1, 0] Cert.ReferenceIdeal.Gen.slices_S4x128_S1x128_1_0)) (rowK (rowv (m ((c : Thread nD τ).loc main_arg6)) ![1, 0] Cert.ReferenceIdeal.Gen.slices_S4x128_S1x128_1_0)) (slab (m ((c : Thread nD τ).loc main_arg7)) ![1, 0, 0] Cert.ReferenceIdeal.Gen.slices_S4x128x128_S1x128x128_1_0_0) (rowK (rowv (m ((c : Thread nD τ).loc main_arg8)) ![1, 0] Cert.ReferenceIdeal.Gen.slices_S4x128_S1x128_1_0)) := by
  refine (W8_arr m ρ c 7).trans ((Cert.KernelIdeal.Pass2R3.final (V7 m ρ) c).trans ((g7_gen (W7 m ρ) c).trans ?_))
  rw [b_z m ρ c H hin, b_mu m ρ c H hin, b_var m ρ c H hin, b_g m ρ c, b_be m ρ c, b_w2 m ρ c, b_b2 m ρ c]
  rfl

/-- On real data the layer's output array is the plain program's layer 1 of the arguments. -/
theorem layer_out (hin : (W4 (F := Ideal) m ρ c (Proc.devRef .tc main_v37)) = H) (hH : ∀ i, IsReal (H i)) (h3 : ∀ i, IsReal ((m ((c : Thread nD τ).loc main_arg3)) i)) (h4 : ∀ i, IsReal ((m ((c : Thread nD τ).loc main_arg4)) i)) :
    (W8 (F := Ideal) m ρ c (Proc.devRef .tc main_v71)) = layerRef1 H (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (r_out m ρ c H hin).trans ((layerK_eq_layerOps H (aggOps H (src0 m c) (dst0 m c)) (slab (m ((c : Thread nD τ).loc main_arg3)) ![1, 0, 0] Cert.ReferenceIdeal.Gen.slices_S4x128x128_S1x128x128_1_0_0) (rowv (m ((c : Thread nD τ).loc main_arg4)) ![1, 0] Cert.ReferenceIdeal.Gen.slices_S4x128_S1x128_1_0) (rowv (m ((c : Thread nD τ).loc main_arg5)) ![1, 0] Cert.ReferenceIdeal.Gen.slices_S4x128_S1x128_1_0) (rowv (m ((c : Thread nD τ).loc main_arg6)) ![1, 0] Cert.ReferenceIdeal.Gen.slices_S4x128_S1x128_1_0) (slab (m ((c : Thread nD τ).loc main_arg7)) ![1, 0, 0] Cert.ReferenceIdeal.Gen.slices_S4x128x128_S1x128x128_1_0_0) (rowv (m ((c : Thread nD τ).loc main_arg8)) ![1, 0] Cert.ReferenceIdeal.Gen.slices_S4x128_S1x128_1_0) hH
    (aggOps_real _ _ _ hH) (slab_real _ _ _ h3) (rowv_real _ _ _ h4)).trans rfl)

end L1
end Cert.KernelIdeal.KChain

end
-- ==== Proof.Pass1R4.lean ====
/-
  The first kernel of a layer, region 4 of the program: what its three result arrays hold when it has run, as
  functions of the four arrays it reads.

  The kernel visits the 100000 rows in 20 tiles of 5000. At each tile it forms z = (h + agg) · W1 + b1 for the tile's
  rows and stores it; it adds the tile's column sums of z, and of z², to two running 1 × 128 rows, which it sets to
  zero before the first tile. The tiles' z blocks are written back one by one and together fill the z array; the two
  running rows are written back once, after the last tile, when they hold the sums over all tiles.

  Here: the arithmetic of one tile read entry by entry (a matrix product into a zero accumulator is a finite sum of
  products; a sum down the rows is a finite sum); what each visit leaves in the three output blocks; by induction on
  the tile, the running rows after tile n are the sums over tiles 0 … n; and the passage from blocks to arrays.
-/
import proofs.«163505_j89335319757549_1_alg».proof.Proof.Gen.KernelIdeal.Frame
import proofs.«163505_j89335319757549_1_alg».proof.Proof.Spec
import proofs.«163505_j89335319757549_1_alg».proof.Proof.LibMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Pass1R4

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

/-! ## One tile's arithmetic, entry by entry, on the extended reals -/

section Payloads

/-- A 5000 × 128 by 128 × 128 product into the zero accumulator, at entry (r, j): the sum over k of A (r, k) · B (k, j). -/
theorem matmul_at (A : FVec Ideal S5000x128 .bf16) (B : FVec Ideal S128x128 .bf16) (r : Fin 5000) (j : Fin 128) :
    FloatOps.matmul dot_S5000x128_S128x128_S5000x128_1_0_0_1_n_n none A B
        (constant (F := Ideal) S5000x128 .f32 0x00000000#32) (ix2 r j)
      = ∑ k : Fin 128, A (ix2 r k) * B (ix2 k j) :=
  Cert.LibMatmul.matmul_plain_zero_apply none A B r j

/-- Putting row coordinate k back on axis 0 of a channel index g gives the entry (k, g). -/
theorem lift_axis0 (h : S5000x128.Reduces [0] S128) (g : Fin 128) (k : Fin (S5000x128.size 0)) :
    h.lift (ix1 g) k = ix2 (⟨k.val, k.isLt⟩ : Fin 5000) g := by
  funext c; apply Fin.ext
  fin_cases c <;> rfl

/-- A sum down the 5000 rows of a tile, laid out as one row: entry (0, j) is the sum over the rows r of the source at (r, j). -/
theorem rowsum_at (src : FVec Ideal S5000x128 .f32) (hφ : FKind.Formats .f32)
    (hacc : (0x00000000#32 : BitVec 32) = 0x00000000#32) (u : Fin 1) (j : Fin 128) :
    shapeCast S1x128 (multiReduction .add [0] S128 src 0x00000000#32 reduces_S5000x128_S128 hφ hacc) shapeCasts_S128_S1x128 (ix2 u j)
      = ∑ r : Fin 5000, src (ix2 r j) := by
  refine (shapeCast_a_1a_apply _ shapeCasts_S128_S1x128 u j).trans ?_
  refine (Ideal.multiReduction_add_single src 0x00000000#32 reduces_S5000x128_S128 hφ hacc (ix1 j)).trans ?_
  exact Finset.sum_congr rfl fun k _ => congrArg src (lift_axis0 reduces_S5000x128_S128 j k)

/-- The tile's first linear map at row r of the tile and channel j: Σ_k (x0 + x1)(r, k) · x2 (k, j) + x3 (0, j). -/
theorem pay3_at (x0 x1 : Vec Ideal S5000x128 .f32) (x2 : Vec Ideal S128x128 .f32) (x3 : Vec Ideal S1x128 .f32)
    (r : Fin 5000) (j : Fin 128) :
    k4_pay3 (F := Ideal) x0 x1 x2 x3 (ix2 r j)
      = (∑ k : Fin 128, (x0 (ix2 r k) + x1 (ix2 r k)) * x2 (ix2 k j)) + x3 (ix2 0 j) := by
  unfold k4_pay3
  simp only [shapeCast_self]
  rw [addf_apply]
  refine congrArg₂ (· + ·) ?_ ?_
  · exact (matmul_at _ _ r j).trans (Finset.sum_congr rfl fun k _ => rfl)
  · exact broadcastTo_1b_ab_apply x3 broadcasts_S1x128_S5000x128 r j

/-- The zero rows the first visit stores. -/
theorem pay1_at (u : Fin 1) (j : Fin 128) : k4_pay1 (F := Ideal) (ix2 u j) = 0 := by
  unfold k4_pay1
  exact Ideal.ofBits_zero_f32

theorem pay2_at (u : Fin 1) (j : Fin 128) : k4_pay2 (F := Ideal) (ix2 u j) = 0 := by
  unfold k4_pay2
  exact Ideal.ofBits_zero_f32

/-- The running column sum after a tile: what was there plus the tile's column sum of z. -/
theorem pay4_at (x0 x1 : Vec Ideal S5000x128 .f32) (x2 : Vec Ideal S128x128 .f32) (x3 xo : Vec Ideal S1x128 .f32)
    (u : Fin 1) (j : Fin 128) :
    k4_pay4 (F := Ideal) x0 x1 x2 x3 xo (ix2 u j)
      = xo (ix2 u j) + ∑ r : Fin 5000, k4_pay3 (F := Ideal) x0 x1 x2 x3 (ix2 r j) := by
  unfold k4_pay4
  simp only [shapeCast_self]
  rw [addf_apply]
  exact congrArg (xo (ix2 u j) + ·) (rowsum_at _ _ _ u j)

/-- The running column sum of squares after a tile. -/
theorem pay5_at (x0 x1 : Vec Ideal S5000x128 .f32) (x2 : Vec Ideal S128x128 .f32) (x3 xo : Vec Ideal S1x128 .f32)
    (u : Fin 1) (j : Fin 128) :
    k4_pay5 (F := Ideal) x0 x1 x2 x3 xo (ix2 u j)
      = xo (ix2 u j) + ∑ r : Fin 5000, k4_pay3 (F := Ideal) x0 x1 x2 x3 (ix2 r j) * k4_pay3 (F := Ideal) x0 x1 x2 x3 (ix2 r j) := by
  unfold k4_pay5
  simp only [shapeCast_self]
  rw [addf_apply]
  refine congrArg (xo (ix2 u j) + ·) ((rowsum_at _ _ _ u j).trans ?_)
  exact Finset.sum_congr rfl fun r _ => rfl

/-- When the four blocks are tile t of the row arrays and the whole of the weight and bias arrays, the tile's first
    linear map is the layer's at the tile's rows. -/
theorem tile_at (x0 x1 : Vec Ideal S5000x128 .f32) (x2 : Vec Ideal S128x128 .f32) (x3 : Vec Ideal S1x128 .f32)
    (H A : Cert.Gin.Mat 100000 128) (W : Cert.Gin.Mat 128 128) (B : Cert.Gin.Mat 1 128) (t : Fin 20)
    (e0 : ∀ r k, x0 (ix2 r k) = H (ix2 (Cert.Gin.row t r) k)) (e1 : ∀ r k, x1 (ix2 r k) = A (ix2 (Cert.Gin.row t r) k))
    (e2 : ∀ k j, x2 (ix2 k j) = W (ix2 k j)) (e3 : ∀ j, x3 (ix2 0 j) = B (ix2 0 j)) (r : Fin 5000) (j : Fin 128) :
    k4_pay3 (F := Ideal) x0 x1 x2 x3 (ix2 r j) = Cert.Gin.zAt H A W B (Cert.Gin.row t r) j := by
  rw [pay3_at]
  unfold Cert.Gin.zAt
  rw [e3]
  refine congrArg (· + B (ix2 0 j)) (Finset.sum_congr rfl fun k _ => ?_)
  rw [e0, e1, e2]

end Payloads

/-! ## What one visit leaves in the three output blocks

Each case's stores, read back: the z block is the tile's first linear map; a running row is the row the visit found
(the zero row at the first tile, where the visit has just stored it) plus the tile's column sums. These hold for any
float values. -/

section Pieces

variable {F : FTy → Type} [FloatOps F]

theorem hz : (![0, 0] : Fin 2 → Nat) = fun _ => 0 := funext fun a => by fin_cases a <;> rfl

/-- First tile: the z block. -/
theorem out_A_4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i) (x0 x1 : Vec F S5000x128 .f32) (x2 : Vec F S128x128 .f32) (x3 : Vec F S1x128 .f32) :
    out4_A_4 c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum starts from the zero row the visit has just stored. -/
theorem out_A_5 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i) (x0 x1 : Vec F S5000x128 .f32) (x2 : Vec F S128x128 .f32) (x3 : Vec F S1x128 .f32) :
    out4_A_5 c i a1 h1 a2 h2 a3 h3 a4 h4 a5 h5 a6 h6 a7 h7 hc x0 x1 x2 x3 = k4_pay4 x0 x1 x2 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum of squares likewise. -/
theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i) (x0 x1 : Vec F S5000x128 .f32) (x2 : Vec F S128x128 .f32) (x3 : Vec F S1x128 .f32) :
    out4_A_6 c i a1 h1 a2 h2 a3 h3 a4 h4 a5 h5 a6 h6 a7 h7 hc x0 x1 x2 x3 = k4_pay5 x0 x1 x2 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the z block. -/
theorem out_B_4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i) (x0 x1 : Vec F S5000x128 .f32) (x2 : Vec F S128x128 .f32) (x3 : Vec F S1x128 .f32) (xo5 xo6 : Vec F S1x128 .f32) :
    out4_B_4 c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum continues from the row the tile before left. -/
theorem out_B_5 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i) (x0 x1 : Vec F S5000x128 .f32) (x2 : Vec F S128x128 .f32) (x3 : Vec F S1x128 .f32) (xo5 xo6 : Vec F S1x128 .f32) :
    out4_B_5 c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum of squares likewise. -/
theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i) (x0 x1 : Vec F S5000x128 .f32) (x2 : Vec F S128x128 .f32) (x3 : Vec F S1x128 .f32) (xo5 xo6 : Vec F S1x128 .f32) :
    out4_B_6 c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

/-! ## The windows' blocks as parts of their arrays

A block's entry sits in the array, on each axis, at the block index times the block size plus its own coordinate.
The two row windows and the z window move one tile per point; the weight, bias and running-row windows stay at
block (0, 0), which is their whole array. -/

section Blocks

variable {F : FTy → Type} [FloatOps F]

/-- The block index maps over the grid: the row windows move one tile per point, the others stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

variable (c : Dev nD)

/-- Window 0's block at point t, at (r, k), is the array at row 5000·t + r, column k. -/
theorem blk0_read (X : Buf (Elt F) ((cfg4.win 0).arr.view.loc (c.tc : Thread nD τ))) (t : Fin cfg4.N) (r : Fin 5000) (k : Fin 128)
    (i : S100000x128.Idx) (h0 : (i 0).val = 5000 * t.val + r.val) (h1 : (i 1).val = k.val) :
    ((cfg4.win 0).blk t).view.read (Elt F) X (ix2 r k) = X i := by
  rw [View.read_apply]
  show X _ = X i
  refine congrArg X ?_
  funext a; apply Fin.ext
  obtain ⟨e0, e1, -⟩ := idx_facts t
  match a with
  | ⟨0, _⟩ => show win4_0.index t (0 : Fin 2) * 5000 + 1 * r.val = (i 0).val; rw [e0, h0]; omega
  | ⟨1, _⟩ => show win4_0.index t (1 : Fin 2) * 128 + 1 * k.val = (i 1).val; rw [e1, h1]; omega

/-- Window 1's block likewise. -/
theorem blk1_read (X : Buf (Elt F) ((cfg4.win 1).arr.view.loc (c.tc : Thread nD τ))) (t : Fin cfg4.N) (r : Fin 5000) (k : Fin 128)
    (i : S100000x128.Idx) (h0 : (i 0).val = 5000 * t.val + r.val) (h1 : (i 1).val = k.val) :
    ((cfg4.win 1).blk t).view.read (Elt F) X (ix2 r k) = X i := by
  rw [View.read_apply]
  show X _ = X i
  refine congrArg X ?_
  funext a; apply Fin.ext
  obtain ⟨-, -, e0, e1, -⟩ := idx_facts t
  match a with
  | ⟨0, _⟩ => show win4_1.index t (0 : Fin 2) * 5000 + 1 * r.val = (i 0).val; rw [e0, h0]; omega
  | ⟨1, _⟩ => show win4_1.index t (1 : Fin 2) * 128 + 1 * k.val = (i 1).val; rw [e1, h1]; omega

/-- The weight window's one block is the whole 128 × 128 array. -/
theorem blk2_read (X : Buf (Elt F) ((cfg4.win 2).arr.view.loc (c.tc : Thread nD τ))) (t : Fin cfg4.N) (k j : Fin 128) :
    ((cfg4.win 2).blk t).view.read (Elt F) X (ix2 k j) = X (ix2 k j) := by
  rw [View.read_apply]
  show X _ = X _
  refine congrArg X ?_
  funext a; apply Fin.ext
  obtain ⟨-, -, -, -, e0, e1, -⟩ := idx_facts t
  match a with
  | ⟨0, _⟩ => show win4_2.index t (0 : Fin 2) * 128 + 1 * k.val = k.val; rw [e0]; omega
  | ⟨1, _⟩ => show win4_2.index t (1 : Fin 2) * 128 + 1 * j.val = j.val; rw [e1]; omega

/-- The bias window's one block is the whole 1 × 128 array. -/
theorem blk3_read (X : Buf (Elt F) ((cfg4.win 3).arr.view.loc (c.tc : Thread nD τ))) (t : Fin cfg4.N) (u : Fin 1) (j : Fin 128) :
    ((cfg4.win 3).blk t).view.read (Elt F) X (ix2 u j) = X (ix2 u j) := by
  rw [View.read_apply]
  show X _ = X _
  refine congrArg X ?_
  funext a; apply Fin.ext
  obtain ⟨-, -, -, -, -, -, e0, e1, -⟩ := idx_facts t
  match a with
  | ⟨0, _⟩ => show win4_3.index t (0 : Fin 2) * 1 + 1 * u.val = u.val; rw [e0]; omega
  | ⟨1, _⟩ => show win4_3.index t (1 : Fin 2) * 128 + 1 * j.val = j.val; rw [e1]; omega

/-- The z window's block at point t, at (r, k), is the array at row 5000·t + r, column k. -/
theorem blk4_read (X : Buf (Elt F) ((cfg4.win 4).arr.view.loc (c.tc : Thread nD τ))) (t : Fin cfg4.N) (r : Fin 5000) (k : Fin 128)
    (i : S100000x128.Idx) (h0 : (i 0).val = 5000 * t.val + r.val) (h1 : (i 1).val = k.val) :
    ((cfg4.win 4).blk t).view.read (Elt F) X (ix2 r k) = X i := by
  rw [View.read_apply]
  show X _ = X i
  refine congrArg X ?_
  funext a; apply Fin.ext
  obtain ⟨-, -, -, -, -, -, -, -, e0, e1, -⟩ := idx_facts t
  match a with
  | ⟨0, _⟩ => show win4_4.index t (0 : Fin 2) * 5000 + 1 * r.val = (i 0).val; rw [e0, h0]; omega
  | ⟨1, _⟩ => show win4_4.index t (1 : Fin 2) * 128 + 1 * k.val = (i 1).val; rw [e1, h1]; omega

/-- The running-sum window's one block is the whole 1 × 128 array. -/
theorem blk5_read (X : Buf (Elt F) ((cfg4.win 5).arr.view.loc (c.tc : Thread nD τ))) (t : Fin cfg4.N) (u : Fin 1) (j : Fin 128) :
    ((cfg4.win 5).blk t).view.read (Elt F) X (ix2 u j) = X (ix2 u j) := by
  rw [View.read_apply]
  show X _ = X _
  refine congrArg X ?_
  funext a; apply Fin.ext
  obtain ⟨-, -, -, -, -, -, -, -, -, -, e0, e1, -⟩ := idx_facts t
  match a with
  | ⟨0, _⟩ => show win4_5.index t (0 : Fin 2) * 1 + 1 * u.val = u.val; rw [e0]; omega
  | ⟨1, _⟩ => show win4_5.index t (1 : Fin 2) * 128 + 1 * j.val = j.val; rw [e1]; omega

/-- The running sum of squares' window likewise. -/
theorem blk6_read (X : Buf (Elt F) ((cfg4.win 6).arr.view.loc (c.tc : Thread nD τ))) (t : Fin cfg4.N) (u : Fin 1) (j : Fin 128) :
    ((cfg4.win 6).blk t).view.read (Elt F) X (ix2 u j) = X (ix2 u j) := by
  rw [View.read_apply]
  show X _ = X _
  refine congrArg X ?_
  funext a; apply Fin.ext
  obtain ⟨-, -, -, -, -, -, -, -, -, -, -, -, e0, e1⟩ := idx_facts t
  match a with
  | ⟨0, _⟩ => show win4_6.index t (0 : Fin 2) * 1 + 1 * u.val = u.val; rw [e0]; omega
  | ⟨1, _⟩ => show win4_6.index t (1 : Fin 2) * 128 + 1 * j.val = j.val; rw [e1]; omega

/-- Every row of the result lies in the block of the point that holds its tile. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨t, htv⟩ : ∃ t : Fin cfg4.N, t.val = (i 0).val / 5000 := ⟨⟨_, ht⟩, rfl⟩
  refine ⟨t, flush4_4 t, ?_⟩
  show i ∈ ((View.whole main_v87_0).slice (win4_4.rect t)).set
  rw [View.set_slice_whole, Rect.mem_set_unit]
  obtain ⟨-, -, -, -, -, -, -, -, e0, e1, -⟩ := idx_facts t
  intro a
  match a with
  | ⟨0, _⟩ =>
    show win4_4.index t (0 : Fin 2) * 5000 ≤ (i 0).val ∧ (i 0).val < win4_4.index t (0 : Fin 2) * 5000 + 5000
    rw [e0, htv]; omega
  | ⟨1, _⟩ =>
    show win4_4.index t (1 : Fin 2) * 128 ≤ (i 1).val ∧ (i 1).val < win4_4.index t (1 : Fin 2) * 128 + 128
    rw [e1]; omega

/-- The one block of the column sums is the whole 1 × 128 array: the last point covers it. -/
theorem cover5 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  have hN : cfg4.N = 20 := N_4
  obtain ⟨t, htv⟩ : ∃ t : Fin cfg4.N, t.val = 19 := ⟨⟨19, by rw [hN]; omega⟩, rfl⟩
  refine ⟨t, (flush4_5 t).mpr (by rw [htv]), ?_⟩
  show i ∈ ((View.whole main_v87_1).slice (win4_5.rect t)).set
  rw [View.set_slice_whole, Rect.mem_set_unit]
  obtain ⟨-, -, -, -, -, -, -, -, -, -, e0, e1, -⟩ := idx_facts t
  intro a
  match a with
  | ⟨0, _⟩ =>
    show win4_5.index t (0 : Fin 2) * 1 ≤ (i 0).val ∧ (i 0).val < win4_5.index t (0 : Fin 2) * 1 + 1
    rw [e0]; omega
  | ⟨1, _⟩ =>
    show win4_5.index t (1 : Fin 2) * 128 ≤ (i 1).val ∧ (i 1).val < win4_5.index t (1 : Fin 2) * 128 + 128
    rw [e1]; omega

/-- The same for the sums of squares. -/
theorem cover6 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  have hN : cfg4.N = 20 := N_4
  obtain ⟨t, htv⟩ : ∃ t : Fin cfg4.N, t.val = 19 := ⟨⟨19, by rw [hN]; omega⟩, rfl⟩
  refine ⟨t, (flush4_6 t).mpr (by rw [htv]), ?_⟩
  show i ∈ ((View.whole main_v87_2).slice (win4_6.rect t)).set
  rw [View.set_slice_whole, Rect.mem_set_unit]
  obtain ⟨-, -, -, -, -, -, -, -, -, -, -, -, e0, e1⟩ := idx_facts t
  intro a
  match a with
  | ⟨0, _⟩ =>
    show win4_6.index t (0 : Fin 2) * 1 ≤ (i 0).val ∧ (i 0).val < win4_6.index t (0 : Fin 2) * 1 + 1
    rw [e0]; omega
  | ⟨1, _⟩ =>
    show win4_6.index t (1 : Fin 2) * 128 ≤ (i 1).val ∧ (i 1).val < win4_6.index t (1 : Fin 2) * 128 + 128
    rw [e1]; omega

end Blocks

/-! ## The run: the three result arrays

From here on the values are the extended reals and `V` is what the buffers hold when the region is entered. -/

section Run

variable (V : (c : Dev nD) → (b : Ref sig .tc) → Buf (Elt Ideal) ((c : Thread nD τ).loc b))

/-- The four arrays the kernel reads, as the region finds them: node features, neighbour sums, weights, bias. -/
abbrev Hm (c : Dev nD) : Cert.Gin.Mat 100000 128 := V c (Pipeline.arrRef spec4 0)
abbrev Am (c : Dev nD) : Cert.Gin.Mat 100000 128 := V c (Pipeline.arrRef spec4 1)
abbrev Wm (c : Dev nD) : Cert.Gin.Mat 128 128 := V c (Pipeline.arrRef spec4 2)
abbrev Bm (c : Dev nD) : Cert.Gin.Mat 1 128 := V c (Pipeline.arrRef spec4 3)

/-- The first linear map of the layer as a 100000 × 128 array. -/
abbrev zMat (c : Dev nD) : Cert.Gin.Mat 100000 128 := fun i => Cert.Gin.zAt (Hm V c) (Am V c) (Wm V c) (Bm V c) (i 0) (i 1)

/-- A grid point as a tile number. -/
def tileOf (t : Fin cfg4.N) : Fin 20 := ⟨t.val, lt_of_lt_of_eq t.isLt N_4⟩

/-- A tile-indexed quantity as a function of a natural number (zero past the last tile), so that running sums are
    sums over an initial segment of the naturals. -/
def tsum (f : Fin 20 → EReal) (s : ℕ) : EReal := if h : s < 20 then f ⟨s, h⟩ else 0

theorem tsum_of_lt (f : Fin 20 → EReal) (s : ℕ) (h : s < 20) : tsum f s = f ⟨s, h⟩ := dif_pos h

theorem sum_range_tsum (f : Fin 20 → EReal) : ∑ s ∈ Finset.range 20, tsum f s = ∑ t : Fin 20, f t := by
  rw [Finset.sum_range]
  exact Finset.sum_congr rfl fun t _ => dif_pos t.isLt

/-- At point t the body's first linear map, on the blocks the windows hand it, is the layer's z at the rows of tile t. -/
theorem tile_blk (c : Dev nD) (t : Fin cfg4.N) (r : Fin 5000) (j : Fin 128) :
    k4_pay3 (F := Ideal) (iblk4 V c 0 t) (iblk4 V c 1 t) (iblk4 V c 2 t) (iblk4 V c 3 t) (ix2 r j)
      = Cert.Gin.zAt (Hm V c) (Am V c) (Wm V c) (Bm V c) (Cert.Gin.row (tileOf t) r) j :=
  tile_at (iblk4 V c 0 t) (iblk4 V c 1 t) (iblk4 V c 2 t) (iblk4 V c 3 t) (Hm V c) (Am V c) (Wm V c) (Bm V c) (tileOf t)
    (fun r k => blk0_read c (V c (Pipeline.arrRef spec4 0)) t r k (ix2 (Cert.Gin.row (tileOf t) r) k) rfl rfl)
    (fun r k => blk1_read c (V c (Pipeline.arrRef spec4 1)) t r k (ix2 (Cert.Gin.row (tileOf t) r) k) rfl rfl)
    (fun k j => blk2_read c (V c (Pipeline.arrRef spec4 2)) t k j)
    (fun j => blk3_read c (V c (Pipeline.arrRef spec4 3)) t 0 j)
    r j

/-- After any point the z block holds the point's tile of z. -/
theorem inv4 (c : Dev nD) (t : Fin cfg4.N) :
    (outsAt4 V c t.val t.isLt).1 = k4_pay3 (F := Ideal) (iblk4 V c 0 t) (iblk4 V c 1 t) (iblk4 V c 2 t) (iblk4 V c 3 t) := by
  by_cases h0 : t.val % 20 = 0
  · rw [outsAt4_A V c t h0]
    dsimp only
    exact out_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact out_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t)
      (outsAt4 V c (t.val - 1) (Nat.lt_of_le_of_lt (Nat.sub_le _ _) t.isLt)).2.1 (outsAt4 V c (t.val - 1) (Nat.lt_of_le_of_lt (Nat.sub_le _ _) t.isLt)).2.2

/-- The first point leaves the first tile's column sums in the running row. -/
theorem step5_A (c : Dev nD) (t : Fin cfg4.N) (h0 : t.val % 20 = 0) (u : Fin 1) (j : Fin 128) :
    (outsAt4 V c t.val t.isLt).2.1 (ix2 u j) = ∑ r : Fin 5000, Cert.Gin.zAt (Hm V c) (Am V c) (Wm V c) (Bm V c) (Cert.Gin.row (tileOf t) r) j := by
  rw [outsAt4_A V c t h0]
  refine (congrFun (out_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 u j)).trans ?_
  refine (pay4_at (iblk4 V c 0 t) (iblk4 V c 1 t) (iblk4 V c 2 t) (iblk4 V c 3 t) (k4_pay1 (F := Ideal)) u j).trans ?_
  rw [pay1_at, zero_add]
  exact Finset.sum_congr rfl fun r _ => tile_blk V c t r j

/-- A later point adds its tile's column sums to what the point before left. -/
theorem step5_B (c : Dev nD) (t : Fin cfg4.N) (h0 : ¬t.val % 20 = 0) (u : Fin 1) (j : Fin 128) :
    (outsAt4 V c t.val t.isLt).2.1 (ix2 u j)
      = (outsAt4 V c (t.val - 1) (Nat.lt_of_le_of_lt (Nat.sub_le _ _) t.isLt)).2.1 (ix2 u j) + ∑ r : Fin 5000, Cert.Gin.zAt (Hm V c) (Am V c) (Wm V c) (Bm V c) (Cert.Gin.row (tileOf t) r) j := by
  rw [outsAt4_B V c t h0]
  refine (congrFun (out_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t)
    (outsAt4 V c (t.val - 1) (Nat.lt_of_le_of_lt (Nat.sub_le _ _) t.isLt)).2.1 (outsAt4 V c (t.val - 1) (Nat.lt_of_le_of_lt (Nat.sub_le _ _) t.isLt)).2.2) (ix2 u j)).trans ?_
  refine (pay4_at (iblk4 V c 0 t) (iblk4 V c 1 t) (iblk4 V c 2 t) (iblk4 V c 3 t) (outsAt4 V c (t.val - 1) (Nat.lt_of_le_of_lt (Nat.sub_le _ _) t.isLt)).2.1 u j).trans ?_
  exact congrArg ((outsAt4 V c (t.val - 1) (Nat.lt_of_le_of_lt (Nat.sub_le _ _) t.isLt)).2.1 (ix2 u j) + ·) (Finset.sum_congr rfl fun r _ => tile_blk V c t r j)

/-- The same two steps for the sums of squares. -/
theorem step6_A (c : Dev nD) (t : Fin cfg4.N) (h0 : t.val % 20 = 0) (u : Fin 1) (j : Fin 128) :
    (outsAt4 V c t.val t.isLt).2.2 (ix2 u j)
      = ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt4_A V c t h0]
  refine (congrFun (out_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) (ix2 u j)).trans ?_
  refine (pay5_at (iblk4 V c 0 t) (iblk4 V c 1 t) (iblk4 V c 2 t) (iblk4 V c 3 t) (k4_pay2 (F := Ideal)) u j).trans ?_
  rw [pay2_at, zero_add]
  exact Finset.sum_congr rfl fun r _ => by rw [tile_blk V c t r j]

theorem step6_B (c : Dev nD) (t : Fin cfg4.N) (h0 : ¬t.val % 20 = 0) (u : Fin 1) (j : Fin 128) :
    (outsAt4 V c t.val t.isLt).2.2 (ix2 u j)
      = (outsAt4 V c (t.val - 1) (Nat.lt_of_le_of_lt (Nat.sub_le _ _) t.isLt)).2.2 (ix2 u j)
        + ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt4_B V c t h0]
  refine (congrFun (out_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t)
    (outsAt4 V c (t.val - 1) (Nat.lt_of_le_of_lt (Nat.sub_le _ _) t.isLt)).2.1 (outsAt4 V c (t.val - 1) (Nat.lt_of_le_of_lt (Nat.sub_le _ _) t.isLt)).2.2) (ix2 u j)).trans ?_
  refine (pay5_at (iblk4 V c 0 t) (iblk4 V c 1 t) (iblk4 V c 2 t) (iblk4 V c 3 t) (outsAt4 V c (t.val - 1) (Nat.lt_of_le_of_lt (Nat.sub_le _ _) t.isLt)).2.2 u j).trans ?_
  exact congrArg ((outsAt4 V c (t.val - 1) (Nat.lt_of_le_of_lt (Nat.sub_le _ _) t.isLt)).2.2 (ix2 u j) + ·) (Finset.sum_congr rfl fun r _ => by rw [tile_blk V c t r j])

/-- THE RUNNING SUM: after point n the row holds the column sums of z over tiles 0 … n. By induction on the point. -/
theorem inv5 (c : Dev nD) (u : Fin 1) (j : Fin 128) : ∀ (n : ℕ) (h : n < cfg4.N),
    (outsAt4 V c n h).2.1 (ix2 u j)
      = ∑ s ∈ Finset.range (n + 1), tsum (fun t => ∑ r : Fin 5000, Cert.Gin.zAt (Hm V c) (Am V c) (Wm V c) (Bm V c) (Cert.Gin.row t r) j) s
  | 0, h => by
    rw [Finset.sum_range_one, tsum_of_lt _ 0 (by omega)]
    exact step5_A V c ⟨0, h⟩ rfl u j
  | n + 1, h => by
    have hN : cfg4.N = 20 := N_4
    have hB : ¬(⟨n + 1, h⟩ : Fin cfg4.N).val % 20 = 0 := by dsimp only; omega
    rw [Finset.sum_range_succ, ← inv5 c u j n (Nat.lt_of_succ_lt h), tsum_of_lt _ (n + 1) (by omega)]
    exact step5_B V c ⟨n + 1, h⟩ hB u j

/-- THE RUNNING SUM OF SQUARES likewise. -/
theorem inv6 (c : Dev nD) (u : Fin 1) (j : Fin 128) : ∀ (n : ℕ) (h : n < cfg4.N),
    (outsAt4 V c n h).2.2 (ix2 u j)
      = ∑ s ∈ Finset.range (n + 1), tsum (fun t => ∑ r : Fin 5000,
          Cert.Gin.zAt (Hm V c) (Am V c) (Wm V c) (Bm V c) (Cert.Gin.row t r) j * Cert.Gin.zAt (Hm V c) (Am V c) (Wm V c) (Bm V c) (Cert.Gin.row t r) j) s
  | 0, h => by
    rw [Finset.sum_range_one, tsum_of_lt _ 0 (by omega)]
    exact step6_A V c ⟨0, h⟩ rfl u j
  | n + 1, h => by
    have hN : cfg4.N = 20 := N_4
    have hB : ¬(⟨n + 1, h⟩ : Fin cfg4.N).val % 20 = 0 := by dsimp only; omega
    rw [Finset.sum_range_succ, ← inv6 c u j n (Nat.lt_of_succ_lt h), tsum_of_lt _ (n + 1) (by omega)]
    exact step6_B V c ⟨n + 1, h⟩ hB u j

/-! ### From blocks to arrays -/

/-- What the z array ends holding. -/
abbrev G4 (c : Dev nD) : Buf (Elt Ideal) ((cfg4.win 4).arr.view.loc (c.tc : Thread nD τ)) := zMat V c
/-- What the column-sum array ends holding. -/
abbrev G5 (c : Dev nD) : Buf (Elt Ideal) ((cfg4.win 5).arr.view.loc (c.tc : Thread nD τ)) :=
  fun i => Cert.Gin.colSum (zMat V c) (i 1)
/-- What the array of column sums of squares ends holding. -/
abbrev G6 (c : Dev nD) : Buf (Elt Ideal) ((cfg4.win 6).arr.view.loc (c.tc : Thread nD τ)) :=
  fun i => Cert.Gin.colSumSq (zMat V c) (i 1)

/-- Every point writes back its block of z. -/
theorem flushed4 (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4, inv4]
  funext y
  obtain ⟨r, k, rfl⟩ : ∃ (r : Fin 5000) (k : Fin 128), y = ix2 r k := ⟨y 0, y 1, eq_ix2 y⟩
  rw [blk4_read c (G4 V c) t r k (ix2 (Cert.Gin.row (tileOf t) r) k) rfl rfl]
  show k4_pay3 (F := Ideal) _ _ _ _ (ix2 r k) = _
  exact tile_blk V c t r k

/-- So the z array ends holding z. -/
theorem final4 (c : Dev nD) : (dat4 V c).arrAt 4 cfg4.N = G4 V c :=
  (dat4 V c).arrAt_eq_of_cover 4 (G4 V c) (fun t _ => flushed4 V c t) (fun i => cover4 i)

/-- The last point writes back the running sums, which by then run over all twenty tiles. -/
theorem flushed5 (c : Dev nD) (t : Fin cfg4.N) (hf : (cfg4.win 5).flush t = true) :
    (dat4 V c).flushed 5 t = ((cfg4.win 5).blk t).view.read (Elt Ideal) (G5 V c) := by
  have hN : cfg4.N = 20 := N_4
  have h19 : t.val = 19 := by have := (flush4_5 t).mp hf; have := t.isLt; omega
  show (cfg4.win 5).cut (grid4.coords t) ((dat4 V c).after 5 t) = _
  rw [after4_5]
  funext y
  obtain ⟨u, j, rfl⟩ : ∃ (u : Fin 1) (j : Fin 128), y = ix2 u j := ⟨y 0, y 1, eq_ix2 y⟩
  rw [blk5_read c (G5 V c) t u j]
  show (outsAt4 V c t.val t.isLt).2.1 (ix2 u j) = _
  rw [inv5 V c u j t.val t.isLt, h19]
  exact sum_range_tsum _

theorem final5 (c : Dev nD) : (dat4 V c).arrAt 5 cfg4.N = G5 V c :=
  (dat4 V c).arrAt_eq_of_cover 5 (G5 V c) (flushed5 V c) (fun i => cover5 i)

theorem flushed6 (c : Dev nD) (t : Fin cfg4.N) (hf : (cfg4.win 6).flush t = true) :
    (dat4 V c).flushed 6 t = ((cfg4.win 6).blk t).view.read (Elt Ideal) (G6 V c) := by
  have hN : cfg4.N = 20 := N_4
  have h19 : t.val = 19 := by have := (flush4_6 t).mp hf; have := t.isLt; omega
  show (cfg4.win 6).cut (grid4.coords t) ((dat4 V c).after 6 t) = _
  rw [after4_6]
  funext y
  obtain ⟨u, j, rfl⟩ : ∃ (u : Fin 1) (j : Fin 128), y = ix2 u j := ⟨y 0, y 1, eq_ix2 y⟩
  rw [blk6_read c (G6 V c) t u j]
  show (outsAt4 V c t.val t.isLt).2.2 (ix2 u j) = _
  rw [inv6 V c u j t.val t.isLt, h19]
  exact sum_range_tsum _

theorem final6 (c : Dev nD) : (dat4 V c).arrAt 6 cfg4.N = G6 V c :=
  (dat4 V c).arrAt_eq_of_cover 6 (G6 V c) (flushed6 V c) (fun i => cover6 i)

/-! ### The three closed forms -/

/-- The z array after the region: the layer's first linear map, entry by entry. -/
theorem z4 (c : Dev nD) (r : Fin 100000) (j : Fin 128) :
    (dat4 (F := Ideal) V c).arrAt 4 cfg4.N (ix2 r j) = Cert.Gin.zAt (Hm V c) (Am V c) (Wm V c) (Bm V c) r j :=
  congrFun (final4 V c) (ix2 r j)

/-- The column sums of z. -/
theorem s4 (c : Dev nD) (j : Fin 128) :
    (dat4 (F := Ideal) V c).arrAt 5 cfg4.N (ix2 0 j)
      = Cert.Gin.colSum (fun i => Cert.Gin.zAt (Hm V c) (Am V c) (Wm V c) (Bm V c) (i 0) (i 1)) j :=
  congrFun (final5 V c) (ix2 0 j)

/-- The column sums of z². -/
theorem ss4 (c : Dev nD) (j : Fin 128) :
    (dat4 (F := Ideal) V c).arrAt 6 cfg4.N (ix2 0 j)
      = Cert.Gin.colSumSq (fun i => Cert.Gin.zAt (Hm V c) (Am V c) (Wm V c) (Bm V c) (i 0) (i 1)) j :=
  congrFun (final6 V c) (ix2 0 j)

end Run

end Cert.KernelIdeal.Pass1R4

end
-- ==== Proof.Pass2R5.lean ====
/-
  Region 5: the second pass of a layer over all 100000 rows, as one function of the arrays the region finds.

  The region runs the tile body at 20 grid points; point `t` reads rows `5000·t … 5000·t + 4999` of `z` and the whole
  of the mean, variance, scale, shift, weight and bias arrays, and writes the same rows of the result. So the result
  array ends holding, at row `r` and channel `j`, the layer's output `outAt` of those arrays: the row is covered by
  point `r / 5000`, whose block holds the tile body's value at local row `r mod 5000`.
-/
import proofs.«163505_j89335319757549_1_alg».proof.Proof.Gen.KernelIdeal.Frame
import proofs.«163505_j89335319757549_1_alg».proof.Proof.Spec
import proofs.«163505_j89335319757549_1_alg».proof.Proof.Pass2Core
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pass2R5

open Cert.KernelIdeal Cert.KernelIdeal.Gen Idealize.ShloMosaic Idealize.ShloMosaic.TcCoe Idealize.SL.Sem
open Idealize.ShloMosaic.ValueIdx
open Idealize.ShloMosaic.Pipeline (Dat)
open Cert.Gin Cert.Gin.Pass2

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds -/

/-- Window 0's array as the region finds it: the first linear map's result `z`. -/
abbrev aZ (c : Dev nD) : Mat 100000 128 := V c (Pipeline.arrRef spec5 0)
/-- Window 1's array as the region finds it: the column means. -/
abbrev aMu (c : Dev nD) : Mat 1 128 := V c (Pipeline.arrRef spec5 1)
/-- Window 2's array as the region finds it: the column variances. -/
abbrev aVar (c : Dev nD) : Mat 1 128 := V c (Pipeline.arrRef spec5 2)
/-- Window 3's array as the region finds it: the scale row. -/
abbrev aG (c : Dev nD) : Mat 1 128 := V c (Pipeline.arrRef spec5 3)
/-- Window 4's array as the region finds it: the shift row. -/
abbrev aBe (c : Dev nD) : Mat 1 128 := V c (Pipeline.arrRef spec5 4)
/-- Window 5's array as the region finds it: the second weight matrix. -/
abbrev aW2 (c : Dev nD) : Mat 128 128 := V c (Pipeline.arrRef spec5 5)
/-- Window 6's array as the region finds it: the second bias row. -/
abbrev aB2 (c : Dev nD) : Mat 1 128 := V c (Pipeline.arrRef spec5 6)

/-! ## The tile body at an entry -/

/-- The body's chain up to the last activation's argument is the tile chain of the shared module. -/
theorem lin_eq (x0 : Vec Ideal S5000x128 .f32) (x1 x2 x3 x4 : Vec Ideal S1x128 .f32) (x5 : Vec Ideal S128x128 .f32)
    (x6 : Vec Ideal S1x128 .f32) :
    k5_pay2 (F := Ideal) x0 x2 x1 x3 x4 x5 x6
      = tileLin shapeCasts_S5000x128_S5000x128 shapeCasts_S1x128_S1x128 shapeCasts_S128x128_S128x128
          broadcasts_S1x128_S5000x128 bitsLt_bf16_f32 x0 x2 x1 x3 x4 x5 x6 := rfl

/-- What the body stores, at local row `r` and channel `j`, from the blocks it loaded: the tile's output. The body
    hands the variance block to its arithmetic before the mean block. -/
theorem out_apply (x0 : Vec Ideal S5000x128 .f32) (x1 x2 x3 x4 : Vec Ideal S1x128 .f32) (x5 : Vec Ideal S128x128 .f32)
    (x6 : Vec Ideal S1x128 .f32) (r : Fin 5000) (j : Fin 128) :
    out5_7 (F := Ideal) x0 x1 x2 x3 x4 x5 x6 (ix2 r j) = outT x0 x1 x2 x3 x4 x5 x6 r j := by
  unfold out5_7
  rw [View.canon_unit_zero hz]
  simp only [View.ld_unit_zero (S := S5000x128) hz, View.ld_unit_zero (S := S1x128) hz,
    View.ld_unit_zero (S := S128x128) hz]
  show elu (k5_pay2 (F := Ideal) x0 x2 x1 x3 x4 x5 x6 (ix2 r j)) = _
  rw [lin_eq, tileLin_apply]
  rfl

/-! ## The blocks the points read -/

/-- The printed index maps over the grid: the first input and the output move one block of rows per point, every
    other input stays at its one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The grid has 20 points. -/
theorem lt20 (t : Fin cfg5.N) : t.val < 20 :=
  lt_of_lt_of_eq t.isLt (N_5 : cfg5.N = 20)

/-- The first input's block at point `t` is rows `5000·t …` of its array. -/
theorem iblk0_apply (c : Dev nD) (t : Fin cfg5.N) (r : Fin 5000) (k : Fin 128) :
    (iblk5 V c 0 t : Vec Ideal S5000x128 .f32) (ix2 r k) = aZ V c (ix2 (row ⟨t.val, lt20 t⟩ r) k) := by
  obtain ⟨e0, e1, -⟩ := idx_facts t
  show aZ V c (((cfg5.win 0).blk t).view.emb (ix2 r k)) = aZ V c _
  refine congrArg (aZ V c) (funext fun a => Fin.ext ?_)
  match a with
  | ⟨0, _⟩ => show win5_0.index t (0 : Fin 2) * 5000 + 1 * r.val = 5000 * t.val + r.val; rw [e0]; omega
  | ⟨1, _⟩ => show win5_0.index t (1 : Fin 2) * 128 + 1 * k.val = k.val; rw [e1]; omega

/-- Input 1's block is its whole array, at every point. -/
theorem iblk1_eq (c : Dev nD) (t : Fin cfg5.N) :
    (iblk5 V c 1 t : Vec Ideal S1x128 .f32) = aMu V c := by
  obtain ⟨-, -, e0, e1, -⟩ := idx_facts t
  funext x
  show aMu V c (((cfg5.win 1).blk t).view.emb x) = aMu V c x
  refine congrArg (aMu V c) (funext fun a => Fin.ext ?_)
  match a with
  | ⟨0, _⟩ => show win5_1.index t (0 : Fin 2) * 1 + 1 * (x 0).val = (x 0).val; rw [e0]; omega
  | ⟨1, _⟩ => show win5_1.index t (1 : Fin 2) * 128 + 1 * (x 1).val = (x 1).val; rw [e1]; omega

/-- Input 2's block is its whole array, at every point. -/
theorem iblk2_eq (c : Dev nD) (t : Fin cfg5.N) :
    (iblk5 V c 2 t : Vec Ideal S1x128 .f32) = aVar V c := by
  obtain ⟨-, -, -, -, e0, e1, -⟩ := idx_facts t
  funext x
  show aVar V c (((cfg5.win 2).blk t).view.emb x) = aVar V c x
  refine congrArg (aVar V c) (funext fun a => Fin.ext ?_)
  match a with
  | ⟨0, _⟩ => show win5_2.index t (0 : Fin 2) * 1 + 1 * (x 0).val = (x 0).val; rw [e0]; omega
  | ⟨1, _⟩ => show win5_2.index t (1 : Fin 2) * 128 + 1 * (x 1).val = (x 1).val; rw [e1]; omega

/-- Input 3's block is its whole array, at every point. -/
theorem iblk3_eq (c : Dev nD) (t : Fin cfg5.N) :
    (iblk5 V c 3 t : Vec Ideal S1x128 .f32) = aG V c := by
  obtain ⟨-, -, -, -, -, -, e0, e1, -⟩ := idx_facts t
  funext x
  show aG V c (((cfg5.win 3).blk t).view.emb x) = aG V c x
  refine congrArg (aG V c) (funext fun a => Fin.ext ?_)
  match a with
  | ⟨0, _⟩ => show win5_3.index t (0 : Fin 2) * 1 + 1 * (x 0).val = (x 0).val; rw [e0]; omega
  | ⟨1, _⟩ => show win5_3.index t (1 : Fin 2) * 128 + 1 * (x 1).val = (x 1).val; rw [e1]; omega

/-- Input 4's block is its whole array, at every point. -/
theorem iblk4_eq (c : Dev nD) (t : Fin cfg5.N) :
    (iblk5 V c 4 t : Vec Ideal S1x128 .f32) = aBe V c := by
  obtain ⟨-, -, -, -, -, -, -, -, e0, e1, -⟩ := idx_facts t
  funext x
  show aBe V c (((cfg5.win 4).blk t).view.emb x) = aBe V c x
  refine congrArg (aBe V c) (funext fun a => Fin.ext ?_)
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-- Input 5's block is its whole array, at every point. -/
theorem iblk5_eq (c : Dev nD) (t : Fin cfg5.N) :
    (iblk5 V c 5 t : Vec Ideal S128x128 .f32) = aW2 V c := by
  obtain ⟨-, -, -, -, -, -, -, -, -, -, e0, e1, -⟩ := idx_facts t
  funext x
  show aW2 V c (((cfg5.win 5).blk t).view.emb x) = aW2 V c x
  refine congrArg (aW2 V c) (funext fun a => Fin.ext ?_)
  match a with
  | ⟨0, _⟩ => show win5_5.index t (0 : Fin 2) * 128 + 1 * (x 0).val = (x 0).val; rw [e0]; omega
  | ⟨1, _⟩ => show win5_5.index t (1 : Fin 2) * 128 + 1 * (x 1).val = (x 1).val; rw [e1]; omega

/-- Input 6's block is its whole array, at every point. -/
theorem iblk6_eq (c : Dev nD) (t : Fin cfg5.N) :
    (iblk5 V c 6 t : Vec Ideal S1x128 .f32) = aB2 V c := by
  obtain ⟨-, -, -, -, -, -, -, -, -, -, -, -, e0, e1, -⟩ := idx_facts t
  funext x
  show aB2 V c (((cfg5.win 6).blk t).view.emb x) = aB2 V c x
  refine congrArg (aB2 V c) (funext fun a => Fin.ext ?_)
  match a with
  | ⟨0, _⟩ => show win5_6.index t (0 : Fin 2) * 1 + 1 * (x 0).val = (x 0).val; rw [e0]; omega
  | ⟨1, _⟩ => show win5_6.index t (1 : Fin 2) * 128 + 1 * (x 1).val = (x 1).val; rw [e1]; omega

/-! ## From the points' blocks to the array -/

/-- The result as one function of the arrays the region finds: the layer's output at every row and channel. -/
def G (c : Dev nD) : S100000x128.Idx → EReal := fun i =>
  outAt (aZ V c) (aMu V c) (aVar V c) (aG V c) (aBe V c) (aW2 V c) (aB2 V c) (i 0) (i 1)

/-- What point `t` writes back is block `t` of `G`: the body's value at local row `r` is the layer's output at row
    `5000·t + r`, and the block's entry `(r, j)` sits at `(5000·t + r, j)` of the array. -/
theorem flushed_eq (c : Dev nD) (t : Fin cfg5.N) :
    (dat5 (F := Ideal) V c).flushed 7 t = ((cfg5.win 7).blk t).view.read (Elt Ideal) (G V c) := by
  show (cfg5.win 7).cut (grid5.coords t) ((dat5 (F := Ideal) V c).after 7 t) = _
  rw [after5_7]
  obtain ⟨-, -, -, -, -, -, -, -, -, -, -, -, -, -, e0, e1⟩ := idx_facts t
  funext y
  have hR : ((cfg5.win 7).blk t).view.read (Elt Ideal) (G V c) y = G V c (((cfg5.win 7).blk t).view.emb y) := rfl
  refine Eq.trans ?_ hR.symm
  unfold G
  have hy : (cfg5.win 7).xinj (grid5.coords t) y
      = ix2 (⟨(y 0).val, (y 0).isLt⟩ : Fin 5000) (⟨(y 1).val, (y 1).isLt⟩ : Fin 128) :=
    funext fun a => by
      match a with
      | ⟨0, _⟩ => rfl
      | ⟨1, _⟩ => rfl
  refine (congrArg (out5_7 (F := Ideal) (iblk5 V c 0 t) (iblk5 V c 1 t) (iblk5 V c 2 t) (iblk5 V c 3 t) (iblk5 V c 4 t) (iblk5 V c 5 t) (iblk5 V c 6 t)) hy).trans ?_
  refine (out_apply (iblk5 V c 0 t) (iblk5 V c 1 t) (iblk5 V c 2 t) (iblk5 V c 3 t) (iblk5 V c 4 t) (iblk5 V c 5 t) (iblk5 V c 6 t) _ _).trans ?_
  refine (outT_eq_outAt_of_blocks (aZ V c) (aMu V c) (aVar V c) (aG V c) (aBe V c) (aW2 V c) (aB2 V c)
    (iblk5 V c 0 t) (iblk5 V c 1 t) (iblk5 V c 2 t) (iblk5 V c 3 t) (iblk5 V c 4 t) (iblk5 V c 5 t) (iblk5 V c 6 t) ⟨t.val, lt20 t⟩
    (fun r k => iblk0_apply V c t r k) (iblk1_eq V c t) (iblk2_eq V c t) (iblk3_eq V c t) (iblk4_eq V c t)
    (iblk5_eq V c t) (iblk6_eq V c t) _ _).trans ?_
  refine congrArg₂ (outAt (aZ V c) (aMu V c) (aVar V c) (aG V c) (aBe V c) (aW2 V c) (aB2 V c)) (Fin.ext ?_) (Fin.ext ?_)
  · show 5000 * t.val + (y 0).val = win5_7.index t (0 : Fin 2) * 5000 + 1 * (y 0).val
    rw [e0]; omega
  · show (y 1).val = win5_7.index t (1 : Fin 2) * 128 + 1 * (y 1).val
    rw [e1]; omega

/-- An index of the array is in point `t`'s block iff each coordinate is in the block's range on its axis. -/
theorem mem_blk (t : Fin cfg5.N) (i : S100000x128.Idx) :
    i ∈ ((cfg5.win 7).blk t).view.set ↔ ∀ a : Fin 2, win5_7.index t a * S5000x128.size a ≤ (i a).val
      ∧ (i a).val < win5_7.index t a * S5000x128.size a + S5000x128.size a := by
  show i ∈ ((View.whole main_v105).slice (win5_7.rect t)).set ↔ _
  rw [View.set_slice_whole, Rect.mem_set_unit]
  exact Iff.rfl

/-- Row `r` of the array is covered by point `r / 5000`. -/
theorem cover (i : S100000x128.Idx) :
    ∃ t : Fin cfg5.N, (cfg5.win 7).flush t = true ∧ i ∈ ((cfg5.win 7).blk t).view.set := by
  have hi0 : (i 0).val < 100000 := (i 0).isLt
  have hi1 : (i 1).val < 128 := (i 1).isLt
  have hN : cfg5.N = 20 := N_5
  have hq : (i 0).val / 5000 < cfg5.N := by rw [hN]; omega
  obtain ⟨-, -, -, -, -, -, -, -, -, -, -, -, -, -, e0, e1⟩ := idx_facts ⟨(i 0).val / 5000, hq⟩
  refine ⟨⟨(i 0).val / 5000, hq⟩, flush5_7 _, ?_⟩
  rw [mem_blk]
  intro a
  match a with
  | ⟨0, _⟩ =>
    show win5_7.index ⟨(i 0).val / 5000, hq⟩ (0 : Fin 2) * 5000 ≤ (i 0).val
      ∧ (i 0).val < win5_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win5_7.index ⟨(i 0).val / 5000, hq⟩ (1 : Fin 2) * 128 ≤ (i 1).val
      ∧ (i 1).val < win5_7.index ⟨(i 0).val / 5000, hq⟩ (1 : Fin 2) * 128 + 128
    rw [e1]
    omega

/-- The result array after the region's last point is `G`. -/
theorem final (c : Dev nD) : (dat5 (F := Ideal) V c).arrAt 7 cfg5.N = G V c :=
  (dat5 (F := Ideal) V c).arrAt_eq_of_cover 7 (G V c) (fun t _ => flushed_eq V c t) cover

/-- The result array at row `r`, channel `j`: the layer's output of the arrays the region finds. -/
theorem h5 (c : Dev nD) (r : Fin 100000) (j : Fin 128) :
    (dat5 (F := Ideal) V c).arrAt 7 cfg5.N (ix2 r j)
      = outAt (aZ V c) (aMu V c) (aVar V c) (aG V c) (aBe V c) (aW2 V c) (aB2 V c) r j :=
  congrFun (final V c) (ix2 r j)

end Cert.KernelIdeal.Pass2R5

end
-- ==== Proof.KLayer2.lean ====
/-
  Layer 2 of the tiled program: from the buffer contents when its first host stretch starts to its output array.

  The host stretch forms the neighbour sum and cuts the layer's first weights and bias out of the stacked arguments;
  the first tiled region leaves the first linear map and its tiled column sums and sums of squares; the next stretch
  divides by the number of rows, forms the variance as mean of squares minus squared mean, and cuts the remaining
  parameters; the second tiled region leaves the layer's output. Read together that output is the tiled spelling of
  the layer on the arguments, which on real data is the plain program's layer.
-/
import proofs.«163505_j89335319757549_1_alg».proof.Proof.KBase
import proofs.«163505_j89335319757549_1_alg».proof.Proof.Pass1R4
import proofs.«163505_j89335319757549_1_alg».proof.Proof.Pass2R5

set_option maxRecDepth 16384

noncomputable section

open scoped BigOperators
open Idealize.ShloMosaic Idealize.ShloMosaic.ValueIdx Idealize.ShloMosaic.TcCoe Idealize.SL.Sem

namespace Cert.KernelIdeal.KChain
namespace L2

open Cert.KernelIdeal Cert.KernelIdeal.Gen Cert.Gin
open Cert.ReferenceIdeal.RefLayer Cert.ReferenceIdeal.RefChain

variable [Cert.KernelIdeal.Facts] [Cert.ReferenceIdeal.Facts]
variable (m : (ℓ : Loc nD τ sig) → Buf (Elt Ideal) ℓ) (ρ : Dev nD → PrngReg)

variable (c : Dev nD) (H : FVec Ideal Cert.ReferenceIdeal.S100000x128 .f32)

/-! ## The first host stretch -/

set_option maxHeartbeats 4000000 in
theorem a_h (hin : (W8 (F := Ideal) m ρ c (Proc.devRef .tc main_v71)) = H) : (W9 (F := Ideal) m ρ c (Proc.devRef .tc main_v71)) = H := by
  refine Eq.trans ?_ hin
  show StableHlo.after hostOps4 (W8 m ρ c) (Proc.devRef .tc main_v71) = _
  after_results_simp

set_option maxHeartbeats 4000000 in
theorem a_agg (hin : (W8 (F := Ideal) m ρ c (Proc.devRef .tc main_v71)) = H) : (W9 (F := Ideal) m ρ c (Proc.devRef .tc main_v81)) = aggOps H (src0 m c) (dst0 m c) := by
  show StableHlo.after hostOps4 (W8 m ρ c) (Proc.devRef .tc main_v81) = _
  after_results_simp
  rw [KCarry.W8_v1 m ρ c, KCarry.W8_v3 m ρ c, W1_src m ρ c, W1_dst m ρ c, hin]
  rfl

set_option maxHeartbeats 4000000 in
theorem a_w1 : (W9 (F := Ideal) m ρ c (Proc.devRef .tc main_v83)) = slab (m ((c : Thread nD τ).loc main_arg3)) ![2, 0, 0] Cert.ReferenceIdeal.Gen.slices_S4x128x128_S1x128x128_2_0_0 := by
  show StableHlo.after hostOps4 (W8 m ρ c) (Proc.devRef .tc main_v83) = _
  after_results_simp
  rw [KCarry.W8_arg3 m ρ c]
  rfl

set_option maxHeartbeats 4000000 in
theorem a_b1 : (W9 (F := Ideal) m ρ c (Proc.devRef .tc main_v86)) = rowK (rowv (m ((c : Thread nD τ).loc main_arg4)) ![2, 0] Cert.ReferenceIdeal.Gen.slices_S4x128_S1x128_2_0) := by
  show StableHlo.after hostOps4 (W8 m ρ c) (Proc.devRef .tc main_v86) = _
  after_results_simp
  rw [KCarry.W8_arg4 m ρ c]
  rfl

/-! ## The first tiled region -/

/-- The region's first output, at any entry contents `W`, read through the four input buffers. -/
theorem g4_gen (W : Dev nD → Valuation τ sig (Elt Ideal)) (c : Dev nD) :
    Cert.KernelIdeal.Pass1R4.G4 (fun c b => W c b) c
      = Cert.Gin.zMat (W c (Proc.devRef .tc main_v71)) (W c (Proc.devRef .tc main_v81)) (W c (Proc.devRef .tc main_v83)) (W c (Proc.devRef .tc main_v86)) := rfl

theorem r_z (hin : (W8 (F := Ideal) m ρ c (Proc.devRef .tc main_v71)) = H) : (W10 (F := Ideal) m ρ c (Proc.devRef .tc main_v87_0)) = (Cert.Gin.zMat H (aggOps H (src0 m c) (dst0 m c)) (slab (m ((c : Thread nD τ).loc main_arg3)) ![2, 0, 0] Cert.ReferenceIdeal.Gen.slices_S4x128x128_S1x128x128_2_0_0) (rowK (rowv (m ((c : Thread nD τ).loc main_arg4)) ![2, 0] Cert.ReferenceIdeal.Gen.slices_S4x128_S1x128_2_0))) := by
  refine (W10_arr m ρ c 4).trans ((Cert.KernelIdeal.Pass1R4.final4 (V9 m ρ) c).trans ((g4_gen (W9 m ρ) c).trans ?_))
  rw [a_h m ρ c H hin, a_agg m ρ c H hin, a_w1 m ρ c, a_b1 m ρ c]

theorem r_s (hin : (W8 (F := Ideal) m ρ c (Proc.devRef .tc main_v71)) = H) (j : Fin 128) : (W10 (F := Ideal) m ρ c (Proc.devRef .tc main_v87_1)) (ix2 0 j) = colSum (Cert.Gin.zMat H (aggOps H (src0 m c) (dst0 m c)) (slab (m ((c : Thread nD τ).loc main_arg3)) ![2, 0, 0] Cert.ReferenceIdeal.Gen.slices_S4x128x128_S1x128x128_2_0_0) (rowK (rowv (m ((c : Thread nD τ).loc main_arg4)) ![2, 0] Cert.ReferenceIdeal.Gen.slices_S4x128_S1x128_2_0))) j := by
  refine (congrFun (W10_arr m ρ c 5) _).trans ((Cert.KernelIdeal.Pass1R4.s4 (V9 m ρ) c j).trans
    ((congrArg (fun Z => colSum Z j) (g4_gen (W9 m ρ) c)).trans ?_))
  rw [a_h m ρ c H hin, a_agg m ρ c H hin, a_w1 m ρ c, a_b1 m ρ c]

theorem r_ss (hin : (W8 (F := Ideal) m ρ c (Proc.devRef .tc main_v71)) = H) (j : Fin 128) : (W10 (F := Ideal) m ρ c (Proc.devRef .tc main_v87_2)) (ix2 0 j) = colSumSq (Cert.Gin.zMat H (aggOps H (src0 m c) (dst0 m c)) (slab (m ((c : Thread nD τ).loc main_arg3)) ![2, 0, 0] Cert.ReferenceIdeal.Gen.slices_S4x128x128_S1x128x128_2_0_0) (rowK (rowv (m ((c : Thread nD τ).loc main_arg4)) ![2, 0] Cert.ReferenceIdeal.Gen.slices_S4x128_S1x128_2_0))) j := by
  refine (congrFun (W10_arr m ρ c 6) _).trans ((Cert.KernelIdeal.Pass1R4.ss4 (V9 m ρ) c j).trans
    ((congrArg (fun Z => colSumSq Z j) (g4_gen (W9 m ρ) c)).trans ?_))
  rw [a_h m ρ c H hin, a_agg m ρ c H hin, a_w1 m ρ c, a_b1 m ρ c]

/-! ## The second host stretch -/

theorem b_z (hin : (W8 (F := Ideal) m ρ c (Proc.devRef .tc main_v71)) = H) : (W11 (F := Ideal) m ρ c (Proc.devRef .tc main_v87_0)) = (Cert.Gin.zMat H (aggOps H (src0 m c) (dst0 m c)) (slab (m ((c : Thread nD τ).loc main_arg3)) ![2, 0, 0] Cert.ReferenceIdeal.Gen.slices_S4x128x128_S1x128x128_2_0_0) (rowK (rowv (m ((c : Thread nD τ).loc main_arg4)) ![2, 0] Cert.ReferenceIdeal.Gen.slices_S4x128_S1x128_2_0))) :=
  (KCarry.W11_v87_0 m ρ c).trans (r_z m ρ c H hin)

set_option maxHeartbeats 4000000 in
theorem b_mu_ops : (W11 (F := Ideal) m ρ c (Proc.devRef .tc main_v89)) = Host.divf (F := Ideal) (W10 (F := Ideal) m ρ c (Proc.devRef .tc main_v87_1)) (broadcastInDim S1x128 ![] Cert.KernelIdeal.Gen.bcast_S_S1x128 (constant (F := Ideal) S_ .f32 0x47C35000#32)) := by
  show StableHlo.after hostOps5 (W10 m ρ c) (Proc.devRef .tc main_v89) = _
  after_results_simp

theorem b_mu (hin : (W8 (F := Ideal) m ρ c (Proc.devRef .tc main_v71)) = H) : (W11 (F := Ideal) m ρ c (Proc.devRef .tc main_v89)) = muK (Cert.Gin.zMat H (aggOps H (src0 m c) (dst0 m c)) (slab (m ((c : Thread nD τ).loc main_arg3)) ![2, 0, 0] Cert.ReferenceIdeal.Gen.slices_S4x128x128_S1x128x128_2_0_0) (rowK (rowv (m ((c : Thread nD τ).loc main_arg4)) ![2, 0] Cert.ReferenceIdeal.Gen.slices_S4x128_S1x128_2_0))) := by
  funext i
  obtain ⟨a, j, rfl⟩ : ∃ (a : Fin 1) (j : Fin 128), i = ix2 a j := ⟨i 0, i 1, eq_ix2 i⟩
  obtain rfl : a = 0 := Subsingleton.elim _ _
  rw [b_mu_ops m ρ c]
  show Ideal.div ((W10 (F := Ideal) m ρ c (Proc.devRef .tc main_v87_1)) (ix2 0 j)) ((broadcastInDim S1x128 ![] Cert.KernelIdeal.Gen.bcast_S_S1x128 (constant (F := Ideal) S_ .f32 0x47C35000#32)) (ix2 0 j)) = _
  rw [r_s m ρ c H hin, splatN_apply]
  rfl

set_option maxHeartbeats 4000000 in
theorem b_var_ops : (W11 (F := Ideal) m ρ c (Proc.devRef .tc main_v93))
    = subf (Host.divf (F := Ideal) (W10 (F := Ideal) m ρ c (Proc.devRef .tc main_v87_2)) (broadcastInDim S1x128 ![] Cert.KernelIdeal.Gen.bcast_S_S1x128 (constant (F := Ideal) S_ .f32 0x47C35000#32)))
        (mulf (Host.divf (F := Ideal) (W10 (F := Ideal) m ρ c (Proc.devRef .tc main_v87_1)) (broadcastInDim S1x128 ![] Cert.KernelIdeal.Gen.bcast_S_S1x128 (constant (F := Ideal) S_ .f32 0x47C35000#32))) (Host.divf (F := Ideal) (W10 (F := Ideal) m ρ c (Proc.devRef .tc main_v87_1)) (broadcastInDim S1x128 ![] Cert.KernelIdeal.Gen.bcast_S_S1x128 (constant (F := Ideal) S_ .f32 0x47C35000#32)))) := by
  show StableHlo.after hostOps5 (W10 m ρ c) (Proc.devRef .tc main_v93) = _
  after_results_simp

theorem b_var (hin : (W8 (F := Ideal) m ρ c (Proc.devRef .tc main_v71)) = H) : (W11 (F := Ideal) m ρ c (Proc.devRef .tc main_v93)) = varK (Cert.Gin.zMat H (aggOps H (src0 m c) (dst0 m c)) (slab (m ((c : Thread nD τ).loc main_arg3)) ![2, 0, 0] Cert.ReferenceIdeal.Gen.slices_S4x128x128_S1x128x128_2_0_0) (rowK (rowv (m ((c : Thread nD τ).loc main_arg4)) ![2, 0] Cert.ReferenceIdeal.Gen.slices_S4x128_S1x128_2_0))) := by
  funext i
  obtain ⟨a, j, rfl⟩ : ∃ (a : Fin 1) (j : Fin 128), i = ix2 a j := ⟨i 0, i 1, eq_ix2 i⟩
  obtain rfl : a = 0 := Subsingleton.elim _ _
  rw [b_var_ops m ρ c]
  show Ideal.div ((W10 (F := Ideal) m ρ c (Proc.devRef .tc main_v87_2)) (ix2 0 j)) ((broadcastInDim S1x128 ![] Cert.KernelIdeal.Gen.bcast_S_S1x128 (constant (F := Ideal) S_ .f32 0x47C35000#32)) (ix2 0 j))
      - Ideal.div ((W10 (F := Ideal) m ρ c (Proc.devRef .tc main_v87_1)) (ix2 0 j)) ((broadcastInDim S1x128 ![] Cert.KernelIdeal.Gen.bcast_S_S1x128 (constant (F := Ideal) S_ .f32 0x47C35000#32)) (ix2 0 j)) * Ideal.div ((W10 (F := Ideal) m ρ c (Proc.devRef .tc main_v87_1)) (ix2 0 j)) ((broadcastInDim S1x128 ![] Cert.KernelIdeal.Gen.bcast_S_S1x128 (constant (F := Ideal) S_ .f32 0x47C35000#32)) (ix2 0 j)) = _
  rw [r_s m ρ c H hin, r_ss m ρ c H hin, splatN_apply]
  rfl

set_option maxHeartbeats 4000000 in
theorem b_g : (W11 (F := Ideal) m ρ c (Proc.devRef .tc main_v96)) = rowK (rowv (m ((c : Thread nD τ).loc main_arg5)) ![2, 0] Cert.ReferenceIdeal.Gen.slices_S4x128_S1x128_2_0) := by
  rw [← KCarry.W10_arg5 m ρ c]
  show StableHlo.after hostOps5 (W10 m ρ c) (Proc.devRef .tc main_v96) = _
  after_results_simp
  rfl

set_option maxHeartbeats 4000000 in
theorem b_be : (W11 (F := Ideal) m ρ c (Proc.devRef .tc main_v99)) = rowK (rowv (m ((c : Thread nD τ).loc main_arg6)) ![2, 0] Cert.ReferenceIdeal.Gen.slices_S4x128_S1x128_2_0) := by
  rw [← KCarry.W10_arg6 m ρ c]
  show StableHlo.after hostOps5 (W10 m ρ c) (Proc.devRef .tc main_v99) = _
  after_results_simp
  rfl

set_option maxHeartbeats 4000000 in
theorem b_w2 : (W11 (F := Ideal) m ρ c (Proc.devRef .tc main_v101)) = slab (m ((c : Thread nD τ).loc main_arg7)) ![2, 0, 0] Cert.ReferenceIdeal.Gen.slices_S4x128x128_S1x128x128_2_0_0 := by
  rw [← KCarry.W10_arg7 m ρ c]
  show StableHlo.after hostOps5 (W10 m ρ c) (Proc.devRef .tc main_v101) = _
  after_results_simp
  rfl

set_option maxHeartbeats 4000000 in
theorem b_b2 : (W11 (F := Ideal) m ρ c (Proc.devRef .tc main_v104)) = rowK (rowv (m ((c : Thread nD τ).loc main_arg8)) ![2, 0] Cert.ReferenceIdeal.Gen.slices_S4x128_S1x128_2_0) := by
  rw [← KCarry.W10_arg8 m ρ c]
  show StableHlo.after hostOps5 (W10 m ρ c) (Proc.devRef .tc main_v104) = _
  after_results_simp
  rfl

/-! ## The second tiled region -/

/-- The region's output array, at any entry contents `W`, read through the seven input buffers. -/
theorem g7_gen (W : Dev nD → Valuation τ sig (Elt Ideal)) (c : Dev nD) :
    Cert.KernelIdeal.Pass2R5.G (fun c b => W c b) c
      = fun i => outAt (W c (Proc.devRef .tc main_v87_0)) (W c (Proc.devRef .tc main_v89)) (W c (Proc.devRef .tc main_v93)) (W c (Proc.devRef .tc main_v96)) (W c (Proc.devRef .tc main_v99)) (W c (Proc.devRef .tc main_v101)) (W c (Proc.devRef .tc main_v104)) (i 0) (i 1) := rfl

/-- The layer's output array in the tiled spelling. -/
theorem r_out (hin : (W8 (F := Ideal) m ρ c (Proc.devRef .tc main_v71)) = H) : (W12 (F := Ideal) m ρ c (Proc.devRef .tc main_v105))
    = layerK H (aggOps H (src0 m c) (dst0 m c)) (slab (m ((c : Thread nD τ).loc main_arg3)) ![2, 0, 0] Cert.ReferenceIdeal.Gen.slices_S4x128x128_S1x128x128_2_0_0) (rowK (rowv (m ((c : Thread nD τ).loc main_arg4)) ![2, 0] Cert.ReferenceIdeal.Gen.slices_S4x128_S1x128_2_0)) (rowK (rowv (m ((c : Thread nD τ).loc main_arg5)) ![2, 0] Cert.ReferenceIdeal.Gen.slices_S4x128_S1x128_2_0)) (rowK (rowv (m ((c : Thread nD τ).loc main_arg6)) ![2, 0] Cert.ReferenceIdeal.Gen.slices_S4x128_S1x128_2_0)) (slab (m ((c : Thread nD τ).loc main_arg7)) ![2, 0, 0] Cert.ReferenceIdeal.Gen.slices_S4x128x128_S1x128x128_2_0_0) (rowK (rowv (m ((c : Thread nD τ).loc main_arg8)) ![2, 0] Cert.ReferenceIdeal.Gen.slices_S4x128_S1x128_2_0)) := by
  refine (W12_arr m ρ c 7).trans ((Cert.KernelIdeal.Pass2R5.final (V11 m ρ) c).trans ((g7_gen (W11 m ρ) c).trans ?_))
  rw [b_z m ρ c H hin, b_mu m ρ c H hin, b_var m ρ c H hin, b_g m ρ c, b_be m ρ c, b_w2 m ρ c, b_b2 m ρ c]
  rfl

/-- On real data the layer's output array is the plain program's layer 2 of the arguments. -/
theorem layer_out (hin : (W8 (F := Ideal) m ρ c (Proc.devRef .tc main_v71)) = H) (hH : ∀ i, IsReal (H i)) (h3 : ∀ i, IsReal ((m ((c : Thread nD τ).loc main_arg3)) i)) (h4 : ∀ i, IsReal ((m ((c : Thread nD τ).loc main_arg4)) i)) :
    (W12 (F := Ideal) m ρ c (Proc.devRef .tc main_v105)) = layerRef2 H (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (r_out m ρ c H hin).trans ((layerK_eq_layerOps H (aggOps H (src0 m c) (dst0 m c)) (slab (m ((c : Thread nD τ).loc main_arg3)) ![2, 0, 0] Cert.ReferenceIdeal.Gen.slices_S4x128x128_S1x128x128_2_0_0) (rowv (m ((c : Thread nD τ).loc main_arg4)) ![2, 0] Cert.ReferenceIdeal.Gen.slices_S4x128_S1x128_2_0) (rowv (m ((c : Thread nD τ).loc main_arg5)) ![2, 0] Cert.ReferenceIdeal.Gen.slices_S4x128_S1x128_2_0) (rowv (m ((c : Thread nD τ).loc main_arg6)) ![2, 0] Cert.ReferenceIdeal.Gen.slices_S4x128_S1x128_2_0) (slab (m ((c : Thread nD τ).loc main_arg7)) ![2, 0, 0] Cert.ReferenceIdeal.Gen.slices_S4x128x128_S1x128x128_2_0_0) (rowv (m ((c : Thread nD τ).loc main_arg8)) ![2, 0] Cert.ReferenceIdeal.Gen.slices_S4x128_S1x128_2_0) hH
    (aggOps_real _ _ _ hH) (slab_real _ _ _ h3) (rowv_real _ _ _ h4)).trans rfl)

end L2
end Cert.KernelIdeal.KChain

end
-- ==== Proof.Pass1R6.lean ====
/-
  The first kernel of a layer, region 6 of the program: what its three result arrays hold when it has run, as
  functions of the four arrays it reads.

  The kernel visits the 100000 rows in 20 tiles of 5000. At each tile it forms z = (h + agg) · W1 + b1 for the tile's
  rows and stores it; it adds the tile's column sums of z, and of z², to two running 1 × 128 rows, which it sets to
  zero before the first tile. The tiles' z blocks are written back one by one and together fill the z array; the two
  running rows are written back once, after the last tile, when they hold the sums over all tiles.

  Here: the arithmetic of one tile read entry by entry (a matrix product into a zero accumulator is a finite sum of
  products; a sum down the rows is a finite sum); what each visit leaves in the three output blocks; by induction on
  the tile, the running rows after tile n are the sums over tiles 0 … n; and the passage from blocks to arrays.
-/
import proofs.«163505_j89335319757549_1_alg».proof.Proof.Gen.KernelIdeal.Frame
import proofs.«163505_j89335319757549_1_alg».proof.Proof.Spec
import proofs.«163505_j89335319757549_1_alg».proof.Proof.LibMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Pass1R6

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

/-! ## One tile's arithmetic, entry by entry, on the extended reals -/

section Payloads

/-- A 5000 × 128 by 128 × 128 product into the zero accumulator, at entry (r, j): the sum over k of A (r, k) · B (k, j). -/
theorem matmul_at (A : FVec Ideal S5000x128 .bf16) (B : FVec Ideal S128x128 .bf16) (r : Fin 5000) (j : Fin 128) :
    FloatOps.matmul dot_S5000x128_S128x128_S5000x128_1_0_0_1_n_n none A B
        (constant (F := Ideal) S5000x128 .f32 0x00000000#32) (ix2 r j)
      = ∑ k : Fin 128, A (ix2 r k) * B (ix2 k j) :=
  Cert.LibMatmul.matmul_plain_zero_apply none A B r j

/-- Putting row coordinate k back on axis 0 of a channel index g gives the entry (k, g). -/
theorem lift_axis0 (h : S5000x128.Reduces [0] S128) (g : Fin 128) (k : Fin (S5000x128.size 0)) :
    h.lift (ix1 g) k = ix2 (⟨k.val, k.isLt⟩ : Fin 5000) g := by
  funext c; apply Fin.ext
  fin_cases c <;> rfl

/-- A sum down the 5000 rows of a tile, laid out as one row: entry (0, j) is the sum over the rows r of the source at (r, j). -/
theorem rowsum_at (src : FVec Ideal S5000x128 .f32) (hφ : FKind.Formats .f32)
    (hacc : (0x00000000#32 : BitVec 32) = 0x00000000#32) (u : Fin 1) (j : Fin 128) :
    shapeCast S1x128 (multiReduction .add [0] S128 src 0x00000000#32 reduces_S5000x128_S128 hφ hacc) shapeCasts_S128_S1x128 (ix2 u j)
      = ∑ r : Fin 5000, src (ix2 r j) := by
  refine (shapeCast_a_1a_apply _ shapeCasts_S128_S1x128 u j).trans ?_
  refine (Ideal.multiReduction_add_single src 0x00000000#32 reduces_S5000x128_S128 hφ hacc (ix1 j)).trans ?_
  exact Finset.sum_congr rfl fun k _ => congrArg src (lift_axis0 reduces_S5000x128_S128 j k)

/-- The tile's first linear map at row r of the tile and channel j: Σ_k (x0 + x1)(r, k) · x2 (k, j) + x3 (0, j). -/
theorem pay3_at (x0 x1 : Vec Ideal S5000x128 .f32) (x2 : Vec Ideal S128x128 .f32) (x3 : Vec Ideal S1x128 .f32)
    (r : Fin 5000) (j : Fin 128) :
    k6_pay3 (F := Ideal) x0 x1 x2 x3 (ix2 r j)
      = (∑ k : Fin 128, (x0 (ix2 r k) + x1 (ix2 r k)) * x2 (ix2 k j)) + x3 (ix2 0 j) := by
  unfold k6_pay3
  simp only [shapeCast_self]
  rw [addf_apply]
  refine congrArg₂ (· + ·) ?_ ?_
  · exact (matmul_at _ _ r j).trans (Finset.sum_congr rfl fun k _ => rfl)
  · exact broadcastTo_1b_ab_apply x3 broadcasts_S1x128_S5000x128 r j

/-- The zero rows the first visit stores. -/
theorem pay1_at (u : Fin 1) (j : Fin 128) : k6_pay1 (F := Ideal) (ix2 u j) = 0 := by
  unfold k6_pay1
  exact Ideal.ofBits_zero_f32

theorem pay2_at (u : Fin 1) (j : Fin 128) : k6_pay2 (F := Ideal) (ix2 u j) = 0 := by
  unfold k6_pay2
  exact Ideal.ofBits_zero_f32

/-- The running column sum after a tile: what was there plus the tile's column sum of z. -/
theorem pay4_at (x0 x1 : Vec Ideal S5000x128 .f32) (x2 : Vec Ideal S128x128 .f32) (x3 xo : Vec Ideal S1x128 .f32)
    (u : Fin 1) (j : Fin 128) :
    k6_pay4 (F := Ideal) x0 x1 x2 x3 xo (ix2 u j)
      = xo (ix2 u j) + ∑ r : Fin 5000, k6_pay3 (F := Ideal) x0 x1 x2 x3 (ix2 r j) := by
  unfold k6_pay4
  simp only [shapeCast_self]
  rw [addf_apply]
  exact congrArg (xo (ix2 u j) + ·) (rowsum_at _ _ _ u j)

/-- The running column sum of squares after a tile. -/
theorem pay5_at (x0 x1 : Vec Ideal S5000x128 .f32) (x2 : Vec Ideal S128x128 .f32) (x3 xo : Vec Ideal S1x128 .f32)
    (u : Fin 1) (j : Fin 128) :
    k6_pay5 (F := Ideal) x0 x1 x2 x3 xo (ix2 u j)
      = xo (ix2 u j) + ∑ r : Fin 5000, k6_pay3 (F := Ideal) x0 x1 x2 x3 (ix2 r j) * k6_pay3 (F := Ideal) x0 x1 x2 x3 (ix2 r j) := by
  unfold k6_pay5
  simp only [shapeCast_self]
  rw [addf_apply]
  refine congrArg (xo (ix2 u j) + ·) ((rowsum_at _ _ _ u j).trans ?_)
  exact Finset.sum_congr rfl fun r _ => rfl

/-- When the four blocks are tile t of the row arrays and the whole of the weight and bias arrays, the tile's first
    linear map is the layer's at the tile's rows. -/
theorem tile_at (x0 x1 : Vec Ideal S5000x128 .f32) (x2 : Vec Ideal S128x128 .f32) (x3 : Vec Ideal S1x128 .f32)
    (H A : Cert.Gin.Mat 100000 128) (W : Cert.Gin.Mat 128 128) (B : Cert.Gin.Mat 1 128) (t : Fin 20)
    (e0 : ∀ r k, x0 (ix2 r k) = H (ix2 (Cert.Gin.row t r) k)) (e1 : ∀ r k, x1 (ix2 r k) = A (ix2 (Cert.Gin.row t r) k))
    (e2 : ∀ k j, x2 (ix2 k j) = W (ix2 k j)) (e3 : ∀ j, x3 (ix2 0 j) = B (ix2 0 j)) (r : Fin 5000) (j : Fin 128) :
    k6_pay3 (F := Ideal) x0 x1 x2 x3 (ix2 r j) = Cert.Gin.zAt H A W B (Cert.Gin.row t r) j := by
  rw [pay3_at]
  unfold Cert.Gin.zAt
  rw [e3]
  refine congrArg (· + B (ix2 0 j)) (Finset.sum_congr rfl fun k _ => ?_)
  rw [e0, e1, e2]

end Payloads

/-! ## What one visit leaves in the three output blocks

Each case's stores, read back: the z block is the tile's first linear map; a running row is the row the visit found
(the zero row at the first tile, where the visit has just stored it) plus the tile's column sums. These hold for any
float values. -/

section Pieces

variable {F : FTy → Type} [FloatOps F]

theorem hz : (![0, 0] : Fin 2 → Nat) = fun _ => 0 := funext fun a => by fin_cases a <;> rfl

/-- First tile: the z block. -/
theorem out_A_4 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec F S5000x128 .f32) (x2 : Vec F S128x128 .f32) (x3 : Vec F S1x128 .f32) :
    out6_A_4 c i a1 h1 a2 h2 a3 h3 a4 h4 a5 h5 a6 h6 a7 h7 hc x0 x1 x2 x3 = k6_pay3 x0 x1 x2 x3 := by
  unfold out6_A_4
  rw [View.read_writes_eq_canon _ _ _ (cover6_A_4 c i a1 h1 a2 h2 a3 h3 a4 h4 a5 h5 a6 h6 a7 h7 hc x0 x1 x2 x3)]
  unfold kernelRun6_A
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum starts from the zero row the visit has just stored. -/
theorem out_A_5 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec F S5000x128 .f32) (x2 : Vec F S128x128 .f32) (x3 : Vec F S1x128 .f32) :
    out6_A_5 c i a1 h1 a2 h2 a3 h3 a4 h4 a5 h5 a6 h6 a7 h7 hc x0 x1 x2 x3 = k6_pay4 x0 x1 x2 x3 k6_pay1 := by
  unfold out6_A_5
  rw [View.read_writes_eq_canon _ _ _ (cover6_A_5 c i a1 h1 a2 h2 a3 h3 a4 h4 a5 h5 a6 h6 a7 h7 hc x0 x1 x2 x3)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- First tile: the running sum of squares likewise. -/
theorem out_A_6 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec F S5000x128 .f32) (x2 : Vec F S128x128 .f32) (x3 : Vec F S1x128 .f32) :
    out6_A_6 c i a1 h1 a2 h2 a3 h3 a4 h4 a5 h5 a6 h6 a7 h7 hc x0 x1 x2 x3 = k6_pay5 x0 x1 x2 x3 k6_pay2 := by
  unfold out6_A_6
  rw [View.read_writes_eq_canon _ _ _ (cover6_A_6 c i a1 h1 a2 h2 a3 h3 a4 h4 a5 h5 a6 h6 a7 h7 hc x0 x1 x2 x3)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the z block. -/
theorem out_B_4 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec F S5000x128 .f32) (x2 : Vec F S128x128 .f32) (x3 : Vec F S1x128 .f32) (xo5 xo6 : Vec F S1x128 .f32) :
    out6_B_4 c i a1 h1 a2 h2 a3 h3 a4 h4 a5 h5 a6 h6 a7 h7 hc x0 x1 x2 x3 xo5 xo6 = k6_pay3 x0 x1 x2 x3 := by
  unfold out6_B_4
  rw [View.read_writes_eq_canon _ _ _ (cover6_B_4 c i a1 h1 a2 h2 a3 h3 a4 h4 a5 h5 a6 h6 a7 h7 hc x0 x1 x2 x3 xo5 xo6)]
  unfold kernelRun6_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum continues from the row the tile before left. -/
theorem out_B_5 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec F S5000x128 .f32) (x2 : Vec F S128x128 .f32) (x3 : Vec F S1x128 .f32) (xo5 xo6 : Vec F S1x128 .f32) :
    out6_B_5 c i a1 h1 a2 h2 a3 h3 a4 h4 a5 h5 a6 h6 a7 h7 hc x0 x1 x2 x3 xo5 xo6 = k6_pay4 x0 x1 x2 x3 xo5 := by
  unfold out6_B_5
  rw [View.read_writes_eq_canon _ _ _ (cover6_B_5 c i a1 h1 a2 h2 a3 h3 a4 h4 a5 h5 a6 h6 a7 h7 hc x0 x1 x2 x3 xo5 xo6)]
  unfold kernelRun6_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

/-- A later tile: the running sum of squares likewise. -/
theorem out_B_6 (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec F S5000x128 .f32) (x2 : Vec F S128x128 .f32) (x3 : Vec F S1x128 .f32) (xo5 xo6 : Vec F S1x128 .f32) :
    out6_B_6 c i a1 h1 a2 h2 a3 h3 a4 h4 a5 h5 a6 h6 a7 h7 hc x0 x1 x2 x3 xo5 xo6 = k6_pay5 x0 x1 x2 x3 xo6 := by
  unfold out6_B_6
  rw [View.read_writes_eq_canon _ _ _ (cover6_B_6 c i a1 h1 a2 h2 a3 h3 a4 h4 a5 h5 a6 h6 a7 h7 hc x0 x1 x2 x3 xo5 xo6)]
  unfold kernelRun6_B
  dsimp only
  sl_unfold_words
  rw [View.canon_unit_zero hz]
  simp only [View.readAt_eq_ld, h1.read_unread, h2.read_unread, h3.read_unread, h4.read_unread, h6.read_unread, h7.read_unread,
    View.ld_unit_zero (S := S5000x128) hz, View.ld_unit_zero (S := S128x128) hz, View.ld_unit_zero (S := S1x128) hz]

end Pieces

/-! ## The windows' blocks as parts of their arrays

A block's entry sits in the array, on each axis, at the block index times the block size plus its own coordinate.
The two row windows and the z window move one tile per point; the weight, bias and running-row windows stay at
block (0, 0), which is their whole array. -/

section Blocks

variable {F : FTy → Type} [FloatOps F]

/-- The block index maps over the grid: the row windows move one tile per point, the others stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

variable (c : Dev nD)

/-- Window 0's block at point t, at (r, k), is the array at row 5000·t + r, column k. -/
theorem blk0_read (X : Buf (Elt F) ((cfg6.win 0).arr.view.loc (c.tc : Thread nD τ))) (t : Fin cfg6.N) (r : Fin 5000) (k : Fin 128)
    (i : S100000x128.Idx) (h0 : (i 0).val = 5000 * t.val + r.val) (h1 : (i 1).val = k.val) :
    ((cfg6.win 0).blk t).view.read (Elt F) X (ix2 r k) = X i := by
  rw [View.read_apply]
  show X _ = X i
  refine congrArg X ?_
  funext a; apply Fin.ext
  obtain ⟨e0, e1, -⟩ := idx_facts t
  match a with
  | ⟨0, _⟩ => show win6_0.index t (0 : Fin 2) * 5000 + 1 * r.val = (i 0).val; rw [e0, h0]; omega
  | ⟨1, _⟩ => show win6_0.index t (1 : Fin 2) * 128 + 1 * k.val = (i 1).val; rw [e1, h1]; omega

/-- Window 1's block likewise. -/
theorem blk1_read (X : Buf (Elt F) ((cfg6.win 1).arr.view.loc (c.tc : Thread nD τ))) (t : Fin cfg6.N) (r : Fin 5000) (k : Fin 128)
    (i : S100000x128.Idx) (h0 : (i 0).val = 5000 * t.val + r.val) (h1 : (i 1).val = k.val) :
    ((cfg6.win 1).blk t).view.read (Elt F) X (ix2 r k) = X i := by
  rw [View.read_apply]
  show X _ = X i
  refine congrArg X ?_
  funext a; apply Fin.ext
  obtain ⟨-, -, e0, e1, -⟩ := idx_facts t
  match a with
  | ⟨0, _⟩ => show win6_1.index t (0 : Fin 2) * 5000 + 1 * r.val = (i 0).val; rw [e0, h0]; omega
  | ⟨1, _⟩ => show win6_1.index t (1 : Fin 2) * 128 + 1 * k.val = (i 1).val; rw [e1, h1]; omega

/-- The weight window's one block is the whole 128 × 128 array. -/
theorem blk2_read (X : Buf (Elt F) ((cfg6.win 2).arr.view.loc (c.tc : Thread nD τ))) (t : Fin cfg6.N) (k j : Fin 128) :
    ((cfg6.win 2).blk t).view.read (Elt F) X (ix2 k j) = X (ix2 k j) := by
  rw [View.read_apply]
  show X _ = X _
  refine congrArg X ?_
  funext a; apply Fin.ext
  obtain ⟨-, -, -, -, e0, e1, -⟩ := idx_facts t
  match a with
  | ⟨0, _⟩ => show win6_2.index t (0 : Fin 2) * 128 + 1 * k.val = k.val; rw [e0]; omega
  | ⟨1, _⟩ => show win6_2.index t (1 : Fin 2) * 128 + 1 * j.val = j.val; rw [e1]; omega

/-- The bias window's one block is the whole 1 × 128 array. -/
theorem blk3_read (X : Buf (Elt F) ((cfg6.win 3).arr.view.loc (c.tc : Thread nD τ))) (t : Fin cfg6.N) (u : Fin 1) (j : Fin 128) :
    ((cfg6.win 3).blk t).view.read (Elt F) X (ix2 u j) = X (ix2 u j) := by
  rw [View.read_apply]
  show X _ = X _
  refine congrArg X ?_
  funext a; apply Fin.ext
  obtain ⟨-, -, -, -, -, -, e0, e1, -⟩ := idx_facts t
  match a with
  | ⟨0, _⟩ => show win6_3.index t (0 : Fin 2) * 1 + 1 * u.val = u.val; rw [e0]; omega
  | ⟨1, _⟩ => show win6_3.index t (1 : Fin 2) * 128 + 1 * j.val = j.val; rw [e1]; omega

/-- The z window's block at point t, at (r, k), is the array at row 5000·t + r, column k. -/
theorem blk4_read (X : Buf (Elt F) ((cfg6.win 4).arr.view.loc (c.tc : Thread nD τ))) (t : Fin cfg6.N) (r : Fin 5000) (k : Fin 128)
    (i : S100000x128.Idx) (h0 : (i 0).val = 5000 * t.val + r.val) (h1 : (i 1).val = k.val) :
    ((cfg6.win 4).blk t).view.read (Elt F) X (ix2 r k) = X i := by
  rw [View.read_apply]
  show X _ = X i
  refine congrArg X ?_
  funext a; apply Fin.ext
  obtain ⟨-, -, -, -, -, -, -, -, e0, e1, -⟩ := idx_facts t
  match a with
  | ⟨0, _⟩ => show win6_4.index t (0 : Fin 2) * 5000 + 1 * r.val = (i 0).val; rw [e0, h0]; omega
  | ⟨1, _⟩ => show win6_4.index t (1 : Fin 2) * 128 + 1 * k.val = (i 1).val; rw [e1, h1]; omega

/-- The running-sum window's one block is the whole 1 × 128 array. -/
theorem blk5_read (X : Buf (Elt F) ((cfg6.win 5).arr.view.loc (c.tc : Thread nD τ))) (t : Fin cfg6.N) (u : Fin 1) (j : Fin 128) :
    ((cfg6.win 5).blk t).view.read (Elt F) X (ix2 u j) = X (ix2 u j) := by
  rw [View.read_apply]
  show X _ = X _
  refine congrArg X ?_
  funext a; apply Fin.ext
  obtain ⟨-, -, -, -, -, -, -, -, -, -, e0, e1, -⟩ := idx_facts t
  match a with
  | ⟨0, _⟩ => show win6_5.index t (0 : Fin 2) * 1 + 1 * u.val = u.val; rw [e0]; omega
  | ⟨1, _⟩ => show win6_5.index t (1 : Fin 2) * 128 + 1 * j.val = j.val; rw [e1]; omega

/-- The running sum of squares' window likewise. -/
theorem blk6_read (X : Buf (Elt F) ((cfg6.win 6).arr.view.loc (c.tc : Thread nD τ))) (t : Fin cfg6.N) (u : Fin 1) (j : Fin 128) :
    ((cfg6.win 6).blk t).view.read (Elt F) X (ix2 u j) = X (ix2 u j) := by
  rw [View.read_apply]
  show X _ = X _
  refine congrArg X ?_
  funext a; apply Fin.ext
  obtain ⟨-, -, -, -, -, -, -, -, -, -, -, -, e0, e1⟩ := idx_facts t
  match a with
  | ⟨0, _⟩ => show win6_6.index t (0 : Fin 2) * 1 + 1 * u.val = u.val; rw [e0]; omega
  | ⟨1, _⟩ => show win6_6.index t (1 : Fin 2) * 128 + 1 * j.val = j.val; rw [e1]; omega

/-- Every row of the result lies in the block of the point that holds its tile. -/
theorem cover4 (i : S100000x128.Idx) :
    ∃ t : Fin cfg6.N, (cfg6.win 4).flush t = true ∧ i ∈ ((cfg6.win 4).blk t).view.set := by
  have hi0 : (i 0).val < 100000 := (i 0).isLt
  have hi1 : (i 1).val < 128 := (i 1).isLt
  have hN : cfg6.N = 20 := N_6
  have ht : (i 0).val / 5000 < cfg6.N := by rw [hN]; omega
  obtain ⟨t, htv⟩ : ∃ t : Fin cfg6.N, t.val = (i 0).val / 5000 := ⟨⟨_, ht⟩, rfl⟩
  refine ⟨t, flush6_4 t, ?_⟩
  show i ∈ ((View.whole main_v121_0).slice (win6_4.rect t)).set
  rw [View.set_slice_whole, Rect.mem_set_unit]
  obtain ⟨-, -, -, -, -, -, -, -, e0, e1, -⟩ := idx_facts t
  intro a
  match a with
  | ⟨0, _⟩ =>
    show win6_4.index t (0 : Fin 2) * 5000 ≤ (i 0).val ∧ (i 0).val < win6_4.index t (0 : Fin 2) * 5000 + 5000
    rw [e0, htv]; omega
  | ⟨1, _⟩ =>
    show win6_4.index t (1 : Fin 2) * 128 ≤ (i 1).val ∧ (i 1).val < win6_4.index t (1 : Fin 2) * 128 + 128
    rw [e1]; omega

/-- The one block of the column sums is the whole 1 × 128 array: the last point covers it. -/
theorem cover5 (i : S1x128.Idx) :
    ∃ t : Fin cfg6.N, (cfg6.win 5).flush t = true ∧ i ∈ ((cfg6.win 5).blk t).view.set := by
  have hi0 : (i 0).val < 1 := (i 0).isLt
  have hi1 : (i 1).val < 128 := (i 1).isLt
  have hN : cfg6.N = 20 := N_6
  obtain ⟨t, htv⟩ : ∃ t : Fin cfg6.N, t.val = 19 := ⟨⟨19, by rw [hN]; omega⟩, rfl⟩
  refine ⟨t, (flush6_5 t).mpr (by rw [htv]), ?_⟩
  show i ∈ ((View.whole main_v121_1).slice (win6_5.rect t)).set
  rw [View.set_slice_whole, Rect.mem_set_unit]
  obtain ⟨-, -, -, -, -, -, -, -, -, -, e0, e1, -⟩ := idx_facts t
  intro a
  match a with
  | ⟨0, _⟩ =>
    show win6_5.index t (0 : Fin 2) * 1 ≤ (i 0).val ∧ (i 0).val < win6_5.index t (0 : Fin 2) * 1 + 1
    rw [e0]; omega
  | ⟨1, _⟩ =>
    show win6_5.index t (1 : Fin 2) * 128 ≤ (i 1).val ∧ (i 1).val < win6_5.index t (1 : Fin 2) * 128 + 128
    rw [e1]; omega

/-- The same for the sums of squares. -/
theorem cover6 (i : S1x128.Idx) :
    ∃ t : Fin cfg6.N, (cfg6.win 6).flush t = true ∧ i ∈ ((cfg6.win 6).blk t).view.set := by
  have hi0 : (i 0).val < 1 := (i 0).isLt
  have hi1 : (i 1).val < 128 := (i 1).isLt
  have hN : cfg6.N = 20 := N_6
  obtain ⟨t, htv⟩ : ∃ t : Fin cfg6.N, t.val = 19 := ⟨⟨19, by rw [hN]; omega⟩, rfl⟩
  refine ⟨t, (flush6_6 t).mpr (by rw [htv]), ?_⟩
  show i ∈ ((View.whole main_v121_2).slice (win6_6.rect t)).set
  rw [View.set_slice_whole, Rect.mem_set_unit]
  obtain ⟨-, -, -, -, -, -, -, -, -, -, -, -, e0, e1⟩ := idx_facts t
  intro a
  match a with
  | ⟨0, _⟩ =>
    show win6_6.index t (0 : Fin 2) * 1 ≤ (i 0).val ∧ (i 0).val < win6_6.index t (0 : Fin 2) * 1 + 1
    rw [e0]; omega
  | ⟨1, _⟩ =>
    show win6_6.index t (1 : Fin 2) * 128 ≤ (i 1).val ∧ (i 1).val < win6_6.index t (1 : Fin 2) * 128 + 128
    rw [e1]; omega

end Blocks

/-! ## The run: the three result arrays

From here on the values are the extended reals and `V` is what the buffers hold when the region is entered. -/

section Run

variable (V : (c : Dev nD) → (b : Ref sig .tc) → Buf (Elt Ideal) ((c : Thread nD τ).loc b))

/-- The four arrays the kernel reads, as the region finds them: node features, neighbour sums, weights, bias. -/
abbrev Hm (c : Dev nD) : Cert.Gin.Mat 100000 128 := V c (Pipeline.arrRef spec6 0)
abbrev Am (c : Dev nD) : Cert.Gin.Mat 100000 128 := V c (Pipeline.arrRef spec6 1)
abbrev Wm (c : Dev nD) : Cert.Gin.Mat 128 128 := V c (Pipeline.arrRef spec6 2)
abbrev Bm (c : Dev nD) : Cert.Gin.Mat 1 128 := V c (Pipeline.arrRef spec6 3)

/-- The first linear map of the layer as a 100000 × 128 array. -/
abbrev zMat (c : Dev nD) : Cert.Gin.Mat 100000 128 := fun i => Cert.Gin.zAt (Hm V c) (Am V c) (Wm V c) (Bm V c) (i 0) (i 1)

/-- A grid point as a tile number. -/
def tileOf (t : Fin cfg6.N) : Fin 20 := ⟨t.val, lt_of_lt_of_eq t.isLt N_6⟩

/-- A tile-indexed quantity as a function of a natural number (zero past the last tile), so that running sums are
    sums over an initial segment of the naturals. -/
def tsum (f : Fin 20 → EReal) (s : ℕ) : EReal := if h : s < 20 then f ⟨s, h⟩ else 0

theorem tsum_of_lt (f : Fin 20 → EReal) (s : ℕ) (h : s < 20) : tsum f s = f ⟨s, h⟩ := dif_pos h

theorem sum_range_tsum (f : Fin 20 → EReal) : ∑ s ∈ Finset.range 20, tsum f s = ∑ t : Fin 20, f t := by
  rw [Finset.sum_range]
  exact Finset.sum_congr rfl fun t _ => dif_pos t.isLt

/-- At point t the body's first linear map, on the blocks the windows hand it, is the layer's z at the rows of tile t. -/
theorem tile_blk (c : Dev nD) (t : Fin cfg6.N) (r : Fin 5000) (j : Fin 128) :
    k6_pay3 (F := Ideal) (iblk6 V c 0 t) (iblk6 V c 1 t) (iblk6 V c 2 t) (iblk6 V c 3 t) (ix2 r j)
      = Cert.Gin.zAt (Hm V c) (Am V c) (Wm V c) (Bm V c) (Cert.Gin.row (tileOf t) r) j :=
  tile_at (iblk6 V c 0 t) (iblk6 V c 1 t) (iblk6 V c 2 t) (iblk6 V c 3 t) (Hm V c) (Am V c) (Wm V c) (Bm V c) (tileOf t)
    (fun r k => blk0_read c (V c (Pipeline.arrRef spec6 0)) t r k (ix2 (Cert.Gin.row (tileOf t) r) k) rfl rfl)
    (fun r k => blk1_read c (V c (Pipeline.arrRef spec6 1)) t r k (ix2 (Cert.Gin.row (tileOf t) r) k) rfl rfl)
    (fun k j => blk2_read c (V c (Pipeline.arrRef spec6 2)) t k j)
    (fun j => blk3_read c (V c (Pipeline.arrRef spec6 3)) t 0 j)
    r j

/-- After any point the z block holds the point's tile of z. -/
theorem inv4 (c : Dev nD) (t : Fin cfg6.N) :
    (outsAt6 V c t.val t.isLt).1 = k6_pay3 (F := Ideal) (iblk6 V c 0 t) (iblk6 V c 1 t) (iblk6 V c 2 t) (iblk6 V c 3 t) := by
  by_cases h0 : t.val % 20 = 0
  · rw [outsAt6_A V c t h0]
    dsimp only
    exact out_A_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t)
  · rw [outsAt6_B V c t h0]
    dsimp only
    exact out_B_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t)
      (outsAt6 V c (t.val - 1) (Nat.lt_of_le_of_lt (Nat.sub_le _ _) t.isLt)).2.1 (outsAt6 V c (t.val - 1) (Nat.lt_of_le_of_lt (Nat.sub_le _ _) t.isLt)).2.2

/-- The first point leaves the first tile's column sums in the running row. -/
theorem step5_A (c : Dev nD) (t : Fin cfg6.N) (h0 : t.val % 20 = 0) (u : Fin 1) (j : Fin 128) :
    (outsAt6 V c t.val t.isLt).2.1 (ix2 u j) = ∑ r : Fin 5000, Cert.Gin.zAt (Hm V c) (Am V c) (Wm V c) (Bm V c) (Cert.Gin.row (tileOf t) r) j := by
  rw [outsAt6_A V c t h0]
  refine (congrFun (out_A_5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t)) (ix2 u j)).trans ?_
  refine (pay4_at (iblk6 V c 0 t) (iblk6 V c 1 t) (iblk6 V c 2 t) (iblk6 V c 3 t) (k6_pay1 (F := Ideal)) u j).trans ?_
  rw [pay1_at, zero_add]
  exact Finset.sum_congr rfl fun r _ => tile_blk V c t r j

/-- A later point adds its tile's column sums to what the point before left. -/
theorem step5_B (c : Dev nD) (t : Fin cfg6.N) (h0 : ¬t.val % 20 = 0) (u : Fin 1) (j : Fin 128) :
    (outsAt6 V c t.val t.isLt).2.1 (ix2 u j)
      = (outsAt6 V c (t.val - 1) (Nat.lt_of_le_of_lt (Nat.sub_le _ _) t.isLt)).2.1 (ix2 u j) + ∑ r : Fin 5000, Cert.Gin.zAt (Hm V c) (Am V c) (Wm V c) (Bm V c) (Cert.Gin.row (tileOf t) r) j := by
  rw [outsAt6_B V c t h0]
  refine (congrFun (out_B_5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t)
    (outsAt6 V c (t.val - 1) (Nat.lt_of_le_of_lt (Nat.sub_le _ _) t.isLt)).2.1 (outsAt6 V c (t.val - 1) (Nat.lt_of_le_of_lt (Nat.sub_le _ _) t.isLt)).2.2) (ix2 u j)).trans ?_
  refine (pay4_at (iblk6 V c 0 t) (iblk6 V c 1 t) (iblk6 V c 2 t) (iblk6 V c 3 t) (outsAt6 V c (t.val - 1) (Nat.lt_of_le_of_lt (Nat.sub_le _ _) t.isLt)).2.1 u j).trans ?_
  exact congrArg ((outsAt6 V c (t.val - 1) (Nat.lt_of_le_of_lt (Nat.sub_le _ _) t.isLt)).2.1 (ix2 u j) + ·) (Finset.sum_congr rfl fun r _ => tile_blk V c t r j)

/-- The same two steps for the sums of squares. -/
theorem step6_A (c : Dev nD) (t : Fin cfg6.N) (h0 : t.val % 20 = 0) (u : Fin 1) (j : Fin 128) :
    (outsAt6 V c t.val t.isLt).2.2 (ix2 u j)
      = ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt6_A V c t h0]
  refine (congrFun (out_A_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t)) (ix2 u j)).trans ?_
  refine (pay5_at (iblk6 V c 0 t) (iblk6 V c 1 t) (iblk6 V c 2 t) (iblk6 V c 3 t) (k6_pay2 (F := Ideal)) u j).trans ?_
  rw [pay2_at, zero_add]
  exact Finset.sum_congr rfl fun r _ => by rw [tile_blk V c t r j]

theorem step6_B (c : Dev nD) (t : Fin cfg6.N) (h0 : ¬t.val % 20 = 0) (u : Fin 1) (j : Fin 128) :
    (outsAt6 V c t.val t.isLt).2.2 (ix2 u j)
      = (outsAt6 V c (t.val - 1) (Nat.lt_of_le_of_lt (Nat.sub_le _ _) t.isLt)).2.2 (ix2 u j)
        + ∑ r : Fin 5000, Cert.Gin.zAt (Hm V c) (Am V c) (Wm V c) (Bm V c) (Cert.Gin.row (tileOf t) r) j * Cert.Gin.zAt (Hm V c) (Am V c) (Wm V c) (Bm V c) (Cert.Gin.row (tileOf t) r) j := by
  rw [outsAt6_B V c t h0]
  refine (congrFun (out_B_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t)
    (outsAt6 V c (t.val - 1) (Nat.lt_of_le_of_lt (Nat.sub_le _ _) t.isLt)).2.1 (outsAt6 V c (t.val - 1) (Nat.lt_of_le_of_lt (Nat.sub_le _ _) t.isLt)).2.2) (ix2 u j)).trans ?_
  refine (pay5_at (iblk6 V c 0 t) (iblk6 V c 1 t) (iblk6 V c 2 t) (iblk6 V c 3 t) (outsAt6 V c (t.val - 1) (Nat.lt_of_le_of_lt (Nat.sub_le _ _) t.isLt)).2.2 u j).trans ?_
  exact congrArg ((outsAt6 V c (t.val - 1) (Nat.lt_of_le_of_lt (Nat.sub_le _ _) t.isLt)).2.2 (ix2 u j) + ·) (Finset.sum_congr rfl fun r _ => by rw [tile_blk V c t r j])

/-- THE RUNNING SUM: after point n the row holds the column sums of z over tiles 0 … n. By induction on the point. -/
theorem inv5 (c : Dev nD) (u : Fin 1) (j : Fin 128) : ∀ (n : ℕ) (h : n < cfg6.N),
    (outsAt6 V c n h).2.1 (ix2 u j)
      = ∑ s ∈ Finset.range (n + 1), tsum (fun t => ∑ r : Fin 5000, Cert.Gin.zAt (Hm V c) (Am V c) (Wm V c) (Bm V c) (Cert.Gin.row t r) j) s
  | 0, h => by
    rw [Finset.sum_range_one, tsum_of_lt _ 0 (by omega)]
    exact step5_A V c ⟨0, h⟩ rfl u j
  | n + 1, h => by
    have hN : cfg6.N = 20 := N_6
    have hB : ¬(⟨n + 1, h⟩ : Fin cfg6.N).val % 20 = 0 := by dsimp only; omega
    rw [Finset.sum_range_succ, ← inv5 c u j n (Nat.lt_of_succ_lt h), tsum_of_lt _ (n + 1) (by omega)]
    exact step5_B V c ⟨n + 1, h⟩ hB u j

/-- THE RUNNING SUM OF SQUARES likewise. -/
theorem inv6 (c : Dev nD) (u : Fin 1) (j : Fin 128) : ∀ (n : ℕ) (h : n < cfg6.N),
    (outsAt6 V c n h).2.2 (ix2 u j)
      = ∑ s ∈ Finset.range (n + 1), tsum (fun t => ∑ r : Fin 5000,
          Cert.Gin.zAt (Hm V c) (Am V c) (Wm V c) (Bm V c) (Cert.Gin.row t r) j * Cert.Gin.zAt (Hm V c) (Am V c) (Wm V c) (Bm V c) (Cert.Gin.row t r) j) s
  | 0, h => by
    rw [Finset.sum_range_one, tsum_of_lt _ 0 (by omega)]
    exact step6_A V c ⟨0, h⟩ rfl u j
  | n + 1, h => by
    have hN : cfg6.N = 20 := N_6
    have hB : ¬(⟨n + 1, h⟩ : Fin cfg6.N).val % 20 = 0 := by dsimp only; omega
    rw [Finset.sum_range_succ, ← inv6 c u j n (Nat.lt_of_succ_lt h), tsum_of_lt _ (n + 1) (by omega)]
    exact step6_B V c ⟨n + 1, h⟩ hB u j

/-! ### From blocks to arrays -/

/-- What the z array ends holding. -/
abbrev G4 (c : Dev nD) : Buf (Elt Ideal) ((cfg6.win 4).arr.view.loc (c.tc : Thread nD τ)) := zMat V c
/-- What the column-sum array ends holding. -/
abbrev G5 (c : Dev nD) : Buf (Elt Ideal) ((cfg6.win 5).arr.view.loc (c.tc : Thread nD τ)) :=
  fun i => Cert.Gin.colSum (zMat V c) (i 1)
/-- What the array of column sums of squares ends holding. -/
abbrev G6 (c : Dev nD) : Buf (Elt Ideal) ((cfg6.win 6).arr.view.loc (c.tc : Thread nD τ)) :=
  fun i => Cert.Gin.colSumSq (zMat V c) (i 1)

/-- Every point writes back its block of z. -/
theorem flushed4 (c : Dev nD) (t : Fin cfg6.N) :
    (dat6 V c).flushed 4 t = ((cfg6.win 4).blk t).view.read (Elt Ideal) (G4 V c) := by
  show (cfg6.win 4).cut (grid6.coords t) ((dat6 V c).after 4 t) = _
  rw [after6_4, inv4]
  funext y
  obtain ⟨r, k, rfl⟩ : ∃ (r : Fin 5000) (k : Fin 128), y = ix2 r k := ⟨y 0, y 1, eq_ix2 y⟩
  rw [blk4_read c (G4 V c) t r k (ix2 (Cert.Gin.row (tileOf t) r) k) rfl rfl]
  show k6_pay3 (F := Ideal) _ _ _ _ (ix2 r k) = _
  exact tile_blk V c t r k

/-- So the z array ends holding z. -/
theorem final4 (c : Dev nD) : (dat6 V c).arrAt 4 cfg6.N = G4 V c :=
  (dat6 V c).arrAt_eq_of_cover 4 (G4 V c) (fun t _ => flushed4 V c t) (fun i => cover4 i)

/-- The last point writes back the running sums, which by then run over all twenty tiles. -/
theorem flushed5 (c : Dev nD) (t : Fin cfg6.N) (hf : (cfg6.win 5).flush t = true) :
    (dat6 V c).flushed 5 t = ((cfg6.win 5).blk t).view.read (Elt Ideal) (G5 V c) := by
  have hN : cfg6.N = 20 := N_6
  have h19 : t.val = 19 := by have := (flush6_5 t).mp hf; have := t.isLt; omega
  show (cfg6.win 5).cut (grid6.coords t) ((dat6 V c).after 5 t) = _
  rw [after6_5]
  funext y
  obtain ⟨u, j, rfl⟩ : ∃ (u : Fin 1) (j : Fin 128), y = ix2 u j := ⟨y 0, y 1, eq_ix2 y⟩
  rw [blk5_read c (G5 V c) t u j]
  show (outsAt6 V c t.val t.isLt).2.1 (ix2 u j) = _
  rw [inv5 V c u j t.val t.isLt, h19]
  exact sum_range_tsum _

theorem final5 (c : Dev nD) : (dat6 V c).arrAt 5 cfg6.N = G5 V c :=
  (dat6 V c).arrAt_eq_of_cover 5 (G5 V c) (flushed5 V c) (fun i => cover5 i)

theorem flushed6 (c : Dev nD) (t : Fin cfg6.N) (hf : (cfg6.win 6).flush t = true) :
    (dat6 V c).flushed 6 t = ((cfg6.win 6).blk t).view.read (Elt Ideal) (G6 V c) := by
  have hN : cfg6.N = 20 := N_6
  have h19 : t.val = 19 := by have := (flush6_6 t).mp hf; have := t.isLt; omega
  show (cfg6.win 6).cut (grid6.coords t) ((dat6 V c).after 6 t) = _
  rw [after6_6]
  funext y
  obtain ⟨u, j, rfl⟩ : ∃ (u : Fin 1) (j : Fin 128), y = ix2 u j := ⟨y 0, y 1, eq_ix2 y⟩
  rw [blk6_read c (G6 V c) t u j]
  show (outsAt6 V c t.val t.isLt).2.2 (ix2 u j) = _
  rw [inv6 V c u j t.val t.isLt, h19]
  exact sum_range_tsum _

theorem final6 (c : Dev nD) : (dat6 V c).arrAt 6 cfg6.N = G6 V c :=
  (dat6 V c).arrAt_eq_of_cover 6 (G6 V c) (flushed6 V c) (fun i => cover6 i)

/-! ### The three closed forms -/

/-- The z array after the region: the layer's first linear map, entry by entry. -/
theorem z6 (c : Dev nD) (r : Fin 100000) (j : Fin 128) :
    (dat6 (F := Ideal) V c).arrAt 4 cfg6.N (ix2 r j) = Cert.Gin.zAt (Hm V c) (Am V c) (Wm V c) (Bm V c) r j :=
  congrFun (final4 V c) (ix2 r j)

/-- The column sums of z. -/
theorem s6 (c : Dev nD) (j : Fin 128) :
    (dat6 (F := Ideal) V c).arrAt 5 cfg6.N (ix2 0 j)
      = Cert.Gin.colSum (fun i => Cert.Gin.zAt (Hm V c) (Am V c) (Wm V c) (Bm V c) (i 0) (i 1)) j :=
  congrFun (final5 V c) (ix2 0 j)

/-- The column sums of z². -/
theorem ss6 (c : Dev nD) (j : Fin 128) :
    (dat6 (F := Ideal) V c).arrAt 6 cfg6.N (ix2 0 j)
      = Cert.Gin.colSumSq (fun i => Cert.Gin.zAt (Hm V c) (Am V c) (Wm V c) (Bm V c) (i 0) (i 1)) j :=
  congrFun (final6 V c) (ix2 0 j)

end Run

end Cert.KernelIdeal.Pass1R6

end
-- ==== Proof.Pass2R7.lean ====
/-
  Region 7: the second pass of a layer over all 100000 rows, as one function of the arrays the region finds.

  The region runs the tile body at 20 grid points; point `t` reads rows `5000·t … 5000·t + 4999` of `z` and the whole
  of the mean, variance, scale, shift, weight and bias arrays, and writes the same rows of the result. So the result
  array ends holding, at row `r` and channel `j`, the layer's output `outAt` of those arrays: the row is covered by
  point `r / 5000`, whose block holds the tile body's value at local row `r mod 5000`.
-/
import proofs.«163505_j89335319757549_1_alg».proof.Proof.Gen.KernelIdeal.Frame
import proofs.«163505_j89335319757549_1_alg».proof.Proof.Spec
import proofs.«163505_j89335319757549_1_alg».proof.Proof.Pass2Core
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pass2R7

open Cert.KernelIdeal Cert.KernelIdeal.Gen Idealize.ShloMosaic Idealize.ShloMosaic.TcCoe Idealize.SL.Sem
open Idealize.ShloMosaic.ValueIdx
open Idealize.ShloMosaic.Pipeline (Dat)
open Cert.Gin Cert.Gin.Pass2

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds -/

/-- Window 0's array as the region finds it: the first linear map's result `z`. -/
abbrev aZ (c : Dev nD) : Mat 100000 128 := V c (Pipeline.arrRef spec7 0)
/-- Window 1's array as the region finds it: the column means. -/
abbrev aMu (c : Dev nD) : Mat 1 128 := V c (Pipeline.arrRef spec7 1)
/-- Window 2's array as the region finds it: the column variances. -/
abbrev aVar (c : Dev nD) : Mat 1 128 := V c (Pipeline.arrRef spec7 2)
/-- Window 3's array as the region finds it: the scale row. -/
abbrev aG (c : Dev nD) : Mat 1 128 := V c (Pipeline.arrRef spec7 3)
/-- Window 4's array as the region finds it: the shift row. -/
abbrev aBe (c : Dev nD) : Mat 1 128 := V c (Pipeline.arrRef spec7 4)
/-- Window 5's array as the region finds it: the second weight matrix. -/
abbrev aW2 (c : Dev nD) : Mat 128 128 := V c (Pipeline.arrRef spec7 5)
/-- Window 6's array as the region finds it: the second bias row. -/
abbrev aB2 (c : Dev nD) : Mat 1 128 := V c (Pipeline.arrRef spec7 6)

/-! ## The tile body at an entry -/

/-- The body's chain up to the last activation's argument is the tile chain of the shared module. -/
theorem lin_eq (x0 : Vec Ideal S5000x128 .f32) (x1 x2 x3 x4 : Vec Ideal S1x128 .f32) (x5 : Vec Ideal S128x128 .f32)
    (x6 : Vec Ideal S1x128 .f32) :
    k7_pay2 (F := Ideal) x0 x2 x1 x3 x4 x5 x6
      = tileLin shapeCasts_S5000x128_S5000x128 shapeCasts_S1x128_S1x128 shapeCasts_S128x128_S128x128
          broadcasts_S1x128_S5000x128 bitsLt_bf16_f32 x0 x2 x1 x3 x4 x5 x6 := rfl

/-- What the body stores, at local row `r` and channel `j`, from the blocks it loaded: the tile's output. The body
    hands the variance block to its arithmetic before the mean block. -/
theorem out_apply (x0 : Vec Ideal S5000x128 .f32) (x1 x2 x3 x4 : Vec Ideal S1x128 .f32) (x5 : Vec Ideal S128x128 .f32)
    (x6 : Vec Ideal S1x128 .f32) (r : Fin 5000) (j : Fin 128) :
    out7_7 (F := Ideal) x0 x1 x2 x3 x4 x5 x6 (ix2 r j) = outT x0 x1 x2 x3 x4 x5 x6 r j := by
  unfold out7_7
  rw [View.canon_unit_zero hz]
  simp only [View.ld_unit_zero (S := S5000x128) hz, View.ld_unit_zero (S := S1x128) hz,
    View.ld_unit_zero (S := S128x128) hz]
  show elu (k7_pay2 (F := Ideal) x0 x2 x1 x3 x4 x5 x6 (ix2 r j)) = _
  rw [lin_eq, tileLin_apply]
  rfl

/-! ## The blocks the points read -/

/-- The printed index maps over the grid: the first input and the output move one block of rows per point, every
    other input stays at its one block. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- The grid has 20 points. -/
theorem lt20 (t : Fin cfg7.N) : t.val < 20 :=
  lt_of_lt_of_eq t.isLt (N_7 : cfg7.N = 20)

/-- The first input's block at point `t` is rows `5000·t …` of its array. -/
theorem iblk0_apply (c : Dev nD) (t : Fin cfg7.N) (r : Fin 5000) (k : Fin 128) :
    (iblk7 V c 0 t : Vec Ideal S5000x128 .f32) (ix2 r k) = aZ V c (ix2 (row ⟨t.val, lt20 t⟩ r) k) := by
  obtain ⟨e0, e1, -⟩ := idx_facts t
  show aZ V c (((cfg7.win 0).blk t).view.emb (ix2 r k)) = aZ V c _
  refine congrArg (aZ V c) (funext fun a => Fin.ext ?_)
  match a with
  | ⟨0, _⟩ => show win7_0.index t (0 : Fin 2) * 5000 + 1 * r.val = 5000 * t.val + r.val; rw [e0]; omega
  | ⟨1, _⟩ => show win7_0.index t (1 : Fin 2) * 128 + 1 * k.val = k.val; rw [e1]; omega

/-- Input 1's block is its whole array, at every point. -/
theorem iblk1_eq (c : Dev nD) (t : Fin cfg7.N) :
    (iblk7 V c 1 t : Vec Ideal S1x128 .f32) = aMu V c := by
  obtain ⟨-, -, e0, e1, -⟩ := idx_facts t
  funext x
  show aMu V c (((cfg7.win 1).blk t).view.emb x) = aMu V c x
  refine congrArg (aMu V c) (funext fun a => Fin.ext ?_)
  match a with
  | ⟨0, _⟩ => show win7_1.index t (0 : Fin 2) * 1 + 1 * (x 0).val = (x 0).val; rw [e0]; omega
  | ⟨1, _⟩ => show win7_1.index t (1 : Fin 2) * 128 + 1 * (x 1).val = (x 1).val; rw [e1]; omega

/-- Input 2's block is its whole array, at every point. -/
theorem iblk2_eq (c : Dev nD) (t : Fin cfg7.N) :
    (iblk7 V c 2 t : Vec Ideal S1x128 .f32) = aVar V c := by
  obtain ⟨-, -, -, -, e0, e1, -⟩ := idx_facts t
  funext x
  show aVar V c (((cfg7.win 2).blk t).view.emb x) = aVar V c x
  refine congrArg (aVar V c) (funext fun a => Fin.ext ?_)
  match a with
  | ⟨0, _⟩ => show win7_2.index t (0 : Fin 2) * 1 + 1 * (x 0).val = (x 0).val; rw [e0]; omega
  | ⟨1, _⟩ => show win7_2.index t (1 : Fin 2) * 128 + 1 * (x 1).val = (x 1).val; rw [e1]; omega

/-- Input 3's block is its whole array, at every point. -/
theorem iblk3_eq (c : Dev nD) (t : Fin cfg7.N) :
    (iblk7 V c 3 t : Vec Ideal S1x128 .f32) = aG V c := by
  obtain ⟨-, -, -, -, -, -, e0, e1, -⟩ := idx_facts t
  funext x
  show aG V c (((cfg7.win 3).blk t).view.emb x) = aG V c x
  refine congrArg (aG V c) (funext fun a => Fin.ext ?_)
  match a with
  | ⟨0, _⟩ => show win7_3.index t (0 : Fin 2) * 1 + 1 * (x 0).val = (x 0).val; rw [e0]; omega
  | ⟨1, _⟩ => show win7_3.index t (1 : Fin 2) * 128 + 1 * (x 1).val = (x 1).val; rw [e1]; omega

/-- Input 4's block is its whole array, at every point. -/
theorem iblk4_eq (c : Dev nD) (t : Fin cfg7.N) :
    (iblk7 V c 4 t : Vec Ideal S1x128 .f32) = aBe V c := by
  obtain ⟨-, -, -, -, -, -, -, -, e0, e1, -⟩ := idx_facts t
  funext x
  show aBe V c (((cfg7.win 4).blk t).view.emb x) = aBe V c x
  refine congrArg (aBe V c) (funext fun a => Fin.ext ?_)
  match a with
  | ⟨0, _⟩ => show win7_4.index t (0 : Fin 2) * 1 + 1 * (x 0).val = (x 0).val; rw [e0]; omega
  | ⟨1, _⟩ => show win7_4.index t (1 : Fin 2) * 128 + 1 * (x 1).val = (x 1).val; rw [e1]; omega

/-- Input 5's block is its whole array, at every point. -/
theorem iblk5_eq (c : Dev nD) (t : Fin cfg7.N) :
    (iblk7 V c 5 t : Vec Ideal S128x128 .f32) = aW2 V c := by
  obtain ⟨-, -, -, -, -, -, -, -, -, -, e0, e1, -⟩ := idx_facts t
  funext x
  show aW2 V c (((cfg7.win 5).blk t).view.emb x) = aW2 V c x
  refine congrArg (aW2 V c) (funext fun a => Fin.ext ?_)
  match a with
  | ⟨0, _⟩ => show win7_5.index t (0 : Fin 2) * 128 + 1 * (x 0).val = (x 0).val; rw [e0]; omega
  | ⟨1, _⟩ => show win7_5.index t (1 : Fin 2) * 128 + 1 * (x 1).val = (x 1).val; rw [e1]; omega

/-- Input 6's block is its whole array, at every point. -/
theorem iblk6_eq (c : Dev nD) (t : Fin cfg7.N) :
    (iblk7 V c 6 t : Vec Ideal S1x128 .f32) = aB2 V c := by
  obtain ⟨-, -, -, -, -, -, -, -, -, -, -, -, e0, e1, -⟩ := idx_facts t
  funext x
  show aB2 V c (((cfg7.win 6).blk t).view.emb x) = aB2 V c x
  refine congrArg (aB2 V c) (funext fun a => Fin.ext ?_)
  match a with
  | ⟨0, _⟩ => show win7_6.index t (0 : Fin 2) * 1 + 1 * (x 0).val = (x 0).val; rw [e0]; omega
  | ⟨1, _⟩ => show win7_6.index t (1 : Fin 2) * 128 + 1 * (x 1).val = (x 1).val; rw [e1]; omega

/-! ## From the points' blocks to the array -/

/-- The result as one function of the arrays the region finds: the layer's output at every row and channel. -/
def G (c : Dev nD) : S100000x128.Idx → EReal := fun i =>
  outAt (aZ V c) (aMu V c) (aVar V c) (aG V c) (aBe V c) (aW2 V c) (aB2 V c) (i 0) (i 1)

/-- What point `t` writes back is block `t` of `G`: the body's value at local row `r` is the layer's output at row
    `5000·t + r`, and the block's entry `(r, j)` sits at `(5000·t + r, j)` of the array. -/
theorem flushed_eq (c : Dev nD) (t : Fin cfg7.N) :
    (dat7 (F := Ideal) V c).flushed 7 t = ((cfg7.win 7).blk t).view.read (Elt Ideal) (G V c) := by
  show (cfg7.win 7).cut (grid7.coords t) ((dat7 (F := Ideal) V c).after 7 t) = _
  rw [after7_7]
  obtain ⟨-, -, -, -, -, -, -, -, -, -, -, -, -, -, e0, e1⟩ := idx_facts t
  funext y
  have hR : ((cfg7.win 7).blk t).view.read (Elt Ideal) (G V c) y = G V c (((cfg7.win 7).blk t).view.emb y) := rfl
  refine Eq.trans ?_ hR.symm
  unfold G
  have hy : (cfg7.win 7).xinj (grid7.coords t) y
      = ix2 (⟨(y 0).val, (y 0).isLt⟩ : Fin 5000) (⟨(y 1).val, (y 1).isLt⟩ : Fin 128) :=
    funext fun a => by
      match a with
      | ⟨0, _⟩ => rfl
      | ⟨1, _⟩ => rfl
  refine (congrArg (out7_7 (F := Ideal) (iblk7 V c 0 t) (iblk7 V c 1 t) (iblk7 V c 2 t) (iblk7 V c 3 t) (iblk7 V c 4 t) (iblk7 V c 5 t) (iblk7 V c 6 t)) hy).trans ?_
  refine (out_apply (iblk7 V c 0 t) (iblk7 V c 1 t) (iblk7 V c 2 t) (iblk7 V c 3 t) (iblk7 V c 4 t) (iblk7 V c 5 t) (iblk7 V c 6 t) _ _).trans ?_
  refine (outT_eq_outAt_of_blocks (aZ V c) (aMu V c) (aVar V c) (aG V c) (aBe V c) (aW2 V c) (aB2 V c)
    (iblk7 V c 0 t) (iblk7 V c 1 t) (iblk7 V c 2 t) (iblk7 V c 3 t) (iblk7 V c 4 t) (iblk7 V c 5 t) (iblk7 V c 6 t) ⟨t.val, lt20 t⟩
    (fun r k => iblk0_apply V c t r k) (iblk1_eq V c t) (iblk2_eq V c t) (iblk3_eq V c t) (iblk4_eq V c t)
    (iblk5_eq V c t) (iblk6_eq V c t) _ _).trans ?_
  refine congrArg₂ (outAt (aZ V c) (aMu V c) (aVar V c) (aG V c) (aBe V c) (aW2 V c) (aB2 V c)) (Fin.ext ?_) (Fin.ext ?_)
  · show 5000 * t.val + (y 0).val = win7_7.index t (0 : Fin 2) * 5000 + 1 * (y 0).val
    rw [e0]; omega
  · show (y 1).val = win7_7.index t (1 : Fin 2) * 128 + 1 * (y 1).val
    rw [e1]; omega

/-- An index of the array is in point `t`'s block iff each coordinate is in the block's range on its axis. -/
theorem mem_blk (t : Fin cfg7.N) (i : S100000x128.Idx) :
    i ∈ ((cfg7.win 7).blk t).view.set ↔ ∀ a : Fin 2, win7_7.index t a * S5000x128.size a ≤ (i a).val
      ∧ (i a).val < win7_7.index t a * S5000x128.size a + S5000x128.size a := by
  show i ∈ ((View.whole main_v139).slice (win7_7.rect t)).set ↔ _
  rw [View.set_slice_whole, Rect.mem_set_unit]
  exact Iff.rfl

/-- Row `r` of the array is covered by point `r / 5000`. -/
theorem cover (i : S100000x128.Idx) :
    ∃ t : Fin cfg7.N, (cfg7.win 7).flush t = true ∧ i ∈ ((cfg7.win 7).blk t).view.set := by
  have hi0 : (i 0).val < 100000 := (i 0).isLt
  have hi1 : (i 1).val < 128 := (i 1).isLt
  have hN : cfg7.N = 20 := N_7
  have hq : (i 0).val / 5000 < cfg7.N := by rw [hN]; omega
  obtain ⟨-, -, -, -, -, -, -, -, -, -, -, -, -, -, e0, e1⟩ := idx_facts ⟨(i 0).val / 5000, hq⟩
  refine ⟨⟨(i 0).val / 5000, hq⟩, flush7_7 _, ?_⟩
  rw [mem_blk]
  intro a
  match a with
  | ⟨0, _⟩ =>
    show win7_7.index ⟨(i 0).val / 5000, hq⟩ (0 : Fin 2) * 5000 ≤ (i 0).val
      ∧ (i 0).val < win7_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win7_7.index ⟨(i 0).val / 5000, hq⟩ (1 : Fin 2) * 128 ≤ (i 1).val
      ∧ (i 1).val < win7_7.index ⟨(i 0).val / 5000, hq⟩ (1 : Fin 2) * 128 + 128
    rw [e1]
    omega

/-- The result array after the region's last point is `G`. -/
theorem final (c : Dev nD) : (dat7 (F := Ideal) V c).arrAt 7 cfg7.N = G V c :=
  (dat7 (F := Ideal) V c).arrAt_eq_of_cover 7 (G V c) (fun t _ => flushed_eq V c t) cover

/-- The result array at row `r`, channel `j`: the layer's output of the arrays the region finds. -/
theorem h7 (c : Dev nD) (r : Fin 100000) (j : Fin 128) :
    (dat7 (F := Ideal) V c).arrAt 7 cfg7.N (ix2 r j)
      = outAt (aZ V c) (aMu V c) (aVar V c) (aG V c) (aBe V c) (aW2 V c) (aB2 V c) r j :=
  congrFun (final V c) (ix2 r j)

end Cert.KernelIdeal.Pass2R7

end
-- ==== Proof.KLayer3.lean ====
/-
  Layer 3 of the tiled program: from the buffer contents when its first host stretch starts to its output array.

  The host stretch forms the neighbour sum and cuts the layer's first weights and bias out of the stacked arguments;
  the first tiled region leaves the first linear map and its tiled column sums and sums of squares; the next stretch
  divides by the number of rows, forms the variance as mean of squares minus squared mean, and cuts the remaining
  parameters; the second tiled region leaves the layer's output. Read together that output is the tiled spelling of
  the layer on the arguments, which on real data is the plain program's layer.
-/
import proofs.«163505_j89335319757549_1_alg».proof.Proof.KBase
import proofs.«163505_j89335319757549_1_alg».proof.Proof.Pass1R6
import proofs.«163505_j89335319757549_1_alg».proof.Proof.Pass2R7

set_option maxRecDepth 16384

noncomputable section

open scoped BigOperators
open Idealize.ShloMosaic Idealize.ShloMosaic.ValueIdx Idealize.ShloMosaic.TcCoe Idealize.SL.Sem

namespace Cert.KernelIdeal.KChain
namespace L3

open Cert.KernelIdeal Cert.KernelIdeal.Gen Cert.Gin
open Cert.ReferenceIdeal.RefLayer Cert.ReferenceIdeal.RefChain

variable [Cert.KernelIdeal.Facts] [Cert.ReferenceIdeal.Facts]
variable (m : (ℓ : Loc nD τ sig) → Buf (Elt Ideal) ℓ) (ρ : Dev nD → PrngReg)

variable (c : Dev nD) (H : FVec Ideal Cert.ReferenceIdeal.S100000x128 .f32)

/-! ## The first host stretch -/

set_option maxHeartbeats 4000000 in
theorem a_h (hin : (W12 (F := Ideal) m ρ c (Proc.devRef .tc main_v105)) = H) : (W13 (F := Ideal) m ρ c (Proc.devRef .tc main_v105)) = H := by
  refine Eq.trans ?_ hin
  show StableHlo.after hostOps6 (W12 m ρ c) (Proc.devRef .tc main_v105) = _
  after_results_simp

set_option maxHeartbeats 4000000 in
theorem a_agg (hin : (W12 (F := Ideal) m ρ c (Proc.devRef .tc main_v105)) = H) : (W13 (F := Ideal) m ρ c (Proc.devRef .tc main_v115)) = aggOps H (src0 m c) (dst0 m c) := by
  show StableHlo.after hostOps6 (W12 m ρ c) (Proc.devRef .tc main_v115) = _
  after_results_simp
  rw [KCarry.W12_v1 m ρ c, KCarry.W12_v3 m ρ c, W1_src m ρ c, W1_dst m ρ c, hin]
  rfl

set_option maxHeartbeats 4000000 in
theorem a_w1 : (W13 (F := Ideal) m ρ c (Proc.devRef .tc main_v117)) = slab (m ((c : Thread nD τ).loc main_arg3)) ![3, 0, 0] Cert.ReferenceIdeal.Gen.slices_S4x128x128_S1x128x128_3_0_0 := by
  show StableHlo.after hostOps6 (W12 m ρ c) (Proc.devRef .tc main_v117) = _
  after_results_simp
  rw [KCarry.W12_arg3 m ρ c]
  rfl

set_option maxHeartbeats 4000000 in
theorem a_b1 : (W13 (F := Ideal) m ρ c (Proc.devRef .tc main_v120)) = rowK (rowv (m ((c : Thread nD τ).loc main_arg4)) ![3, 0] Cert.ReferenceIdeal.Gen.slices_S4x128_S1x128_3_0) := by
  show StableHlo.after hostOps6 (W12 m ρ c) (Proc.devRef .tc main_v120) = _
  after_results_simp
  rw [KCarry.W12_arg4 m ρ c]
  rfl

/-! ## The first tiled region -/

/-- The region's first output, at any entry contents `W`, read through the four input buffers. -/
theorem g4_gen (W : Dev nD → Valuation τ sig (Elt Ideal)) (c : Dev nD) :
    Cert.KernelIdeal.Pass1R6.G4 (fun c b => W c b) c
      = Cert.Gin.zMat (W c (Proc.devRef .tc main_v105)) (W c (Proc.devRef .tc main_v115)) (W c (Proc.devRef .tc main_v117)) (W c (Proc.devRef .tc main_v120)) := rfl

theorem r_z (hin : (W12 (F := Ideal) m ρ c (Proc.devRef .tc main_v105)) = H) : (W14 (F := Ideal) m ρ c (Proc.devRef .tc main_v121_0)) = (Cert.Gin.zMat H (aggOps H (src0 m c) (dst0 m c)) (slab (m ((c : Thread nD τ).loc main_arg3)) ![3, 0, 0] Cert.ReferenceIdeal.Gen.slices_S4x128x128_S1x128x128_3_0_0) (rowK (rowv (m ((c : Thread nD τ).loc main_arg4)) ![3, 0] Cert.ReferenceIdeal.Gen.slices_S4x128_S1x128_3_0))) := by
  refine (W14_arr m ρ c 4).trans ((Cert.KernelIdeal.Pass1R6.final4 (V13 m ρ) c).trans ((g4_gen (W13 m ρ) c).trans ?_))
  rw [a_h m ρ c H hin, a_agg m ρ c H hin, a_w1 m ρ c, a_b1 m ρ c]

theorem r_s (hin : (W12 (F := Ideal) m ρ c (Proc.devRef .tc main_v105)) = H) (j : Fin 128) : (W14 (F := Ideal) m ρ c (Proc.devRef .tc main_v121_1)) (ix2 0 j) = colSum (Cert.Gin.zMat H (aggOps H (src0 m c) (dst0 m c)) (slab (m ((c : Thread nD τ).loc main_arg3)) ![3, 0, 0] Cert.ReferenceIdeal.Gen.slices_S4x128x128_S1x128x128_3_0_0) (rowK (rowv (m ((c : Thread nD τ).loc main_arg4)) ![3, 0] Cert.ReferenceIdeal.Gen.slices_S4x128_S1x128_3_0))) j := by
  refine (congrFun (W14_arr m ρ c 5) _).trans ((Cert.KernelIdeal.Pass1R6.s6 (V13 m ρ) c j).trans
    ((congrArg (fun Z => colSum Z j) (g4_gen (W13 m ρ) c)).trans ?_))
  rw [a_h m ρ c H hin, a_agg m ρ c H hin, a_w1 m ρ c, a_b1 m ρ c]

theorem r_ss (hin : (W12 (F := Ideal) m ρ c (Proc.devRef .tc main_v105)) = H) (j : Fin 128) : (W14 (F := Ideal) m ρ c (Proc.devRef .tc main_v121_2)) (ix2 0 j) = colSumSq (Cert.Gin.zMat H (aggOps H (src0 m c) (dst0 m c)) (slab (m ((c : Thread nD τ).loc main_arg3)) ![3, 0, 0] Cert.ReferenceIdeal.Gen.slices_S4x128x128_S1x128x128_3_0_0) (rowK (rowv (m ((c : Thread nD τ).loc main_arg4)) ![3, 0] Cert.ReferenceIdeal.Gen.slices_S4x128_S1x128_3_0))) j := by
  refine (congrFun (W14_arr m ρ c 6) _).trans ((Cert.KernelIdeal.Pass1R6.ss6 (V13 m ρ) c j).trans
    ((congrArg (fun Z => colSumSq Z j) (g4_gen (W13 m ρ) c)).trans ?_))
  rw [a_h m ρ c H hin, a_agg m ρ c H hin, a_w1 m ρ c, a_b1 m ρ c]

/-! ## The second host stretch -/

theorem b_z (hin : (W12 (F := Ideal) m ρ c (Proc.devRef .tc main_v105)) = H) : (W15 (F := Ideal) m ρ c (Proc.devRef .tc main_v121_0)) = (Cert.Gin.zMat H (aggOps H (src0 m c) (dst0 m c)) (slab (m ((c : Thread nD τ).loc main_arg3)) ![3, 0, 0] Cert.ReferenceIdeal.Gen.slices_S4x128x128_S1x128x128_3_0_0) (rowK (rowv (m ((c : Thread nD τ).loc main_arg4)) ![3, 0] Cert.ReferenceIdeal.Gen.slices_S4x128_S1x128_3_0))) :=
  (KCarry.W15_v121_0 m ρ c).trans (r_z m ρ c H hin)

set_option maxHeartbeats 4000000 in
theorem b_mu_ops : (W15 (F := Ideal) m ρ c (Proc.devRef .tc main_v123)) = Host.divf (F := Ideal) (W14 (F := Ideal) m ρ c (Proc.devRef .tc main_v121_1)) (broadcastInDim S1x128 ![] Cert.KernelIdeal.Gen.bcast_S_S1x128 (constant (F := Ideal) S_ .f32 0x47C35000#32)) := by
  show StableHlo.after hostOps7 (W14 m ρ c) (Proc.devRef .tc main_v123) = _
  after_results_simp

theorem b_mu (hin : (W12 (F := Ideal) m ρ c (Proc.devRef .tc main_v105)) = H) : (W15 (F := Ideal) m ρ c (Proc.devRef .tc main_v123)) = muK (Cert.Gin.zMat H (aggOps H (src0 m c) (dst0 m c)) (slab (m ((c : Thread nD τ).loc main_arg3)) ![3, 0, 0] Cert.ReferenceIdeal.Gen.slices_S4x128x128_S1x128x128_3_0_0) (rowK (rowv (m ((c : Thread nD τ).loc main_arg4)) ![3, 0] Cert.ReferenceIdeal.Gen.slices_S4x128_S1x128_3_0))) := by
  funext i
  obtain ⟨a, j, rfl⟩ : ∃ (a : Fin 1) (j : Fin 128), i = ix2 a j := ⟨i 0, i 1, eq_ix2 i⟩
  obtain rfl : a = 0 := Subsingleton.elim _ _
  rw [b_mu_ops m ρ c]
  show Ideal.div ((W14 (F := Ideal) m ρ c (Proc.devRef .tc main_v121_1)) (ix2 0 j)) ((broadcastInDim S1x128 ![] Cert.KernelIdeal.Gen.bcast_S_S1x128 (constant (F := Ideal) S_ .f32 0x47C35000#32)) (ix2 0 j)) = _
  rw [r_s m ρ c H hin, splatN_apply]
  rfl

set_option maxHeartbeats 4000000 in
theorem b_var_ops : (W15 (F := Ideal) m ρ c (Proc.devRef .tc main_v127))
    = subf (Host.divf (F := Ideal) (W14 (F := Ideal) m ρ c (Proc.devRef .tc main_v121_2)) (broadcastInDim S1x128 ![] Cert.KernelIdeal.Gen.bcast_S_S1x128 (constant (F := Ideal) S_ .f32 0x47C35000#32)))
        (mulf (Host.divf (F := Ideal) (W14 (F := Ideal) m ρ c (Proc.devRef .tc main_v121_1)) (broadcastInDim S1x128 ![] Cert.KernelIdeal.Gen.bcast_S_S1x128 (constant (F := Ideal) S_ .f32 0x47C35000#32))) (Host.divf (F := Ideal) (W14 (F := Ideal) m ρ c (Proc.devRef .tc main_v121_1)) (broadcastInDim S1x128 ![] Cert.KernelIdeal.Gen.bcast_S_S1x128 (constant (F := Ideal) S_ .f32 0x47C35000#32)))) := by
  show StableHlo.after hostOps7 (W14 m ρ c) (Proc.devRef .tc main_v127) = _
  after_results_simp

theorem b_var (hin : (W12 (F := Ideal) m ρ c (Proc.devRef .tc main_v105)) = H) : (W15 (F := Ideal) m ρ c (Proc.devRef .tc main_v127)) = varK (Cert.Gin.zMat H (aggOps H (src0 m c) (dst0 m c)) (slab (m ((c : Thread nD τ).loc main_arg3)) ![3, 0, 0] Cert.ReferenceIdeal.Gen.slices_S4x128x128_S1x128x128_3_0_0) (rowK (rowv (m ((c : Thread nD τ).loc main_arg4)) ![3, 0] Cert.ReferenceIdeal.Gen.slices_S4x128_S1x128_3_0))) := by
  funext i
  obtain ⟨a, j, rfl⟩ : ∃ (a : Fin 1) (j : Fin 128), i = ix2 a j := ⟨i 0, i 1, eq_ix2 i⟩
  obtain rfl : a = 0 := Subsingleton.elim _ _
  rw [b_var_ops m ρ c]
  show Ideal.div ((W14 (F := Ideal) m ρ c (Proc.devRef .tc main_v121_2)) (ix2 0 j)) ((broadcastInDim S1x128 ![] Cert.KernelIdeal.Gen.bcast_S_S1x128 (constant (F := Ideal) S_ .f32 0x47C35000#32)) (ix2 0 j))
      - Ideal.div ((W14 (F := Ideal) m ρ c (Proc.devRef .tc main_v121_1)) (ix2 0 j)) ((broadcastInDim S1x128 ![] Cert.KernelIdeal.Gen.bcast_S_S1x128 (constant (F := Ideal) S_ .f32 0x47C35000#32)) (ix2 0 j)) * Ideal.div ((W14 (F := Ideal) m ρ c (Proc.devRef .tc main_v121_1)) (ix2 0 j)) ((broadcastInDim S1x128 ![] Cert.KernelIdeal.Gen.bcast_S_S1x128 (constant (F := Ideal) S_ .f32 0x47C35000#32)) (ix2 0 j)) = _
  rw [r_s m ρ c H hin, r_ss m ρ c H hin, splatN_apply]
  rfl

set_option maxHeartbeats 4000000 in
theorem b_g : (W15 (F := Ideal) m ρ c (Proc.devRef .tc main_v130)) = rowK (rowv (m ((c : Thread nD τ).loc main_arg5)) ![3, 0] Cert.ReferenceIdeal.Gen.slices_S4x128_S1x128_3_0) := by
  rw [← KCarry.W14_arg5 m ρ c]
  show StableHlo.after hostOps7 (W14 m ρ c) (Proc.devRef .tc main_v130) = _
  after_results_simp
  rfl

set_option maxHeartbeats 4000000 in
theorem b_be : (W15 (F := Ideal) m ρ c (Proc.devRef .tc main_v133)) = rowK (rowv (m ((c : Thread nD τ).loc main_arg6)) ![3, 0] Cert.ReferenceIdeal.Gen.slices_S4x128_S1x128_3_0) := by
  rw [← KCarry.W14_arg6 m ρ c]
  show StableHlo.after hostOps7 (W14 m ρ c) (Proc.devRef .tc main_v133) = _
  after_results_simp
  rfl

set_option maxHeartbeats 4000000 in
theorem b_w2 : (W15 (F := Ideal) m ρ c (Proc.devRef .tc main_v135)) = slab (m ((c : Thread nD τ).loc main_arg7)) ![3, 0, 0] Cert.ReferenceIdeal.Gen.slices_S4x128x128_S1x128x128_3_0_0 := by
  rw [← KCarry.W14_arg7 m ρ c]
  show StableHlo.after hostOps7 (W14 m ρ c) (Proc.devRef .tc main_v135) = _
  after_results_simp
  rfl

set_option maxHeartbeats 4000000 in
theorem b_b2 : (W15 (F := Ideal) m ρ c (Proc.devRef .tc main_v138)) = rowK (rowv (m ((c : Thread nD τ).loc main_arg8)) ![3, 0] Cert.ReferenceIdeal.Gen.slices_S4x128_S1x128_3_0) := by
  rw [← KCarry.W14_arg8 m ρ c]
  show StableHlo.after hostOps7 (W14 m ρ c) (Proc.devRef .tc main_v138) = _
  after_results_simp
  rfl

/-! ## The second tiled region -/

/-- The region's output array, at any entry contents `W`, read through the seven input buffers. -/
theorem g7_gen (W : Dev nD → Valuation τ sig (Elt Ideal)) (c : Dev nD) :
    Cert.KernelIdeal.Pass2R7.G (fun c b => W c b) c
      = fun i => outAt (W c (Proc.devRef .tc main_v121_0)) (W c (Proc.devRef .tc main_v123)) (W c (Proc.devRef .tc main_v127)) (W c (Proc.devRef .tc main_v130)) (W c (Proc.devRef .tc main_v133)) (W c (Proc.devRef .tc main_v135)) (W c (Proc.devRef .tc main_v138)) (i 0) (i 1) := rfl

/-- The layer's output array in the tiled spelling. -/
theorem r_out (hin : (W12 (F := Ideal) m ρ c (Proc.devRef .tc main_v105)) = H) : (W16 (F := Ideal) m ρ c (Proc.devRef .tc main_v139))
    = layerK H (aggOps H (src0 m c) (dst0 m c)) (slab (m ((c : Thread nD τ).loc main_arg3)) ![3, 0, 0] Cert.ReferenceIdeal.Gen.slices_S4x128x128_S1x128x128_3_0_0) (rowK (rowv (m ((c : Thread nD τ).loc main_arg4)) ![3, 0] Cert.ReferenceIdeal.Gen.slices_S4x128_S1x128_3_0)) (rowK (rowv (m ((c : Thread nD τ).loc main_arg5)) ![3, 0] Cert.ReferenceIdeal.Gen.slices_S4x128_S1x128_3_0)) (rowK (rowv (m ((c : Thread nD τ).loc main_arg6)) ![3, 0] Cert.ReferenceIdeal.Gen.slices_S4x128_S1x128_3_0)) (slab (m ((c : Thread nD τ).loc main_arg7)) ![3, 0, 0] Cert.ReferenceIdeal.Gen.slices_S4x128x128_S1x128x128_3_0_0) (rowK (rowv (m ((c : Thread nD τ).loc main_arg8)) ![3, 0] Cert.ReferenceIdeal.Gen.slices_S4x128_S1x128_3_0)) := by
  refine (W16_arr m ρ c 7).trans ((Cert.KernelIdeal.Pass2R7.final (V15 m ρ) c).trans ((g7_gen (W15 m ρ) c).trans ?_))
  rw [b_z m ρ c H hin, b_mu m ρ c H hin, b_var m ρ c H hin, b_g m ρ c, b_be m ρ c, b_w2 m ρ c, b_b2 m ρ c]
  rfl

/-- On real data the layer's output array is the plain program's layer 3 of the arguments. -/
theorem layer_out (hin : (W12 (F := Ideal) m ρ c (Proc.devRef .tc main_v105)) = H) (hH : ∀ i, IsReal (H i)) (h3 : ∀ i, IsReal ((m ((c : Thread nD τ).loc main_arg3)) i)) (h4 : ∀ i, IsReal ((m ((c : Thread nD τ).loc main_arg4)) i)) :
    (W16 (F := Ideal) m ρ c (Proc.devRef .tc main_v139)) = layerRef3 H (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (r_out m ρ c H hin).trans ((layerK_eq_layerOps H (aggOps H (src0 m c) (dst0 m c)) (slab (m ((c : Thread nD τ).loc main_arg3)) ![3, 0, 0] Cert.ReferenceIdeal.Gen.slices_S4x128x128_S1x128x128_3_0_0) (rowv (m ((c : Thread nD τ).loc main_arg4)) ![3, 0] Cert.ReferenceIdeal.Gen.slices_S4x128_S1x128_3_0) (rowv (m ((c : Thread nD τ).loc main_arg5)) ![3, 0] Cert.ReferenceIdeal.Gen.slices_S4x128_S1x128_3_0) (rowv (m ((c : Thread nD τ).loc main_arg6)) ![3, 0] Cert.ReferenceIdeal.Gen.slices_S4x128_S1x128_3_0) (slab (m ((c : Thread nD τ).loc main_arg7)) ![3, 0, 0] Cert.ReferenceIdeal.Gen.slices_S4x128x128_S1x128x128_3_0_0) (rowv (m ((c : Thread nD τ).loc main_arg8)) ![3, 0] Cert.ReferenceIdeal.Gen.slices_S4x128_S1x128_3_0) hH
    (aggOps_real _ _ _ hH) (slab_real _ _ _ h3) (rowv_real _ _ _ h4)).trans rfl)

end L3
end Cert.KernelIdeal.KChain

end
-- ==== Proof.KNet.lean ====
/-
  The tiled program's result as a function of its arguments.

  Layer by layer, each layer's output array is the plain program's layer of the previous one (on real data, and a
  layer of real data is real, so the hypothesis carries); the host tail after the last region pools the rows per
  graph and applies the linear head, exactly the plain program's operations. So the result buffer holds the plain
  program's network of the argument arrays.
-/
import proofs.«163505_j89335319757549_1_alg».proof.Proof.KLayer0
import proofs.«163505_j89335319757549_1_alg».proof.Proof.KLayer1
import proofs.«163505_j89335319757549_1_alg».proof.Proof.KLayer2
import proofs.«163505_j89335319757549_1_alg».proof.Proof.KLayer3

set_option maxRecDepth 16384

noncomputable section

open scoped BigOperators
open Idealize.ShloMosaic Idealize.ShloMosaic.ValueIdx Idealize.ShloMosaic.TcCoe Idealize.SL.Sem

namespace Cert.KernelIdeal.KChain

open Cert.KernelIdeal Cert.KernelIdeal.Gen Cert.Gin
open Cert.ReferenceIdeal.RefLayer Cert.ReferenceIdeal.RefChain

variable [Cert.KernelIdeal.Facts] [Cert.ReferenceIdeal.Facts]
variable (m : (ℓ : Loc nD τ sig) → Buf (Elt Ideal) ℓ) (ρ : Dev nD → PrngReg)

/-- Layer 0 of the plain program sends real data to real data. -/
theorem layerRef0_real (h : FVec Ideal Cert.ReferenceIdeal.S100000x128 .f32) (a1 : IVec Cert.ReferenceIdeal.S2x1600000 32)
    (a3 : FVec Ideal Cert.ReferenceIdeal.S4x128x128 .f32) (a4 a5 a6 : FVec Ideal Cert.ReferenceIdeal.S4x128 .f32)
    (a7 : FVec Ideal Cert.ReferenceIdeal.S4x128x128 .f32) (a8 : FVec Ideal Cert.ReferenceIdeal.S4x128 .f32)
    (hh : ∀ i, IsReal (h i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) :
    ∀ i, IsReal (layerRef0 h a1 a3 a4 a5 a6 a7 a8 i) := by
  delta layerRef0
  exact layerOps_real _ _ _ _ _ _ _ _ hh (aggOps_real _ _ _ hh) (slab_real _ _ _ h3) (rowv_real _ _ _ h4)
    (rowv_real _ _ _ h5) (rowv_real _ _ _ h6) (slab_real _ _ _ h7) (rowv_real _ _ _ h8)

/-- Layer 1 of the plain program sends real data to real data. -/
theorem layerRef1_real (h : FVec Ideal Cert.ReferenceIdeal.S100000x128 .f32) (a1 : IVec Cert.ReferenceIdeal.S2x1600000 32)
    (a3 : FVec Ideal Cert.ReferenceIdeal.S4x128x128 .f32) (a4 a5 a6 : FVec Ideal Cert.ReferenceIdeal.S4x128 .f32)
    (a7 : FVec Ideal Cert.ReferenceIdeal.S4x128x128 .f32) (a8 : FVec Ideal Cert.ReferenceIdeal.S4x128 .f32)
    (hh : ∀ i, IsReal (h i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) :
    ∀ i, IsReal (layerRef1 h a1 a3 a4 a5 a6 a7 a8 i) := by
  delta layerRef1
  exact layerOps_real _ _ _ _ _ _ _ _ hh (aggOps_real _ _ _ hh) (slab_real _ _ _ h3) (rowv_real _ _ _ h4)
    (rowv_real _ _ _ h5) (rowv_real _ _ _ h6) (slab_real _ _ _ h7) (rowv_real _ _ _ h8)

/-- Layer 2 of the plain program sends real data to real data. -/
theorem layerRef2_real (h : FVec Ideal Cert.ReferenceIdeal.S100000x128 .f32) (a1 : IVec Cert.ReferenceIdeal.S2x1600000 32)
    (a3 : FVec Ideal Cert.ReferenceIdeal.S4x128x128 .f32) (a4 a5 a6 : FVec Ideal Cert.ReferenceIdeal.S4x128 .f32)
    (a7 : FVec Ideal Cert.ReferenceIdeal.S4x128x128 .f32) (a8 : FVec Ideal Cert.ReferenceIdeal.S4x128 .f32)
    (hh : ∀ i, IsReal (h i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) :
    ∀ i, IsReal (layerRef2 h a1 a3 a4 a5 a6 a7 a8 i) := by
  delta layerRef2
  exact layerOps_real _ _ _ _ _ _ _ _ hh (aggOps_real _ _ _ hh) (slab_real _ _ _ h3) (rowv_real _ _ _ h4)
    (rowv_real _ _ _ h5) (rowv_real _ _ _ h6) (slab_real _ _ _ h7) (rowv_real _ _ _ h8)

/-- Layer 3 of the plain program sends real data to real data. -/
theorem layerRef3_real (h : FVec Ideal Cert.ReferenceIdeal.S100000x128 .f32) (a1 : IVec Cert.ReferenceIdeal.S2x1600000 32)
    (a3 : FVec Ideal Cert.ReferenceIdeal.S4x128x128 .f32) (a4 a5 a6 : FVec Ideal Cert.ReferenceIdeal.S4x128 .f32)
    (a7 : FVec Ideal Cert.ReferenceIdeal.S4x128x128 .f32) (a8 : FVec Ideal Cert.ReferenceIdeal.S4x128 .f32)
    (hh : ∀ i, IsReal (h i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) :
    ∀ i, IsReal (layerRef3 h a1 a3 a4 a5 a6 a7 a8 i) := by
  delta layerRef3
  exact layerOps_real _ _ _ _ _ _ _ _ hh (aggOps_real _ _ _ hh) (slab_real _ _ _ h3) (rowv_real _ _ _ h4)
    (rowv_real _ _ _ h5) (rowv_real _ _ _ h6) (slab_real _ _ _ h7) (rowv_real _ _ _ h8)

set_option maxHeartbeats 4000000 in
/-- The host tail: the result buffer from the last layer's output and the three remaining arguments. -/
theorem tail_out (c : Dev nD) (H : FVec Ideal Cert.ReferenceIdeal.S100000x128 .f32)
    (hin : W16 (F := Ideal) m ρ c (Proc.devRef .tc main_v139) = H) :
    W17 (F := Ideal) m ρ c (Proc.devRef .tc main_v154) = tailOps H (m ((c : Thread nD τ).loc main_arg2)) (m ((c : Thread nD τ).loc main_arg9)) (m ((c : Thread nD τ).loc main_arg10)) := by
  show StableHlo.after hostOps8 (W16 m ρ c) (Proc.devRef .tc main_v154) = _
  after_results_simp
  rw [hin, KCarry.W16_arg2 m ρ c, KCarry.W16_arg9 m ρ c, KCarry.W16_arg10 m ρ c]
  rfl

/-- With real float arguments, the tiled program's result buffer holds the plain program's network of the arguments. -/
theorem kernel_result (c : Dev nD)
    (h0 : ∀ i, IsReal ((m ((c : Thread nD τ).loc main_arg0)) i)) (h3 : ∀ i, IsReal ((m ((c : Thread nD τ).loc main_arg3)) i)) (h4 : ∀ i, IsReal ((m ((c : Thread nD τ).loc main_arg4)) i))
    (h5 : ∀ i, IsReal ((m ((c : Thread nD τ).loc main_arg5)) i)) (h6 : ∀ i, IsReal ((m ((c : Thread nD τ).loc main_arg6)) i)) (h7 : ∀ i, IsReal ((m ((c : Thread nD τ).loc main_arg7)) i))
    (h8 : ∀ i, IsReal ((m ((c : Thread nD τ).loc main_arg8)) i)) :
    W17 (F := Ideal) m ρ c (Proc.devRef .tc main_v154)
      = refNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e1 := L0.layer_out m ρ c h0 h3 h4
  have r1 := layerRef0_real (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) h0 h3 h4 h5 h6 h7 h8
  have e2 := L1.layer_out m ρ c _ e1 r1 h3 h4
  have r2 := layerRef1_real _ (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r1 h3 h4 h5 h6 h7 h8
  have e3 := L2.layer_out m ρ c _ e2 r2 h3 h4
  have r3 := layerRef2_real _ (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r2 h3 h4 h5 h6 h7 h8
  have e4 := L3.layer_out m ρ c _ e3 r3 h3 h4
  exact (tail_out m ρ c _ e4).trans rfl

end Cert.KernelIdeal.KChain

end
-- ==== Proof.PreReal.lean ====
/-
  Finiteness out of the precondition.

  The precondition is the conjunction, over the nine floating-point argument arrays, of "every entry x has |x| < +∞",
  each conjunct a reduction by `and` over all axes of the array of comparison words, and the claim assumes that the
  conjunction is the word one. Read back: a conjunction of words is one exactly when both are; a reduction by `and`
  to a single word that is one met the word one at every index; and on the extended reals |x| is the larger of x and
  -x, which is the top element at both infinities and a real below it at a real. So every entry of every
  floating-point argument is a real number.
-/
import proofs.«163505_j89335319757549_1_alg».proof.Defs
import proofs.«163505_j89335319757549_1_alg».proof.Pre_finite_inputs
import proofs.«163505_j89335319757549_1_alg».proof.Proof.Gen.Pre_finite_inputs
import proofs.«163505_j89335319757549_1_alg».proof.Proof.Algebra
import Idealize.ShloMosaic.Lib.ReduceAll
import Idealize.ShloMosaic.Lib.ValueIdx
import Idealize.ShloMosaic.PureOps.Ideal.Laws

noncomputable section

open Idealize.ShloMosaic Idealize.SL.Sem

namespace Cert.PreReal

open Cert.Pre_finite_inputs Cert.Gin

/-- The scalar shape has one index. -/
instance : Subsingleton S_.Idx := ⟨fun a b => funext fun d => d.elim0⟩

/-! ## One entry -/

/-- The word `0x7F800000` denotes the top element of the extended reals. -/
theorem ofBits_inf : Ideal.ofBits .f32 0x7F800000#32 = (⊤ : EReal) := by
  simp [Ideal.ofBits, Ideal.ieee]

/-- An extended real whose absolute value, the larger of itself and its negation, lies strictly below the top element
    is a real: at either infinity that larger one is the top element itself. -/
theorem isReal_of_max_neg_lt_top (x : EReal) (h : max x (-x) < ⊤) : IsReal x := by
  induction x using EReal.rec with
  | bot => simp at h
  | top => simp at h
  | coe r => exact ⟨r, rfl⟩

/-- The comparison word of `|x| < +∞` is one only at a real `x`. -/
theorem isReal_of_cmp (x : Ideal .f32)
    (e : FloatOps.cmpf .olt (FloatOps.hostAbsf x) (FloatOps.ofBits (F := Ideal) .f32 0x7F800000#32) = 1#1) : IsReal x := by
  have e' : Ideal.cmp .olt (max (x : EReal) (-x)) (Ideal.ofBits .f32 0x7F800000#32) = 1#1 := e
  rw [ofBits_inf] at e'
  refine isReal_of_max_neg_lt_top x ?_
  unfold Ideal.cmp at e'
  by_contra hn
  simp [hn] at e'

/-! ## One array -/

/-- One `all` of the precondition, read back: where the conjunction over every entry of `|a| < +∞` is the word one,
    every entry of `a` is a real. -/
theorem all_real {S : Shape} (hb : S_.BroadcastsInDim S (![] : Fin 0 → Fin S.rank)) {axes : List (Fin S.rank)}
    (hr : S.ReducesTo axes S_) (hu : 0 < S_.numel) (a : FVec Ideal S .f32)
    (e : Host.reduce IntOp.andi (cmpf .olt (Host.absf a) (broadcastInDim S ![] hb (constant S_ .f32 0x7F800000#32)))
      (constantI S_ 1 1#1) hr hu ValueIdx.ix0 = 1#1) :
    ∀ i, IsReal (a i) := fun i =>
  isReal_of_cmp (a i) (Host.reduce_andi_all _ _ hr hu _ e i)

/-! ## The nine arrays -/

section
variable [Facts]
variable (a0 : FVec Ideal S100000x128 .f32) (a1 : IVec S2x1600000 32) (a2 : IVec S100000 32)
  (a3 : FVec Ideal S4x128x128 .f32) (a4 a5 a6 : FVec Ideal S4x128 .f32) (a7 : FVec Ideal S4x128x128 .f32)
  (a8 : FVec Ideal S4x128 .f32) (a9 : FVec Ideal S128x2 .f32) (a10 : FVec Ideal S2 .f32)

/-- Where the precondition holds of eleven arrays, every entry of each of the nine floating-point ones is a real (the
    two integer arrays are not constrained). The printed conjunction associates to the left, so the last array's
    conjunct comes off first. -/
theorem real_of_pre (h : Cert.Pre_finite_inputs.fn (F := Ideal) a0 a1 a2 a3 a4 a5 a6 a7 a8 a9 a10 = (fun _ => 1#1)) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) := by
  have h0 := congrFun h ValueIdx.ix0
  dsimp only [Cert.Pre_finite_inputs.fn, fn_part1, fn_part2, andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_real _ _ _ a0 e0, all_real _ _ _ a3 e3, all_real _ _ _ a4 e4, all_real _ _ _ a5 e5, all_real _ _ _ a6 e6,
    all_real _ _ _ a7 e7, all_real _ _ _ a8 e8, all_real _ _ _ a9 e9, all_real _ _ _ a10 e10⟩

end

/-! ## The claim's precondition -/

/-- The same of an initial memory of which the idealized kernel's precondition holds, on every device: every entry of
    each floating-point argument array is a real. -/
theorem real_of_Pre_KernelIdeal [Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i : S100000x128.Idx, IsReal ((m ((c.tc : Thread Cert.KernelIdeal.nD Cert.KernelIdeal.τ).loc Cert.KernelIdeal.main_arg0)) i))
      ∧ (∀ i : S4x128x128.Idx, IsReal ((m ((c.tc : Thread Cert.KernelIdeal.nD Cert.KernelIdeal.τ).loc Cert.KernelIdeal.main_arg3)) i))
      ∧ (∀ i : S4x128.Idx, IsReal ((m ((c.tc : Thread Cert.KernelIdeal.nD Cert.KernelIdeal.τ).loc Cert.KernelIdeal.main_arg4)) i))
      ∧ (∀ i : S4x128.Idx, IsReal ((m ((c.tc : Thread Cert.KernelIdeal.nD Cert.KernelIdeal.τ).loc Cert.KernelIdeal.main_arg5)) i))
      ∧ (∀ i : S4x128.Idx, IsReal ((m ((c.tc : Thread Cert.KernelIdeal.nD Cert.KernelIdeal.τ).loc Cert.KernelIdeal.main_arg6)) i))
      ∧ (∀ i : S4x128x128.Idx, IsReal ((m ((c.tc : Thread Cert.KernelIdeal.nD Cert.KernelIdeal.τ).loc Cert.KernelIdeal.main_arg7)) i))
      ∧ (∀ i : S4x128.Idx, IsReal ((m ((c.tc : Thread Cert.KernelIdeal.nD Cert.KernelIdeal.τ).loc Cert.KernelIdeal.main_arg8)) i))
      ∧ (∀ i : S128x2.Idx, IsReal ((m ((c.tc : Thread Cert.KernelIdeal.nD Cert.KernelIdeal.τ).loc Cert.KernelIdeal.main_arg9)) i))
      ∧ (∀ i : S2.Idx, IsReal ((m ((c.tc : Thread Cert.KernelIdeal.nD Cert.KernelIdeal.τ).loc Cert.KernelIdeal.main_arg10)) i)) :=
  real_of_pre _ _ _ _ _ _ _ _ _ _ _ (hm c)

end Cert.PreReal

end
-- ==== Proof.lean ====
/-
  The certificate: a graph network of four layers (neighbour sum, linear map, batch normalisation over all nodes,
  exponential linear unit, linear map, unit) with mean pooling and a linear head, computed by a program whose dense
  part runs as two tiled passes per layer, against the plain array program.

  * The word-level and the idealized tiled programs run to the end without a fault and leave their arguments alone:
    the generated frames.
  * The plain program does too: its run, written out operation by operation.
  * The idealized tiled program is the tiled program's own text read on the extended reals: nothing to show.
  * On the extended reals, from memories that agree on the arguments and whose float arguments are finite, both
    programs end with the same result: each layer's output is the same function of the previous layer's output
    (column sums tile by tile are column sums; for real entries the mean of squares minus the squared mean is the mean
    of the squared deviations; the two spellings of the unit agree; a layer of real data is real), and the pooling
    and the head are the same operations on both sides.
-/
import proofs.«163505_j89335319757549_1_alg».proof.Defs
import proofs.«163505_j89335319757549_1_alg».proof.Proof.Gen.Kernel
import proofs.«163505_j89335319757549_1_alg».proof.Proof.Gen.Kernel.Frame
import proofs.«163505_j89335319757549_1_alg».proof.Proof.Gen.KernelIdeal
import proofs.«163505_j89335319757549_1_alg».proof.Proof.Gen.KernelIdeal.Frame
import proofs.«163505_j89335319757549_1_alg».proof.Proof.Gen.ReferenceIdeal
import proofs.«163505_j89335319757549_1_alg».proof.Proof.Gen.Pre_finite_inputs
import proofs.«163505_j89335319757549_1_alg».proof.Proof.KNet
import proofs.«163505_j89335319757549_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end with the plain program's network of the (agreeing, finite) arguments in their result
    buffers. -/
theorem algebraic : Cert.algebraic_KernelIdeal_ReferenceIdeal := by
  intro m ρ m' ρ' hpre hagree
  refine ⟨fun c => Cert.KernelIdeal.Gen.W17 (F := Ideal) m ρ c (Proc.devRef .tc Cert.KernelIdeal.main_v154), Cert.KernelIdeal.KRun.run (F := Ideal) m ρ, ?_⟩
  refine (θ_run Cert.ReferenceIdeal.defs _ _).mono (fun r h c => ⟨(h c).1.trans ?_, (h c).2⟩) (Cert.ReferenceIdeal.RefRun.run (F := Ideal) m' ρ')
  obtain ⟨h0, h3, h4, h5, h6, h7, h8, -, -⟩ := Cert.PreReal.real_of_Pre_KernelIdeal m hpre c
  obtain ⟨g0, g1, g2, g3, g4, g5, g6, g7, g8, g9, g10⟩ := hagree c
  refine (Cert.ReferenceIdeal.RefChain.ref_result _).trans (Eq.trans ?_ (Cert.KernelIdeal.KChain.kernel_result m ρ c h0 h3 h4 h5 h6 h7 h8).symm)
  exact congr (congr (congr (congr (congr (congr (congr (congr (congr (congr (congrArg Cert.ReferenceIdeal.RefChain.refNet g0) g1) g2) g3) g4) g5) g6) g7) g8) g9) g10

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
